-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x256 : Shape := ⟨2, ![768, 256]⟩
abbrev S1x1024 : Shape := ⟨2, ![1, 1024]⟩
abbrev S768x768 : Shape := ⟨2, ![768, 768]⟩
abbrev S768x64 : Shape := ⟨2, ![768, 64]⟩
abbrev S768 : Shape := ⟨1, ![768]⟩
abbrev S768x4 : Shape := ⟨2, ![768, 4]⟩
abbrev S1792x256 : Shape := ⟨2, ![1792, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S768x256 : S_.BroadcastsInDim S768x256 (![] : Fin 0 → Fin S768x256.rank)
  reducesTo_S768x256_S_d0_1 : S768x256.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S768x768 : S_.BroadcastsInDim S768x768 (![] : Fin 0 → Fin S768x768.rank)
  reducesTo_S768x768_S_d0_1 : S768x768.ReducesTo [0, 1] S_
  bcast_S_S768x64 : S_.BroadcastsInDim S768x64 (![] : Fin 0 → Fin S768x64.rank)
  reducesTo_S768x64_S_d0_1 : S768x64.ReducesTo [0, 1] S_
  bcast_S_S768x4 : S_.BroadcastsInDim S768x4 (![] : Fin 0 → Fin S768x4.rank)
  reducesTo_S768x4_S_d0_1 : S768x4.ReducesTo [0, 1] S_
  bcast_S_S1792x256 : S_.BroadcastsInDim S1792x256 (![] : Fin 0 → Fin S1792x256.rank)
  reducesTo_S1792x256_S_d0_1 : S1792x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S64x1 .f32) (main_arg20 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg19
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S64x1 .f32) (main_arg16 : FVec F S1 .f32) (main_arg17 : FVec F S256x64 .f32) (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S256x64 .f32 := Host.absf main_arg17
  let main_cst_30 : FVec F S_ .f32 := constant S_ .f32 0x7F800000#32
  let main_v80 : FVec F S256x64 .f32 := broadcastInDim S256x64 ![] bcast_S_S256x64 main_cst_30
  let main_v81 : IVec S256x64 1 := cmpf .olt main_v79 main_v80
  let main_c_31 : IVec S_ 1 := constantI S_ 1 1#1
  let main_v82 : IVec S_ 1 := (fun x v => Host.reduce IntOp.andi x v reducesTo_S256x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S256 .f32) (main_arg13 : FVec F S256x64 .f32) (main_arg14 : FVec F S64 .f32) (main_arg15 : FVec F S64x1 .f32) (main_arg16 : FVec F S1 .f32) (main_arg17 : FVec F S256x64 .f32) (main_arg18 : FVec F S64 .f32) (main_arg19 : FVec F S64x1 .f32) (main_arg20 : FVec F S1 .f32) (main_v48 : IVec S_ 1) (main_v49 : FVec F S1792x256 .f32) (main_v50 : FVec F S1792x256 .f32) : IVec S_ 1 :=
  let main_v51 : IVec S1792x256 1 := cmpf .olt main_v49 main_v50
  let main_c_19 : IVec S_ 1 := constantI S_ 1 1#1
  let main_v52 : IVec S_ 1 := (fun x v => Host.reduce IntOp.andi x v reducesTo_S1792x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x64 .f32 := Host.absf main_arg13
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_v63 main_v67

def fn_part2 {F : FTy → Type} [FloatOps F] (main_arg8 : FVec F S768x4 .f32) (main_arg9 : FVec F S1792x256 .f32) (main_arg10 : FVec F S256 .f32) (main_arg11 : FVec F S1792x256 .f32) (main_arg12 : FVec F S256 .f32) (main_arg13 : FVec F S256x64 .f32) (main_arg14 : FVec F S64 .f32) (main_arg15 : FVec F S64x1 .f32) (main_arg16 : FVec F S1 .f32) (main_arg17 : FVec F S256x64 .f32) (main_arg18 : FVec F S64 .f32) (main_arg19 : FVec F S64x1 .f32) (main_arg20 : FVec F S1 .f32) (main_v33 : IVec S_ 1) : IVec S_ 1 :=
  let main_v34 : FVec F S768x4 .f32 := Host.absf main_arg8
  let main_cst_12 : FVec F S_ .f32 := constant S_ .f32 0x7F800000#32
  let main_v35 : FVec F S768x4 .f32 := broadcastInDim S768x4 ![] bcast_S_S768x4 main_cst_12
  let main_v36 : IVec S768x4 1 := cmpf .olt main_v34 main_v35
  let main_c_13 : IVec S_ 1 := constantI S_ 1 1#1
  let main_v37 : IVec S_ 1 := (fun x v => Host.reduce IntOp.andi x v reducesTo_S768x4_S_d0_1 h_S_) main_v36 main_c_13
  let main_v38 : IVec S_ 1 := andi main_v33 main_v37
  let main_v39 : FVec F S1792x256 .f32 := Host.absf main_arg9
  let main_cst_14 : FVec F S_ .f32 := constant S_ .f32 0x7F800000#32
  let main_v40 : FVec F S1792x256 .f32 := broadcastInDim S1792x256 ![] bcast_S_S1792x256 main_cst_14
  let main_v41 : IVec S1792x256 1 := cmpf .olt main_v39 main_v40
  let main_c_15 : IVec S_ 1 := constantI S_ 1 1#1
  let main_v42 : IVec S_ 1 := (fun x v => Host.reduce IntOp.andi x v reducesTo_S1792x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1792x256 .f32 := Host.absf main_arg11
  let main_cst_18 : FVec F S_ .f32 := constant S_ .f32 0x7F800000#32
  let main_v50 : FVec F S1792x256 .f32 := broadcastInDim S1792x256 ![] bcast_S_S1792x256 main_cst_18
  fn_part3 (F := F) main_arg12 main_arg13 main_arg14 main_arg15 main_arg16 main_arg17 main_arg18 main_arg19 main_arg20 main_v48 main_v49 main_v50

def fn_part1 {F : FTy → Type} [FloatOps F] (main_arg4 : FVec F S768x768 .f32) (main_arg5 : FVec F S768x768 .f32) (main_arg6 : FVec F S768x64 .f32) (main_arg8 : FVec F S768x4 .f32) (main_arg9 : FVec F S1792x256 .f32) (main_arg10 : FVec F S256 .f32) (main_arg11 : FVec F S1792x256 .f32) (main_arg12 : FVec F S256 .f32) (main_arg13 : FVec F S256x64 .f32) (main_arg14 : FVec F S64 .f32) (main_arg15 : FVec F S64x1 .f32) (main_arg16 : FVec F S1 .f32) (main_arg17 : FVec F S256x64 .f32) (main_arg18 : FVec F S64 .f32) (main_arg19 : FVec F S64x1 .f32) (main_arg20 : FVec F S1 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768x64 .f32 := Host.absf main_arg6
  let main_cst_10 : FVec F S_ .f32 := constant S_ .f32 0x7F800000#32
  let main_v30 : FVec F S768x64 .f32 := broadcastInDim S768x64 ![] bcast_S_S768x64 main_cst_10
  let main_v31 : IVec S768x64 1 := cmpf .olt main_v29 main_v30
  let main_c_11 : IVec S_ 1 := constantI S_ 1 1#1
  let main_v32 : IVec S_ 1 := (fun x v => Host.reduce IntOp.andi x v reducesTo_S768x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S768x256 .f32) (main_arg1 : FVec F S768x256 .f32) (main_arg2 : FVec F S1x1024 .f32) (main_arg3 : FVec F S768x768 .f32) (main_arg4 : FVec F S768x768 .f32) (main_arg5 : FVec F S768x768 .f32) (main_arg6 : FVec F S768x64 .f32) (main_arg7 : IVec S768 32) (main_arg8 : FVec F S768x4 .f32) (main_arg9 : FVec F S1792x256 .f32) (main_arg10 : FVec F S256 .f32) (main_arg11 : FVec F S1792x256 .f32) (main_arg12 : FVec F S256 .f32) (main_arg13 : FVec F S256x64 .f32) (main_arg14 : FVec F S64 .f32) (main_arg15 : FVec F S64x1 .f32) (main_arg16 : FVec F S1 .f32) (main_arg17 : FVec F S256x64 .f32) (main_arg18 : FVec F S64 .f32) (main_arg19 : FVec F S64x1 .f32) (main_arg20 : FVec F S1 .f32) : IVec S_ 1 :=
  let main_v0 : FVec F S768x256 .f32 := Host.absf main_arg0
  let main_cst : FVec F S_ .f32 := constant S_ .f32 0x7F800000#32
  let main_v1 : FVec F S768x256 .f32 := broadcastInDim S768x256 ![] bcast_S_S768x256 main_cst
  let main_v2 : IVec S768x256 1 := cmpf .olt main_v0 main_v1
  let main_c : IVec S_ 1 := constantI S_ 1 1#1
  let main_v3 : IVec S_ 1 := (fun x v => Host.reduce IntOp.andi x v reducesTo_S768x256_S_d0_1 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg8 main_arg9 main_arg10 main_arg11 main_arg12 main_arg13 main_arg14 main_arg15 main_arg16 main_arg17 main_arg18 main_arg19 main_arg20 main_v13 main_v16
-- ==== Kernel.lean ====
abbrev S768x256 : Shape := ⟨2, ![768, 256]⟩
abbrev S1x1024 : Shape := ⟨2, ![1, 1024]⟩
abbrev S768x768 : Shape := ⟨2, ![768, 768]⟩
abbrev S768x64 : Shape := ⟨2, ![768, 64]⟩
abbrev S768 : Shape := ⟨1, ![768]⟩
abbrev S768x4 : Shape := ⟨2, ![768, 4]⟩
abbrev S1792x256 : Shape := ⟨2, ![1792, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S768x1 : Shape := ⟨2, ![768, 1]⟩
abbrev S128x768 : Shape := ⟨2, ![128, 768]⟩
abbrev S128x256 : Shape := ⟨2, ![128, 256]⟩
abbrev S128x128 : Shape := ⟨2, ![128, 128]⟩
abbrev S128x128x1 : Shape := ⟨3, ![128, 128, 1]⟩
abbrev S1x128x256 : Shape := ⟨3, ![1, 128, 256]⟩
abbrev S128x128x256 : Shape := ⟨3, ![128, 128, 256]⟩
abbrev S1x768 : Shape := ⟨2, ![1, 768]⟩
abbrev S1024x256 : Shape := ⟨2, ![1024, 256]⟩
abbrev S1x256 : Shape := ⟨2, ![1, 256]⟩
abbrev S256x256 : Shape := ⟨2, ![256, 256]⟩
abbrev S3072 : Shape := ⟨1, ![3072]⟩

abbrev nBuf : Space → Nat
  | .hbm => 55
  | .vmem => 47
  | .smem => 0
  | _ => 0

abbrev bufTy : (tb : Table) → Fin (tcTables nBuf tb) → BufTy
  | .hbm, ⟨0, _⟩ => ⟨S768x256, .f32⟩
  | .hbm, ⟨1, _⟩ => ⟨S768x256, .f32⟩
  | .hbm, ⟨2, _⟩ => ⟨S1x1024, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x64, .f32⟩
  | .hbm, ⟨7, _⟩ => ⟨S768, .i32⟩
  | .hbm, ⟨8, _⟩ => ⟨S768x4, .f32⟩
  | .hbm, ⟨9, _⟩ => ⟨S1792x256, .f32⟩
  | .hbm, ⟨10, _⟩ => ⟨S256, .f32⟩
  | .hbm, ⟨11, _⟩ => ⟨S1792x256, .f32⟩
  | .hbm, ⟨12, _⟩ => ⟨S256, .f32⟩
  | .hbm, ⟨13, _⟩ => ⟨S256x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S256x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S1x64, .f32⟩
  | .hbm, ⟨22, _⟩ => ⟨S1x1, .f32⟩
  | .hbm, ⟨23, _⟩ => ⟨S1x64, .f32⟩
  | .hbm, ⟨24, _⟩ => ⟨S1x1, .f32⟩
  | .hbm, ⟨25, _⟩ => ⟨S768x1, .f32⟩
  | .hbm, ⟨26, _⟩ => ⟨S768x1, .f32⟩
  | .hbm, ⟨27, _⟩ => ⟨S768x256, .f32⟩
  | .hbm, ⟨28, _⟩ => ⟨S768x256, .f32⟩
  | .hbm, ⟨29, _⟩ => ⟨S1x768, .f32⟩
  | .hbm, ⟨30, _⟩ => ⟨S1024x256, .f32⟩
  | .hbm, ⟨31, _⟩ => ⟨S1024x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S1x64, .f32⟩
  | .hbm, ⟨45, _⟩ => ⟨S1x1, .f32⟩
  | .hbm, ⟨46, _⟩ => ⟨S1x64, .f32⟩
  | .hbm, ⟨47, _⟩ => ⟨S1x1, .f32⟩
  | .hbm, ⟨48, _⟩ => ⟨S768x1, .f32⟩
  | .hbm, ⟨49, _⟩ => ⟨S768x1, .f32⟩
  | .hbm, ⟨50, _⟩ => ⟨S768, .f32⟩
  | .hbm, ⟨51, _⟩ => ⟨S768, .f32⟩
  | .hbm, ⟨52, _⟩ => ⟨S768, .f32⟩
  | .hbm, ⟨53, _⟩ => ⟨S768, .f32⟩
  | .hbm, ⟨54, _⟩ => ⟨S3072, .f32⟩
  | .local _ .vmem, ⟨0, _⟩ => ⟨S768x256, .f32⟩
  | .local _ .vmem, ⟨1, _⟩ => ⟨S768x256, .f32⟩
  | .local _ .vmem, ⟨2, _⟩ => ⟨S256x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S256x64, .f32⟩
  | .local _ .vmem, ⟨7, _⟩ => ⟨S1x64, .f32⟩
  | .local _ .vmem, ⟨8, _⟩ => ⟨S64x1, .f32⟩
  | .local _ .vmem, ⟨9, _⟩ => ⟨S1x1, .f32⟩
  | .local _ .vmem, ⟨10, _⟩ => ⟨S768x1, .f32⟩
  | .local _ .vmem, ⟨11, _⟩ => ⟨S768x1, .f32⟩
  | .local _ .vmem, ⟨12, _⟩ => ⟨S128x768, .f32⟩
  | .local _ .vmem, ⟨13, _⟩ => ⟨S128x768, .f32⟩
  | .local _ .vmem, ⟨14, _⟩ => ⟨S768x256, .f32⟩
  | .local _ .vmem, ⟨15, _⟩ => ⟨S128x256, .f32⟩
  | .local _ .vmem, ⟨16, _⟩ => ⟨S128x256, .f32⟩
  | .local _ .vmem, ⟨17, _⟩ => ⟨S128x768, .f32⟩
  | .local _ .vmem, ⟨18, _⟩ => ⟨S128x768, .f32⟩
  | .local _ .vmem, ⟨19, _⟩ => ⟨S768x256, .f32⟩
  | .local _ .vmem, ⟨20, _⟩ => ⟨S128x256, .f32⟩
  | .local _ .vmem, ⟨21, _⟩ => ⟨S128x256, .f32⟩
  | .local _ .vmem, ⟨22, _⟩ => ⟨S768x256, .f32⟩
  | .local _ .vmem, ⟨23, _⟩ => ⟨S768x256, .f32⟩
  | .local _ .vmem, ⟨24, _⟩ => ⟨S768x768, .f32⟩
  | .local _ .vmem, ⟨25, _⟩ => ⟨S1x768, .f32⟩
  | .local _ .vmem, ⟨26, _⟩ => ⟨S768x1, .f32⟩
  | .local _ .vmem, ⟨27, _⟩ => ⟨S768x256, .f32⟩
  | .local _ .vmem, ⟨28, _⟩ => ⟨S768x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S1x256, .f32⟩
  | .local _ .vmem, ⟨37, _⟩ => ⟨S256x64, .f32⟩
  | .local _ .vmem, ⟨38, _⟩ => ⟨S1x64, .f32⟩
  | .local _ .vmem, ⟨39, _⟩ => ⟨S64x1, .f32⟩
  | .local _ .vmem, ⟨40, _⟩ => ⟨S1x1, .f32⟩
  | .local _ .vmem, ⟨41, _⟩ => ⟨S256x64, .f32⟩
  | .local _ .vmem, ⟨42, _⟩ => ⟨S1x64, .f32⟩
  | .local _ .vmem, ⟨43, _⟩ => ⟨S64x1, .f32⟩
  | .local _ .vmem, ⟨44, _⟩ => ⟨S1x1, .f32⟩
  | .local _ .vmem, ⟨45, _⟩ => ⟨S768x1, .f32⟩
  | .local _ .vmem, ⟨46, _⟩ => ⟨S768x1, .f32⟩
  | _, _ => ⟨S768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4_0 : Ref sig .tc := ⟨.hbm, 25, rfl⟩
abbrev main_v4_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg13_0 : Ref sig .tc := ⟨.vmem, 35, rfl⟩
abbrev cc3_stg14_0 : Ref sig .tc := ⟨.vmem, 36, rfl⟩
abbrev cc3_stg15_0 : Ref sig .tc := ⟨.vmem, 37, rfl⟩
abbrev cc3_stg16_0 : Ref sig .tc := ⟨.vmem, 38, rfl⟩
abbrev cc3_stg17_0 : Ref sig .tc := ⟨.vmem, 39, rfl⟩
abbrev cc3_stg18_0 : Ref sig .tc := ⟨.vmem, 40, rfl⟩
abbrev cc3_stg19_0 : Ref sig .tc := ⟨.vmem, 41, rfl⟩
abbrev cc3_stg20_0 : Ref sig .tc := ⟨.vmem, 42, rfl⟩
abbrev cc3_stg21_0 : Ref sig .tc := ⟨.vmem, 43, rfl⟩
abbrev cc3_stg22_0 : Ref sig .tc := ⟨.vmem, 44, rfl⟩
abbrev cc3_stg23_0 : Ref sig .tc := ⟨.vmem, 45, rfl⟩
abbrev cc3_stg24_0 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem10_0 : DmaSem sig := 32
abbrev cc3_sem11_0 : DmaSem sig := 33
abbrev cc3_sem12_0 : DmaSem sig := 34
abbrev cc3_sem13_0 : DmaSem sig := 35
abbrev cc3_sem14_0 : DmaSem sig := 36
abbrev cc3_sem15_0 : DmaSem sig := 37
abbrev cc3_sem16_0 : DmaSem sig := 38
abbrev cc3_sem17_0 : DmaSem sig := 39
abbrev cc3_sem18_0 : DmaSem sig := 40
abbrev cc3_sem19_0 : DmaSem sig := 41
abbrev cc3_sem20_0 : DmaSem sig := 42
abbrev cc3_sem21_0 : DmaSem sig := 43
abbrev cc3_sem22_0 : DmaSem sig := 44
abbrev cc3_sem23_0 : DmaSem sig := 45
abbrev cc3_sem24_0 : DmaSem sig := 46

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![6], ![false]⟩

@[reducible] def k1_t1_loop : Scf.Loop 32 :=
  let c0_i32 : BitVec 32 := 0#32
  let c6_i32 : BitVec 32 := 6#32
  let v1 : BitVec 32 := Scalar.addi c0_i32 c6_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c128_i32 : BitVec 32 := 128#32
  let v5 : BitVec 32 := Scalar.muli arg4 c128_i32
  v5
def k1_off1 (k1_t1 : Fin k1_t1_loop.trips) : Fin 2 → Nat :=
  let c0_2 : Index := 0#32
  let c0_i32 : BitVec 32 := 0#32
  let c1_i32 : BitVec 32 := 1#32
  let arg4 : BitVec 32 := Scf.iv c0_i32 c1_i32 k1_t1
  let c128_i32 : BitVec 32 := 128#32
  let v5 : BitVec 32 := Scalar.muli arg4 c128_i32
  let v6 : BitVec 32 := v5
  let v7 : Index := Scalar.indexCast v6
  ![0, v7.toNat]
def k1_off2 (k1_t1 : Fin k1_t1_loop.trips) : Fin 2 → Nat :=
  let c0_i32 : BitVec 32 := 0#32
  let c1_i32 : BitVec 32 := 1#32
  let arg4 : BitVec 32 := Scf.iv c0_i32 c1_i32 k1_t1
  let c128_i32 : BitVec 32 := 128#32
  let v5 : BitVec 32 := Scalar.muli arg4 c128_i32
  let v6 : BitVec 32 := v5
  let v10 : Index := Scalar.indexCast v6
  let c0_3 : Index := 0#32
  ![v10.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![6], ![false]⟩

@[reducible] def k2_t1_loop : Scf.Loop 32 :=
  let c0_i32 : BitVec 32 := 0#32
  let c6_i32 : BitVec 32 := 6#32
  let v1 : BitVec 32 := Scalar.addi c0_i32 c6_i32
  let c1_i32 : BitVec 32 := 1#32
  ⟨c0_i32, v1, c1_i32⟩
def k2_mult1 (k2_t1 : Fin k2_t1_loop.trips) : BitVec 32 :=
  let c0_i32 : BitVec 32 := 0#32
  let c1_i32 : BitVec 32 := 1#32
  let arg4 : BitVec 32 := Scf.iv c0_i32 c1_i32 k2_t1
  let c128_i32 : BitVec 32 := 128#32
  let v5 : BitVec 32 := Scalar.muli arg4 c128_i32
  v5
def k2_off1 (k2_t1 : Fin k2_t1_loop.trips) : Fin 2 → Nat :=
  let c0_2 : Index := 0#32
  let c0_i32 : BitVec 32 := 0#32
  let c1_i32 : BitVec 32 := 1#32
  let arg4 : BitVec 32 := Scf.iv c0_i32 c1_i32 k2_t1
  let c128_i32 : BitVec 32 := 128#32
  let v5 : BitVec 32 := Scalar.muli arg4 c128_i32
  let v6 : BitVec 32 := v5
  let v7 : Index := Scalar.indexCast v6
  ![0, v7.toNat]
def k2_off2 (k2_t1 : Fin k2_t1_loop.trips) : Fin 2 → Nat :=
  let c0_i32 : BitVec 32 := 0#32
  let c1_i32 : BitVec 32 := 1#32
  let arg4 : BitVec 32 := Scf.iv c0_i32 c1_i32 k2_t1
  let c128_i32 : BitVec 32 := 128#32
  let v5 : BitVec 32 := Scalar.muli arg4 c128_i32
  let v6 : BitVec 32 := v5
  let v10 : Index := Scalar.indexCast v6
  let c0_3 : Index := 0#32
  ![v10.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_22 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_23 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_24 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S768x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S768x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S768x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S768x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S768x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S768x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S256x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S256x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S256x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x256 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S256x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x64 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S64x1 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x1 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S256x64 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 1 → Memref sig .tc .vmem S1x64 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false]

abbrev stage3_21 : Fin 1 → Memref sig .tc .vmem S64x1 .f32 := fun | 0 => Memref.whole cc3_stg21_0 | ⟨_ + 1, h⟩ => absurd h (Nat.not_lt.2 (Nat.le_add_left _ _))
abbrev sem3_21 : Fin 1 → DmaSem sig := fun | 0 => cc3_sem21_0 | ⟨_ + 1, h⟩ => absurd h (Nat.not_lt.2 (Nat.le_add_left _ _))
abbrev reads3_21 : Fin grid3.rank → Bool := ![false]

abbrev stage3_22 : Fin 1 → Memref sig .tc .vmem S1x1 .f32 := fun | 0 => Memref.whole cc3_stg22_0 | ⟨_ + 1, h⟩ => absurd h (Nat.not_lt.2 (Nat.le_add_left _ _))
abbrev sem3_22 : Fin 1 → DmaSem sig := fun | 0 => cc3_sem22_0 | ⟨_ + 1, h⟩ => absurd h (Nat.not_lt.2 (Nat.le_add_left _ _))
abbrev reads3_22 : Fin grid3.rank → Bool := ![false]

abbrev stage3_23 : Fin 1 → Memref sig .tc .vmem S768x1 .f32 := fun | 0 => Memref.whole cc3_stg23_0 | ⟨_ + 1, h⟩ => absurd h (Nat.not_lt.2 (Nat.le_add_left _ _))
abbrev sem3_23 : Fin 1 → DmaSem sig := fun | 0 => cc3_sem23_0 | ⟨_ + 1, h⟩ => absurd h (Nat.not_lt.2 (Nat.le_add_left _ _))
abbrev reads3_23 : Fin grid3.rank → Bool := ![false]

abbrev stage3_24 : Fin 1 → Memref sig .tc .vmem S768x1 .f32 := fun | 0 => Memref.whole cc3_stg24_0 | ⟨_ + 1, h⟩ => absurd h (Nat.not_lt.2 (Nat.le_add_left _ _))
abbrev sem3_24 : Fin 1 → DmaSem sig := fun | 0 => cc3_sem24_0 | ⟨_ + 1, h⟩ => absurd h (Nat.not_lt.2 (Nat.le_add_left _ _))
abbrev reads3_24 : Fin grid3.rank → Bool := ![false]

class Facts₀ : Prop where
  shapeCasts_S64_S1x64 : S64.ShapeCasts S1x64
  shapeCasts_S1_S1x1 : S1.ShapeCasts S1x1
  inb_S768x256_S768x256_0_0 : ∀ a, (![0, 0] : Fin 2 → Nat) a + S768x256.size a ≤ S768x256.size a
  h_S768x256 : 0 < S768x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  broadcasts_S1x64_S768x64 : S1x64.Broadcasts S768x64
  broadcasts_S1x1_S768x1 : S1x1.Broadcasts S768x1
  inb_S768x1_S768x1_0_0 : ∀ a, (![0, 0] : Fin 2 → Nat) a + S768x1.size a ≤ S768x1.size a
  h_S768x1 : 0 < S768x1.numel
  h_S128x128 : 0 < S128x128.numel
  h_S128x256 : 0 < S128x256.numel
  shapeCasts_S128x128_S128x128x1 : S128x128.ShapeCasts S128x128x1
  shapeCasts_S128x256_S1x128x256 : S128x256.ShapeCasts S1x128x256
  broadcasts_S128x128x1_S128x128x256 : S128x128x1.Broadcasts S128x128x256
  broadcasts_S1x128x256_S128x128x256 : S1x128x256.Broadcasts S128x128x256
  reduces_S128x128x256_S128x256 : S128x128x256.Reduces [1] S128x256
  inb_S128x256_S128x256_0_0 : ∀ a, (![0, 0] : Fin 2 → Nat) a + S128x256.size a ≤ S128x256.size a
  shapeCasts_S768x1_S1x768 : S768x1.ShapeCasts S1x768
  slices_S1792x256_S1024x256_768_0 : S1792x256.Slices ![768, 0] S1024x256
  shapeCasts_S256_S1x256 : S256.ShapeCasts S1x256
  slices_S1792x256_S256x256_0_0 : S1792x256.Slices ![0, 0] S256x256
  slices_S1792x256_S256x256_256_0 : S1792x256.Slices ![256, 0] S256x256
  slices_S1792x256_S256x256_512_0 : S1792x256.Slices ![512, 0] S256x256
  inb_S1x768_S1x768_0_0 : ∀ a, (![0, 0] : Fin 2 → Nat) a + S1x768.size a ≤ S1x768.size a
  h_S1x768 : 0 < S1x768.numel
  shapeCasts_S1x768_S1x768 : S1x768.ShapeCasts S1x768
  shapeCasts_S768x1_S768x1 : S768x1.ShapeCasts S768x1
  broadcasts_S768x1_S768x768 : S768x1.Broadcasts S768x768
  broadcasts_S1x768_S768x768 : S1x768.Broadcasts S768x768
  inb_S768x768_S768x768_0_0 : ∀ a, (![0, 0] : Fin 2 → Nat) a + S768x768.size a ≤ S768x768.size a
  h_S768x768 : 0 < S768x768.numel
  broadcasts_S768x1_S768x256 : S768x1.Broadcasts S768x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S768x256 : S1x256.Broadcasts S768x256
  reduces_S768x768_S768 : S768x768.Reduces [1] S768
  shapeCasts_S768_S768x1 : S768.ShapeCasts S768x1
  shapeCasts_S768x1_S768 : S768x1.ShapeCasts S768
  concatenates_S768_S768_S768_S768_S3072_d0 : Shape.Concatenates [S768, S768, S768, S768] S3072 0
  dot_S768x256_S256x64_S768x64_1_0_0_1_n_n_wf : DotDims.WF S768x256 S256x64 S768x64 [1] [0] [0] [1] [] []
  dot_S768x64_S64x1_S768x1_1_0_0_1_n_n_wf : DotDims.WF S768x64 S64x1 S768x1 [1] [0] [0] [1] [] []
  dot_S1x1024_S1024x256_S1x256_1_0_0_1_n_n_wf : DotDims.WF S1x1024 S1024x256 S1x256 [1] [0] [0] [1] [] []
  dot_S768x768_S768x256_S768x256_0_0_1_1_n_n_wf : DotDims.WF S768x768 S768x256 S768x256 [0] [0] [1] [1] [] []
  dot_S768x768_S768x1_S768x1_0_0_1_1_n_n_wf : DotDims.WF S768x768 S768x1 S768x1 [0] [0] [1] [1] [] []
  dot_S768x256_S256x256_S768x256_1_0_0_1_n_n_wf : DotDims.WF S768x256 S256x256 S768x256 [1] [0] [0] [1] [] []
  dot_S768x768_S768x256_S768x256_1_0_0_1_n_n_wf : DotDims.WF S768x768 S768x256 S768x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x256.size a ≤ S768x256.size a
  hwx0_0 : ∀ i : grid0.Coords, EltTy.bits .f32 = 32 ∨ (Rect.block (s := S768x256) S768x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x1.size a ≤ S768x1.size a
  hwx0_10 : ∀ i : grid0.Coords, EltTy.bits .f32 = 32 ∨ (Rect.block (s := S768x1) S768x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768x1.size a ≤ S768x1.size a
  hwx0_11 : ∀ i : grid0.Coords, EltTy.bits .f32 = 32 ∨ (Rect.block (s := S768x1) S768x1.size (cc0_transform_11 i) (hinb0_11 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S128x128.size a ≤ S128x768.size a
  k1_off2_inb : ∀ k1_t1 : Fin k1_t1_loop.trips, ∀ a, (k1_off2 k1_t1) a + S128x256.size a ≤ S768x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x768.size a ≤ S768x768.size a
  hwx1_0 : ∀ i : grid1.Coords, EltTy.bits .f32 = 32 ∨ (Rect.block (s := S768x768) S128x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x256.size a ≤ S768x256.size a
  hwx1_1 : ∀ i : grid1.Coords, EltTy.bits .f32 = 32 ∨ (Rect.block (s := S768x256) S768x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S768x256.size a
  hwx1_2 : ∀ i : grid1.Coords, EltTy.bits .f32 = 32 ∨ (Rect.block (s := S768x256) S128x256.size (cc1_transform_2 i) (hinb1_2 i)).WholeWords (EltTy.packing .f32)
  hrank2 : 0 < grid2.rank
  k2_t1_ok : k2_t1_loop.OK
  k2_mult1_dvd : ∀ k2_t1 : Fin k2_t1_loop.trips, 128 ∣ (k2_mult1 k2_t1).toNat
  k2_off1_inb : ∀ k2_t1 : Fin k2_t1_loop.trips, ∀ a, (k2_off1 k2_t1) a + S128x128.size a ≤ S128x768.size a
  k2_off2_inb : ∀ k2_t1 : Fin k2_t1_loop.trips, ∀ a, (k2_off2 k2_t1) a + S128x256.size a ≤ S768x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x768.size a ≤ S768x768.size a
  hwx2_0 : ∀ i : grid2.Coords, EltTy.bits .f32 = 32 ∨ (Rect.block (s := S768x768) S128x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x256.size a ≤ S768x256.size a
  hwx2_1 : ∀ i : grid2.Coords, EltTy.bits .f32 = 32 ∨ (Rect.block (s := S768x256) S768x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S768x256.size a
  hwx2_2 : ∀ i : grid2.Coords, EltTy.bits .f32 = 32 ∨ (Rect.block (s := S768x256) S128x256.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S768x256.size a ≤ S768x256.size a
  hwx3_0 : ∀ i : grid3.Coords, EltTy.bits .f32 = 32 ∨ (Rect.block (s := S768x256) S768x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x256.size a ≤ S768x256.size a
  hwx3_1 : ∀ i : grid3.Coords, EltTy.bits .f32 = 32 ∨ (Rect.block (s := S768x256) S768x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S768x768.size a ≤ S768x768.size a
  hwx3_2 : ∀ i : grid3.Coords, EltTy.bits .f32 = 32 ∨ (Rect.block (s := S768x768) S768x768.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x768.size a ≤ S1x768.size a
  hwx3_3 : ∀ i : grid3.Coords, EltTy.bits .f32 = 32 ∨ (Rect.block (s := S1x768) S1x768.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S768x1.size a ≤ S768x1.size a
  hwx3_4 : ∀ i : grid3.Coords, EltTy.bits .f32 = 32 ∨ (Rect.block (s := S768x1) S768x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S768x256.size a ≤ S768x256.size a
  hwx3_5 : ∀ i : grid3.Coords, EltTy.bits .f32 = 32 ∨ (Rect.block (s := S768x256) S768x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S768x256.size a ≤ S768x256.size a
  hwx3_6 : ∀ i : grid3.Coords, EltTy.bits .f32 = 32 ∨ (Rect.block (s := S768x256) S768x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S256x256.size a
  hwx3_8 : ∀ i : grid3.Coords, EltTy.bits .f32 = 32 ∨ (Rect.block (s := S256x256) S256x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x256.size a ≤ S256x256.size a
  hwx3_9 : ∀ i : grid3.Coords, EltTy.bits .f32 = 32 ∨ (Rect.block (s := S256x256) S256x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S256x256.size a ≤ S256x256.size a
  hwx3_11 : ∀ i : grid3.Coords, EltTy.bits .f32 = 32 ∨ (Rect.block (s := S256x256) S256x256.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S256x256.size a ≤ S256x256.size a
  hwx3_12 : ∀ i : grid3.Coords, EltTy.bits .f32 = 32 ∨ (Rect.block (s := S256x256) S256x256.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S256x256.size a ≤ S256x256.size a
  hwx3_13 : ∀ i : grid3.Coords, EltTy.bits .f32 = 32 ∨ (Rect.block (s := S256x256) S256x256.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x256.size a ≤ S1x256.size a
  hwx3_14 : ∀ i : grid3.Coords, EltTy.bits .f32 = 32 ∨ (Rect.block (s := S1x256) S1x256.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S256x64.size a ≤ S256x64.size a
  hwx3_15 : ∀ i : grid3.Coords, EltTy.bits .f32 = 32 ∨ (Rect.block (s := S256x64) S256x64.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x64.size a ≤ S1x64.size a
  hwx3_16 : ∀ i : grid3.Coords, EltTy.bits .f32 = 32 ∨ (Rect.block (s := S1x64) S1x64.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S64x1.size a ≤ S64x1.size a
  hwx3_17 : ∀ i : grid3.Coords, EltTy.bits .f32 = 32 ∨ (Rect.block (s := S64x1) S64x1.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S1x1.size a ≤ S1x1.size a
  hwx3_18 : ∀ i : grid3.Coords, EltTy.bits .f32 = 32 ∨ (Rect.block (s := S1x1) S1x1.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S256x64.size a ≤ S256x64.size a
  hwx3_19 : ∀ i : grid3.Coords, EltTy.bits .f32 = 32 ∨ (Rect.block (s := S256x64) S256x64.size (cc3_transform_19 i) (hinb3_19 i)).WholeWords (EltTy.packing .f32)
  hstage3_20 : ∀ j, (stage3_20 j).IsWhole
  nbuf3_20 : grid3.bufCount reads3_20 true = 1
  hreads3_20 : ∀ i i' : grid3.Coords, (∀ a, reads3_20 a = true → i a = i' a) → cc3_transform_20 i = cc3_transform_20 i'
  hinb3_20 : ∀ (i : grid3.Coords) a, (cc3_transform_20 i a + 1) * S1x64.size a ≤ S1x64.size a
  hwx3_20 : ∀ i : grid3.Coords, EltTy.bits .f32 = 32 ∨ (Rect.block (s := S1x64) S1x64.size (cc3_transform_20 i) (hinb3_20 i)).WholeWords (EltTy.packing .f32)
  hstage3_21 : ∀ j, (stage3_21 j).IsWhole
  nbuf3_21 : grid3.bufCount reads3_21 true = 1
  hreads3_21 : ∀ i i' : grid3.Coords, (∀ a, reads3_21 a = true → i a = i' a) → cc3_transform_21 i = cc3_transform_21 i'
  hinb3_21 : ∀ (i : grid3.Coords) a, (cc3_transform_21 i a + 1) * S64x1.size a ≤ S64x1.size a
  hwx3_21 : ∀ i : grid3.Coords, EltTy.bits .f32 = 32 ∨ (Rect.block (s := S64x1) S64x1.size (cc3_transform_21 i) (hinb3_21 i)).WholeWords (EltTy.packing .f32)
  hstage3_22 : ∀ j, (stage3_22 j).IsWhole
  nbuf3_22 : grid3.bufCount reads3_22 true = 1
  hreads3_22 : ∀ i i' : grid3.Coords, (∀ a, reads3_22 a = true → i a = i' a) → cc3_transform_22 i = cc3_transform_22 i'
  hinb3_22 : ∀ (i : grid3.Coords) a, (cc3_transform_22 i a + 1) * S1x1.size a ≤ S1x1.size a
  hwx3_22 : ∀ i : grid3.Coords, EltTy.bits .f32 = 32 ∨ (Rect.block (s := S1x1) S1x1.size (cc3_transform_22 i) (hinb3_22 i)).WholeWords (EltTy.packing .f32)
  hstage3_23 : ∀ j, (stage3_23 j).IsWhole
  nbuf3_23 : grid3.bufCount reads3_23 true = 1
  hreads3_23 : ∀ i i' : grid3.Coords, (∀ a, reads3_23 a = true → i a = i' a) → cc3_transform_23 i = cc3_transform_23 i'
  hinb3_23 : ∀ (i : grid3.Coords) a, (cc3_transform_23 i a + 1) * S768x1.size a ≤ S768x1.size a
  hwx3_23 : ∀ i : grid3.Coords, EltTy.bits .f32 = 32 ∨ (Rect.block (s := S768x1) S768x1.size (cc3_transform_23 i) (hinb3_23 i)).WholeWords (EltTy.packing .f32)
  hstage3_24 : ∀ j, (stage3_24 j).IsWhole
  nbuf3_24 : grid3.bufCount reads3_24 true = 1
  hreads3_24 : ∀ i i' : grid3.Coords, (∀ a, reads3_24 a = true → i a = i' a) → cc3_transform_24 i = cc3_transform_24 i'
  hinb3_24 : ∀ (i : grid3.Coords) a, (cc3_transform_24 i a + 1) * S768x1.size a ≤ S768x1.size a
  hwx3_24 : ∀ i : grid3.Coords, EltTy.bits .f32 = 32 ∨ (Rect.block (s := S768x1) S768x1.size (cc3_transform_24 i) (hinb3_24 i)).WholeWords (EltTy.packing .f32)

variable [Facts₀]

def dot_S768x256_S256x64_S768x64_1_0_0_1_n_n : DotDims S768x256 S256x64 S768x64 where
  lhsContracting := [1]
  rhsContracting := [0]
  lhsNonContracting := [0]
  rhsNonContracting := [1]
  lhsBatch := []
  rhsBatch := []
  wf := dot_S768x256_S256x64_S768x64_1_0_0_1_n_n_wf
def dot_S768x64_S64x1_S768x1_1_0_0_1_n_n : DotDims S768x64 S64x1 S768x1 where
  lhsContracting := [1]
  rhsContracting := [0]
  lhsNonContracting := [0]
  rhsNonContracting := [1]
  lhsBatch := []
  rhsBatch := []
  wf := dot_S768x64_S64x1_S768x1_1_0_0_1_n_n_wf
def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf
def dot_S768x768_S768x256_S768x256_0_0_1_1_n_n : DotDims S768x768 S768x256 S768x256 where
  lhsContracting := [0]
  rhsContracting := [0]
  lhsNonContracting := [1]
  rhsNonContracting := [1]
  lhsBatch := []
  rhsBatch := []
  wf := dot_S768x768_S768x256_S768x256_0_0_1_1_n_n_wf
def dot_S768x768_S768x1_S768x1_0_0_1_1_n_n : DotDims S768x768 S768x1 S768x1 where
  lhsContracting := [0]
  rhsContracting := [0]
  lhsNonContracting := [1]
  rhsNonContracting := [1]
  lhsBatch := []
  rhsBatch := []
  wf := dot_S768x768_S768x1_S768x1_0_0_1_1_n_n_wf
def dot_S768x256_S256x256_S768x256_1_0_0_1_n_n : DotDims S768x256 S256x256 S768x256 where
  lhsContracting := [1]
  rhsContracting := [0]
  lhsNonContracting := [0]
  rhsNonContracting := [1]
  lhsBatch := []
  rhsBatch := []
  wf := dot_S768x256_S256x256_S768x256_1_0_0_1_n_n_wf
def dot_S768x768_S768x256_S768x256_1_0_0_1_n_n : DotDims S768x768 S768x256 S768x256 where
  lhsContracting := [1]
  rhsContracting := [0]
  lhsNonContracting := [0]
  rhsNonContracting := [1]
  lhsBatch := []
  rhsBatch := []
  wf := dot_S768x768_S768x256_S768x256_1_0_0_1_n_n_wf

abbrev win0_0 : Pipeline.Window sig grid0 :=
  Pipeline.Window.ofSpec (Memref.whole main_arg0) S768x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg13) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg15) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg17) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg19) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S768x1.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S768x1.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg4) S128x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S768x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg5) S128x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S768x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S128x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S768x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S768x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S768x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4_1) S768x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S768x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6) S768x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v16) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v17) S256x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v18) S256x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v12) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v19) S256x256.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v20) S256x256.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v21) S256x256.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v15) S1x256.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_arg13) S256x64.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v22) S1x64.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_arg15) S64x1.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v23) S1x1.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_arg17) S256x64.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v24) S1x64.size cc3_transform_20 reads3_20 false true 1 stage3_20 sem3_20
    hrank3 hreads3_20 hinb3_20 nbuf3_20 (Memref.isWhole_whole _) hwx3_20 hstage3_20

abbrev win3_21 : Pipeline.Window sig grid3 :=
  Pipeline.Window.ofSpec (Memref.whole main_arg19) S64x1.size cc3_transform_21 reads3_21 false true 1 stage3_21 sem3_21
    hrank3 hreads3_21 hinb3_21 nbuf3_21 (Memref.isWhole_whole _) hwx3_21 hstage3_21

abbrev win3_22 : Pipeline.Window sig grid3 :=
  Pipeline.Window.ofSpec (Memref.whole main_v25) S1x1.size cc3_transform_22 reads3_22 false true 1 stage3_22 sem3_22
    hrank3 hreads3_22 hinb3_22 nbuf3_22 (Memref.isWhole_whole _) hwx3_22 hstage3_22

abbrev win3_23 : Pipeline.Window sig grid3 :=
  Pipeline.Window.ofSpec (Memref.whole main_v26_0) S768x1.size cc3_transform_23 reads3_23 true true 1 stage3_23 sem3_23
    hrank3 hreads3_23 hinb3_23 nbuf3_23 (Memref.isWhole_whole _) hwx3_23 hstage3_23

abbrev win3_24 : Pipeline.Window sig grid3 :=
  Pipeline.Window.ofSpec (Memref.whole main_v26_1) S768x1.size cc3_transform_24 reads3_24 true true 1 stage3_24 sem3_24
    hrank3 hreads3_24 hinb3_24 nbuf3_24 (Memref.isWhole_whole _) hwx3_24 hstage3_24

abbrev win3 : Fin 25 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | 22 => win3_22 | 23 => win3_23 | 24 => win3_24 | ⟨_ + 25, h⟩ => absurd h (Nat.not_lt.2 (Nat.le_add_left _ _))
abbrev spec3 : Fin 25 → Pipeline.WinSpec sig grid3.rank := fun w => (win3 w).toWinSpec

class Facts : Prop extends Facts₀ where

variable [Facts]
-- ==== ReferenceIdeal.lean ====
abbrev S768x256 : Shape := ⟨2, ![768, 256]⟩
abbrev S1x1024 : Shape := ⟨2, ![1, 1024]⟩
abbrev S768x768 : Shape := ⟨2, ![768, 768]⟩
abbrev S768x64 : Shape := ⟨2, ![768, 64]⟩
abbrev S768 : Shape := ⟨1, ![768]⟩
abbrev S768x4 : Shape := ⟨2, ![768, 4]⟩
abbrev S1792x256 : Shape := ⟨2, ![1792, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S_ : Shape := ⟨0, ![]⟩
abbrev S768x1 : Shape := ⟨2, ![768, 1]⟩
abbrev S1x1 : Shape := ⟨2, ![1, 1]⟩
abbrev S1x768 : Shape := ⟨2, ![1, 768]⟩
abbrev S768x768x1 : Shape := ⟨3, ![768, 768, 1]⟩
abbrev S1x768x256 : Shape := ⟨3, ![1, 768, 256]⟩
abbrev S768x768x256 : Shape := ⟨3, ![768, 768, 256]⟩
abbrev S768x1024 : Shape := ⟨2, ![768, 1024]⟩
abbrev S768x1792 : Shape := ⟨2, ![768, 1792]⟩
abbrev S1x256 : Shape := ⟨2, ![1, 256]⟩
abbrev S3072 : Shape := ⟨1, ![3072]⟩

abbrev nBuf : Space → Nat
  | .hbm => 159
  | .vmem => 0
  | .smem => 0
  | _ => 0

abbrev hbmTy0_0 (i : Nat) : BufTy := match i % 128 with
  | 0 => ⟨S768x256, .f32⟩
  | 1 => ⟨S768x256, .f32⟩
  | 2 => ⟨S1x1024, .f32⟩
  | 3 => ⟨S768x768, .f32⟩
  | 4 => ⟨S768x768, .f32⟩
  | 5 => ⟨S768x768, .f32⟩
  | 6 => ⟨S768x64, .f32⟩
  | 7 => ⟨S768, .i32⟩
  | 8 => ⟨S768x4, .f32⟩
  | 9 => ⟨S1792x256, .f32⟩
  | 10 => ⟨S256, .f32⟩
  | 11 => ⟨S1792x256, .f32⟩
  | 12 => ⟨S256, .f32⟩
  | 13 => ⟨S256x64, .f32⟩
  | 14 => ⟨S64, .f32⟩
  | 15 => ⟨S64x1, .f32⟩
  | 16 => ⟨S1, .f32⟩
  | 17 => ⟨S256x64, .f32⟩
  | 18 => ⟨S64, .f32⟩
  | 19 => ⟨S64x1, .f32⟩
  | 20 => ⟨S1, .f32⟩
  | 21 => ⟨S768x64, .f32⟩
  | 22 => ⟨S1x64, .f32⟩
  | 23 => ⟨S768x64, .f32⟩
  | 24 => ⟨S768x64, .f32⟩
  | 25 => ⟨S_, .f32⟩
  | 26 => ⟨S768x64, .f32⟩
  | 27 => ⟨S768x64, .f32⟩
  | 28 => ⟨S768x1, .f32⟩
  | 29 => ⟨S1x1, .f32⟩
  | 30 => ⟨S768x1, .f32⟩
  | 31 => ⟨S768x1, .f32⟩
  | 32 => ⟨S768x1, .f32⟩
  | 33 => ⟨S768x1, .f32⟩
  | 34 => ⟨S_, .f32⟩
  | 35 => ⟨S768x1, .f32⟩
  | 36 => ⟨S768x1, .f32⟩
  | 37 => ⟨S_, .f32⟩
  | 38 => ⟨S768x1, .f32⟩
  | 39 => ⟨S768x1, .f32⟩
  | 40 => ⟨S768, .f32⟩
  | 41 => ⟨S768x64, .f32⟩
  | 42 => ⟨S1x64, .f32⟩
  | 43 => ⟨S768x64, .f32⟩
  | 44 => ⟨S768x64, .f32⟩
  | 45 => ⟨S_, .f32⟩
  | 46 => ⟨S768x64, .f32⟩
  | 47 => ⟨S768x64, .f32⟩
  | 48 => ⟨S768x1, .f32⟩
  | 49 => ⟨S1x1, .f32⟩
  | 50 => ⟨S768x1, .f32⟩
  | 51 => ⟨S768x1, .f32⟩
  | 52 => ⟨S768x1, .f32⟩
  | 53 => ⟨S768x1, .f32⟩
  | 54 => ⟨S_, .f32⟩
  | 55 => ⟨S768x1, .f32⟩
  | 56 => ⟨S768x1, .f32⟩
  | 57 => ⟨S_, .f32⟩
  | 58 => ⟨S768x1, .f32⟩
  | 59 => ⟨S768x1, .f32⟩
  | 60 => ⟨S768, .f32⟩
  | 61 => ⟨S768x1, .f32⟩
  | 62 => ⟨S1x768, .f32⟩
  | 63 => ⟨S768x768, .f32⟩
  | 64 => ⟨S768x768, .f32⟩
  | 65 => ⟨S768x768, .f32⟩
  | 66 => ⟨S768x768, .f32⟩
  | 67 => ⟨S768x768, .f32⟩
  | 68 => ⟨S768x256, .f32⟩
  | 69 => ⟨S_, .f32⟩
  | 70 => ⟨S768, .f32⟩
  | 71 => ⟨S_, .f32⟩
  | 72 => ⟨S768, .f32⟩
  | 73 => ⟨S768, .f32⟩
  | 74 => ⟨S768x1, .f32⟩
  | 75 => ⟨S768x256, .f32⟩
  | 76 => ⟨S768x256, .f32⟩
  | 77 => ⟨S768x256, .f32⟩
  | 78 => ⟨S_, .f32⟩
  | 79 => ⟨S768, .f32⟩
  | 80 => ⟨S_, .f32⟩
  | 81 => ⟨S768, .f32⟩
  | 82 => ⟨S768, .f32⟩
  | 83 => ⟨S768x1, .f32⟩
  | 84 => ⟨S768x256, .f32⟩
  | 85 => ⟨S768x256, .f32⟩
  | 86 => ⟨S768x768x1, .f32⟩
  | 87 => ⟨S1x768x256, .f32⟩
  | 88 => ⟨S768x768x256, .f32⟩
  | 89 => ⟨S768x768x256, .f32⟩
  | 90 => ⟨S768x768x256, .f32⟩
  | 91 => ⟨S_, .f32⟩
  | 92 => ⟨S768x256, .f32⟩
  | 93 => ⟨S768x768x1, .f32⟩
  | 94 => ⟨S1x768x256, .f32⟩
  | 95 => ⟨S768x768x256, .f32⟩
  | 96 => ⟨S768x768x256, .f32⟩
  | 97 => ⟨S768x768x256, .f32⟩
  | 98 => ⟨S_, .f32⟩
  | 99 => ⟨S768x256, .f32⟩
  | 100 => ⟨S768x1024, .f32⟩
  | 101 => ⟨S768x1024, .f32⟩
  | 102 => ⟨S768x1792, .f32⟩
  | 103 => ⟨S768x256, .f32⟩
  | 104 => ⟨S1x256, .f32⟩
  | 105 => ⟨S768x256, .f32⟩
  | 106 => ⟨S768x256, .f32⟩
  | 107 => ⟨S_, .f32⟩
  | 108 => ⟨S768x256, .f32⟩
  | 109 => ⟨S768x256, .f32⟩
  | 110 => ⟨S768x1792, .f32⟩
  | 111 => ⟨S768x256, .f32⟩
  | 112 => ⟨S1x256, .f32⟩
  | 113 => ⟨S768x256, .f32⟩
  | 114 => ⟨S768x256, .f32⟩
  | 115 => ⟨S_, .f32⟩
  | 116 => ⟨S768x256, .f32⟩
  | 117 => ⟨S768x256, .f32⟩
  | 118 => ⟨S768x64, .f32⟩
  | 119 => ⟨S1x64, .f32⟩
  | 120 => ⟨S768x64, .f32⟩
  | 121 => ⟨S768x64, .f32⟩
  | 122 => ⟨S_, .f32⟩
  | 123 => ⟨S768x64, .f32⟩
  | 124 => ⟨S768x64, .f32⟩
  | 125 => ⟨S768x1, .f32⟩
  | 126 => ⟨S1x1, .f32⟩
  | 127 => ⟨S768x1, .f32⟩
  | _ => ⟨S768x256, .f32⟩

abbrev hbmTy0_1 (i : Nat) : BufTy := match i % 128 with
  | 0 => ⟨S768x1, .f32⟩
  | 1 => ⟨S768x1, .f32⟩
  | 2 => ⟨S768x1, .f32⟩
  | 3 => ⟨S_, .f32⟩
  | 4 => ⟨S768x1, .f32⟩
  | 5 => ⟨S768x1, .f32⟩
  | 6 => ⟨S_, .f32⟩
  | 7 => ⟨S768x1, .f32⟩
  | 8 => ⟨S768x1, .f32⟩
  | 9 => ⟨S768, .f32⟩
  | 10 => ⟨S768x64, .f32⟩
  | 11 => ⟨S1x64, .f32⟩
  | 12 => ⟨S768x64, .f32⟩
  | 13 => ⟨S768x64, .f32⟩
  | 14 => ⟨S_, .f32⟩
  | 15 => ⟨S768x64, .f32⟩
  | 16 => ⟨S768x64, .f32⟩
  | 17 => ⟨S768x1, .f32⟩
  | 18 => ⟨S1x1, .f32⟩
  | 19 => ⟨S768x1, .f32⟩
  | 20 => ⟨S768x1, .f32⟩
  | 21 => ⟨S768x1, .f32⟩
  | 22 => ⟨S768x1, .f32⟩
  | 23 => ⟨S_, .f32⟩
  | 24 => ⟨S768x1, .f32⟩
  | 25 => ⟨S768x1, .f32⟩
  | 26 => ⟨S_, .f32⟩
  | 27 => ⟨S768x1, .f32⟩
  | 28 => ⟨S768x1, .f32⟩
  | 29 => ⟨S768, .f32⟩
  | 30 => ⟨S3072, .f32⟩
  | _ => ⟨S768x256, .f32⟩

abbrev hbmTy (i : Nat) : BufTy := match i / 128 with
  | 0 => hbmTy0_0 i
  | 1 => hbmTy0_1 i
  | _ => ⟨S768x256, .f32⟩

abbrev bufTy : (tb : Table) → Fin (tcTables nBuf tb) → BufTy
  | .hbm, ⟨i, _⟩ => hbmTy i
  | _, _ => ⟨S768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_cst : Ref sig .tc := ⟨.hbm, 45, rfl⟩
abbrev main_call1_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_1 : Ref sig .tc := ⟨.hbm, 54, rfl⟩
abbrev main_v27 : Ref sig .tc := ⟨.hbm, 55, rfl⟩
abbrev main_v28 : Ref sig .tc := ⟨.hbm, 56, rfl⟩
abbrev main_cst_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_3 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_7 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_8 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call2_cst : Ref sig .tc := ⟨.hbm, 107, rfl⟩
abbrev main_call2_v0 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call3_cst : Ref sig .tc := ⟨.hbm, 115, rfl⟩
abbrev main_call3_v0 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call4_cst : Ref sig .tc := ⟨.hbm, 122, rfl⟩
abbrev main_call4_v0 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_9 : Ref sig .tc := ⟨.hbm, 131, rfl⟩
abbrev main_v90 : Ref sig .tc := ⟨.hbm, 132, rfl⟩
abbrev main_v91 : Ref sig .tc := ⟨.hbm, 133, rfl⟩
abbrev main_cst_10 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_call5_cst : Ref sig .tc := ⟨.hbm, 142, rfl⟩
abbrev main_call5_v0 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_11 : Ref sig .tc := ⟨.hbm, 151, rfl⟩
abbrev main_v106 : Ref sig .tc := ⟨.hbm, 152, rfl⟩
abbrev main_v107 : Ref sig .tc := ⟨.hbm, 153, rfl⟩
abbrev main_cst_12 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S768x64_0_1 : S1x64.BroadcastsInDim S768x64 (![0, 1] : Fin 2 → Fin S768x64.rank)
  bcast_S_S768x64 : S_.BroadcastsInDim S768x64 (![] : Fin 0 → Fin S768x64.rank)
  bcast_S1_S1x1_1 : S1.BroadcastsInDim S1x1 (![1] : Fin 1 → Fin S1x1.rank)
  bcast_S1x1_S768x1_0_1 : S1x1.BroadcastsInDim S768x1 (![0, 1] : Fin 2 → Fin S768x1.rank)
  bcast_S_S768x1 : S_.BroadcastsInDim S768x1 (![] : Fin 0 → Fin S768x1.rank)
  shapeCasts_S768x1_S768 : S768x1.ShapeCasts S768
  bcast_S768_S768x1_0 : S768.BroadcastsInDim S768x1 (![0] : Fin 1 → Fin S768x1.rank)
  bcast_S768_S1x768_1 : S768.BroadcastsInDim S1x768 (![1] : Fin 1 → Fin S1x768.rank)
  bcast_S768x1_S768x768_0_1 : S768x1.BroadcastsInDim S768x768 (![0, 1] : Fin 2 → Fin S768x768.rank)
  bcast_S1x768_S768x768_0_1 : S1x768.BroadcastsInDim S768x768 (![0, 1] : Fin 2 → Fin S768x768.rank)
  reducesTo_S768x768_S768_d0 : S768x768.ReducesTo [0] S768
  h_S_ : 0 < S_.numel
  bcast_S_S768 : S_.BroadcastsInDim S768 (![] : Fin 0 → Fin S768.rank)
  bcast_S768x1_S768x256_0_1 : S768x1.BroadcastsInDim S768x256 (![0, 1] : Fin 2 → Fin S768x256.rank)
  reducesTo_S768x768_S768_d1 : S768x768.ReducesTo [1] S768
  bcast_S768x768_S768x768x1_0_1 : S768x768.BroadcastsInDim S768x768x1 (![0, 1] : Fin 2 → Fin S768x768x1.rank)
  bcast_S768x256_S1x768x256_1_2 : S768x256.BroadcastsInDim S1x768x256 (![1, 2] : Fin 2 → Fin S1x768x256.rank)
  bcast_S768x768x1_S768x768x256_0_1_2 : S768x768x1.BroadcastsInDim S768x768x256 (![0, 1, 2] : Fin 3 → Fin S768x768x256.rank)
  bcast_S1x768x256_S768x768x256_0_1_2 : S1x768x256.BroadcastsInDim S768x768x256 (![0, 1, 2] : Fin 3 → Fin S768x768x256.rank)
  reducesTo_S768x768x256_S768x256_d1 : S768x768x256.ReducesTo [1] S768x256
  bcast_S1x1024_S768x1024_0_1 : S1x1024.BroadcastsInDim S768x1024 (![0, 1] : Fin 2 → Fin S768x1024.rank)
  concatenates_S768x256_S768x256_S768x256_S768x1024_S768x1792_d1 : Shape.Concatenates [S768x256, S768x256, S768x256, S768x1024] S768x1792 1
  bcast_S256_S1x256_1 : S256.BroadcastsInDim S1x256 (![1] : Fin 1 → Fin S1x256.rank)
  bcast_S1x256_S768x256_0_1 : S1x256.BroadcastsInDim S768x256 (![0, 1] : Fin 2 → Fin S768x256.rank)
  bcast_S_S768x256 : S_.BroadcastsInDim S768x256 (![] : Fin 0 → Fin S768x256.rank)
  concatenates_S768_S768_S768_S768_S3072_d0 : Shape.Concatenates [S768, S768, S768, S768] S3072 0
  dot_S768x256_S256x64_S768x64_1_0_0_1_n_n_wf : DotDims.WF S768x256 S256x64 S768x64 [1] [0] [0] [1] [] []
  dot_S768x64_S64x1_S768x1_1_0_0_1_n_n_wf : DotDims.WF S768x64 S64x1 S768x1 [1] [0] [0] [1] [] []
  dot_S768x768_S768x256_S768x256_0_0_1_1_n_n_wf : DotDims.WF S768x768 S768x256 S768x256 [0] [0] [1] [1] [] []
  dot_S768x768_S768x256_S768x256_1_0_0_1_n_n_wf : DotDims.WF S768x768 S768x256 S768x256 [1] [0] [0] [1] [] []
  dot_S768x1792_S1792x256_S768x256_1_0_0_1_n_n_wf : DotDims.WF S768x1792 S1792x256 S768x256 [1] [0] [0] [1] [] []

variable [Facts₀]

def dot_S768x256_S256x64_S768x64_1_0_0_1_n_n : DotDims S768x256 S256x64 S768x64 where
  lhsContracting := [1]
  rhsContracting := [0]
  lhsNonContracting := [0]
  rhsNonContracting := [1]
  lhsBatch := []
  rhsBatch := []
  wf := dot_S768x256_S256x64_S768x64_1_0_0_1_n_n_wf
def dot_S768x64_S64x1_S768x1_1_0_0_1_n_n : DotDims S768x64 S64x1 S768x1 where
  lhsContracting := [1]
  rhsContracting := [0]
  lhsNonContracting := [0]
  rhsNonContracting := [1]
  lhsBatch := []
  rhsBatch := []
  wf := dot_S768x64_S64x1_S768x1_1_0_0_1_n_n_wf
def dot_S768x768_S768x256_S768x256_0_0_1_1_n_n : DotDims S768x768 S768x256 S768x256 where
  lhsContracting := [0]
  rhsContracting := [0]
  lhsNonContracting := [1]
  rhsNonContracting := [1]
  lhsBatch := []
  rhsBatch := []
  wf := dot_S768x768_S768x256_S768x256_0_0_1_1_n_n_wf
def dot_S768x768_S768x256_S768x256_1_0_0_1_n_n : DotDims S768x768 S768x256 S768x256 where
  lhsContracting := [1]
  rhsContracting := [0]
  lhsNonContracting := [0]
  rhsNonContracting := [1]
  lhsBatch := []
  rhsBatch := []
  wf := dot_S768x768_S768x256_S768x256_1_0_0_1_n_n_wf
def dot_S768x1792_S1792x256_S768x256_1_0_0_1_n_n : DotDims S768x1792 S1792x256 S768x256 where
  lhsContracting := [1]
  rhsContracting := [0]
  lhsNonContracting := [0]
  rhsNonContracting := [1]
  lhsBatch := []
  rhsBatch := []
  wf := dot_S768x1792_S1792x256_S768x256_1_0_0_1_n_n_wf

class Facts : Prop extends Facts₀ where

variable [Facts]
-- ==== Proof.K.Reg0.lean ====
/-
  Region 0 of the program: the first pallas_call, the two prediction heads computed at once on a one-point grid.
  Every window is its whole array in one block. The body reads the ten operand blocks whole and writes each of the two
  result blocks by one whole store: result 0 is the head applied to the first feature matrix with the first head's
  weights, result 1 the head applied to the second feature matrix with the second head's weights. Stated for any float
  instance: what each staging buffer holds after the body (the result blocks as one store of the body's arithmetic over
  the operand blocks), the body's triple, the region's proof data and the body obligation at every grid point.
-/
import proofs.«153655_j17970143167165_2_alg».proof.Proof.Gen.Kernel.Launch
import proofs.«153655_j17970143167165_2_alg».proof.Proof.Gen.Kernel.Skeleton
import proofs.«153655_j17970143167165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's staging buffer holds the window's block when the body starts, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's staging buffer holds the window's block when the body starts, for any proof data whose array is
    the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's staging buffer holds the window's block when the body starts, for any proof data whose array is
    the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's staging buffer holds the window's block when the body starts, for any proof data whose array is
    the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's staging buffer holds the window's block when the body starts, for any proof data whose array is
    the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's staging buffer holds the window's block when the body starts, for any proof data whose array is
    the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Operand window 6's staging buffer holds the window's block when the body starts, for any proof data whose array is
    the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Operand window 7's staging buffer holds the window's block when the body starts, for any proof data whose array is
    the entry contents and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Operand window 8's staging buffer holds the window's block when the body starts, for any proof data whose array is
    the entry contents and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Operand window 9's staging buffer holds the window's block when the body starts, for any proof data whose array is
    the entry contents and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev rw_S768x256 : Rect S768x256 := Rect.unit (s := S768x256) ![0, 0] S768x256.size inb_S768x256_S768x256_0_0
abbrev rw_S256x64 : Rect S256x64 := Rect.unit (s := S256x64) ![0, 0] S256x64.size inb_S256x64_S256x64_0_0
abbrev rw_S1x64 : Rect S1x64 := Rect.unit (s := S1x64) ![0, 0] S1x64.size inb_S1x64_S1x64_0_0
abbrev rw_S64x1 : Rect S64x1 := Rect.unit (s := S64x1) ![0, 0] S64x1.size inb_S64x1_S64x1_0_0
abbrev rw_S1x1 : Rect S1x1 := Rect.unit (s := S1x1) ![0, 0] S1x1.size inb_S1x1_S1x1_0_0
abbrev rw_S768x1 : Rect S768x1 := Rect.unit (s := S768x1) ![0, 0] S768x1.size inb_S768x1_S768x1_0_0

/-! ## What the body leaves in the two result blocks -/

/-- Result 0's block after the body: one whole store of the first head's arithmetic over the blocks of the first feature
    matrix, the first head's two weight matrices and its two biases. -/
def out0_10 (x0 : Vec F S768x256 .f32) (x2 : Vec F S256x64 .f32) (x3 : Vec F S1x64 .f32) (x4 : Vec F S64x1 .f32) (x5 : Vec F S1x1 .f32) : Vec F S768x1 .f32 :=
  View.canon [⟨rw_S768x1, k0_pay2 (View.ld x0 rw_S768x256) (View.ld x2 rw_S256x64) (View.ld x3 rw_S1x64) (View.ld x4 rw_S64x1) (View.ld x5 rw_S1x1)⟩]

/-- Result 1's block after the body: the same head over the second feature matrix and the second head's parameters. -/
def out0_11 (x1 : Vec F S768x256 .f32) (x6 : Vec F S256x64 .f32) (x7 : Vec F S1x64 .f32) (x8 : Vec F S64x1 .f32) (x9 : Vec F S1x1 .f32) : Vec F S768x1 .f32 :=
  View.canon [⟨rw_S768x1, k0_pay1 (View.ld x8 rw_S64x1) (k0_pay3 (View.ld x9 rw_S1x1)) (k0_pay4 (View.ld x1 rw_S768x256) (View.ld x6 rw_S256x64)) (k0_pay5 (View.ld x7 rw_S1x64))⟩]

/-- One whole store covers its block. -/
theorem cover0_out (p0 : Vec F S768x1 .f32) (y : S768x1.Idx) :
    ∃ pc ∈ ([⟨rw_S768x1, p0⟩] : List (View.Piece (Elt F) S768x1 .f32)), y ∈ pc.1.set :=
  View.cover_of_tiled [⟨rw_S768x1, p0⟩] S768x1.size (by rfl) y

/-! ## The body's triple -/

set_option maxHeartbeats 4000000 in
/-- The body on whole staging memrefs, the operands' at read contents and the results' at anything, runs to the
    continuation holding the operands' as they were and each result's at its block above. -/
theorem sound_kernel0 (c : Dev nD) (E : Set ℕ) (i : grid0.Coords)
    (arg1 : Memref sig .tc .vmem S768x256 .f32) (harg1 : arg1.IsWhole)
    (arg2 : Memref sig .tc .vmem S768x256 .f32) (harg2 : arg2.IsWhole)
    (arg3 : Memref sig .tc .vmem S256x64 .f32) (harg3 : arg3.IsWhole)
    (arg4 : Memref sig .tc .vmem S1x64 .f32) (harg4 : arg4.IsWhole)
    (arg5 : Memref sig .tc .vmem S64x1 .f32) (harg5 : arg5.IsWhole)
    (arg6 : Memref sig .tc .vmem S1x1 .f32) (harg6 : arg6.IsWhole)
    (arg7 : Memref sig .tc .vmem S256x64 .f32) (harg7 : arg7.IsWhole)
    (arg8 : Memref sig .tc .vmem S1x64 .f32) (harg8 : arg8.IsWhole)
    (arg9 : Memref sig .tc .vmem S64x1 .f32) (harg9 : arg9.IsWhole)
    (arg10 : Memref sig .tc .vmem S1x1 .f32) (harg10 : arg10.IsWhole)
    (arg11 : Memref sig .tc .vmem S768x1 .f32) (harg11 : arg11.IsWhole)
    (arg12 : Memref sig .tc .vmem S768x1 .f32) (harg12 : arg12.IsWhole)
    (x0 : Vec F S768x256 .f32) (x1 : Vec F S768x256 .f32) (x2 : Vec F S256x64 .f32) (x3 : Vec F S1x64 .f32) (x4 : Vec F S64x1 .f32) (x5 : Vec F S1x1 .f32) (x6 : Vec F S256x64 .f32) (x7 : Vec F S1x64 .f32) (x8 : Vec F S64x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x2 x3 x4 x5) ∗ owns (c : Thread nD τ) arg12 fullShare (out0_11 x1 x6 x7 x8 x9)) -∗ K ⟨⟩))
      ⊢ wp frame (wpE (defs₀ (F := F)) Variants.none c none) E (cc0__pred2_kernel i arg1 harg1 arg2 harg2 arg3 harg3 arg4 harg4 arg5 harg5 arg6 harg6 arg7 harg7 arg8 harg8 arg9 harg9 arg10 harg10 arg11 harg11 arg12 harg12) K := by
  simp only [cc0__pred2_kernel_eq_skeleton]; unfold cc0__pred2_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-! ## The region's proof data -/

/-- The proof data of this region on core `c`: the arrays as the region finds them; after the body each operand's buffer
    at its block and each result's at its block above; the invariant the plain one (scratch and the generator register,
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 2 t) (iblk0 V c 3 t) (iblk0 V c 4 t) (iblk0 V c 5 t)
    | ⟨11, _⟩ => out0_11 (iblk0 V c 1 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 2 t) (iblk0 V c 3 t) (iblk0 V c 4 t) (iblk0 V c 5 t) := by dsimp only [dat0]
theorem after0_11 (c : Dev nD) (t : Fin cfg0.N) : (dat0 V c).after 11 t = out0_11 (iblk0 V c 1 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the operands' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of this region, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Reg1.lean ====
/- Region 1 of the program (the first row-blocked maximum of products): per window its block at a point, what the
   body leaves in the output block as a function of the input blocks, the body's triple through the counted loop,
   the proof data and the body obligation — at a parameter `V`, the core's buffer contents when the region is entered. -/
import proofs.«153655_j17970143167165_2_alg».proof.Proof.Gen.Kernel.Launch
import proofs.«153655_j17970143167165_2_alg».proof.Proof.Gen.Kernel.Skeleton
import proofs.«153655_j17970143167165_2_alg».proof.Proof.Gen.Kernel.Points
import proofs.«153655_j17970143167165_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! # Region 1: the row-blocked maximum of products, six row blocks of 128 rows -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a 128-row block of the mask, its index moving with the point) holds its block at every point,
    for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole second factor, its index constant over the grid, fetched at the first point only)
    holds its block at every point: where it is not fetched the index has not moved, and the body left it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one store: the whole 128×256 output block. -/
abbrev r1_0 : Rect S128x256 := Rect.unit (s := S128x256) ![0, 0] S128x256.size inb_S128x256_S128x256_0_0

/-- Trip `k`'s loads: columns `128 k … 128 k + 127` of the mask block, rows `128 k … 128 k + 127` of the second factor. -/
abbrev l1_0 (k : Fin k1_t1_loop.trips) : Rect S128x768 := Rect.unit (s := S128x768) (k1_off1 k) S128x128.size (k1_off1_inb k)
abbrev l1_1 (k : Fin k1_t1_loop.trips) : Rect S768x256 := Rect.unit (s := S768x256) (k1_off2 k) S128x256.size (k1_off2_inb k)

/-! ## The counted loop's carried value, as a function of the input blocks alone -/

/-- One trip of the loop over the input blocks `x0`, `x1`: the trip's payload of the carried value and the two
    chunks the trip loads. -/
def trip1 (k : Fin k1_t1_loop.trips) (x0 : Vec F S128x768 .f32) (x1 : Vec F S768x256 .f32) (acc : FVec F S128x256 .bf16) :
    FVec F S128x256 .bf16 :=
  k1_pay2 acc (View.ld x0 (l1_0 k)) (View.ld x1 (l1_1 k))

/-- The carried value before trip `k`: the initial broadcast, then one `trip1` per trip. -/
def acc1 (x0 : Vec F S128x768 .f32) (x1 : Vec F S768x256 .f32) : ℕ → FVec F S128x256 .bf16
  | 0 => k1_pay1
  | k + 1 => if h : k < k1_t1_loop.trips then trip1 ⟨k, h⟩ x0 x1 (acc1 x0 x1 k) else acc1 x0 x1 k

theorem acc1_succ (x0 : Vec F S128x768 .f32) (x1 : Vec F S768x256 .f32) (k : Fin k1_t1_loop.trips) :
    acc1 x0 x1 (k.val + 1) = trip1 k x0 x1 (acc1 x0 x1 k.val) := by
  rw [acc1.eq_2]; exact dif_pos k.isLt

/-- What one trip of the generated loop instance yields is `trip1` of what its two memrefs read: the trip's
    definition opened, this once; a load through a rectangle of contents `f` is `View.ld` of what the view reads of `f`. -/
theorem tripR1_eq (𝒱 : Variants) (c : Dev nD) (bd : Option 𝒱.V) (i : grid1.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (k : Fin k1_t1_loop.trips) (acc : FVec F S128x256 .bf16) :
    tripR_k1_t1 (F := F) 𝒱 c bd i arg1 harg1 arg2 harg2 arg3 harg3 X_arg1 X_arg2 k acc
      = trip1 k (arg1.view.read (Elt F) X_arg1) (arg2.view.read (Elt F) X_arg2) acc := by
  unfold tripR_k1_t1 trip_k1_t1
  rfl

/-- So the generated recursion on the trips' yields is `acc1` of what the two memrefs read, at every trip count. -/
theorem st1_eq (𝒱 : Variants) (c : Dev nD) (bd : Option 𝒱.V) (i : grid1.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (n : ℕ) :
    st_k1_t1 (F := F) 𝒱 c bd i arg1 harg1 arg2 harg2 arg3 harg3 X_arg1 X_arg2 k1_pay1 n
      = acc1 (arg1.view.read (Elt F) X_arg1) (arg2.view.read (Elt F) X_arg2) n := by
  induction n with
  | zero => rfl
  | succ n ih =>
    rw [st_k1_t1.eq_2, acc1.eq_2, ih]; unfold st_k1_t1Step
    by_cases h : n < k1_t1_loop.trips
    · rw [dif_pos h, dif_pos h]; exact tripR1_eq 𝒱 c bd i arg1 harg1 arg2 harg2 arg3 harg3 X_arg1 X_arg2 ⟨n, h⟩ _
    · rw [dif_neg h, dif_neg h]

/-! ## What the body leaves in the output window's buffer -/

/-- Window 2's staging buffer after the body, from the input windows' blocks: its one store, of the widened
    carried value after the last trip, over the whole block. -/
def out1_2 (x0 : Vec F S128x768 .f32) (x1 : Vec F S768x256 .f32) : Vec F S128x256 .f32 :=
  View.canon [⟨r1_0, k1_pay3 (acc1 x0 x1 k1_t1_loop.trips)⟩]

/-- The store is of the whole block, so it covers it. -/
theorem cover1_2 (p0 : Vec F S128x256 .f32) (y : S128x256.Idx) :
    ∃ pc ∈ ([⟨r1_0, p0⟩] : List (View.Piece (Elt F) S128x256 .f32)), y ∈ pc.1.set :=
  View.cover_of_tiled [⟨r1_0, p0⟩] S128x256.size (by rfl) y

/-! ## The body's triple -/

set_option maxHeartbeats 1000000 in
/-- The kernel body on whole staging memrefs, the inputs' at read contents `x0`, `x1` and the output's at anything,
    runs to the continuation holding the inputs' as they were and the output's at `out1_2 x0 x1`: the loop is passed
    by its generated invariant, and its result is `acc1` at the trip count (`st1_eq`). -/
theorem sound_kernel1 (c : Dev nD) (E : Set ℕ) (i : grid1.Coords)
    (arg0 : Memref sig .tc .vmem S128x768 .f32) (harg0 : arg0.IsWhole)
    (arg1 : Memref sig .tc .vmem S768x256 .f32) (harg1 : arg1.IsWhole)
    (arg2 : Memref sig .tc .vmem S128x256 .f32) (harg2 : arg2.IsWhole)
    (x0 : Vec F S128x768 .f32) (x1 : Vec F S768x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__conflict_kernel i arg0 harg0 arg1 harg1 arg2 harg2) K := by
  simp only [cc1__conflict_kernel_eq_skeleton]; unfold cc1__conflict_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [st1_eq]
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Reg

end
-- ==== Proof.K.Reg2.lean ====
/- Region 2 of the program (the second row-blocked maximum of products): per window its block at a point, what the
   body leaves in the output block as a function of the input blocks, the body's triple through the counted loop,
   the proof data and the body obligation — at a parameter `V`, the core's buffer contents when the region is entered. -/
import proofs.«153655_j17970143167165_2_alg».proof.Proof.Gen.Kernel.Launch
import proofs.«153655_j17970143167165_2_alg».proof.Proof.Gen.Kernel.Skeleton
import proofs.«153655_j17970143167165_2_alg».proof.Proof.Gen.Kernel.Points
import proofs.«153655_j17970143167165_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! # Region 2: the row-blocked maximum of products, six row blocks of 128 rows -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a 128-row block of the mask, its index moving with the point) holds its block at every point,
    for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole second factor, its index constant over the grid, fetched at the first point only)
    holds its block at every point: where it is not fetched the index has not moved, and the body left it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one store: the whole 128×256 output block. -/
abbrev r2_0 : Rect S128x256 := Rect.unit (s := S128x256) ![0, 0] S128x256.size inb_S128x256_S128x256_0_0

/-- Trip `k`'s loads: columns `128 k … 128 k + 127` of the mask block, rows `128 k … 128 k + 127` of the second factor. -/
abbrev l2_0 (k : Fin k2_t1_loop.trips) : Rect S128x768 := Rect.unit (s := S128x768) (k2_off1 k) S128x128.size (k2_off1_inb k)
abbrev l2_1 (k : Fin k2_t1_loop.trips) : Rect S768x256 := Rect.unit (s := S768x256) (k2_off2 k) S128x256.size (k2_off2_inb k)

/-! ## The counted loop's carried value, as a function of the input blocks alone -/

/-- One trip of the loop over the input blocks `x0`, `x1`: the trip's payload of the carried value and the two
    chunks the trip loads. -/
def trip2 (k : Fin k2_t1_loop.trips) (x0 : Vec F S128x768 .f32) (x1 : Vec F S768x256 .f32) (acc : FVec F S128x256 .bf16) :
    FVec F S128x256 .bf16 :=
  k2_pay2 acc (View.ld x0 (l2_0 k)) (View.ld x1 (l2_1 k))

/-- The carried value before trip `k`: the initial broadcast, then one `trip2` per trip. -/
def acc2 (x0 : Vec F S128x768 .f32) (x1 : Vec F S768x256 .f32) : ℕ → FVec F S128x256 .bf16
  | 0 => k2_pay1
  | k + 1 => if h : k < k2_t1_loop.trips then trip2 ⟨k, h⟩ x0 x1 (acc2 x0 x1 k) else acc2 x0 x1 k

theorem acc2_succ (x0 : Vec F S128x768 .f32) (x1 : Vec F S768x256 .f32) (k : Fin k2_t1_loop.trips) :
    acc2 x0 x1 (k.val + 1) = trip2 k x0 x1 (acc2 x0 x1 k.val) := by
  rw [acc2.eq_2]; exact dif_pos k.isLt

/-- What one trip of the generated loop instance yields is `trip2` of what its two memrefs read: the trip's
    definition opened, this once; a load through a rectangle of contents `f` is `View.ld` of what the view reads of `f`. -/
theorem tripR2_eq (𝒱 : Variants) (c : Dev nD) (bd : Option 𝒱.V) (i : grid2.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (k : Fin k2_t1_loop.trips) (acc : FVec F S128x256 .bf16) :
    tripR_k2_t1 (F := F) 𝒱 c bd i arg1 harg1 arg2 harg2 arg3 harg3 X_arg1 X_arg2 k acc
      = trip2 k (arg1.view.read (Elt F) X_arg1) (arg2.view.read (Elt F) X_arg2) acc := by
  unfold tripR_k2_t1 trip_k2_t1
  rfl

/-- So the generated recursion on the trips' yields is `acc2` of what the two memrefs read, at every trip count. -/
theorem st2_eq (𝒱 : Variants) (c : Dev nD) (bd : Option 𝒱.V) (i : grid2.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (n : ℕ) :
    st_k2_t1 (F := F) 𝒱 c bd i arg1 harg1 arg2 harg2 arg3 harg3 X_arg1 X_arg2 k2_pay1 n
      = acc2 (arg1.view.read (Elt F) X_arg1) (arg2.view.read (Elt F) X_arg2) n := by
  induction n with
  | zero => rfl
  | succ n ih =>
    rw [st_k2_t1.eq_2, acc2.eq_2, ih]; unfold st_k2_t1Step
    by_cases h : n < k2_t1_loop.trips
    · rw [dif_pos h, dif_pos h]; exact tripR2_eq 𝒱 c bd i arg1 harg1 arg2 harg2 arg3 harg3 X_arg1 X_arg2 ⟨n, h⟩ _
    · rw [dif_neg h, dif_neg h]

/-! ## What the body leaves in the output window's buffer -/

/-- Window 2's staging buffer after the body, from the input windows' blocks: its one store, of the widened
    carried value after the last trip, over the whole block. -/
def out2_2 (x0 : Vec F S128x768 .f32) (x1 : Vec F S768x256 .f32) : Vec F S128x256 .f32 :=
  View.canon [⟨r2_0, k2_pay3 (acc2 x0 x1 k2_t1_loop.trips)⟩]

/-- The store is of the whole block, so it covers it. -/
theorem cover2_2 (p0 : Vec F S128x256 .f32) (y : S128x256.Idx) :
    ∃ pc ∈ ([⟨r2_0, p0⟩] : List (View.Piece (Elt F) S128x256 .f32)), y ∈ pc.1.set :=
  View.cover_of_tiled [⟨r2_0, p0⟩] S128x256.size (by rfl) y

/-! ## The body's triple -/

set_option maxHeartbeats 1000000 in
/-- The kernel body on whole staging memrefs, the inputs' at read contents `x0`, `x1` and the output's at anything,
    runs to the continuation holding the inputs' as they were and the output's at `out2_2 x0 x1`: the loop is passed
    by its generated invariant, and its result is `acc2` at the trip count (`st2_eq`). -/
theorem sound_kernel2 (c : Dev nD) (E : Set ℕ) (i : grid2.Coords)
    (arg0 : Memref sig .tc .vmem S128x768 .f32) (harg0 : arg0.IsWhole)
    (arg1 : Memref sig .tc .vmem S768x256 .f32) (harg1 : arg1.IsWhole)
    (arg2 : Memref sig .tc .vmem S128x256 .f32) (harg2 : arg2.IsWhole)
    (x0 : Vec F S128x768 .f32) (x1 : Vec F S768x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__conflict_kernel i arg0 harg0 arg1 harg1 arg2 harg2) K := by
  simp only [cc2__conflict_kernel_eq_skeleton]; unfold cc2__conflict_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [st2_eq]
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Reg

end
-- ==== Proof.K.Reg3.lean ====
/- Region 3 of @main: the fused update kernel (pipeline 3), at the contents `V` the TensorCore's buffers hold
   when the region is entered. The grid has one point. The body loads each of its 23 input windows whole, stores
   each of its two output windows whole once (after a load of that output whose value it never uses), and
   computes in between; so each output's staging buffer after the body is the canon of its one store, the stored
   payload written over the input windows' blocks. -/
import proofs.«153655_j17970143167165_2_alg».proof.Proof.Gen.Kernel.Launch
import proofs.«153655_j17970143167165_2_alg».proof.Proof.Gen.Kernel.Skeleton
import proofs.«153655_j17970143167165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and store is of a whole buffer -/

abbrev r3_S768x256 : Rect S768x256 := Rect.unit (s := S768x256) ![0, 0] S768x256.size inb_S768x256_S768x256_0_0
abbrev r3_S768x768 : Rect S768x768 := Rect.unit (s := S768x768) ![0, 0] S768x768.size inb_S768x768_S768x768_0_0
abbrev r3_S1x768 : Rect S1x768 := Rect.unit (s := S1x768) ![0, 0] S1x768.size inb_S1x768_S1x768_0_0
abbrev r3_S768x1 : Rect S768x1 := Rect.unit (s := S768x1) ![0, 0] S768x1.size inb_S768x1_S768x1_0_0
abbrev r3_S256x256 : Rect S256x256 := Rect.unit (s := S256x256) ![0, 0] S256x256.size inb_S256x256_S256x256_0_0
abbrev r3_S1x256 : Rect S1x256 := Rect.unit (s := S1x256) ![0, 0] S1x256.size inb_S1x256_S1x256_0_0
abbrev r3_S256x64 : Rect S256x64 := Rect.unit (s := S256x64) ![0, 0] S256x64.size inb_S256x64_S256x64_0_0
abbrev r3_S1x64 : Rect S1x64 := Rect.unit (s := S1x64) ![0, 0] S1x64.size inb_S1x64_S1x64_0_0
abbrev r3_S64x1 : Rect S64x1 := Rect.unit (s := S64x1) ![0, 0] S64x1.size inb_S64x1_S64x1_0_0
abbrev r3_S1x1 : Rect S1x1 := Rect.unit (s := S1x1) ![0, 0] S1x1.size inb_S1x1_S1x1_0_0

/-! ## What the body leaves in each output window's buffer -/

/-- Window 23's staging buffer after the body, from the input windows' blocks: its one store, of the first
    logistic head, over the blocks the head reads. -/
def out3_23 (x0 : Vec F S768x256 .f32) (x1 : Vec F S768x256 .f32) (x2 : Vec F S768x768 .f32) (x3 : Vec F S1x768 .f32) (x4 : Vec F S768x1 .f32) (x5 : Vec F S768x256 .f32) (x7 : Vec F S256x256 .f32) (x8 : Vec F S256x256 .f32) (x9 : Vec F S256x256 .f32) (x10 : Vec F S1x256 .f32) (x15 : Vec F S256x64 .f32) (x16 : Vec F S1x64 .f32) (x17 : Vec F S64x1 .f32) (x18 : Vec F S1x1 .f32) : Vec F S768x1 .f32 :=
  View.canon [⟨r3_S768x1, k3_pay6 (k3_pay4 (View.ld x3 r3_S1x768) (View.ld x4 r3_S768x1) (View.ld x2 r3_S768x768) (View.ld x1 r3_S768x256) (View.ld x0 r3_S768x256) (View.ld x7 r3_S256x256) (View.ld x8 r3_S256x256)) (k3_pay5 (View.ld x5 r3_S768x256)) (View.ld x9 r3_S256x256) (View.ld x10 r3_S1x256) (View.ld x15 r3_S256x64) (View.ld x16 r3_S1x64) (View.ld x17 r3_S64x1) (View.ld x18 r3_S1x1)⟩]

/-- Window 24's staging buffer after the body: its one store, of the second logistic head. -/
def out3_24 (x0 : Vec F S768x256 .f32) (x1 : Vec F S768x256 .f32) (x2 : Vec F S768x768 .f32) (x3 : Vec F S1x768 .f32) (x4 : Vec F S768x1 .f32) (x6 : Vec F S768x256 .f32) (x11 : Vec F S256x256 .f32) (x12 : Vec F S256x256 .f32) (x13 : Vec F S256x256 .f32) (x14 : Vec F S1x256 .f32) (x19 : Vec F S256x64 .f32) (x20 : Vec F S1x64 .f32) (x21 : Vec F S64x1 .f32) (x22 : Vec F S1x1 .f32) : Vec F S768x1 .f32 :=
  View.canon [⟨r3_S768x1, k3_pay1 (View.ld x21 r3_S64x1) (k3_pay8 (View.ld x22 r3_S1x1)) (k3_pay9 (View.ld x1 r3_S768x256) (k3_pay7 (k3_pay2 (View.ld x3 r3_S1x768) (View.ld x4 r3_S768x1) (View.ld x2 r3_S768x768)) (k3_pay3 (View.ld x3 r3_S1x768) (View.ld x4 r3_S768x1) (View.ld x2 r3_S768x768)) (View.ld x0 r3_S768x256)) (View.ld x11 r3_S256x256) (View.ld x12 r3_S256x256) (View.ld x6 r3_S768x256) (View.ld x13 r3_S256x256) (View.ld x14 r3_S1x256) (View.ld x19 r3_S256x64) (View.ld x20 r3_S1x64)) (Scalar.ofBits .f32 0x00000000#32)⟩]

/-- A whole-buffer store covers the buffer. -/
theorem cover3_o (p0 : Vec F S768x1 .f32) (y : S768x1.Idx) :
    ∃ pc ∈ ([⟨r3_S768x1, p0⟩] : List (View.Piece (Elt F) S768x1 .f32)), y ∈ pc.1.set :=
  View.cover_of_tiled [⟨r3_S768x1, p0⟩] S768x1.size (by rfl) y

/-! ## The body's triple -/

set_option maxHeartbeats 4000000 in
/-- The kernel body on whole staging memrefs, the inputs' at read contents `xW` and the outputs' at anything, runs
    to the continuation holding the inputs' as they were and each output's at `out3_W` of the inputs'. -/
theorem sound_kernel3 (c : Dev nD) (E : Set ℕ) (i : grid3.Coords) (arg1 : Memref sig .tc .vmem S768x256 .f32) (harg1 : arg1.IsWhole) (arg2 : Memref sig .tc .vmem S768x256 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x1 .f32) (harg5 : arg5.IsWhole) (arg6 : Memref sig .tc .vmem S768x256 .f32) (harg6 : arg6.IsWhole) (arg7 : Memref sig .tc .vmem S768x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x64 .f32) (harg16 : arg16.IsWhole) (arg17 : Memref sig .tc .vmem S1x64 .f32) (harg17 : arg17.IsWhole) (arg18 : Memref sig .tc .vmem S64x1 .f32) (harg18 : arg18.IsWhole) (arg19 : Memref sig .tc .vmem S1x1 .f32) (harg19 : arg19.IsWhole) (arg20 : Memref sig .tc .vmem S256x64 .f32) (harg20 : arg20.IsWhole) (arg21 : Memref sig .tc .vmem S1x64 .f32) (harg21 : arg21.IsWhole) (arg22 : Memref sig .tc .vmem S64x1 .f32) (harg22 : arg22.IsWhole) (arg23 : Memref sig .tc .vmem S1x1 .f32) (harg23 : arg23.IsWhole) (arg24 : Memref sig .tc .vmem S768x1 .f32) (harg24 : arg24.IsWhole) (arg25 : Memref sig .tc .vmem S768x1 .f32) (harg25 : arg25.IsWhole)
    (x0 : Vec F S768x256 .f32) (x1 : Vec F S768x256 .f32) (x2 : Vec F S768x768 .f32) (x3 : Vec F S1x768 .f32) (x4 : Vec F S768x1 .f32) (x5 : Vec F S768x256 .f32) (x6 : Vec F S768x256 .f32) (x7 : Vec F S256x256 .f32) (x8 : Vec F S256x256 .f32) (x9 : Vec F S256x256 .f32) (x10 : Vec F S1x256 .f32) (x11 : Vec F S256x256 .f32) (x12 : Vec F S256x256 .f32) (x13 : Vec F S256x256 .f32) (x14 : Vec F S1x256 .f32) (x15 : Vec F S256x64 .f32) (x16 : Vec F S1x64 .f32) (x17 : Vec F S64x1 .f32) (x18 : Vec F S1x1 .f32) (x19 : Vec F S256x64 .f32) (x20 : Vec F S1x64 .f32) (x21 : Vec F S64x1 .f32) (x22 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out3_23 x0 x1 x2 x3 x4 x5 x7 x8 x9 x10 x15 x16 x17 x18) ∗ owns (c : Thread nD τ) arg25 fullShare (out3_24 x0 x1 x2 x3 x4 x6 x11 x12 x13 x14 x19 x20 x21 x22)) -∗ K ⟨⟩))
      ⊢ wp frame (wpE (defs₀ (F := F)) Variants.none c none) E (cc3__fused_update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc3__fused_update_kernel_eq_skeleton]; unfold cc3__fused_update_kernel_skel
  simp only [k3_part1_eq_skeleton, k3_part2_eq_skeleton, k3_part3_eq_skeleton]; unfold k3_part1_skel k3_part2_skel k3_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    exact View.read_writes_eq_canon _ _ _ (cover3_o _)
  iexists _; isplitr
  swap; · iexact H24
  ipureintro
  exact View.read_writes_eq_canon _ _ _ (cover3_o _)

/-! ## Each input window's staging buffer holds its block -/

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: the window is uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: the window is uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not, for any proof
    data whose array is `V`'s and whose body leaves the block in place: the window is uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not, for any proof
    data whose array is `V`'s and whose body leaves the block in place: the window is uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds its block at every point, fetched there or not, for any proof
    data whose array is `V`'s and whose body leaves the block in place: the window is uncut and never idle. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds its block at every point, fetched there or not, for any proof
    data whose array is `V`'s and whose body leaves the block in place: the window is uncut and never idle. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds its block at every point, fetched there or not, for any proof
    data whose array is `V`'s and whose body leaves the block in place: the window is uncut and never idle. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds its block at every point, fetched there or not, for any proof
    data whose array is `V`'s and whose body leaves the block in place: the window is uncut and never idle. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds its block at every point, fetched there or not, for any proof
    data whose array is `V`'s and whose body leaves the block in place: the window is uncut and never idle. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- Input window 16's current staging buffer holds its block at every point, fetched there or not, for any proof
    data whose array is `V`'s and whose body leaves the block in place: the window is uncut and never idle. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-- Input window 17's current staging buffer holds its block at every point, fetched there or not, for any proof
    data whose array is `V`'s and whose body leaves the block in place: the window is uncut and never idle. -/
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-- Input window 18's current staging buffer holds its block at every point, fetched there or not, for any proof
    data whose array is `V`'s and whose body leaves the block in place: the window is uncut and never idle. -/
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)

/-- Input window 19's current staging buffer holds its block at every point, fetched there or not, for any proof
    data whose array is `V`'s and whose body leaves the block in place: the window is uncut and never idle. -/
theorem before3_19_of {c : Dev nD} (dat : Dat τ (Elt F) Unit ℕ (UR sig nD τ) ℕ cfg3 c) (hA : dat.A 19 = V c (Pipeline.arrRef spec3 19))
    (hafter : ∀ t, dat.after 19 t = iblk3 V c 19 t) (t : Fin cfg3.N) (d) : dat.before 19 t d = iblk3 V c 19 t :=
  (dat.before_in_eq_fetched 19 rfl (fun _ => rfl) (fun _ _ _ => rfl) (fun t => by rw [hafter]; unfold Dat.blockOf iblk3; rw [hA]; try rfl) t d).trans
    (by unfold Dat.fetched Dat.blockOf iblk3; rw [hA]; try rfl)

/-- Input window 20's current staging buffer holds its block at every point, fetched there or not, for any proof
    data whose array is `V`'s and whose body leaves the block in place: the window is uncut and never idle. -/
theorem before3_20_of {c : Dev nD} (dat : Dat τ (Elt F) Unit ℕ (UR sig nD τ) ℕ cfg3 c) (hA : dat.A 20 = V c (Pipeline.arrRef spec3 20))
    (hafter : ∀ t, dat.after 20 t = iblk3 V c 20 t) (t : Fin cfg3.N) (d) : dat.before 20 t d = iblk3 V c 20 t :=
  (dat.before_in_eq_fetched 20 rfl (fun _ => rfl) (fun _ _ _ => rfl) (fun t => by rw [hafter]; unfold Dat.blockOf iblk3; rw [hA]; try rfl) t d).trans
    (by unfold Dat.fetched Dat.blockOf iblk3; rw [hA]; try rfl)

/-- Input window 21's current staging buffer holds its block at every point, fetched there or not, for any proof
    data whose array is `V`'s and whose body leaves the block in place: the window is uncut and never idle. -/
theorem before3_21_of {c : Dev nD} (dat : Dat τ (Elt F) Unit ℕ (UR sig nD τ) ℕ cfg3 c) (hA : dat.A 21 = V c (Pipeline.arrRef spec3 21))
    (hafter : ∀ t, dat.after 21 t = iblk3 V c 21 t) (t : Fin cfg3.N) (d) : dat.before 21 t d = iblk3 V c 21 t :=
  (dat.before_in_eq_fetched 21 rfl (fun _ => rfl) (fun _ _ _ => rfl) (fun t => by rw [hafter]; unfold Dat.blockOf iblk3; rw [hA]; try rfl) t d).trans
    (by unfold Dat.fetched Dat.blockOf iblk3; rw [hA]; try rfl)

/-- Input window 22's current staging buffer holds its block at every point, fetched there or not, for any proof
    data whose array is `V`'s and whose body leaves the block in place: the window is uncut and never idle. -/
theorem before3_22_of {c : Dev nD} (dat : Dat τ (Elt F) Unit ℕ (UR sig nD τ) ℕ cfg3 c) (hA : dat.A 22 = V c (Pipeline.arrRef spec3 22))
    (hafter : ∀ t, dat.after 22 t = iblk3 V c 22 t) (t : Fin cfg3.N) (d) : dat.before 22 t d = iblk3 V c 22 t :=
  (dat.before_in_eq_fetched 22 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of pipeline 3 on core `c`: the arrays as the region finds them (`V`); after the body each input's
    buffer at its block and each output's at `out3_W` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => out3_23 (iblk3 V c 0 t) (iblk3 V c 1 t) (iblk3 V c 2 t) (iblk3 V c 3 t) (iblk3 V c 4 t) (iblk3 V c 5 t) (iblk3 V c 7 t) (iblk3 V c 8 t) (iblk3 V c 9 t) (iblk3 V c 10 t) (iblk3 V c 15 t) (iblk3 V c 16 t) (iblk3 V c 17 t) (iblk3 V c 18 t)
    | ⟨24, _⟩ => out3_24 (iblk3 V c 0 t) (iblk3 V c 1 t) (iblk3 V c 2 t) (iblk3 V c 3 t) (iblk3 V c 4 t) (iblk3 V c 6 t) (iblk3 V c 11 t) (iblk3 V c 12 t) (iblk3 V c 13 t) (iblk3 V c 14 t) (iblk3 V c 19 t) (iblk3 V c 20 t) (iblk3 V c 21 t) (iblk3 V c 22 t)
    | ⟨_ + 25, h⟩ => absurd h (Nat.not_lt.2 (Nat.le_add_left _ _))
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = iblk3 V c 20 t := by dsimp only [dat3]
theorem after3_21 (c : Dev nD) (t : Fin cfg3.N) : (dat3 V c).after 21 t = iblk3 V c 21 t := by dsimp only [dat3]
theorem after3_22 (c : Dev nD) (t : Fin cfg3.N) : (dat3 V c).after 22 t = iblk3 V c 22 t := by dsimp only [dat3]
theorem after3_23 (c : Dev nD) (t : Fin cfg3.N) : (dat3 V c).after 23 t = out3_23 (iblk3 V c 0 t) (iblk3 V c 1 t) (iblk3 V c 2 t) (iblk3 V c 3 t) (iblk3 V c 4 t) (iblk3 V c 5 t) (iblk3 V c 7 t) (iblk3 V c 8 t) (iblk3 V c 9 t) (iblk3 V c 10 t) (iblk3 V c 15 t) (iblk3 V c 16 t) (iblk3 V c 17 t) (iblk3 V c 18 t) := by dsimp only [dat3]
theorem after3_24 (c : Dev nD) (t : Fin cfg3.N) : (dat3 V c).after 24 t = out3_24 (iblk3 V c 0 t) (iblk3 V c 1 t) (iblk3 V c 2 t) (iblk3 V c 3 t) (iblk3 V c 4 t) (iblk3 V c 6 t) (iblk3 V c 11 t) (iblk3 V c 12 t) (iblk3 V c 13 t) (iblk3 V c 14 t) (iblk3 V c 19 t) (iblk3 V c 20 t) (iblk3 V c 21 t) (iblk3 V c 22 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d
theorem before3_19 (c : Dev nD) (t : Fin cfg3.N) (d) : (dat3 V c).before 19 t d = iblk3 V c 19 t :=
  before3_19_of V (dat3 V c) (A_eq3 V c 19) (after3_19 V c) t d
theorem before3_20 (c : Dev nD) (t : Fin cfg3.N) (d) : (dat3 V c).before 20 t d = iblk3 V c 20 t :=
  before3_20_of V (dat3 V c) (A_eq3 V c 20) (after3_20 V c) t d
theorem before3_21 (c : Dev nD) (t : Fin cfg3.N) (d) : (dat3 V c).before 21 t d = iblk3 V c 21 t :=
  before3_21_of V (dat3 V c) (A_eq3 V c 21) (after3_21 V c) t d
theorem before3_22 (c : Dev nD) (t : Fin cfg3.N) (d) : (dat3 V c).before 22 t d = iblk3 V c 22 t :=
  before3_22_of V (dat3 V c) (A_eq3 V c 22) (after3_22 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d))
    ∗ (∃ d, owns (c : Thread nD τ) (st3_22 t) fullShare ((dat3 V c).before 22 t d))
    ∗ (∃ d, owns (c : Thread nD τ) (st3_23 t) fullShare ((dat3 V c).before 23 t d))
    ∗ (∃ d, owns (c : Thread nD τ) (st3_24 t) fullShare ((dat3 V c).before 24 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t)
    ∗ owns (c : Thread nD τ) (st3_21 t) fullShare ((dat3 V c).after 21 t)
    ∗ owns (c : Thread nD τ) (st3_22 t) fullShare ((dat3 V c).after 22 t)
    ∗ owns (c : Thread nD τ) (st3_23 t) fullShare ((dat3 V c).after 23 t)
    ∗ owns (c : Thread nD τ) (st3_24 t) fullShare ((dat3 V c).after 24 t))

set_option maxHeartbeats 1000000 in
/-- The body at any point: the inputs' memrefs hold their blocks, so the triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel3 c Set.univ _ _ _ _ _ _ _ _ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Run.lean ====
/-
  The whole program as a sequence of segments: a stretch of host operations, the four kernel regions (the two prediction
  heads; the two masked maximum poolings; the fused update), each entered from what the segment before it left, and two
  more stretches of host operations. The buffer contents at every boundary are a fold from the launch memory: a host
  stretch applies its operations, a region replaces its windows' arrays by what its write-backs leave and keeps every
  other buffer. From the run: every weakly fair execution terminates with every unscoped buffer at the last boundary's
  contents; each argument array read back through the fold is its launch contents.
-/
import proofs.«153655_j17970143167165_2_alg».proof.Proof.K.Reg0
import proofs.«153655_j17970143167165_2_alg».proof.Proof.K.Reg1
import proofs.«153655_j17970143167165_2_alg».proof.Proof.K.Reg2
import proofs.«153655_j17970143167165_2_alg».proof.Proof.K.Reg3
import proofs.«153655_j17970143167165_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- An operand window's array leaves region 0 as it entered. -/
theorem B2_in (c : Dev nD) (w : Fin cfg0.W) (hin : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hin _).trans (A_eq0 (E1 m) c w))
/-- At region 1's exit: its arrays at what its write-backs leave, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)
/-- An operand window's array leaves region 1 as it entered. -/
theorem B3_in (c : Dev nD) (w : Fin cfg1.W) (hin : (cfg1.win w).isOut = false) :
    B3 m c (Proc.devRef .tc (Pipeline.arrRef spec1 w)) = B2 m c (Proc.devRef .tc (Pipeline.arrRef spec1 w)) :=
  (B3_arr m c w).trans (((dat1 (E2 m) c).arrAt_in w hin _).trans (A_eq1 (E2 m) c w))
/-- At region 2's exit: its arrays at what its write-backs leave, every other buffer as entered. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b
theorem hF2 (c : Dev nD) (w : Fin cfg2.W) : (dat2 (E3 m) c).arrAt w cfg2.N = E4 m c (Pipeline.arrRef spec2 w) :=
  (B4_arr m c w).symm
theorem hrest2 (c : Dev nD) : ∀ b, b ∉ Finset.univ.image (Pipeline.arrRef spec2) → E4 m c b = E3 m c b :=
  fun b hb => B4_of_ne m c b fun w e => hb (Finset.mem_image.mpr ⟨w, Finset.mem_univ _, e⟩)
/-- An operand window's array leaves region 2 as it entered. -/
theorem B4_in (c : Dev nD) (w : Fin cfg2.W) (hin : (cfg2.win w).isOut = false) :
    B4 m c (Proc.devRef .tc (Pipeline.arrRef spec2 w)) = B3 m c (Proc.devRef .tc (Pipeline.arrRef spec2 w)) :=
  (B4_arr m c w).trans (((dat2 (E3 m) c).arrAt_in w hin _).trans (A_eq2 (E3 m) c w))
/-- After the second host stretch (region 3's entry). -/
abbrev B5 : Dev nD → Valuation τ sig (Elt F) := fun c => StableHlo.after hostOps3 (B4 m c)
abbrev E5 : (c : Dev nD) → (b : Ref sig .tc) → Buf (Elt F) ((c : Thread nD τ).loc b) := fun c b => B5 m c b
/-- At region 3's exit: its arrays at what its write-backs leave, every other buffer as entered. -/
def B6 (c : Dev nD) : Valuation τ sig (Elt F) :=
  Pipeline.withArrays spec3 c (B5 m c) fun w => (dat3 (E5 m) c).arrAt w cfg3.N
theorem B6_arr (c : Dev nD) (w : Fin cfg3.W) :
    B6 m c (Proc.devRef .tc (Pipeline.arrRef spec3 w)) = (dat3 (E5 m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
abbrev E6 : (c : Dev nD) → (b : Ref sig .tc) → Buf (Elt F) ((c : Thread nD τ).loc b) := fun c b => B6 m c b
theorem hF3 (c : Dev nD) (w : Fin cfg3.W) : (dat3 (E5 m) c).arrAt w cfg3.N = E6 m c (Pipeline.arrRef spec3 w) :=
  (B6_arr m c w).symm
theorem hrest3 (c : Dev nD) : ∀ b, b ∉ Finset.univ.image (Pipeline.arrRef spec3) → E6 m c b = E5 m c b :=
  fun b hb => B6_of_ne m c b fun w e => hb (Finset.mem_image.mpr ⟨w, Finset.mem_univ _, e⟩)
/-- An operand window's array leaves region 3 as it entered. -/
theorem B6_in (c : Dev nD) (w : Fin cfg3.W) (hin : (cfg3.win w).isOut = false) :
    B6 m c (Proc.devRef .tc (Pipeline.arrRef spec3 w)) = B5 m c (Proc.devRef .tc (Pipeline.arrRef spec3 w)) :=
  (B6_arr m c w).trans (((dat3 (E5 m) c).arrAt_in w hin _).trans (A_eq3 (E5 m) c w))
/-- After the last host stretch: the contents the program ends with. -/
abbrev B7 : Dev nD → Valuation τ sig (Elt F) := fun c => StableHlo.after hostOps4 (B6 m c)

/-! ## No segment changes an argument array -/

theorem B7_main_arg0 (c : Dev nD) : B7 m c (Proc.devRef .tc main_arg0) = m ((c : Thread nD τ).loc main_arg0) :=
  (StableHlo.after_of_writes_sub hostOps4 _ hostOps4_writes (show main_arg0 ∉ hostOps4_W by decide)).trans <|
  (B6_in m c 0 rfl).trans <|
  (StableHlo.after_of_writes_sub hostOps3 _ hostOps3_writes (show main_arg0 ∉ hostOps3_W by decide)).trans <|
  (B4_of_ne m c main_arg0 (by decide)).trans <| (B3_in m c 1 rfl).trans <| (B2_in m c 0 rfl).trans <|
  (StableHlo.after_of_writes_sub hostOps0 _ hostOps0_writes (show main_arg0 ∉ hostOps0_W by decide)).trans rfl
theorem B7_main_arg1 (c : Dev nD) : B7 m c (Proc.devRef .tc main_arg1) = m ((c : Thread nD τ).loc main_arg1) :=
  (StableHlo.after_of_writes_sub hostOps4 _ hostOps4_writes (show main_arg1 ∉ hostOps4_W by decide)).trans <|
  (B6_in m c 1 rfl).trans <|
  (StableHlo.after_of_writes_sub hostOps3 _ hostOps3_writes (show main_arg1 ∉ hostOps3_W by decide)).trans <|
  (B4_in m c 1 rfl).trans <| (B3_of_ne m c main_arg1 (by decide)).trans <| (B2_in m c 1 rfl).trans <|
  (StableHlo.after_of_writes_sub hostOps0 _ hostOps0_writes (show main_arg1 ∉ hostOps0_W by decide)).trans rfl
theorem B7_main_arg2 (c : Dev nD) : B7 m c (Proc.devRef .tc main_arg2) = m ((c : Thread nD τ).loc main_arg2) :=
  (StableHlo.after_of_writes_sub hostOps4 _ hostOps4_writes (show main_arg2 ∉ hostOps4_W by decide)).trans <|
  (B6_of_ne m c main_arg2 (by decide)).trans <|
  (StableHlo.after_of_writes_sub hostOps3 _ hostOps3_writes (show main_arg2 ∉ hostOps3_W by decide)).trans <|
  (B4_of_ne m c main_arg2 (by decide)).trans <| (B3_of_ne m c main_arg2 (by decide)).trans <| (B2_of_ne m c main_arg2 (by decide)).trans <|
  (StableHlo.after_of_writes_sub hostOps0 _ hostOps0_writes (show main_arg2 ∉ hostOps0_W by decide)).trans rfl
theorem B7_main_arg3 (c : Dev nD) : B7 m c (Proc.devRef .tc main_arg3) = m ((c : Thread nD τ).loc main_arg3) :=
  (StableHlo.after_of_writes_sub hostOps4 _ hostOps4_writes (show main_arg3 ∉ hostOps4_W by decide)).trans <|
  (B6_in m c 2 rfl).trans <|
  (StableHlo.after_of_writes_sub hostOps3 _ hostOps3_writes (show main_arg3 ∉ hostOps3_W by decide)).trans <|
  (B4_of_ne m c main_arg3 (by decide)).trans <| (B3_of_ne m c main_arg3 (by decide)).trans <| (B2_of_ne m c main_arg3 (by decide)).trans <|
  (StableHlo.after_of_writes_sub hostOps0 _ hostOps0_writes (show main_arg3 ∉ hostOps0_W by decide)).trans rfl
theorem B7_main_arg4 (c : Dev nD) : B7 m c (Proc.devRef .tc main_arg4) = m ((c : Thread nD τ).loc main_arg4) :=
  (StableHlo.after_of_writes_sub hostOps4 _ hostOps4_writes (show main_arg4 ∉ hostOps4_W by decide)).trans <|
  (B6_of_ne m c main_arg4 (by decide)).trans <|
  (StableHlo.after_of_writes_sub hostOps3 _ hostOps3_writes (show main_arg4 ∉ hostOps3_W by decide)).trans <|
  (B4_of_ne m c main_arg4 (by decide)).trans <| (B3_in m c 0 rfl).trans <| (B2_of_ne m c main_arg4 (by decide)).trans <|
  (StableHlo.after_of_writes_sub hostOps0 _ hostOps0_writes (show main_arg4 ∉ hostOps0_W by decide)).trans rfl
theorem B7_main_arg5 (c : Dev nD) : B7 m c (Proc.devRef .tc main_arg5) = m ((c : Thread nD τ).loc main_arg5) :=
  (StableHlo.after_of_writes_sub hostOps4 _ hostOps4_writes (show main_arg5 ∉ hostOps4_W by decide)).trans <|
  (B6_of_ne m c main_arg5 (by decide)).trans <|
  (StableHlo.after_of_writes_sub hostOps3 _ hostOps3_writes (show main_arg5 ∉ hostOps3_W by decide)).trans <|
  (B4_in m c 0 rfl).trans <| (B3_of_ne m c main_arg5 (by decide)).trans <| (B2_of_ne m c main_arg5 (by decide)).trans <|
  (StableHlo.after_of_writes_sub hostOps0 _ hostOps0_writes (show main_arg5 ∉ hostOps0_W by decide)).trans rfl
theorem B7_main_arg6 (c : Dev nD) : B7 m c (Proc.devRef .tc main_arg6) = m ((c : Thread nD τ).loc main_arg6) :=
  (StableHlo.after_of_writes_sub hostOps4 _ hostOps4_writes (show main_arg6 ∉ hostOps4_W by decide)).trans <|
  (B6_of_ne m c main_arg6 (by decide)).trans <|
  (StableHlo.after_of_writes_sub hostOps3 _ hostOps3_writes (show main_arg6 ∉ hostOps3_W by decide)).trans <|
  (B4_of_ne m c main_arg6 (by decide)).trans <| (B3_of_ne m c main_arg6 (by decide)).trans <| (B2_of_ne m c main_arg6 (by decide)).trans <|
  (StableHlo.after_of_writes_sub hostOps0 _ hostOps0_writes (show main_arg6 ∉ hostOps0_W by decide)).trans rfl
theorem B7_main_arg7 (c : Dev nD) : B7 m c (Proc.devRef .tc main_arg7) = m ((c : Thread nD τ).loc main_arg7) :=
  (StableHlo.after_of_writes_sub hostOps4 _ hostOps4_writes (show main_arg7 ∉ hostOps4_W by decide)).trans <|
  (B6_of_ne m c main_arg7 (by decide)).trans <|
  (StableHlo.after_of_writes_sub hostOps3 _ hostOps3_writes (show main_arg7 ∉ hostOps3_W by decide)).trans <|
  (B4_of_ne m c main_arg7 (by decide)).trans <| (B3_of_ne m c main_arg7 (by decide)).trans <| (B2_of_ne m c main_arg7 (by decide)).trans <|
  (StableHlo.after_of_writes_sub hostOps0 _ hostOps0_writes (show main_arg7 ∉ hostOps0_W by decide)).trans rfl
theorem B7_main_arg8 (c : Dev nD) : B7 m c (Proc.devRef .tc main_arg8) = m ((c : Thread nD τ).loc main_arg8) :=
  (StableHlo.after_of_writes_sub hostOps4 _ hostOps4_writes (show main_arg8 ∉ hostOps4_W by decide)).trans <|
  (B6_of_ne m c main_arg8 (by decide)).trans <|
  (StableHlo.after_of_writes_sub hostOps3 _ hostOps3_writes (show main_arg8 ∉ hostOps3_W by decide)).trans <|
  (B4_of_ne m c main_arg8 (by decide)).trans <| (B3_of_ne m c main_arg8 (by decide)).trans <| (B2_of_ne m c main_arg8 (by decide)).trans <|
  (StableHlo.after_of_writes_sub hostOps0 _ hostOps0_writes (show main_arg8 ∉ hostOps0_W by decide)).trans rfl
theorem B7_main_arg9 (c : Dev nD) : B7 m c (Proc.devRef .tc main_arg9) = m ((c : Thread nD τ).loc main_arg9) :=
  (StableHlo.after_of_writes_sub hostOps4 _ hostOps4_writes (show main_arg9 ∉ hostOps4_W by decide)).trans <|
  (B6_of_ne m c main_arg9 (by decide)).trans <|
  (StableHlo.after_of_writes_sub hostOps3 _ hostOps3_writes (show main_arg9 ∉ hostOps3_W by decide)).trans <|
  (B4_of_ne m c main_arg9 (by decide)).trans <| (B3_of_ne m c main_arg9 (by decide)).trans <| (B2_of_ne m c main_arg9 (by decide)).trans <|
  (StableHlo.after_of_writes_sub hostOps0 _ hostOps0_writes (show main_arg9 ∉ hostOps0_W by decide)).trans rfl
theorem B7_main_arg10 (c : Dev nD) : B7 m c (Proc.devRef .tc main_arg10) = m ((c : Thread nD τ).loc main_arg10) :=
  (StableHlo.after_of_writes_sub hostOps4 _ hostOps4_writes (show main_arg10 ∉ hostOps4_W by decide)).trans <|
  (B6_of_ne m c main_arg10 (by decide)).trans <|
  (StableHlo.after_of_writes_sub hostOps3 _ hostOps3_writes (show main_arg10 ∉ hostOps3_W by decide)).trans <|
  (B4_of_ne m c main_arg10 (by decide)).trans <| (B3_of_ne m c main_arg10 (by decide)).trans <| (B2_of_ne m c main_arg10 (by decide)).trans <|
  (StableHlo.after_of_writes_sub hostOps0 _ hostOps0_writes (show main_arg10 ∉ hostOps0_W by decide)).trans rfl
theorem B7_main_arg11 (c : Dev nD) : B7 m c (Proc.devRef .tc main_arg11) = m ((c : Thread nD τ).loc main_arg11) :=
  (StableHlo.after_of_writes_sub hostOps4 _ hostOps4_writes (show main_arg11 ∉ hostOps4_W by decide)).trans <|
  (B6_of_ne m c main_arg11 (by decide)).trans <|
  (StableHlo.after_of_writes_sub hostOps3 _ hostOps3_writes (show main_arg11 ∉ hostOps3_W by decide)).trans <|
  (B4_of_ne m c main_arg11 (by decide)).trans <| (B3_of_ne m c main_arg11 (by decide)).trans <| (B2_of_ne m c main_arg11 (by decide)).trans <|
  (StableHlo.after_of_writes_sub hostOps0 _ hostOps0_writes (show main_arg11 ∉ hostOps0_W by decide)).trans rfl
theorem B7_main_arg12 (c : Dev nD) : B7 m c (Proc.devRef .tc main_arg12) = m ((c : Thread nD τ).loc main_arg12) :=
  (StableHlo.after_of_writes_sub hostOps4 _ hostOps4_writes (show main_arg12 ∉ hostOps4_W by decide)).trans <|
  (B6_of_ne m c main_arg12 (by decide)).trans <|
  (StableHlo.after_of_writes_sub hostOps3 _ hostOps3_writes (show main_arg12 ∉ hostOps3_W by decide)).trans <|
  (B4_of_ne m c main_arg12 (by decide)).trans <| (B3_of_ne m c main_arg12 (by decide)).trans <| (B2_of_ne m c main_arg12 (by decide)).trans <|
  (StableHlo.after_of_writes_sub hostOps0 _ hostOps0_writes (show main_arg12 ∉ hostOps0_W by decide)).trans rfl
theorem B7_main_arg13 (c : Dev nD) : B7 m c (Proc.devRef .tc main_arg13) = m ((c : Thread nD τ).loc main_arg13) :=
  (StableHlo.after_of_writes_sub hostOps4 _ hostOps4_writes (show main_arg13 ∉ hostOps4_W by decide)).trans <|
  (B6_in m c 15 rfl).trans <|
  (StableHlo.after_of_writes_sub hostOps3 _ hostOps3_writes (show main_arg13 ∉ hostOps3_W by decide)).trans <|
  (B4_of_ne m c main_arg13 (by decide)).trans <| (B3_of_ne m c main_arg13 (by decide)).trans <| (B2_in m c 2 rfl).trans <|
  (StableHlo.after_of_writes_sub hostOps0 _ hostOps0_writes (show main_arg13 ∉ hostOps0_W by decide)).trans rfl
theorem B7_main_arg14 (c : Dev nD) : B7 m c (Proc.devRef .tc main_arg14) = m ((c : Thread nD τ).loc main_arg14) :=
  (StableHlo.after_of_writes_sub hostOps4 _ hostOps4_writes (show main_arg14 ∉ hostOps4_W by decide)).trans <|
  (B6_of_ne m c main_arg14 (by decide)).trans <|
  (StableHlo.after_of_writes_sub hostOps3 _ hostOps3_writes (show main_arg14 ∉ hostOps3_W by decide)).trans <|
  (B4_of_ne m c main_arg14 (by decide)).trans <| (B3_of_ne m c main_arg14 (by decide)).trans <| (B2_of_ne m c main_arg14 (by decide)).trans <|
  (StableHlo.after_of_writes_sub hostOps0 _ hostOps0_writes (show main_arg14 ∉ hostOps0_W by decide)).trans rfl
theorem B7_main_arg15 (c : Dev nD) : B7 m c (Proc.devRef .tc main_arg15) = m ((c : Thread nD τ).loc main_arg15) :=
  (StableHlo.after_of_writes_sub hostOps4 _ hostOps4_writes (show main_arg15 ∉ hostOps4_W by decide)).trans <|
  (B6_in m c 17 rfl).trans <|
  (StableHlo.after_of_writes_sub hostOps3 _ hostOps3_writes (show main_arg15 ∉ hostOps3_W by decide)).trans <|
  (B4_of_ne m c main_arg15 (by decide)).trans <| (B3_of_ne m c main_arg15 (by decide)).trans <| (B2_in m c 4 rfl).trans <|
  (StableHlo.after_of_writes_sub hostOps0 _ hostOps0_writes (show main_arg15 ∉ hostOps0_W by decide)).trans rfl
theorem B7_main_arg16 (c : Dev nD) : B7 m c (Proc.devRef .tc main_arg16) = m ((c : Thread nD τ).loc main_arg16) :=
  (StableHlo.after_of_writes_sub hostOps4 _ hostOps4_writes (show main_arg16 ∉ hostOps4_W by decide)).trans <|
  (B6_of_ne m c main_arg16 (by decide)).trans <|
  (StableHlo.after_of_writes_sub hostOps3 _ hostOps3_writes (show main_arg16 ∉ hostOps3_W by decide)).trans <|
  (B4_of_ne m c main_arg16 (by decide)).trans <| (B3_of_ne m c main_arg16 (by decide)).trans <| (B2_of_ne m c main_arg16 (by decide)).trans <|
  (StableHlo.after_of_writes_sub hostOps0 _ hostOps0_writes (show main_arg16 ∉ hostOps0_W by decide)).trans rfl
theorem B7_main_arg17 (c : Dev nD) : B7 m c (Proc.devRef .tc main_arg17) = m ((c : Thread nD τ).loc main_arg17) :=
  (StableHlo.after_of_writes_sub hostOps4 _ hostOps4_writes (show main_arg17 ∉ hostOps4_W by decide)).trans <|
  (B6_in m c 19 rfl).trans <|
  (StableHlo.after_of_writes_sub hostOps3 _ hostOps3_writes (show main_arg17 ∉ hostOps3_W by decide)).trans <|
  (B4_of_ne m c main_arg17 (by decide)).trans <| (B3_of_ne m c main_arg17 (by decide)).trans <| (B2_in m c 6 rfl).trans <|
  (StableHlo.after_of_writes_sub hostOps0 _ hostOps0_writes (show main_arg17 ∉ hostOps0_W by decide)).trans rfl
theorem B7_main_arg18 (c : Dev nD) : B7 m c (Proc.devRef .tc main_arg18) = m ((c : Thread nD τ).loc main_arg18) :=
  (StableHlo.after_of_writes_sub hostOps4 _ hostOps4_writes (show main_arg18 ∉ hostOps4_W by decide)).trans <|
  (B6_of_ne m c main_arg18 (by decide)).trans <|
  (StableHlo.after_of_writes_sub hostOps3 _ hostOps3_writes (show main_arg18 ∉ hostOps3_W by decide)).trans <|
  (B4_of_ne m c main_arg18 (by decide)).trans <| (B3_of_ne m c main_arg18 (by decide)).trans <| (B2_of_ne m c main_arg18 (by decide)).trans <|
  (StableHlo.after_of_writes_sub hostOps0 _ hostOps0_writes (show main_arg18 ∉ hostOps0_W by decide)).trans rfl
theorem B7_main_arg19 (c : Dev nD) : B7 m c (Proc.devRef .tc main_arg19) = m ((c : Thread nD τ).loc main_arg19) :=
  (StableHlo.after_of_writes_sub hostOps4 _ hostOps4_writes (show main_arg19 ∉ hostOps4_W by decide)).trans <|
  (B6_in m c 21 rfl).trans <|
  (StableHlo.after_of_writes_sub hostOps3 _ hostOps3_writes (show main_arg19 ∉ hostOps3_W by decide)).trans <|
  (B4_of_ne m c main_arg19 (by decide)).trans <| (B3_of_ne m c main_arg19 (by decide)).trans <| (B2_in m c 8 rfl).trans <|
  (StableHlo.after_of_writes_sub hostOps0 _ hostOps0_writes (show main_arg19 ∉ hostOps0_W by decide)).trans rfl
theorem B7_main_arg20 (c : Dev nD) : B7 m c (Proc.devRef .tc main_arg20) = m ((c : Thread nD τ).loc main_arg20) :=
  (StableHlo.after_of_writes_sub hostOps4 _ hostOps4_writes (show main_arg20 ∉ hostOps4_W by decide)).trans <|
  (B6_of_ne m c main_arg20 (by decide)).trans <|
  (StableHlo.after_of_writes_sub hostOps3 _ hostOps3_writes (show main_arg20 ∉ hostOps3_W by decide)).trans <|
  (B4_of_ne m c main_arg20 (by decide)).trans <| (B3_of_ne m c main_arg20 (by decide)).trans <| (B2_of_ne m c main_arg20 (by decide)).trans <|
  (StableHlo.after_of_writes_sub hostOps0 _ hostOps0_writes (show main_arg20 ∉ hostOps0_W by decide)).trans rfl

/-! ## The proof data family and the thread state -/

/-- No pipeline has a prefetched table. -/
abbrev padm : (p : Fin 4) → (pcfgs (F := F) p).Adm := fun p => (cfgs p).toPCfg_adm
/-- Every region's proof data, each at its region's entry contents. -/
def pdat : (p : Fin 4) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E2 m) c
  | ⟨2, _⟩ => fun c => dat2 (E3 m) c
  | ⟨3, _⟩ => fun c => dat3 (E5 m) c
abbrev 𝒱r : Variants := Variants.none
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment over the unscoped buffers from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tlast (c : Dev nD) : sProp 𝕄 := iprop(StableHlo.held (c : Thread nD τ) (Pipeline.ucRefs τ sig) (B7 m c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator register
    goes into the region's invariant and comes out; nothing is owed; the kernel has no semaphore of its own. -/
def sreg0 : Pipeline.RegionSeg (pcfgs (F := F)) padm (pdat m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lr lvr 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pdat m) launch0.win launch0.arr_whole c
      ((pdat m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdat m) ((pdat m 0 c).share_full fun _ => rfl)
      (E1 m c) (E2 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator register
    goes into the region's invariant and comes out; nothing is owed; the kernel has no semaphore of its own. -/
def sreg1 : Pipeline.RegionSeg (pcfgs (F := F)) padm (pdat m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lr lvr 1 fun _ _ => rfl
  pre c := iprop(StableHlo.held (c : Thread nD τ) (Pipeline.ucRefs τ sig) (B2 m c) ∗ Rr c)
  post c := iprop(StableHlo.held (c : Thread nD τ) (Pipeline.ucRefs τ sig) (B3 m c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) padm (pdat m) launch1.win launch1.arr_whole c
      ((pdat m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdat m) ((pdat m 1 c).share_full fun _ => rfl)
      (E2 m c) (E3 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's. Its arrays are split out of the unscoped buffers and put back at the exit contents; the generator register
    goes into the region's invariant and comes out; nothing is owed; the kernel has no semaphore of its own. -/
def sreg2 : Pipeline.RegionSeg (pcfgs (F := F)) padm (pdat m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ Lr lvr 2 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) padm (pdat m) launch2.win launch2.arr_whole c
      ((pdat m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdat m) ((pdat m 2 c).share_full fun _ => rfl)
      (E3 m c) (E4 m c) ((pdat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary's contents, left at the next
    boundary's. Its arrays are split out of the unscoped buffers and put back at the exit contents; the generator register
    goes into the region's invariant and comes out; nothing is owed; the kernel has no semaphore of its own. -/
def sreg3 : Pipeline.RegionSeg (pcfgs (F := F)) padm (pdat m) () defs₀ 𝒱r Lr lvr 3 where
  win := launch3.win.to₀
  block_pos := launch3.block_pos
  stage_whole := launch3.stage_whole
  K := PEmpty
  osem k := k.elim
  ho := Pipeline.OwnSemFacts.none _
  hbody c := (body_obligation3 (E5 m) c).loose
  hwaits := Pipeline.hwaits_of_owed_zero _ _ _ _ Lr lvr 3 fun _ _ => rfl
  pre c := iprop(StableHlo.held (c : Thread nD τ) (Pipeline.ucRefs τ sig) (B5 m c) ∗ Rr c)
  post c := iprop(StableHlo.held (c : Thread nD τ) (Pipeline.ucRefs τ sig) (B6 m c) ∗ Rr c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Pipeline.arrays_of_unscopedBufs (p := 3) (pcfgs (F := F)) padm (pdat m) launch3.win launch3.arr_whole c
      ((pdat m 3 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdat m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdat m) ((pdat m 3 c).share_full fun _ => rfl)
      (E5 m c) (E6 m c) ((pdat m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev allSegs : List (Pipeline.Seg (pcfgs (F := F)) padm (pdat m) () defs₀ 𝒱r Lr lvr) :=
  [ .host (hsegr hostOps0 hostOps0_sub hostOps0_fresh (B0 m)),
    .region (sreg0 m),
    .region (sreg1 m),
    .region (sreg2 m),
    .host (hsegr hostOps3 hostOps3_sub hostOps3_fresh (B4 m)),
    .region (sreg3 m),
    .host (hsegr hostOps4 hostOps4_sub hostOps4_fresh (B6 m)) ]
/-- The program IS the run of its segments. -/
theorem main_runs (c : Dev nD) : main (F := F) c = Pipeline.Seg.run (allSegs m) := (main_chain c).trans (by chain_rfl)

set_option backward.isDefEq.respectTransparency.types false in
/-- THE RUN: from any memory with zero counters, every weakly fair execution of the program on the cores terminates,
    nothing faulting, and every final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) padm (pdat m) () cellOf_inj emb₁ defs₀ 𝒱r Lr lvr m ρ main (allSegs m)
    (fun c Q => by rw [main_runs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m c) ∗ Rr c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h => h)

/-- THE FRAME at any float instance: every weakly fair execution terminates and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨
      (h c _ (mem_ucr main_arg0 (by decide))).trans (B7_main_arg0 m c),
      (h c _ (mem_ucr main_arg1 (by decide))).trans (B7_main_arg1 m c),
      (h c _ (mem_ucr main_arg2 (by decide))).trans (B7_main_arg2 m c),
      (h c _ (mem_ucr main_arg3 (by decide))).trans (B7_main_arg3 m c),
      (h c _ (mem_ucr main_arg4 (by decide))).trans (B7_main_arg4 m c),
      (h c _ (mem_ucr main_arg5 (by decide))).trans (B7_main_arg5 m c),
      (h c _ (mem_ucr main_arg6 (by decide))).trans (B7_main_arg6 m c),
      (h c _ (mem_ucr main_arg7 (by decide))).trans (B7_main_arg7 m c),
      (h c _ (mem_ucr main_arg8 (by decide))).trans (B7_main_arg8 m c),
      (h c _ (mem_ucr main_arg9 (by decide))).trans (B7_main_arg9 m c),
      (h c _ (mem_ucr main_arg10 (by decide))).trans (B7_main_arg10 m c),
      (h c _ (mem_ucr main_arg11 (by decide))).trans (B7_main_arg11 m c),
      (h c _ (mem_ucr main_arg12 (by decide))).trans (B7_main_arg12 m c),
      (h c _ (mem_ucr main_arg13 (by decide))).trans (B7_main_arg13 m c),
      (h c _ (mem_ucr main_arg14 (by decide))).trans (B7_main_arg14 m c),
      (h c _ (mem_ucr main_arg15 (by decide))).trans (B7_main_arg15 m c),
      (h c _ (mem_ucr main_arg16 (by decide))).trans (B7_main_arg16 m c),
      (h c _ (mem_ucr main_arg17 (by decide))).trans (B7_main_arg17 m c),
      (h c _ (mem_ucr main_arg18 (by decide))).trans (B7_main_arg18 m c),
      (h c _ (mem_ucr main_arg19 (by decide))).trans (B7_main_arg19 m c),
      (h c _ (mem_ucr main_arg20 (by decide))).trans (B7_main_arg20 m c)⟩)
    (run_all m ρ)

end Cert.Kernel.Reg

end
-- ==== Proof.KI.Reg0.lean ====
/-
  Region 0 of the program: the first pallas_call, the two prediction heads computed at once on a one-point grid.
  Every window is its whole array in one block. The body reads the ten operand blocks whole and writes each of the two
  result blocks by one whole store: result 0 is the head applied to the first feature matrix with the first head's
  weights, result 1 the head applied to the second feature matrix with the second head's weights. Stated for any float
  instance: what each staging buffer holds after the body (the result blocks as one store of the body's arithmetic over
  the operand blocks), the body's triple, the region's proof data and the body obligation at every grid point.
-/
import proofs.«153655_j17970143167165_2_alg».proof.Proof.Gen.KernelIdeal.Launch
import proofs.«153655_j17970143167165_2_alg».proof.Proof.Gen.KernelIdeal.Skeleton
import proofs.«153655_j17970143167165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's staging buffer holds the window's block when the body starts, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's staging buffer holds the window's block when the body starts, for any proof data whose array is
    the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's staging buffer holds the window's block when the body starts, for any proof data whose array is
    the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's staging buffer holds the window's block when the body starts, for any proof data whose array is
    the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's staging buffer holds the window's block when the body starts, for any proof data whose array is
    the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's staging buffer holds the window's block when the body starts, for any proof data whose array is
    the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Operand window 6's staging buffer holds the window's block when the body starts, for any proof data whose array is
    the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Operand window 7's staging buffer holds the window's block when the body starts, for any proof data whose array is
    the entry contents and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Operand window 8's staging buffer holds the window's block when the body starts, for any proof data whose array is
    the entry contents and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Operand window 9's staging buffer holds the window's block when the body starts, for any proof data whose array is
    the entry contents and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev rw_S768x256 : Rect S768x256 := Rect.unit (s := S768x256) ![0, 0] S768x256.size inb_S768x256_S768x256_0_0
abbrev rw_S256x64 : Rect S256x64 := Rect.unit (s := S256x64) ![0, 0] S256x64.size inb_S256x64_S256x64_0_0
abbrev rw_S1x64 : Rect S1x64 := Rect.unit (s := S1x64) ![0, 0] S1x64.size inb_S1x64_S1x64_0_0
abbrev rw_S64x1 : Rect S64x1 := Rect.unit (s := S64x1) ![0, 0] S64x1.size inb_S64x1_S64x1_0_0
abbrev rw_S1x1 : Rect S1x1 := Rect.unit (s := S1x1) ![0, 0] S1x1.size inb_S1x1_S1x1_0_0
abbrev rw_S768x1 : Rect S768x1 := Rect.unit (s := S768x1) ![0, 0] S768x1.size inb_S768x1_S768x1_0_0

/-! ## What the body leaves in the two result blocks -/

/-- Result 0's block after the body: one whole store of the first head's arithmetic over the blocks of the first feature
    matrix, the first head's two weight matrices and its two biases. -/
def out0_10 (x0 : Vec F S768x256 .f32) (x2 : Vec F S256x64 .f32) (x3 : Vec F S1x64 .f32) (x4 : Vec F S64x1 .f32) (x5 : Vec F S1x1 .f32) : Vec F S768x1 .f32 :=
  View.canon [⟨rw_S768x1, k0_pay2 (View.ld x0 rw_S768x256) (View.ld x2 rw_S256x64) (View.ld x3 rw_S1x64) (View.ld x4 rw_S64x1) (View.ld x5 rw_S1x1)⟩]

/-- Result 1's block after the body: the same head over the second feature matrix and the second head's parameters. -/
def out0_11 (x1 : Vec F S768x256 .f32) (x6 : Vec F S256x64 .f32) (x7 : Vec F S1x64 .f32) (x8 : Vec F S64x1 .f32) (x9 : Vec F S1x1 .f32) : Vec F S768x1 .f32 :=
  View.canon [⟨rw_S768x1, k0_pay1 (View.ld x8 rw_S64x1) (k0_pay3 (View.ld x9 rw_S1x1)) (k0_pay4 (View.ld x1 rw_S768x256) (View.ld x6 rw_S256x64)) (k0_pay5 (View.ld x7 rw_S1x64))⟩]

/-- One whole store covers its block. -/
theorem cover0_out (p0 : Vec F S768x1 .f32) (y : S768x1.Idx) :
    ∃ pc ∈ ([⟨rw_S768x1, p0⟩] : List (View.Piece (Elt F) S768x1 .f32)), y ∈ pc.1.set :=
  View.cover_of_tiled [⟨rw_S768x1, p0⟩] S768x1.size (by rfl) y

/-! ## The body's triple -/

set_option maxHeartbeats 4000000 in
/-- The body on whole staging memrefs, the operands' at read contents and the results' at anything, runs to the
    continuation holding the operands' as they were and each result's at its block above. -/
theorem sound_kernel0 (c : Dev nD) (E : Set ℕ) (i : grid0.Coords)
    (arg1 : Memref sig .tc .vmem S768x256 .f32) (harg1 : arg1.IsWhole)
    (arg2 : Memref sig .tc .vmem S768x256 .f32) (harg2 : arg2.IsWhole)
    (arg3 : Memref sig .tc .vmem S256x64 .f32) (harg3 : arg3.IsWhole)
    (arg4 : Memref sig .tc .vmem S1x64 .f32) (harg4 : arg4.IsWhole)
    (arg5 : Memref sig .tc .vmem S64x1 .f32) (harg5 : arg5.IsWhole)
    (arg6 : Memref sig .tc .vmem S1x1 .f32) (harg6 : arg6.IsWhole)
    (arg7 : Memref sig .tc .vmem S256x64 .f32) (harg7 : arg7.IsWhole)
    (arg8 : Memref sig .tc .vmem S1x64 .f32) (harg8 : arg8.IsWhole)
    (arg9 : Memref sig .tc .vmem S64x1 .f32) (harg9 : arg9.IsWhole)
    (arg10 : Memref sig .tc .vmem S1x1 .f32) (harg10 : arg10.IsWhole)
    (arg11 : Memref sig .tc .vmem S768x1 .f32) (harg11 : arg11.IsWhole)
    (arg12 : Memref sig .tc .vmem S768x1 .f32) (harg12 : arg12.IsWhole)
    (x0 : Vec F S768x256 .f32) (x1 : Vec F S768x256 .f32) (x2 : Vec F S256x64 .f32) (x3 : Vec F S1x64 .f32) (x4 : Vec F S64x1 .f32) (x5 : Vec F S1x1 .f32) (x6 : Vec F S256x64 .f32) (x7 : Vec F S1x64 .f32) (x8 : Vec F S64x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x2 x3 x4 x5) ∗ owns (c : Thread nD τ) arg12 fullShare (out0_11 x1 x6 x7 x8 x9)) -∗ K ⟨⟩))
      ⊢ wp frame (wpE (defs₀ (F := F)) Variants.none c none) E (cc0__pred2_kernel i arg1 harg1 arg2 harg2 arg3 harg3 arg4 harg4 arg5 harg5 arg6 harg6 arg7 harg7 arg8 harg8 arg9 harg9 arg10 harg10 arg11 harg11 arg12 harg12) K := by
  simp only [cc0__pred2_kernel_eq_skeleton]; unfold cc0__pred2_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-! ## The region's proof data -/

/-- The proof data of this region on core `c`: the arrays as the region finds them; after the body each operand's buffer
    at its block and each result's at its block above; the invariant the plain one (scratch and the generator register,
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 2 t) (iblk0 V c 3 t) (iblk0 V c 4 t) (iblk0 V c 5 t)
    | ⟨11, _⟩ => out0_11 (iblk0 V c 1 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 2 t) (iblk0 V c 3 t) (iblk0 V c 4 t) (iblk0 V c 5 t) := by dsimp only [dat0]
theorem after0_11 (c : Dev nD) (t : Fin cfg0.N) : (dat0 V c).after 11 t = out0_11 (iblk0 V c 1 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the operands' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of this region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Reg1.lean ====
/- Region 1 of the program (the first row-blocked maximum of products): per window its block at a point, what the
   body leaves in the output block as a function of the input blocks, the body's triple through the counted loop,
   the proof data and the body obligation — at a parameter `V`, the core's buffer contents when the region is entered. -/
import proofs.«153655_j17970143167165_2_alg».proof.Proof.Gen.KernelIdeal.Launch
import proofs.«153655_j17970143167165_2_alg».proof.Proof.Gen.KernelIdeal.Skeleton
import proofs.«153655_j17970143167165_2_alg».proof.Proof.Gen.KernelIdeal.Points
import proofs.«153655_j17970143167165_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! # Region 1: the row-blocked maximum of products, six row blocks of 128 rows -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a 128-row block of the mask, its index moving with the point) holds its block at every point,
    for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole second factor, its index constant over the grid, fetched at the first point only)
    holds its block at every point: where it is not fetched the index has not moved, and the body left it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one store: the whole 128×256 output block. -/
abbrev r1_0 : Rect S128x256 := Rect.unit (s := S128x256) ![0, 0] S128x256.size inb_S128x256_S128x256_0_0

/-- Trip `k`'s loads: columns `128 k … 128 k + 127` of the mask block, rows `128 k … 128 k + 127` of the second factor. -/
abbrev l1_0 (k : Fin k1_t1_loop.trips) : Rect S128x768 := Rect.unit (s := S128x768) (k1_off1 k) S128x128.size (k1_off1_inb k)
abbrev l1_1 (k : Fin k1_t1_loop.trips) : Rect S768x256 := Rect.unit (s := S768x256) (k1_off2 k) S128x256.size (k1_off2_inb k)

/-! ## The counted loop's carried value, as a function of the input blocks alone -/

/-- One trip of the loop over the input blocks `x0`, `x1`: the trip's payload of the carried value and the two
    chunks the trip loads. -/
def trip1 (k : Fin k1_t1_loop.trips) (x0 : Vec F S128x768 .f32) (x1 : Vec F S768x256 .f32) (acc : FVec F S128x256 .bf16) :
    FVec F S128x256 .bf16 :=
  k1_pay2 acc (View.ld x0 (l1_0 k)) (View.ld x1 (l1_1 k))

/-- The carried value before trip `k`: the initial broadcast, then one `trip1` per trip. -/
def acc1 (x0 : Vec F S128x768 .f32) (x1 : Vec F S768x256 .f32) : ℕ → FVec F S128x256 .bf16
  | 0 => k1_pay1
  | k + 1 => if h : k < k1_t1_loop.trips then trip1 ⟨k, h⟩ x0 x1 (acc1 x0 x1 k) else acc1 x0 x1 k

theorem acc1_succ (x0 : Vec F S128x768 .f32) (x1 : Vec F S768x256 .f32) (k : Fin k1_t1_loop.trips) :
    acc1 x0 x1 (k.val + 1) = trip1 k x0 x1 (acc1 x0 x1 k.val) := by
  rw [acc1.eq_2]; exact dif_pos k.isLt

/-- What one trip of the generated loop instance yields is `trip1` of what its two memrefs read: the trip's
    definition opened, this once; a load through a rectangle of contents `f` is `View.ld` of what the view reads of `f`. -/
theorem tripR1_eq (𝒱 : Variants) (c : Dev nD) (bd : Option 𝒱.V) (i : grid1.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (k : Fin k1_t1_loop.trips) (acc : FVec F S128x256 .bf16) :
    tripR_k1_t1 (F := F) 𝒱 c bd i arg1 harg1 arg2 harg2 arg3 harg3 X_arg1 X_arg2 k acc
      = trip1 k (arg1.view.read (Elt F) X_arg1) (arg2.view.read (Elt F) X_arg2) acc := by
  unfold tripR_k1_t1 trip_k1_t1
  rfl

/-- So the generated recursion on the trips' yields is `acc1` of what the two memrefs read, at every trip count. -/
theorem st1_eq (𝒱 : Variants) (c : Dev nD) (bd : Option 𝒱.V) (i : grid1.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (n : ℕ) :
    st_k1_t1 (F := F) 𝒱 c bd i arg1 harg1 arg2 harg2 arg3 harg3 X_arg1 X_arg2 k1_pay1 n
      = acc1 (arg1.view.read (Elt F) X_arg1) (arg2.view.read (Elt F) X_arg2) n := by
  induction n with
  | zero => rfl
  | succ n ih =>
    rw [st_k1_t1.eq_2, acc1.eq_2, ih]; unfold st_k1_t1Step
    by_cases h : n < k1_t1_loop.trips
    · rw [dif_pos h, dif_pos h]; exact tripR1_eq 𝒱 c bd i arg1 harg1 arg2 harg2 arg3 harg3 X_arg1 X_arg2 ⟨n, h⟩ _
    · rw [dif_neg h, dif_neg h]

/-! ## What the body leaves in the output window's buffer -/

/-- Window 2's staging buffer after the body, from the input windows' blocks: its one store, of the widened
    carried value after the last trip, over the whole block. -/
def out1_2 (x0 : Vec F S128x768 .f32) (x1 : Vec F S768x256 .f32) : Vec F S128x256 .f32 :=
  View.canon [⟨r1_0, k1_pay3 (acc1 x0 x1 k1_t1_loop.trips)⟩]

/-- The store is of the whole block, so it covers it. -/
theorem cover1_2 (p0 : Vec F S128x256 .f32) (y : S128x256.Idx) :
    ∃ pc ∈ ([⟨r1_0, p0⟩] : List (View.Piece (Elt F) S128x256 .f32)), y ∈ pc.1.set :=
  View.cover_of_tiled [⟨r1_0, p0⟩] S128x256.size (by rfl) y

/-! ## The body's triple -/

set_option maxHeartbeats 1000000 in
/-- The kernel body on whole staging memrefs, the inputs' at read contents `x0`, `x1` and the output's at anything,
    runs to the continuation holding the inputs' as they were and the output's at `out1_2 x0 x1`: the loop is passed
    by its generated invariant, and its result is `acc1` at the trip count (`st1_eq`). -/
theorem sound_kernel1 (c : Dev nD) (E : Set ℕ) (i : grid1.Coords)
    (arg0 : Memref sig .tc .vmem S128x768 .f32) (harg0 : arg0.IsWhole)
    (arg1 : Memref sig .tc .vmem S768x256 .f32) (harg1 : arg1.IsWhole)
    (arg2 : Memref sig .tc .vmem S128x256 .f32) (harg2 : arg2.IsWhole)
    (x0 : Vec F S128x768 .f32) (x1 : Vec F S768x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__conflict_kernel i arg0 harg0 arg1 harg1 arg2 harg2) K := by
  simp only [cc1__conflict_kernel_eq_skeleton]; unfold cc1__conflict_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [st1_eq]
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Reg

end
-- ==== Proof.KI.Reg2.lean ====
/- Region 2 of the program (the second row-blocked maximum of products): per window its block at a point, what the
   body leaves in the output block as a function of the input blocks, the body's triple through the counted loop,
   the proof data and the body obligation — at a parameter `V`, the core's buffer contents when the region is entered. -/
import proofs.«153655_j17970143167165_2_alg».proof.Proof.Gen.KernelIdeal.Launch
import proofs.«153655_j17970143167165_2_alg».proof.Proof.Gen.KernelIdeal.Skeleton
import proofs.«153655_j17970143167165_2_alg».proof.Proof.Gen.KernelIdeal.Points
import proofs.«153655_j17970143167165_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! # Region 2: the row-blocked maximum of products, six row blocks of 128 rows -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a 128-row block of the mask, its index moving with the point) holds its block at every point,
    for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole second factor, its index constant over the grid, fetched at the first point only)
    holds its block at every point: where it is not fetched the index has not moved, and the body left it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one store: the whole 128×256 output block. -/
abbrev r2_0 : Rect S128x256 := Rect.unit (s := S128x256) ![0, 0] S128x256.size inb_S128x256_S128x256_0_0

/-- Trip `k`'s loads: columns `128 k … 128 k + 127` of the mask block, rows `128 k … 128 k + 127` of the second factor. -/
abbrev l2_0 (k : Fin k2_t1_loop.trips) : Rect S128x768 := Rect.unit (s := S128x768) (k2_off1 k) S128x128.size (k2_off1_inb k)
abbrev l2_1 (k : Fin k2_t1_loop.trips) : Rect S768x256 := Rect.unit (s := S768x256) (k2_off2 k) S128x256.size (k2_off2_inb k)

/-! ## The counted loop's carried value, as a function of the input blocks alone -/

/-- One trip of the loop over the input blocks `x0`, `x1`: the trip's payload of the carried value and the two
    chunks the trip loads. -/
def trip2 (k : Fin k2_t1_loop.trips) (x0 : Vec F S128x768 .f32) (x1 : Vec F S768x256 .f32) (acc : FVec F S128x256 .bf16) :
    FVec F S128x256 .bf16 :=
  k2_pay2 acc (View.ld x0 (l2_0 k)) (View.ld x1 (l2_1 k))

/-- The carried value before trip `k`: the initial broadcast, then one `trip2` per trip. -/
def acc2 (x0 : Vec F S128x768 .f32) (x1 : Vec F S768x256 .f32) : ℕ → FVec F S128x256 .bf16
  | 0 => k2_pay1
  | k + 1 => if h : k < k2_t1_loop.trips then trip2 ⟨k, h⟩ x0 x1 (acc2 x0 x1 k) else acc2 x0 x1 k

theorem acc2_succ (x0 : Vec F S128x768 .f32) (x1 : Vec F S768x256 .f32) (k : Fin k2_t1_loop.trips) :
    acc2 x0 x1 (k.val + 1) = trip2 k x0 x1 (acc2 x0 x1 k.val) := by
  rw [acc2.eq_2]; exact dif_pos k.isLt

/-- What one trip of the generated loop instance yields is `trip2` of what its two memrefs read: the trip's
    definition opened, this once; a load through a rectangle of contents `f` is `View.ld` of what the view reads of `f`. -/
theorem tripR2_eq (𝒱 : Variants) (c : Dev nD) (bd : Option 𝒱.V) (i : grid2.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (k : Fin k2_t1_loop.trips) (acc : FVec F S128x256 .bf16) :
    tripR_k2_t1 (F := F) 𝒱 c bd i arg1 harg1 arg2 harg2 arg3 harg3 X_arg1 X_arg2 k acc
      = trip2 k (arg1.view.read (Elt F) X_arg1) (arg2.view.read (Elt F) X_arg2) acc := by
  unfold tripR_k2_t1 trip_k2_t1
  rfl

/-- So the generated recursion on the trips' yields is `acc2` of what the two memrefs read, at every trip count. -/
theorem st2_eq (𝒱 : Variants) (c : Dev nD) (bd : Option 𝒱.V) (i : grid2.Coords) (arg1 : Memref sig .tc .vmem S128x768 .f32) (harg1 : arg1.IsWhole) (arg2 : Memref sig .tc .vmem S768x256 .f32) (harg2 : arg2.IsWhole) (arg3 : Memref sig .tc .vmem S128x256 .f32) (harg3 : arg3.IsWhole) (X_arg1 : BufTy.Contents (Elt F) arg1.view.ty) (X_arg2 : BufTy.Contents (Elt F) arg2.view.ty) (n : ℕ) :
    st_k2_t1 (F := F) 𝒱 c bd i arg1 harg1 arg2 harg2 arg3 harg3 X_arg1 X_arg2 k2_pay1 n
      = acc2 (arg1.view.read (Elt F) X_arg1) (arg2.view.read (Elt F) X_arg2) n := by
  induction n with
  | zero => rfl
  | succ n ih =>
    rw [st_k2_t1.eq_2, acc2.eq_2, ih]; unfold st_k2_t1Step
    by_cases h : n < k2_t1_loop.trips
    · rw [dif_pos h, dif_pos h]; exact tripR2_eq 𝒱 c bd i arg1 harg1 arg2 harg2 arg3 harg3 X_arg1 X_arg2 ⟨n, h⟩ _
    · rw [dif_neg h, dif_neg h]

/-! ## What the body leaves in the output window's buffer -/

/-- Window 2's staging buffer after the body, from the input windows' blocks: its one store, of the widened
    carried value after the last trip, over the whole block. -/
def out2_2 (x0 : Vec F S128x768 .f32) (x1 : Vec F S768x256 .f32) : Vec F S128x256 .f32 :=
  View.canon [⟨r2_0, k2_pay3 (acc2 x0 x1 k2_t1_loop.trips)⟩]

/-- The store is of the whole block, so it covers it. -/
theorem cover2_2 (p0 : Vec F S128x256 .f32) (y : S128x256.Idx) :
    ∃ pc ∈ ([⟨r2_0, p0⟩] : List (View.Piece (Elt F) S128x256 .f32)), y ∈ pc.1.set :=
  View.cover_of_tiled [⟨r2_0, p0⟩] S128x256.size (by rfl) y

/-! ## The body's triple -/

set_option maxHeartbeats 1000000 in
/-- The kernel body on whole staging memrefs, the inputs' at read contents `x0`, `x1` and the output's at anything,
    runs to the continuation holding the inputs' as they were and the output's at `out2_2 x0 x1`: the loop is passed
    by its generated invariant, and its result is `acc2` at the trip count (`st2_eq`). -/
theorem sound_kernel2 (c : Dev nD) (E : Set ℕ) (i : grid2.Coords)
    (arg0 : Memref sig .tc .vmem S128x768 .f32) (harg0 : arg0.IsWhole)
    (arg1 : Memref sig .tc .vmem S768x256 .f32) (harg1 : arg1.IsWhole)
    (arg2 : Memref sig .tc .vmem S128x256 .f32) (harg2 : arg2.IsWhole)
    (x0 : Vec F S128x768 .f32) (x1 : Vec F S768x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__conflict_kernel i arg0 harg0 arg1 harg1 arg2 harg2) K := by
  simp only [cc2__conflict_kernel_eq_skeleton]; unfold cc2__conflict_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [st2_eq]
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Reg

end
-- ==== Proof.KI.Reg3.lean ====
/- Region 3 of @main: the fused update kernel (pipeline 3), at the contents `V` the TensorCore's buffers hold
   when the region is entered. The grid has one point. The body loads each of its 23 input windows whole, stores
   each of its two output windows whole once (after a load of that output whose value it never uses), and
   computes in between; so each output's staging buffer after the body is the canon of its one store, the stored
   payload written over the input windows' blocks. -/
import proofs.«153655_j17970143167165_2_alg».proof.Proof.Gen.KernelIdeal.Launch
import proofs.«153655_j17970143167165_2_alg».proof.Proof.Gen.KernelIdeal.Skeleton
import proofs.«153655_j17970143167165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and store is of a whole buffer -/

abbrev r3_S768x256 : Rect S768x256 := Rect.unit (s := S768x256) ![0, 0] S768x256.size inb_S768x256_S768x256_0_0
abbrev r3_S768x768 : Rect S768x768 := Rect.unit (s := S768x768) ![0, 0] S768x768.size inb_S768x768_S768x768_0_0
abbrev r3_S1x768 : Rect S1x768 := Rect.unit (s := S1x768) ![0, 0] S1x768.size inb_S1x768_S1x768_0_0
abbrev r3_S768x1 : Rect S768x1 := Rect.unit (s := S768x1) ![0, 0] S768x1.size inb_S768x1_S768x1_0_0
abbrev r3_S256x256 : Rect S256x256 := Rect.unit (s := S256x256) ![0, 0] S256x256.size inb_S256x256_S256x256_0_0
abbrev r3_S1x256 : Rect S1x256 := Rect.unit (s := S1x256) ![0, 0] S1x256.size inb_S1x256_S1x256_0_0
abbrev r3_S256x64 : Rect S256x64 := Rect.unit (s := S256x64) ![0, 0] S256x64.size inb_S256x64_S256x64_0_0
abbrev r3_S1x64 : Rect S1x64 := Rect.unit (s := S1x64) ![0, 0] S1x64.size inb_S1x64_S1x64_0_0
abbrev r3_S64x1 : Rect S64x1 := Rect.unit (s := S64x1) ![0, 0] S64x1.size inb_S64x1_S64x1_0_0
abbrev r3_S1x1 : Rect S1x1 := Rect.unit (s := S1x1) ![0, 0] S1x1.size inb_S1x1_S1x1_0_0

/-! ## What the body leaves in each output window's buffer -/

/-- Window 23's staging buffer after the body, from the input windows' blocks: its one store, of the first
    logistic head, over the blocks the head reads. -/
def out3_23 (x0 : Vec F S768x256 .f32) (x1 : Vec F S768x256 .f32) (x2 : Vec F S768x768 .f32) (x3 : Vec F S1x768 .f32) (x4 : Vec F S768x1 .f32) (x5 : Vec F S768x256 .f32) (x7 : Vec F S256x256 .f32) (x8 : Vec F S256x256 .f32) (x9 : Vec F S256x256 .f32) (x10 : Vec F S1x256 .f32) (x15 : Vec F S256x64 .f32) (x16 : Vec F S1x64 .f32) (x17 : Vec F S64x1 .f32) (x18 : Vec F S1x1 .f32) : Vec F S768x1 .f32 :=
  View.canon [⟨r3_S768x1, k3_pay6 (k3_pay4 (View.ld x3 r3_S1x768) (View.ld x4 r3_S768x1) (View.ld x2 r3_S768x768) (View.ld x1 r3_S768x256) (View.ld x0 r3_S768x256) (View.ld x7 r3_S256x256) (View.ld x8 r3_S256x256)) (k3_pay5 (View.ld x5 r3_S768x256)) (View.ld x9 r3_S256x256) (View.ld x10 r3_S1x256) (View.ld x15 r3_S256x64) (View.ld x16 r3_S1x64) (View.ld x17 r3_S64x1) (View.ld x18 r3_S1x1)⟩]

/-- Window 24's staging buffer after the body: its one store, of the second logistic head. -/
def out3_24 (x0 : Vec F S768x256 .f32) (x1 : Vec F S768x256 .f32) (x2 : Vec F S768x768 .f32) (x3 : Vec F S1x768 .f32) (x4 : Vec F S768x1 .f32) (x6 : Vec F S768x256 .f32) (x11 : Vec F S256x256 .f32) (x12 : Vec F S256x256 .f32) (x13 : Vec F S256x256 .f32) (x14 : Vec F S1x256 .f32) (x19 : Vec F S256x64 .f32) (x20 : Vec F S1x64 .f32) (x21 : Vec F S64x1 .f32) (x22 : Vec F S1x1 .f32) : Vec F S768x1 .f32 :=
  View.canon [⟨r3_S768x1, k3_pay1 (View.ld x21 r3_S64x1) (k3_pay8 (View.ld x22 r3_S1x1)) (k3_pay9 (View.ld x1 r3_S768x256) (k3_pay7 (k3_pay2 (View.ld x3 r3_S1x768) (View.ld x4 r3_S768x1) (View.ld x2 r3_S768x768)) (k3_pay3 (View.ld x3 r3_S1x768) (View.ld x4 r3_S768x1) (View.ld x2 r3_S768x768)) (View.ld x0 r3_S768x256)) (View.ld x11 r3_S256x256) (View.ld x12 r3_S256x256) (View.ld x6 r3_S768x256) (View.ld x13 r3_S256x256) (View.ld x14 r3_S1x256) (View.ld x19 r3_S256x64) (View.ld x20 r3_S1x64)) (Scalar.ofBits .f32 0x00000000#32)⟩]

/-- A whole-buffer store covers the buffer. -/
theorem cover3_o (p0 : Vec F S768x1 .f32) (y : S768x1.Idx) :
    ∃ pc ∈ ([⟨r3_S768x1, p0⟩] : List (View.Piece (Elt F) S768x1 .f32)), y ∈ pc.1.set :=
  View.cover_of_tiled [⟨r3_S768x1, p0⟩] S768x1.size (by rfl) y

/-! ## The body's triple -/

set_option maxHeartbeats 4000000 in
/-- The kernel body on whole staging memrefs, the inputs' at read contents `xW` and the outputs' at anything, runs
    to the continuation holding the inputs' as they were and each output's at `out3_W` of the inputs'. -/
theorem sound_kernel3 (c : Dev nD) (E : Set ℕ) (i : grid3.Coords) (arg1 : Memref sig .tc .vmem S768x256 .f32) (harg1 : arg1.IsWhole) (arg2 : Memref sig .tc .vmem S768x256 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x1 .f32) (harg5 : arg5.IsWhole) (arg6 : Memref sig .tc .vmem S768x256 .f32) (harg6 : arg6.IsWhole) (arg7 : Memref sig .tc .vmem S768x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x64 .f32) (harg16 : arg16.IsWhole) (arg17 : Memref sig .tc .vmem S1x64 .f32) (harg17 : arg17.IsWhole) (arg18 : Memref sig .tc .vmem S64x1 .f32) (harg18 : arg18.IsWhole) (arg19 : Memref sig .tc .vmem S1x1 .f32) (harg19 : arg19.IsWhole) (arg20 : Memref sig .tc .vmem S256x64 .f32) (harg20 : arg20.IsWhole) (arg21 : Memref sig .tc .vmem S1x64 .f32) (harg21 : arg21.IsWhole) (arg22 : Memref sig .tc .vmem S64x1 .f32) (harg22 : arg22.IsWhole) (arg23 : Memref sig .tc .vmem S1x1 .f32) (harg23 : arg23.IsWhole) (arg24 : Memref sig .tc .vmem S768x1 .f32) (harg24 : arg24.IsWhole) (arg25 : Memref sig .tc .vmem S768x1 .f32) (harg25 : arg25.IsWhole)
    (x0 : Vec F S768x256 .f32) (x1 : Vec F S768x256 .f32) (x2 : Vec F S768x768 .f32) (x3 : Vec F S1x768 .f32) (x4 : Vec F S768x1 .f32) (x5 : Vec F S768x256 .f32) (x6 : Vec F S768x256 .f32) (x7 : Vec F S256x256 .f32) (x8 : Vec F S256x256 .f32) (x9 : Vec F S256x256 .f32) (x10 : Vec F S1x256 .f32) (x11 : Vec F S256x256 .f32) (x12 : Vec F S256x256 .f32) (x13 : Vec F S256x256 .f32) (x14 : Vec F S1x256 .f32) (x15 : Vec F S256x64 .f32) (x16 : Vec F S1x64 .f32) (x17 : Vec F S64x1 .f32) (x18 : Vec F S1x1 .f32) (x19 : Vec F S256x64 .f32) (x20 : Vec F S1x64 .f32) (x21 : Vec F S64x1 .f32) (x22 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out3_23 x0 x1 x2 x3 x4 x5 x7 x8 x9 x10 x15 x16 x17 x18) ∗ owns (c : Thread nD τ) arg25 fullShare (out3_24 x0 x1 x2 x3 x4 x6 x11 x12 x13 x14 x19 x20 x21 x22)) -∗ K ⟨⟩))
      ⊢ wp frame (wpE (defs₀ (F := F)) Variants.none c none) E (cc3__fused_update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc3__fused_update_kernel_eq_skeleton]; unfold cc3__fused_update_kernel_skel
  simp only [k3_part1_eq_skeleton, k3_part2_eq_skeleton, k3_part3_eq_skeleton]; unfold k3_part1_skel k3_part2_skel k3_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    exact View.read_writes_eq_canon _ _ _ (cover3_o _)
  iexists _; isplitr
  swap; · iexact H24
  ipureintro
  exact View.read_writes_eq_canon _ _ _ (cover3_o _)

/-! ## Each input window's staging buffer holds its block -/

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: the window is uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: the window is uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not, for any proof
    data whose array is `V`'s and whose body leaves the block in place: the window is uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not, for any proof
    data whose array is `V`'s and whose body leaves the block in place: the window is uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds its block at every point, fetched there or not, for any proof
    data whose array is `V`'s and whose body leaves the block in place: the window is uncut and never idle. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds its block at every point, fetched there or not, for any proof
    data whose array is `V`'s and whose body leaves the block in place: the window is uncut and never idle. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds its block at every point, fetched there or not, for any proof
    data whose array is `V`'s and whose body leaves the block in place: the window is uncut and never idle. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds its block at every point, fetched there or not, for any proof
    data whose array is `V`'s and whose body leaves the block in place: the window is uncut and never idle. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds its block at every point, fetched there or not, for any proof
    data whose array is `V`'s and whose body leaves the block in place: the window is uncut and never idle. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- Input window 16's current staging buffer holds its block at every point, fetched there or not, for any proof
    data whose array is `V`'s and whose body leaves the block in place: the window is uncut and never idle. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-- Input window 17's current staging buffer holds its block at every point, fetched there or not, for any proof
    data whose array is `V`'s and whose body leaves the block in place: the window is uncut and never idle. -/
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-- Input window 18's current staging buffer holds its block at every point, fetched there or not, for any proof
    data whose array is `V`'s and whose body leaves the block in place: the window is uncut and never idle. -/
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)

/-- Input window 19's current staging buffer holds its block at every point, fetched there or not, for any proof
    data whose array is `V`'s and whose body leaves the block in place: the window is uncut and never idle. -/
theorem before3_19_of {c : Dev nD} (dat : Dat τ (Elt F) Unit ℕ (UR sig nD τ) ℕ cfg3 c) (hA : dat.A 19 = V c (Pipeline.arrRef spec3 19))
    (hafter : ∀ t, dat.after 19 t = iblk3 V c 19 t) (t : Fin cfg3.N) (d) : dat.before 19 t d = iblk3 V c 19 t :=
  (dat.before_in_eq_fetched 19 rfl (fun _ => rfl) (fun _ _ _ => rfl) (fun t => by rw [hafter]; unfold Dat.blockOf iblk3; rw [hA]; try rfl) t d).trans
    (by unfold Dat.fetched Dat.blockOf iblk3; rw [hA]; try rfl)

/-- Input window 20's current staging buffer holds its block at every point, fetched there or not, for any proof
    data whose array is `V`'s and whose body leaves the block in place: the window is uncut and never idle. -/
theorem before3_20_of {c : Dev nD} (dat : Dat τ (Elt F) Unit ℕ (UR sig nD τ) ℕ cfg3 c) (hA : dat.A 20 = V c (Pipeline.arrRef spec3 20))
    (hafter : ∀ t, dat.after 20 t = iblk3 V c 20 t) (t : Fin cfg3.N) (d) : dat.before 20 t d = iblk3 V c 20 t :=
  (dat.before_in_eq_fetched 20 rfl (fun _ => rfl) (fun _ _ _ => rfl) (fun t => by rw [hafter]; unfold Dat.blockOf iblk3; rw [hA]; try rfl) t d).trans
    (by unfold Dat.fetched Dat.blockOf iblk3; rw [hA]; try rfl)

/-- Input window 21's current staging buffer holds its block at every point, fetched there or not, for any proof
    data whose array is `V`'s and whose body leaves the block in place: the window is uncut and never idle. -/
theorem before3_21_of {c : Dev nD} (dat : Dat τ (Elt F) Unit ℕ (UR sig nD τ) ℕ cfg3 c) (hA : dat.A 21 = V c (Pipeline.arrRef spec3 21))
    (hafter : ∀ t, dat.after 21 t = iblk3 V c 21 t) (t : Fin cfg3.N) (d) : dat.before 21 t d = iblk3 V c 21 t :=
  (dat.before_in_eq_fetched 21 rfl (fun _ => rfl) (fun _ _ _ => rfl) (fun t => by rw [hafter]; unfold Dat.blockOf iblk3; rw [hA]; try rfl) t d).trans
    (by unfold Dat.fetched Dat.blockOf iblk3; rw [hA]; try rfl)

/-- Input window 22's current staging buffer holds its block at every point, fetched there or not, for any proof
    data whose array is `V`'s and whose body leaves the block in place: the window is uncut and never idle. -/
theorem before3_22_of {c : Dev nD} (dat : Dat τ (Elt F) Unit ℕ (UR sig nD τ) ℕ cfg3 c) (hA : dat.A 22 = V c (Pipeline.arrRef spec3 22))
    (hafter : ∀ t, dat.after 22 t = iblk3 V c 22 t) (t : Fin cfg3.N) (d) : dat.before 22 t d = iblk3 V c 22 t :=
  (dat.before_in_eq_fetched 22 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of pipeline 3 on core `c`: the arrays as the region finds them (`V`); after the body each input's
    buffer at its block and each output's at `out3_W` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => out3_23 (iblk3 V c 0 t) (iblk3 V c 1 t) (iblk3 V c 2 t) (iblk3 V c 3 t) (iblk3 V c 4 t) (iblk3 V c 5 t) (iblk3 V c 7 t) (iblk3 V c 8 t) (iblk3 V c 9 t) (iblk3 V c 10 t) (iblk3 V c 15 t) (iblk3 V c 16 t) (iblk3 V c 17 t) (iblk3 V c 18 t)
    | ⟨24, _⟩ => out3_24 (iblk3 V c 0 t) (iblk3 V c 1 t) (iblk3 V c 2 t) (iblk3 V c 3 t) (iblk3 V c 4 t) (iblk3 V c 6 t) (iblk3 V c 11 t) (iblk3 V c 12 t) (iblk3 V c 13 t) (iblk3 V c 14 t) (iblk3 V c 19 t) (iblk3 V c 20 t) (iblk3 V c 21 t) (iblk3 V c 22 t)
    | ⟨_ + 25, h⟩ => absurd h (Nat.not_lt.2 (Nat.le_add_left _ _))
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = iblk3 V c 20 t := by dsimp only [dat3]
theorem after3_21 (c : Dev nD) (t : Fin cfg3.N) : (dat3 V c).after 21 t = iblk3 V c 21 t := by dsimp only [dat3]
theorem after3_22 (c : Dev nD) (t : Fin cfg3.N) : (dat3 V c).after 22 t = iblk3 V c 22 t := by dsimp only [dat3]
theorem after3_23 (c : Dev nD) (t : Fin cfg3.N) : (dat3 V c).after 23 t = out3_23 (iblk3 V c 0 t) (iblk3 V c 1 t) (iblk3 V c 2 t) (iblk3 V c 3 t) (iblk3 V c 4 t) (iblk3 V c 5 t) (iblk3 V c 7 t) (iblk3 V c 8 t) (iblk3 V c 9 t) (iblk3 V c 10 t) (iblk3 V c 15 t) (iblk3 V c 16 t) (iblk3 V c 17 t) (iblk3 V c 18 t) := by dsimp only [dat3]
theorem after3_24 (c : Dev nD) (t : Fin cfg3.N) : (dat3 V c).after 24 t = out3_24 (iblk3 V c 0 t) (iblk3 V c 1 t) (iblk3 V c 2 t) (iblk3 V c 3 t) (iblk3 V c 4 t) (iblk3 V c 6 t) (iblk3 V c 11 t) (iblk3 V c 12 t) (iblk3 V c 13 t) (iblk3 V c 14 t) (iblk3 V c 19 t) (iblk3 V c 20 t) (iblk3 V c 21 t) (iblk3 V c 22 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d
theorem before3_19 (c : Dev nD) (t : Fin cfg3.N) (d) : (dat3 V c).before 19 t d = iblk3 V c 19 t :=
  before3_19_of V (dat3 V c) (A_eq3 V c 19) (after3_19 V c) t d
theorem before3_20 (c : Dev nD) (t : Fin cfg3.N) (d) : (dat3 V c).before 20 t d = iblk3 V c 20 t :=
  before3_20_of V (dat3 V c) (A_eq3 V c 20) (after3_20 V c) t d
theorem before3_21 (c : Dev nD) (t : Fin cfg3.N) (d) : (dat3 V c).before 21 t d = iblk3 V c 21 t :=
  before3_21_of V (dat3 V c) (A_eq3 V c 21) (after3_21 V c) t d
theorem before3_22 (c : Dev nD) (t : Fin cfg3.N) (d) : (dat3 V c).before 22 t d = iblk3 V c 22 t :=
  before3_22_of V (dat3 V c) (A_eq3 V c 22) (after3_22 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d))
    ∗ (∃ d, owns (c : Thread nD τ) (st3_22 t) fullShare ((dat3 V c).before 22 t d))
    ∗ (∃ d, owns (c : Thread nD τ) (st3_23 t) fullShare ((dat3 V c).before 23 t d))
    ∗ (∃ d, owns (c : Thread nD τ) (st3_24 t) fullShare ((dat3 V c).before 24 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t)
    ∗ owns (c : Thread nD τ) (st3_21 t) fullShare ((dat3 V c).after 21 t)
    ∗ owns (c : Thread nD τ) (st3_22 t) fullShare ((dat3 V c).after 22 t)
    ∗ owns (c : Thread nD τ) (st3_23 t) fullShare ((dat3 V c).after 23 t)
    ∗ owns (c : Thread nD τ) (st3_24 t) fullShare ((dat3 V c).after 24 t))

set_option maxHeartbeats 1000000 in
/-- The body at any point: the inputs' memrefs hold their blocks, so the triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel3 c Set.univ _ _ _ _ _ _ _ _ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Run.lean ====
/-
  The whole program as a sequence of segments: a stretch of host operations, the four kernel regions (the two prediction
  heads; the two masked maximum poolings; the fused update), each entered from what the segment before it left, and two
  more stretches of host operations. The buffer contents at every boundary are a fold from the launch memory: a host
  stretch applies its operations, a region replaces its windows' arrays by what its write-backs leave and keeps every
  other buffer. From the run: every weakly fair execution terminates with every unscoped buffer at the last boundary's
  contents; each argument array read back through the fold is its launch contents.
-/
import proofs.«153655_j17970143167165_2_alg».proof.Proof.KI.Reg0
import proofs.«153655_j17970143167165_2_alg».proof.Proof.KI.Reg1
import proofs.«153655_j17970143167165_2_alg».proof.Proof.KI.Reg2
import proofs.«153655_j17970143167165_2_alg».proof.Proof.KI.Reg3
import proofs.«153655_j17970143167165_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- An operand window's array leaves region 0 as it entered. -/
theorem B2_in (c : Dev nD) (w : Fin cfg0.W) (hin : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hin _).trans (A_eq0 (E1 m) c w))
/-- At region 1's exit: its arrays at what its write-backs leave, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)
/-- An operand window's array leaves region 1 as it entered. -/
theorem B3_in (c : Dev nD) (w : Fin cfg1.W) (hin : (cfg1.win w).isOut = false) :
    B3 m c (Proc.devRef .tc (Pipeline.arrRef spec1 w)) = B2 m c (Proc.devRef .tc (Pipeline.arrRef spec1 w)) :=
  (B3_arr m c w).trans (((dat1 (E2 m) c).arrAt_in w hin _).trans (A_eq1 (E2 m) c w))
/-- At region 2's exit: its arrays at what its write-backs leave, every other buffer as entered. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b
theorem hF2 (c : Dev nD) (w : Fin cfg2.W) : (dat2 (E3 m) c).arrAt w cfg2.N = E4 m c (Pipeline.arrRef spec2 w) :=
  (B4_arr m c w).symm
theorem hrest2 (c : Dev nD) : ∀ b, b ∉ Finset.univ.image (Pipeline.arrRef spec2) → E4 m c b = E3 m c b :=
  fun b hb => B4_of_ne m c b fun w e => hb (Finset.mem_image.mpr ⟨w, Finset.mem_univ _, e⟩)
/-- An operand window's array leaves region 2 as it entered. -/
theorem B4_in (c : Dev nD) (w : Fin cfg2.W) (hin : (cfg2.win w).isOut = false) :
    B4 m c (Proc.devRef .tc (Pipeline.arrRef spec2 w)) = B3 m c (Proc.devRef .tc (Pipeline.arrRef spec2 w)) :=
  (B4_arr m c w).trans (((dat2 (E3 m) c).arrAt_in w hin _).trans (A_eq2 (E3 m) c w))
/-- After the second host stretch (region 3's entry). -/
abbrev B5 : Dev nD → Valuation τ sig (Elt F) := fun c => StableHlo.after hostOps3 (B4 m c)
abbrev E5 : (c : Dev nD) → (b : Ref sig .tc) → Buf (Elt F) ((c : Thread nD τ).loc b) := fun c b => B5 m c b
/-- At region 3's exit: its arrays at what its write-backs leave, every other buffer as entered. -/
def B6 (c : Dev nD) : Valuation τ sig (Elt F) :=
  Pipeline.withArrays spec3 c (B5 m c) fun w => (dat3 (E5 m) c).arrAt w cfg3.N
theorem B6_arr (c : Dev nD) (w : Fin cfg3.W) :
    B6 m c (Proc.devRef .tc (Pipeline.arrRef spec3 w)) = (dat3 (E5 m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
abbrev E6 : (c : Dev nD) → (b : Ref sig .tc) → Buf (Elt F) ((c : Thread nD τ).loc b) := fun c b => B6 m c b
theorem hF3 (c : Dev nD) (w : Fin cfg3.W) : (dat3 (E5 m) c).arrAt w cfg3.N = E6 m c (Pipeline.arrRef spec3 w) :=
  (B6_arr m c w).symm
theorem hrest3 (c : Dev nD) : ∀ b, b ∉ Finset.univ.image (Pipeline.arrRef spec3) → E6 m c b = E5 m c b :=
  fun b hb => B6_of_ne m c b fun w e => hb (Finset.mem_image.mpr ⟨w, Finset.mem_univ _, e⟩)
/-- An operand window's array leaves region 3 as it entered. -/
theorem B6_in (c : Dev nD) (w : Fin cfg3.W) (hin : (cfg3.win w).isOut = false) :
    B6 m c (Proc.devRef .tc (Pipeline.arrRef spec3 w)) = B5 m c (Proc.devRef .tc (Pipeline.arrRef spec3 w)) :=
  (B6_arr m c w).trans (((dat3 (E5 m) c).arrAt_in w hin _).trans (A_eq3 (E5 m) c w))
/-- After the last host stretch: the contents the program ends with. -/
abbrev B7 : Dev nD → Valuation τ sig (Elt F) := fun c => StableHlo.after hostOps4 (B6 m c)

/-! ## No segment changes an argument array -/

theorem B7_main_arg0 (c : Dev nD) : B7 m c (Proc.devRef .tc main_arg0) = m ((c : Thread nD τ).loc main_arg0) :=
  (StableHlo.after_of_writes_sub hostOps4 _ hostOps4_writes (show main_arg0 ∉ hostOps4_W by decide)).trans <|
  (B6_in m c 0 rfl).trans <|
  (StableHlo.after_of_writes_sub hostOps3 _ hostOps3_writes (show main_arg0 ∉ hostOps3_W by decide)).trans <|
  (B4_of_ne m c main_arg0 (by decide)).trans <| (B3_in m c 1 rfl).trans <| (B2_in m c 0 rfl).trans <|
  (StableHlo.after_of_writes_sub hostOps0 _ hostOps0_writes (show main_arg0 ∉ hostOps0_W by decide)).trans rfl
theorem B7_main_arg1 (c : Dev nD) : B7 m c (Proc.devRef .tc main_arg1) = m ((c : Thread nD τ).loc main_arg1) :=
  (StableHlo.after_of_writes_sub hostOps4 _ hostOps4_writes (show main_arg1 ∉ hostOps4_W by decide)).trans <|
  (B6_in m c 1 rfl).trans <|
  (StableHlo.after_of_writes_sub hostOps3 _ hostOps3_writes (show main_arg1 ∉ hostOps3_W by decide)).trans <|
  (B4_in m c 1 rfl).trans <| (B3_of_ne m c main_arg1 (by decide)).trans <| (B2_in m c 1 rfl).trans <|
  (StableHlo.after_of_writes_sub hostOps0 _ hostOps0_writes (show main_arg1 ∉ hostOps0_W by decide)).trans rfl
theorem B7_main_arg2 (c : Dev nD) : B7 m c (Proc.devRef .tc main_arg2) = m ((c : Thread nD τ).loc main_arg2) :=
  (StableHlo.after_of_writes_sub hostOps4 _ hostOps4_writes (show main_arg2 ∉ hostOps4_W by decide)).trans <|
  (B6_of_ne m c main_arg2 (by decide)).trans <|
  (StableHlo.after_of_writes_sub hostOps3 _ hostOps3_writes (show main_arg2 ∉ hostOps3_W by decide)).trans <|
  (B4_of_ne m c main_arg2 (by decide)).trans <| (B3_of_ne m c main_arg2 (by decide)).trans <| (B2_of_ne m c main_arg2 (by decide)).trans <|
  (StableHlo.after_of_writes_sub hostOps0 _ hostOps0_writes (show main_arg2 ∉ hostOps0_W by decide)).trans rfl
theorem B7_main_arg3 (c : Dev nD) : B7 m c (Proc.devRef .tc main_arg3) = m ((c : Thread nD τ).loc main_arg3) :=
  (StableHlo.after_of_writes_sub hostOps4 _ hostOps4_writes (show main_arg3 ∉ hostOps4_W by decide)).trans <|
  (B6_in m c 2 rfl).trans <|
  (StableHlo.after_of_writes_sub hostOps3 _ hostOps3_writes (show main_arg3 ∉ hostOps3_W by decide)).trans <|
  (B4_of_ne m c main_arg3 (by decide)).trans <| (B3_of_ne m c main_arg3 (by decide)).trans <| (B2_of_ne m c main_arg3 (by decide)).trans <|
  (StableHlo.after_of_writes_sub hostOps0 _ hostOps0_writes (show main_arg3 ∉ hostOps0_W by decide)).trans rfl
theorem B7_main_arg4 (c : Dev nD) : B7 m c (Proc.devRef .tc main_arg4) = m ((c : Thread nD τ).loc main_arg4) :=
  (StableHlo.after_of_writes_sub hostOps4 _ hostOps4_writes (show main_arg4 ∉ hostOps4_W by decide)).trans <|
  (B6_of_ne m c main_arg4 (by decide)).trans <|
  (StableHlo.after_of_writes_sub hostOps3 _ hostOps3_writes (show main_arg4 ∉ hostOps3_W by decide)).trans <|
  (B4_of_ne m c main_arg4 (by decide)).trans <| (B3_in m c 0 rfl).trans <| (B2_of_ne m c main_arg4 (by decide)).trans <|
  (StableHlo.after_of_writes_sub hostOps0 _ hostOps0_writes (show main_arg4 ∉ hostOps0_W by decide)).trans rfl
theorem B7_main_arg5 (c : Dev nD) : B7 m c (Proc.devRef .tc main_arg5) = m ((c : Thread nD τ).loc main_arg5) :=
  (StableHlo.after_of_writes_sub hostOps4 _ hostOps4_writes (show main_arg5 ∉ hostOps4_W by decide)).trans <|
  (B6_of_ne m c main_arg5 (by decide)).trans <|
  (StableHlo.after_of_writes_sub hostOps3 _ hostOps3_writes (show main_arg5 ∉ hostOps3_W by decide)).trans <|
  (B4_in m c 0 rfl).trans <| (B3_of_ne m c main_arg5 (by decide)).trans <| (B2_of_ne m c main_arg5 (by decide)).trans <|
  (StableHlo.after_of_writes_sub hostOps0 _ hostOps0_writes (show main_arg5 ∉ hostOps0_W by decide)).trans rfl
theorem B7_main_arg6 (c : Dev nD) : B7 m c (Proc.devRef .tc main_arg6) = m ((c : Thread nD τ).loc main_arg6) :=
  (StableHlo.after_of_writes_sub hostOps4 _ hostOps4_writes (show main_arg6 ∉ hostOps4_W by decide)).trans <|
  (B6_of_ne m c main_arg6 (by decide)).trans <|
  (StableHlo.after_of_writes_sub hostOps3 _ hostOps3_writes (show main_arg6 ∉ hostOps3_W by decide)).trans <|
  (B4_of_ne m c main_arg6 (by decide)).trans <| (B3_of_ne m c main_arg6 (by decide)).trans <| (B2_of_ne m c main_arg6 (by decide)).trans <|
  (StableHlo.after_of_writes_sub hostOps0 _ hostOps0_writes (show main_arg6 ∉ hostOps0_W by decide)).trans rfl
theorem B7_main_arg7 (c : Dev nD) : B7 m c (Proc.devRef .tc main_arg7) = m ((c : Thread nD τ).loc main_arg7) :=
  (StableHlo.after_of_writes_sub hostOps4 _ hostOps4_writes (show main_arg7 ∉ hostOps4_W by decide)).trans <|
  (B6_of_ne m c main_arg7 (by decide)).trans <|
  (StableHlo.after_of_writes_sub hostOps3 _ hostOps3_writes (show main_arg7 ∉ hostOps3_W by decide)).trans <|
  (B4_of_ne m c main_arg7 (by decide)).trans <| (B3_of_ne m c main_arg7 (by decide)).trans <| (B2_of_ne m c main_arg7 (by decide)).trans <|
  (StableHlo.after_of_writes_sub hostOps0 _ hostOps0_writes (show main_arg7 ∉ hostOps0_W by decide)).trans rfl
theorem B7_main_arg8 (c : Dev nD) : B7 m c (Proc.devRef .tc main_arg8) = m ((c : Thread nD τ).loc main_arg8) :=
  (StableHlo.after_of_writes_sub hostOps4 _ hostOps4_writes (show main_arg8 ∉ hostOps4_W by decide)).trans <|
  (B6_of_ne m c main_arg8 (by decide)).trans <|
  (StableHlo.after_of_writes_sub hostOps3 _ hostOps3_writes (show main_arg8 ∉ hostOps3_W by decide)).trans <|
  (B4_of_ne m c main_arg8 (by decide)).trans <| (B3_of_ne m c main_arg8 (by decide)).trans <| (B2_of_ne m c main_arg8 (by decide)).trans <|
  (StableHlo.after_of_writes_sub hostOps0 _ hostOps0_writes (show main_arg8 ∉ hostOps0_W by decide)).trans rfl
theorem B7_main_arg9 (c : Dev nD) : B7 m c (Proc.devRef .tc main_arg9) = m ((c : Thread nD τ).loc main_arg9) :=
  (StableHlo.after_of_writes_sub hostOps4 _ hostOps4_writes (show main_arg9 ∉ hostOps4_W by decide)).trans <|
  (B6_of_ne m c main_arg9 (by decide)).trans <|
  (StableHlo.after_of_writes_sub hostOps3 _ hostOps3_writes (show main_arg9 ∉ hostOps3_W by decide)).trans <|
  (B4_of_ne m c main_arg9 (by decide)).trans <| (B3_of_ne m c main_arg9 (by decide)).trans <| (B2_of_ne m c main_arg9 (by decide)).trans <|
  (StableHlo.after_of_writes_sub hostOps0 _ hostOps0_writes (show main_arg9 ∉ hostOps0_W by decide)).trans rfl
theorem B7_main_arg10 (c : Dev nD) : B7 m c (Proc.devRef .tc main_arg10) = m ((c : Thread nD τ).loc main_arg10) :=
  (StableHlo.after_of_writes_sub hostOps4 _ hostOps4_writes (show main_arg10 ∉ hostOps4_W by decide)).trans <|
  (B6_of_ne m c main_arg10 (by decide)).trans <|
  (StableHlo.after_of_writes_sub hostOps3 _ hostOps3_writes (show main_arg10 ∉ hostOps3_W by decide)).trans <|
  (B4_of_ne m c main_arg10 (by decide)).trans <| (B3_of_ne m c main_arg10 (by decide)).trans <| (B2_of_ne m c main_arg10 (by decide)).trans <|
  (StableHlo.after_of_writes_sub hostOps0 _ hostOps0_writes (show main_arg10 ∉ hostOps0_W by decide)).trans rfl
theorem B7_main_arg11 (c : Dev nD) : B7 m c (Proc.devRef .tc main_arg11) = m ((c : Thread nD τ).loc main_arg11) :=
  (StableHlo.after_of_writes_sub hostOps4 _ hostOps4_writes (show main_arg11 ∉ hostOps4_W by decide)).trans <|
  (B6_of_ne m c main_arg11 (by decide)).trans <|
  (StableHlo.after_of_writes_sub hostOps3 _ hostOps3_writes (show main_arg11 ∉ hostOps3_W by decide)).trans <|
  (B4_of_ne m c main_arg11 (by decide)).trans <| (B3_of_ne m c main_arg11 (by decide)).trans <| (B2_of_ne m c main_arg11 (by decide)).trans <|
  (StableHlo.after_of_writes_sub hostOps0 _ hostOps0_writes (show main_arg11 ∉ hostOps0_W by decide)).trans rfl
theorem B7_main_arg12 (c : Dev nD) : B7 m c (Proc.devRef .tc main_arg12) = m ((c : Thread nD τ).loc main_arg12) :=
  (StableHlo.after_of_writes_sub hostOps4 _ hostOps4_writes (show main_arg12 ∉ hostOps4_W by decide)).trans <|
  (B6_of_ne m c main_arg12 (by decide)).trans <|
  (StableHlo.after_of_writes_sub hostOps3 _ hostOps3_writes (show main_arg12 ∉ hostOps3_W by decide)).trans <|
  (B4_of_ne m c main_arg12 (by decide)).trans <| (B3_of_ne m c main_arg12 (by decide)).trans <| (B2_of_ne m c main_arg12 (by decide)).trans <|
  (StableHlo.after_of_writes_sub hostOps0 _ hostOps0_writes (show main_arg12 ∉ hostOps0_W by decide)).trans rfl
theorem B7_main_arg13 (c : Dev nD) : B7 m c (Proc.devRef .tc main_arg13) = m ((c : Thread nD τ).loc main_arg13) :=
  (StableHlo.after_of_writes_sub hostOps4 _ hostOps4_writes (show main_arg13 ∉ hostOps4_W by decide)).trans <|
  (B6_in m c 15 rfl).trans <|
  (StableHlo.after_of_writes_sub hostOps3 _ hostOps3_writes (show main_arg13 ∉ hostOps3_W by decide)).trans <|
  (B4_of_ne m c main_arg13 (by decide)).trans <| (B3_of_ne m c main_arg13 (by decide)).trans <| (B2_in m c 2 rfl).trans <|
  (StableHlo.after_of_writes_sub hostOps0 _ hostOps0_writes (show main_arg13 ∉ hostOps0_W by decide)).trans rfl
theorem B7_main_arg14 (c : Dev nD) : B7 m c (Proc.devRef .tc main_arg14) = m ((c : Thread nD τ).loc main_arg14) :=
  (StableHlo.after_of_writes_sub hostOps4 _ hostOps4_writes (show main_arg14 ∉ hostOps4_W by decide)).trans <|
  (B6_of_ne m c main_arg14 (by decide)).trans <|
  (StableHlo.after_of_writes_sub hostOps3 _ hostOps3_writes (show main_arg14 ∉ hostOps3_W by decide)).trans <|
  (B4_of_ne m c main_arg14 (by decide)).trans <| (B3_of_ne m c main_arg14 (by decide)).trans <| (B2_of_ne m c main_arg14 (by decide)).trans <|
  (StableHlo.after_of_writes_sub hostOps0 _ hostOps0_writes (show main_arg14 ∉ hostOps0_W by decide)).trans rfl
theorem B7_main_arg15 (c : Dev nD) : B7 m c (Proc.devRef .tc main_arg15) = m ((c : Thread nD τ).loc main_arg15) :=
  (StableHlo.after_of_writes_sub hostOps4 _ hostOps4_writes (show main_arg15 ∉ hostOps4_W by decide)).trans <|
  (B6_in m c 17 rfl).trans <|
  (StableHlo.after_of_writes_sub hostOps3 _ hostOps3_writes (show main_arg15 ∉ hostOps3_W by decide)).trans <|
  (B4_of_ne m c main_arg15 (by decide)).trans <| (B3_of_ne m c main_arg15 (by decide)).trans <| (B2_in m c 4 rfl).trans <|
  (StableHlo.after_of_writes_sub hostOps0 _ hostOps0_writes (show main_arg15 ∉ hostOps0_W by decide)).trans rfl
theorem B7_main_arg16 (c : Dev nD) : B7 m c (Proc.devRef .tc main_arg16) = m ((c : Thread nD τ).loc main_arg16) :=
  (StableHlo.after_of_writes_sub hostOps4 _ hostOps4_writes (show main_arg16 ∉ hostOps4_W by decide)).trans <|
  (B6_of_ne m c main_arg16 (by decide)).trans <|
  (StableHlo.after_of_writes_sub hostOps3 _ hostOps3_writes (show main_arg16 ∉ hostOps3_W by decide)).trans <|
  (B4_of_ne m c main_arg16 (by decide)).trans <| (B3_of_ne m c main_arg16 (by decide)).trans <| (B2_of_ne m c main_arg16 (by decide)).trans <|
  (StableHlo.after_of_writes_sub hostOps0 _ hostOps0_writes (show main_arg16 ∉ hostOps0_W by decide)).trans rfl
theorem B7_main_arg17 (c : Dev nD) : B7 m c (Proc.devRef .tc main_arg17) = m ((c : Thread nD τ).loc main_arg17) :=
  (StableHlo.after_of_writes_sub hostOps4 _ hostOps4_writes (show main_arg17 ∉ hostOps4_W by decide)).trans <|
  (B6_in m c 19 rfl).trans <|
  (StableHlo.after_of_writes_sub hostOps3 _ hostOps3_writes (show main_arg17 ∉ hostOps3_W by decide)).trans <|
  (B4_of_ne m c main_arg17 (by decide)).trans <| (B3_of_ne m c main_arg17 (by decide)).trans <| (B2_in m c 6 rfl).trans <|
  (StableHlo.after_of_writes_sub hostOps0 _ hostOps0_writes (show main_arg17 ∉ hostOps0_W by decide)).trans rfl
theorem B7_main_arg18 (c : Dev nD) : B7 m c (Proc.devRef .tc main_arg18) = m ((c : Thread nD τ).loc main_arg18) :=
  (StableHlo.after_of_writes_sub hostOps4 _ hostOps4_writes (show main_arg18 ∉ hostOps4_W by decide)).trans <|
  (B6_of_ne m c main_arg18 (by decide)).trans <|
  (StableHlo.after_of_writes_sub hostOps3 _ hostOps3_writes (show main_arg18 ∉ hostOps3_W by decide)).trans <|
  (B4_of_ne m c main_arg18 (by decide)).trans <| (B3_of_ne m c main_arg18 (by decide)).trans <| (B2_of_ne m c main_arg18 (by decide)).trans <|
  (StableHlo.after_of_writes_sub hostOps0 _ hostOps0_writes (show main_arg18 ∉ hostOps0_W by decide)).trans rfl
theorem B7_main_arg19 (c : Dev nD) : B7 m c (Proc.devRef .tc main_arg19) = m ((c : Thread nD τ).loc main_arg19) :=
  (StableHlo.after_of_writes_sub hostOps4 _ hostOps4_writes (show main_arg19 ∉ hostOps4_W by decide)).trans <|
  (B6_in m c 21 rfl).trans <|
  (StableHlo.after_of_writes_sub hostOps3 _ hostOps3_writes (show main_arg19 ∉ hostOps3_W by decide)).trans <|
  (B4_of_ne m c main_arg19 (by decide)).trans <| (B3_of_ne m c main_arg19 (by decide)).trans <| (B2_in m c 8 rfl).trans <|
  (StableHlo.after_of_writes_sub hostOps0 _ hostOps0_writes (show main_arg19 ∉ hostOps0_W by decide)).trans rfl
theorem B7_main_arg20 (c : Dev nD) : B7 m c (Proc.devRef .tc main_arg20) = m ((c : Thread nD τ).loc main_arg20) :=
  (StableHlo.after_of_writes_sub hostOps4 _ hostOps4_writes (show main_arg20 ∉ hostOps4_W by decide)).trans <|
  (B6_of_ne m c main_arg20 (by decide)).trans <|
  (StableHlo.after_of_writes_sub hostOps3 _ hostOps3_writes (show main_arg20 ∉ hostOps3_W by decide)).trans <|
  (B4_of_ne m c main_arg20 (by decide)).trans <| (B3_of_ne m c main_arg20 (by decide)).trans <| (B2_of_ne m c main_arg20 (by decide)).trans <|
  (StableHlo.after_of_writes_sub hostOps0 _ hostOps0_writes (show main_arg20 ∉ hostOps0_W by decide)).trans rfl

/-! ## The proof data family and the thread state -/

/-- No pipeline has a prefetched table. -/
abbrev padm : (p : Fin 4) → (pcfgs (F := F) p).Adm := fun p => (cfgs p).toPCfg_adm
/-- Every region's proof data, each at its region's entry contents. -/
def pdat : (p : Fin 4) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E2 m) c
  | ⟨2, _⟩ => fun c => dat2 (E3 m) c
  | ⟨3, _⟩ => fun c => dat3 (E5 m) c
abbrev 𝒱r : Variants := Variants.none
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment over the unscoped buffers from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tlast (c : Dev nD) : sProp 𝕄 := iprop(StableHlo.held (c : Thread nD τ) (Pipeline.ucRefs τ sig) (B7 m c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator register
    goes into the region's invariant and comes out; nothing is owed; the kernel has no semaphore of its own. -/
def sreg0 : Pipeline.RegionSeg (pcfgs (F := F)) padm (pdat m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lr lvr 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pdat m) launch0.win launch0.arr_whole c
      ((pdat m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdat m) ((pdat m 0 c).share_full fun _ => rfl)
      (E1 m c) (E2 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator register
    goes into the region's invariant and comes out; nothing is owed; the kernel has no semaphore of its own. -/
def sreg1 : Pipeline.RegionSeg (pcfgs (F := F)) padm (pdat m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lr lvr 1 fun _ _ => rfl
  pre c := iprop(StableHlo.held (c : Thread nD τ) (Pipeline.ucRefs τ sig) (B2 m c) ∗ Rr c)
  post c := iprop(StableHlo.held (c : Thread nD τ) (Pipeline.ucRefs τ sig) (B3 m c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) padm (pdat m) launch1.win launch1.arr_whole c
      ((pdat m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdat m) ((pdat m 1 c).share_full fun _ => rfl)
      (E2 m c) (E3 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's. Its arrays are split out of the unscoped buffers and put back at the exit contents; the generator register
    goes into the region's invariant and comes out; nothing is owed; the kernel has no semaphore of its own. -/
def sreg2 : Pipeline.RegionSeg (pcfgs (F := F)) padm (pdat m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ Lr lvr 2 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) padm (pdat m) launch2.win launch2.arr_whole c
      ((pdat m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdat m) ((pdat m 2 c).share_full fun _ => rfl)
      (E3 m c) (E4 m c) ((pdat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary's contents, left at the next
    boundary's. Its arrays are split out of the unscoped buffers and put back at the exit contents; the generator register
    goes into the region's invariant and comes out; nothing is owed; the kernel has no semaphore of its own. -/
def sreg3 : Pipeline.RegionSeg (pcfgs (F := F)) padm (pdat m) () defs₀ 𝒱r Lr lvr 3 where
  win := launch3.win.to₀
  block_pos := launch3.block_pos
  stage_whole := launch3.stage_whole
  K := PEmpty
  osem k := k.elim
  ho := Pipeline.OwnSemFacts.none _
  hbody c := (body_obligation3 (E5 m) c).loose
  hwaits := Pipeline.hwaits_of_owed_zero _ _ _ _ Lr lvr 3 fun _ _ => rfl
  pre c := iprop(StableHlo.held (c : Thread nD τ) (Pipeline.ucRefs τ sig) (B5 m c) ∗ Rr c)
  post c := iprop(StableHlo.held (c : Thread nD τ) (Pipeline.ucRefs τ sig) (B6 m c) ∗ Rr c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Pipeline.arrays_of_unscopedBufs (p := 3) (pcfgs (F := F)) padm (pdat m) launch3.win launch3.arr_whole c
      ((pdat m 3 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdat m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdat m) ((pdat m 3 c).share_full fun _ => rfl)
      (E5 m c) (E6 m c) ((pdat m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev allSegs : List (Pipeline.Seg (pcfgs (F := F)) padm (pdat m) () defs₀ 𝒱r Lr lvr) :=
  [ .host (hsegr hostOps0 hostOps0_sub hostOps0_fresh (B0 m)),
    .region (sreg0 m),
    .region (sreg1 m),
    .region (sreg2 m),
    .host (hsegr hostOps3 hostOps3_sub hostOps3_fresh (B4 m)),
    .region (sreg3 m),
    .host (hsegr hostOps4 hostOps4_sub hostOps4_fresh (B6 m)) ]
/-- The program IS the run of its segments. -/
theorem main_runs (c : Dev nD) : main (F := F) c = Pipeline.Seg.run (allSegs m) := (main_chain c).trans (by chain_rfl)

set_option backward.isDefEq.respectTransparency.types false in
/-- THE RUN: from any memory with zero counters, every weakly fair execution of the program on the cores terminates,
    nothing faulting, and every final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) padm (pdat m) () cellOf_inj emb₁ defs₀ 𝒱r Lr lvr m ρ main (allSegs m)
    (fun c Q => by rw [main_runs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m c) ∗ Rr c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h => h)

/-- THE FRAME at any float instance: every weakly fair execution terminates and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨
      (h c _ (mem_ucr main_arg0 (by decide))).trans (B7_main_arg0 m c),
      (h c _ (mem_ucr main_arg1 (by decide))).trans (B7_main_arg1 m c),
      (h c _ (mem_ucr main_arg2 (by decide))).trans (B7_main_arg2 m c),
      (h c _ (mem_ucr main_arg3 (by decide))).trans (B7_main_arg3 m c),
      (h c _ (mem_ucr main_arg4 (by decide))).trans (B7_main_arg4 m c),
      (h c _ (mem_ucr main_arg5 (by decide))).trans (B7_main_arg5 m c),
      (h c _ (mem_ucr main_arg6 (by decide))).trans (B7_main_arg6 m c),
      (h c _ (mem_ucr main_arg7 (by decide))).trans (B7_main_arg7 m c),
      (h c _ (mem_ucr main_arg8 (by decide))).trans (B7_main_arg8 m c),
      (h c _ (mem_ucr main_arg9 (by decide))).trans (B7_main_arg9 m c),
      (h c _ (mem_ucr main_arg10 (by decide))).trans (B7_main_arg10 m c),
      (h c _ (mem_ucr main_arg11 (by decide))).trans (B7_main_arg11 m c),
      (h c _ (mem_ucr main_arg12 (by decide))).trans (B7_main_arg12 m c),
      (h c _ (mem_ucr main_arg13 (by decide))).trans (B7_main_arg13 m c),
      (h c _ (mem_ucr main_arg14 (by decide))).trans (B7_main_arg14 m c),
      (h c _ (mem_ucr main_arg15 (by decide))).trans (B7_main_arg15 m c),
      (h c _ (mem_ucr main_arg16 (by decide))).trans (B7_main_arg16 m c),
      (h c _ (mem_ucr main_arg17 (by decide))).trans (B7_main_arg17 m c),
      (h c _ (mem_ucr main_arg18 (by decide))).trans (B7_main_arg18 m c),
      (h c _ (mem_ucr main_arg19 (by decide))).trans (B7_main_arg19 m c),
      (h c _ (mem_ucr main_arg20 (by decide))).trans (B7_main_arg20 m c)⟩)
    (run_all m ρ)

end Cert.KernelIdeal.Reg

end
-- ==== Proof.KI.Host.lean ====
/-
  The buffer contents at the boundaries, read: an argument array that no earlier segment writes is still its launch
  contents; the first host stretch reshapes the four bias vectors; the second reshapes the first edge prediction into a
  row, cuts the two weight matrices into their three 256-row blocks and their image rows, and folds the image term into
  each bias row; the last reshapes the four prediction columns and joins them end to end.
-/
import proofs.«153655_j17970143167165_2_alg».proof.Proof.KI.Run
import Idealize.ShloMosaic.Lib.Pipeline.Value
import Idealize.ShloMosaic.Lib.StableHlo.Run

set_option maxRecDepth 16384

noncomputable section

namespace Cert.KernelIdeal.Reg

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (c : Dev nD)

/-! ## Buffers no earlier segment writes -/

theorem B1_arg0 : B1 m c (Proc.devRef .tc main_arg0) = m ((c : Thread nD τ).loc main_arg0) :=
  ((StableHlo.after_of_writes_sub hostOps0 _ hostOps0_writes (show main_arg0 ∉ hostOps0_W by decide))).trans rfl
theorem B1_arg1 : B1 m c (Proc.devRef .tc main_arg1) = m ((c : Thread nD τ).loc main_arg1) :=
  ((StableHlo.after_of_writes_sub hostOps0 _ hostOps0_writes (show main_arg1 ∉ hostOps0_W by decide))).trans rfl
theorem B1_arg13 : B1 m c (Proc.devRef .tc main_arg13) = m ((c : Thread nD τ).loc main_arg13) :=
  ((StableHlo.after_of_writes_sub hostOps0 _ hostOps0_writes (show main_arg13 ∉ hostOps0_W by decide))).trans rfl
theorem B1_arg15 : B1 m c (Proc.devRef .tc main_arg15) = m ((c : Thread nD τ).loc main_arg15) :=
  ((StableHlo.after_of_writes_sub hostOps0 _ hostOps0_writes (show main_arg15 ∉ hostOps0_W by decide))).trans rfl
theorem B1_arg17 : B1 m c (Proc.devRef .tc main_arg17) = m ((c : Thread nD τ).loc main_arg17) :=
  ((StableHlo.after_of_writes_sub hostOps0 _ hostOps0_writes (show main_arg17 ∉ hostOps0_W by decide))).trans rfl
theorem B1_arg19 : B1 m c (Proc.devRef .tc main_arg19) = m ((c : Thread nD τ).loc main_arg19) :=
  ((StableHlo.after_of_writes_sub hostOps0 _ hostOps0_writes (show main_arg19 ∉ hostOps0_W by decide))).trans rfl
theorem B2_arg4 : B2 m c (Proc.devRef .tc main_arg4) = m ((c : Thread nD τ).loc main_arg4) :=
  ((B2_of_ne m c main_arg4 (by decide)).trans <| (StableHlo.after_of_writes_sub hostOps0 _ hostOps0_writes (show main_arg4 ∉ hostOps0_W by decide))).trans rfl
theorem B2_arg0 : B2 m c (Proc.devRef .tc main_arg0) = m ((c : Thread nD τ).loc main_arg0) :=
  ((B2_in m c 0 rfl).trans <| (StableHlo.after_of_writes_sub hostOps0 _ hostOps0_writes (show main_arg0 ∉ hostOps0_W by decide))).trans rfl
theorem B3_arg5 : B3 m c (Proc.devRef .tc main_arg5) = m ((c : Thread nD τ).loc main_arg5) :=
  ((B3_of_ne m c main_arg5 (by decide)).trans <| (B2_of_ne m c main_arg5 (by decide)).trans <| (StableHlo.after_of_writes_sub hostOps0 _ hostOps0_writes (show main_arg5 ∉ hostOps0_W by decide))).trans rfl
theorem B3_arg1 : B3 m c (Proc.devRef .tc main_arg1) = m ((c : Thread nD τ).loc main_arg1) :=
  ((B3_of_ne m c main_arg1 (by decide)).trans <| (B2_in m c 1 rfl).trans <| (StableHlo.after_of_writes_sub hostOps0 _ hostOps0_writes (show main_arg1 ∉ hostOps0_W by decide))).trans rfl
theorem B5_arg0 : B5 m c (Proc.devRef .tc main_arg0) = m ((c : Thread nD τ).loc main_arg0) :=
  ((StableHlo.after_of_writes_sub hostOps3 _ hostOps3_writes (show main_arg0 ∉ hostOps3_W by decide)).trans <| (B4_of_ne m c main_arg0 (by decide)).trans <| (B3_in m c 1 rfl).trans <| (B2_in m c 0 rfl).trans <| (StableHlo.after_of_writes_sub hostOps0 _ hostOps0_writes (show main_arg0 ∉ hostOps0_W by decide))).trans rfl
theorem B5_arg1 : B5 m c (Proc.devRef .tc main_arg1) = m ((c : Thread nD τ).loc main_arg1) :=
  ((StableHlo.after_of_writes_sub hostOps3 _ hostOps3_writes (show main_arg1 ∉ hostOps3_W by decide)).trans <| (B4_in m c 1 rfl).trans <| (B3_of_ne m c main_arg1 (by decide)).trans <| (B2_in m c 1 rfl).trans <| (StableHlo.after_of_writes_sub hostOps0 _ hostOps0_writes (show main_arg1 ∉ hostOps0_W by decide))).trans rfl
theorem B5_arg3 : B5 m c (Proc.devRef .tc main_arg3) = m ((c : Thread nD τ).loc main_arg3) :=
  ((StableHlo.after_of_writes_sub hostOps3 _ hostOps3_writes (show main_arg3 ∉ hostOps3_W by decide)).trans <| (B4_of_ne m c main_arg3 (by decide)).trans <| (B3_of_ne m c main_arg3 (by decide)).trans <| (B2_of_ne m c main_arg3 (by decide)).trans <| (StableHlo.after_of_writes_sub hostOps0 _ hostOps0_writes (show main_arg3 ∉ hostOps0_W by decide))).trans rfl
theorem B5_arg13 : B5 m c (Proc.devRef .tc main_arg13) = m ((c : Thread nD τ).loc main_arg13) :=
  ((StableHlo.after_of_writes_sub hostOps3 _ hostOps3_writes (show main_arg13 ∉ hostOps3_W by decide)).trans <| (B4_of_ne m c main_arg13 (by decide)).trans <| (B3_of_ne m c main_arg13 (by decide)).trans <| (B2_in m c 2 rfl).trans <| (StableHlo.after_of_writes_sub hostOps0 _ hostOps0_writes (show main_arg13 ∉ hostOps0_W by decide))).trans rfl
theorem B5_arg15 : B5 m c (Proc.devRef .tc main_arg15) = m ((c : Thread nD τ).loc main_arg15) :=
  ((StableHlo.after_of_writes_sub hostOps3 _ hostOps3_writes (show main_arg15 ∉ hostOps3_W by decide)).trans <| (B4_of_ne m c main_arg15 (by decide)).trans <| (B3_of_ne m c main_arg15 (by decide)).trans <| (B2_in m c 4 rfl).trans <| (StableHlo.after_of_writes_sub hostOps0 _ hostOps0_writes (show main_arg15 ∉ hostOps0_W by decide))).trans rfl
theorem B5_arg17 : B5 m c (Proc.devRef .tc main_arg17) = m ((c : Thread nD τ).loc main_arg17) :=
  ((StableHlo.after_of_writes_sub hostOps3 _ hostOps3_writes (show main_arg17 ∉ hostOps3_W by decide)).trans <| (B4_of_ne m c main_arg17 (by decide)).trans <| (B3_of_ne m c main_arg17 (by decide)).trans <| (B2_in m c 6 rfl).trans <| (StableHlo.after_of_writes_sub hostOps0 _ hostOps0_writes (show main_arg17 ∉ hostOps0_W by decide))).trans rfl
theorem B5_arg19 : B5 m c (Proc.devRef .tc main_arg19) = m ((c : Thread nD τ).loc main_arg19) :=
  ((StableHlo.after_of_writes_sub hostOps3 _ hostOps3_writes (show main_arg19 ∉ hostOps3_W by decide)).trans <| (B4_of_ne m c main_arg19 (by decide)).trans <| (B3_of_ne m c main_arg19 (by decide)).trans <| (B2_in m c 8 rfl).trans <| (StableHlo.after_of_writes_sub hostOps0 _ hostOps0_writes (show main_arg19 ∉ hostOps0_W by decide))).trans rfl
theorem B4_arg2 : B4 m c (Proc.devRef .tc main_arg2) = m ((c : Thread nD τ).loc main_arg2) :=
  ((B4_of_ne m c main_arg2 (by decide)).trans <| (B3_of_ne m c main_arg2 (by decide)).trans <| (B2_of_ne m c main_arg2 (by decide)).trans <| (StableHlo.after_of_writes_sub hostOps0 _ hostOps0_writes (show main_arg2 ∉ hostOps0_W by decide))).trans rfl
theorem B4_arg9 : B4 m c (Proc.devRef .tc main_arg9) = m ((c : Thread nD τ).loc main_arg9) :=
  ((B4_of_ne m c main_arg9 (by decide)).trans <| (B3_of_ne m c main_arg9 (by decide)).trans <| (B2_of_ne m c main_arg9 (by decide)).trans <| (StableHlo.after_of_writes_sub hostOps0 _ hostOps0_writes (show main_arg9 ∉ hostOps0_W by decide))).trans rfl
theorem B4_arg10 : B4 m c (Proc.devRef .tc main_arg10) = m ((c : Thread nD τ).loc main_arg10) :=
  ((B4_of_ne m c main_arg10 (by decide)).trans <| (B3_of_ne m c main_arg10 (by decide)).trans <| (B2_of_ne m c main_arg10 (by decide)).trans <| (StableHlo.after_of_writes_sub hostOps0 _ hostOps0_writes (show main_arg10 ∉ hostOps0_W by decide))).trans rfl
theorem B4_arg11 : B4 m c (Proc.devRef .tc main_arg11) = m ((c : Thread nD τ).loc main_arg11) :=
  ((B4_of_ne m c main_arg11 (by decide)).trans <| (B3_of_ne m c main_arg11 (by decide)).trans <| (B2_of_ne m c main_arg11 (by decide)).trans <| (StableHlo.after_of_writes_sub hostOps0 _ hostOps0_writes (show main_arg11 ∉ hostOps0_W by decide))).trans rfl
theorem B4_arg12 : B4 m c (Proc.devRef .tc main_arg12) = m ((c : Thread nD τ).loc main_arg12) :=
  ((B4_of_ne m c main_arg12 (by decide)).trans <| (B3_of_ne m c main_arg12 (by decide)).trans <| (B2_of_ne m c main_arg12 (by decide)).trans <| (StableHlo.after_of_writes_sub hostOps0 _ hostOps0_writes (show main_arg12 ∉ hostOps0_W by decide))).trans rfl
theorem B4_arg14 : B4 m c (Proc.devRef .tc main_arg14) = m ((c : Thread nD τ).loc main_arg14) :=
  ((B4_of_ne m c main_arg14 (by decide)).trans <| (B3_of_ne m c main_arg14 (by decide)).trans <| (B2_of_ne m c main_arg14 (by decide)).trans <| (StableHlo.after_of_writes_sub hostOps0 _ hostOps0_writes (show main_arg14 ∉ hostOps0_W by decide))).trans rfl
theorem B4_arg16 : B4 m c (Proc.devRef .tc main_arg16) = m ((c : Thread nD τ).loc main_arg16) :=
  ((B4_of_ne m c main_arg16 (by decide)).trans <| (B3_of_ne m c main_arg16 (by decide)).trans <| (B2_of_ne m c main_arg16 (by decide)).trans <| (StableHlo.after_of_writes_sub hostOps0 _ hostOps0_writes (show main_arg16 ∉ hostOps0_W by decide))).trans rfl
theorem B4_arg18 : B4 m c (Proc.devRef .tc main_arg18) = m ((c : Thread nD τ).loc main_arg18) :=
  ((B4_of_ne m c main_arg18 (by decide)).trans <| (B3_of_ne m c main_arg18 (by decide)).trans <| (B2_of_ne m c main_arg18 (by decide)).trans <| (StableHlo.after_of_writes_sub hostOps0 _ hostOps0_writes (show main_arg18 ∉ hostOps0_W by decide))).trans rfl
theorem B4_arg20 : B4 m c (Proc.devRef .tc main_arg20) = m ((c : Thread nD τ).loc main_arg20) :=
  ((B4_of_ne m c main_arg20 (by decide)).trans <| (B3_of_ne m c main_arg20 (by decide)).trans <| (B2_of_ne m c main_arg20 (by decide)).trans <| (StableHlo.after_of_writes_sub hostOps0 _ hostOps0_writes (show main_arg20 ∉ hostOps0_W by decide))).trans rfl

/-! ## Region results carried to where they are read -/

theorem B4_v4_0 : B4 m c (Proc.devRef .tc main_v4_0) = B2 m c (Proc.devRef .tc main_v4_0) := (B4_of_ne m c main_v4_0 (by decide)).trans <| (B3_of_ne m c main_v4_0 (by decide))
theorem B5_v4_1 : B5 m c (Proc.devRef .tc main_v4_1) = B2 m c (Proc.devRef .tc main_v4_1) := (StableHlo.after_of_writes_sub hostOps3 _ hostOps3_writes (show main_v4_1 ∉ hostOps3_W by decide)).trans <| (B4_of_ne m c main_v4_1 (by decide)).trans <| (B3_of_ne m c main_v4_1 (by decide))
theorem B5_v5 : B5 m c (Proc.devRef .tc main_v5) = B3 m c (Proc.devRef .tc main_v5) := (StableHlo.after_of_writes_sub hostOps3 _ hostOps3_writes (show main_v5 ∉ hostOps3_W by decide)).trans <| (B4_of_ne m c main_v5 (by decide))
theorem B5_v6 : B5 m c (Proc.devRef .tc main_v6) = B4 m c (Proc.devRef .tc main_v6) := (StableHlo.after_of_writes_sub hostOps3 _ hostOps3_writes (show main_v6 ∉ hostOps3_W by decide))
theorem B6_v4_0 : B6 m c (Proc.devRef .tc main_v4_0) = B2 m c (Proc.devRef .tc main_v4_0) := (B6_of_ne m c main_v4_0 (by decide)).trans <| (StableHlo.after_of_writes_sub hostOps3 _ hostOps3_writes (show main_v4_0 ∉ hostOps3_W by decide)).trans <| (B4_of_ne m c main_v4_0 (by decide)).trans <| (B3_of_ne m c main_v4_0 (by decide))
theorem B6_v4_1 : B6 m c (Proc.devRef .tc main_v4_1) = B2 m c (Proc.devRef .tc main_v4_1) := (B6_in m c 4 rfl).trans <| (StableHlo.after_of_writes_sub hostOps3 _ hostOps3_writes (show main_v4_1 ∉ hostOps3_W by decide)).trans <| (B4_of_ne m c main_v4_1 (by decide)).trans <| (B3_of_ne m c main_v4_1 (by decide))

/-! ## The first host stretch: the four bias vectors as rows -/

theorem B1_v0 : B1 m c (Proc.devRef .tc main_v0) = shapeCast S1x64 (m ((c : Thread nD τ).loc main_arg14)) shapeCasts_S64_S1x64 := by
  show StableHlo.after hostOps0 (B0 m c) (Proc.devRef .tc main_v0) = _
  after_results <;> rfl
theorem B1_v1 : B1 m c (Proc.devRef .tc main_v1) = shapeCast S1x1 (m ((c : Thread nD τ).loc main_arg16)) shapeCasts_S1_S1x1 := by
  show StableHlo.after hostOps0 (B0 m c) (Proc.devRef .tc main_v1) = _
  after_results <;> rfl
theorem B1_v2 : B1 m c (Proc.devRef .tc main_v2) = shapeCast S1x64 (m ((c : Thread nD τ).loc main_arg18)) shapeCasts_S64_S1x64 := by
  show StableHlo.after hostOps0 (B0 m c) (Proc.devRef .tc main_v2) = _
  after_results <;> rfl
theorem B1_v3 : B1 m c (Proc.devRef .tc main_v3) = shapeCast S1x1 (m ((c : Thread nD τ).loc main_arg20)) shapeCasts_S1_S1x1 := by
  show StableHlo.after hostOps0 (B0 m c) (Proc.devRef .tc main_v3) = _
  after_results <;> rfl

/-! ## The second host stretch -/

theorem B5_v7 : B5 m c (Proc.devRef .tc main_v7) = shapeCast S1x768 (B2 m c (Proc.devRef .tc main_v4_0)) shapeCasts_S768x1_S1x768 := by
  rw [← B4_v4_0 m c]
  show StableHlo.after hostOps3 (B4 m c) (Proc.devRef .tc main_v7) = _
  after_results <;> rfl
theorem B5_v16 : B5 m c (Proc.devRef .tc main_v16) = extractStridedSlice S256x256 ![0, 0] (m ((c : Thread nD τ).loc main_arg9)) slices_S1792x256_S256x256_0_0 := by
  rw [← B4_arg9 m c]
  show StableHlo.after hostOps3 (B4 m c) (Proc.devRef .tc main_v16) = _
  after_results <;> rfl
theorem B5_v17 : B5 m c (Proc.devRef .tc main_v17) = extractStridedSlice S256x256 ![256, 0] (m ((c : Thread nD τ).loc main_arg9)) slices_S1792x256_S256x256_256_0 := by
  rw [← B4_arg9 m c]
  show StableHlo.after hostOps3 (B4 m c) (Proc.devRef .tc main_v17) = _
  after_results <;> rfl
theorem B5_v18 : B5 m c (Proc.devRef .tc main_v18) = extractStridedSlice S256x256 ![512, 0] (m ((c : Thread nD τ).loc main_arg9)) slices_S1792x256_S256x256_512_0 := by
  rw [← B4_arg9 m c]
  show StableHlo.after hostOps3 (B4 m c) (Proc.devRef .tc main_v18) = _
  after_results <;> rfl
theorem B5_v19 : B5 m c (Proc.devRef .tc main_v19) = extractStridedSlice S256x256 ![0, 0] (m ((c : Thread nD τ).loc main_arg11)) slices_S1792x256_S256x256_0_0 := by
  rw [← B4_arg11 m c]
  show StableHlo.after hostOps3 (B4 m c) (Proc.devRef .tc main_v19) = _
  after_results <;> rfl
theorem B5_v20 : B5 m c (Proc.devRef .tc main_v20) = extractStridedSlice S256x256 ![256, 0] (m ((c : Thread nD τ).loc main_arg11)) slices_S1792x256_S256x256_256_0 := by
  rw [← B4_arg11 m c]
  show StableHlo.after hostOps3 (B4 m c) (Proc.devRef .tc main_v20) = _
  after_results <;> rfl
theorem B5_v21 : B5 m c (Proc.devRef .tc main_v21) = extractStridedSlice S256x256 ![512, 0] (m ((c : Thread nD τ).loc main_arg11)) slices_S1792x256_S256x256_512_0 := by
  rw [← B4_arg11 m c]
  show StableHlo.after hostOps3 (B4 m c) (Proc.devRef .tc main_v21) = _
  after_results <;> rfl
theorem B5_v12 : B5 m c (Proc.devRef .tc main_v12) =
    addf (shapeCast S1x256 (m ((c : Thread nD τ).loc main_arg10)) shapeCasts_S256_S1x256)
      (Host.dotGeneral dot_S1x1024_S1024x256_S1x256_1_0_0_1_n_n none (m ((c : Thread nD τ).loc main_arg2))
        (extractStridedSlice S1024x256 ![768, 0] (m ((c : Thread nD τ).loc main_arg9)) slices_S1792x256_S1024x256_768_0)) := by
  rw [← B4_arg10 m c, ← B4_arg2 m c, ← B4_arg9 m c]
  show StableHlo.after hostOps3 (B4 m c) (Proc.devRef .tc main_v12) = _
  after_results <;> rfl
theorem B5_v15 : B5 m c (Proc.devRef .tc main_v15) =
    addf (shapeCast S1x256 (m ((c : Thread nD τ).loc main_arg12)) shapeCasts_S256_S1x256)
      (Host.dotGeneral dot_S1x1024_S1024x256_S1x256_1_0_0_1_n_n none (m ((c : Thread nD τ).loc main_arg2))
        (extractStridedSlice S1024x256 ![768, 0] (m ((c : Thread nD τ).loc main_arg11)) slices_S1792x256_S1024x256_768_0)) := by
  rw [← B4_arg12 m c, ← B4_arg2 m c, ← B4_arg11 m c]
  show StableHlo.after hostOps3 (B4 m c) (Proc.devRef .tc main_v15) = _
  after_results <;> rfl
theorem B5_v22 : B5 m c (Proc.devRef .tc main_v22) = shapeCast S1x64 (m ((c : Thread nD τ).loc main_arg14)) shapeCasts_S64_S1x64 := by
  rw [← B4_arg14 m c]
  show StableHlo.after hostOps3 (B4 m c) (Proc.devRef .tc main_v22) = _
  after_results <;> rfl
theorem B5_v23 : B5 m c (Proc.devRef .tc main_v23) = shapeCast S1x1 (m ((c : Thread nD τ).loc main_arg16)) shapeCasts_S1_S1x1 := by
  rw [← B4_arg16 m c]
  show StableHlo.after hostOps3 (B4 m c) (Proc.devRef .tc main_v23) = _
  after_results <;> rfl
theorem B5_v24 : B5 m c (Proc.devRef .tc main_v24) = shapeCast S1x64 (m ((c : Thread nD τ).loc main_arg18)) shapeCasts_S64_S1x64 := by
  rw [← B4_arg18 m c]
  show StableHlo.after hostOps3 (B4 m c) (Proc.devRef .tc main_v24) = _
  after_results <;> rfl
theorem B5_v25 : B5 m c (Proc.devRef .tc main_v25) = shapeCast S1x1 (m ((c : Thread nD τ).loc main_arg20)) shapeCasts_S1_S1x1 := by
  rw [← B4_arg20 m c]
  show StableHlo.after hostOps3 (B4 m c) (Proc.devRef .tc main_v25) = _
  after_results <;> rfl

/-! ## The last host stretch: the four prediction columns end to end -/

theorem B7_v31 : B7 m c (Proc.devRef .tc main_v31) =
    concatenate S3072 0 [⟨S768, shapeCast S768 (B2 m c (Proc.devRef .tc main_v4_0)) shapeCasts_S768x1_S768⟩,
      ⟨S768, shapeCast S768 (B2 m c (Proc.devRef .tc main_v4_1)) shapeCasts_S768x1_S768⟩,
      ⟨S768, shapeCast S768 (B6 m c (Proc.devRef .tc main_v26_0)) shapeCasts_S768x1_S768⟩,
      ⟨S768, shapeCast S768 (B6 m c (Proc.devRef .tc main_v26_1)) shapeCasts_S768x1_S768⟩] concatenates_S768_S768_S768_S768_S3072_d0 := by
  rw [← B6_v4_0 m c, ← B6_v4_1 m c]
  show StableHlo.after hostOps4 (B6 m c) (Proc.devRef .tc main_v31) = _
  after_results <;> rfl

end Cert.KernelIdeal.Reg

end
-- ==== Proof.KI.Val0.lean ====
/-
  What region 0 leaves in its two result arrays. Every window of the region is its whole array in one block on a
  one-point grid, so a window's block at the point is the array itself, the one point's write-back is the body's result
  block whole, and the result array after the region is the body's arithmetic applied to the operand arrays.
-/
import proofs.«153655_j17970143167165_2_alg».proof.Proof.KI.Reg0
import Idealize.ShloMosaic.Lib.Pipeline.Value

set_option maxRecDepth 16384

noncomputable section

namespace Cert.KernelIdeal.Reg

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- The one grid point. -/
theorem t0_eq (t : Fin cfg0.N) : t = t0_0 := fin_N0 t

/-- Window 0's block is its whole array. -/
theorem iblk0_0_whole (c : Dev nD) (t : Fin cfg0.N) : (iblk0 V c 0 t : Vec F S768x256 .f32) = V c (Pipeline.arrRef spec0 0) := by
  rw [t0_eq t]
  funext j
  show V c (Pipeline.arrRef spec0 0) (((cfg0.win 0).blk t0_0).view.emb j) = V c (Pipeline.arrRef spec0 0) j
  refine congrArg _ ?_
  funext a; apply Fin.ext
  match a with
  | ⟨0, _⟩ => show win0_0.index t0_0 (0 : Fin 2) * _ + 1 * (j 0).val = (j 0).val; rw [show win0_0.index t0_0 (0 : Fin 2) = 0 from by decide +kernel]; omega
  | ⟨1, _⟩ => show win0_0.index t0_0 (1 : Fin 2) * _ + 1 * (j 1).val = (j 1).val; rw [show win0_0.index t0_0 (1 : Fin 2) = 0 from by decide +kernel]; omega

/-- Window 1's block is its whole array. -/
theorem iblk0_1_whole (c : Dev nD) (t : Fin cfg0.N) : (iblk0 V c 1 t : Vec F S768x256 .f32) = V c (Pipeline.arrRef spec0 1) := by
  rw [t0_eq t]
  funext j
  show V c (Pipeline.arrRef spec0 1) (((cfg0.win 1).blk t0_0).view.emb j) = V c (Pipeline.arrRef spec0 1) j
  refine congrArg _ ?_
  funext a; apply Fin.ext
  match a with
  | ⟨0, _⟩ => show win0_1.index t0_0 (0 : Fin 2) * _ + 1 * (j 0).val = (j 0).val; rw [show win0_1.index t0_0 (0 : Fin 2) = 0 from by decide +kernel]; omega
  | ⟨1, _⟩ => show win0_1.index t0_0 (1 : Fin 2) * _ + 1 * (j 1).val = (j 1).val; rw [show win0_1.index t0_0 (1 : Fin 2) = 0 from by decide +kernel]; omega

/-- Window 2's block is its whole array. -/
theorem iblk0_2_whole (c : Dev nD) (t : Fin cfg0.N) : (iblk0 V c 2 t : Vec F S256x64 .f32) = V c (Pipeline.arrRef spec0 2) := by
  rw [t0_eq t]
  funext j
  show V c (Pipeline.arrRef spec0 2) (((cfg0.win 2).blk t0_0).view.emb j) = V c (Pipeline.arrRef spec0 2) j
  refine congrArg _ ?_
  funext a; apply Fin.ext
  match a with
  | ⟨0, _⟩ => show win0_2.index t0_0 (0 : Fin 2) * _ + 1 * (j 0).val = (j 0).val; rw [show win0_2.index t0_0 (0 : Fin 2) = 0 from by decide +kernel]; omega
  | ⟨1, _⟩ => show win0_2.index t0_0 (1 : Fin 2) * _ + 1 * (j 1).val = (j 1).val; rw [show win0_2.index t0_0 (1 : Fin 2) = 0 from by decide +kernel]; omega

/-- Window 3's block is its whole array. -/
theorem iblk0_3_whole (c : Dev nD) (t : Fin cfg0.N) : (iblk0 V c 3 t : Vec F S1x64 .f32) = V c (Pipeline.arrRef spec0 3) := by
  rw [t0_eq t]
  funext j
  show V c (Pipeline.arrRef spec0 3) (((cfg0.win 3).blk t0_0).view.emb j) = V c (Pipeline.arrRef spec0 3) j
  refine congrArg _ ?_
  funext a; apply Fin.ext
  match a with
  | ⟨0, _⟩ => show win0_3.index t0_0 (0 : Fin 2) * _ + 1 * (j 0).val = (j 0).val; rw [show win0_3.index t0_0 (0 : Fin 2) = 0 from by decide +kernel]; omega
  | ⟨1, _⟩ => show win0_3.index t0_0 (1 : Fin 2) * _ + 1 * (j 1).val = (j 1).val; rw [show win0_3.index t0_0 (1 : Fin 2) = 0 from by decide +kernel]; omega

/-- Window 4's block is its whole array. -/
theorem iblk0_4_whole (c : Dev nD) (t : Fin cfg0.N) : (iblk0 V c 4 t : Vec F S64x1 .f32) = V c (Pipeline.arrRef spec0 4) := by
  rw [t0_eq t]
  funext j
  show V c (Pipeline.arrRef spec0 4) (((cfg0.win 4).blk t0_0).view.emb j) = V c (Pipeline.arrRef spec0 4) j
  refine congrArg _ ?_
  funext a; apply Fin.ext
  match a with
  | ⟨0, _⟩ => show win0_4.index t0_0 (0 : Fin 2) * _ + 1 * (j 0).val = (j 0).val; rw [show win0_4.index t0_0 (0 : Fin 2) = 0 from by decide +kernel]; omega
  | ⟨1, _⟩ => show win0_4.index t0_0 (1 : Fin 2) * _ + 1 * (j 1).val = (j 1).val; rw [show win0_4.index t0_0 (1 : Fin 2) = 0 from by decide +kernel]; omega

/-- Window 5's block is its whole array. -/
theorem iblk0_5_whole (c : Dev nD) (t : Fin cfg0.N) : (iblk0 V c 5 t : Vec F S1x1 .f32) = V c (Pipeline.arrRef spec0 5) := by
  rw [t0_eq t]
  funext j
  show V c (Pipeline.arrRef spec0 5) (((cfg0.win 5).blk t0_0).view.emb j) = V c (Pipeline.arrRef spec0 5) j
  refine congrArg _ ?_
  funext a; apply Fin.ext
  match a with
  | ⟨0, _⟩ => show win0_5.index t0_0 (0 : Fin 2) * _ + 1 * (j 0).val = (j 0).val; rw [show win0_5.index t0_0 (0 : Fin 2) = 0 from by decide +kernel]; omega
  | ⟨1, _⟩ => show win0_5.index t0_0 (1 : Fin 2) * _ + 1 * (j 1).val = (j 1).val; rw [show win0_5.index t0_0 (1 : Fin 2) = 0 from by decide +kernel]; omega

/-- Window 6's block is its whole array. -/
theorem iblk0_6_whole (c : Dev nD) (t : Fin cfg0.N) : (iblk0 V c 6 t : Vec F S256x64 .f32) = V c (Pipeline.arrRef spec0 6) := by
  rw [t0_eq t]
  funext j
  show V c (Pipeline.arrRef spec0 6) (((cfg0.win 6).blk t0_0).view.emb j) = V c (Pipeline.arrRef spec0 6) j
  refine congrArg _ ?_
  funext a; apply Fin.ext
  match a with
  | ⟨0, _⟩ => show win0_6.index t0_0 (0 : Fin 2) * _ + 1 * (j 0).val = (j 0).val; rw [show win0_6.index t0_0 (0 : Fin 2) = 0 from by decide +kernel]; omega
  | ⟨1, _⟩ => show win0_6.index t0_0 (1 : Fin 2) * _ + 1 * (j 1).val = (j 1).val; rw [show win0_6.index t0_0 (1 : Fin 2) = 0 from by decide +kernel]; omega

/-- Window 7's block is its whole array. -/
theorem iblk0_7_whole (c : Dev nD) (t : Fin cfg0.N) : (iblk0 V c 7 t : Vec F S1x64 .f32) = V c (Pipeline.arrRef spec0 7) := by
  rw [t0_eq t]
  funext j
  show V c (Pipeline.arrRef spec0 7) (((cfg0.win 7).blk t0_0).view.emb j) = V c (Pipeline.arrRef spec0 7) j
  refine congrArg _ ?_
  funext a; apply Fin.ext
  match a with
  | ⟨0, _⟩ => show win0_7.index t0_0 (0 : Fin 2) * _ + 1 * (j 0).val = (j 0).val; rw [show win0_7.index t0_0 (0 : Fin 2) = 0 from by decide +kernel]; omega
  | ⟨1, _⟩ => show win0_7.index t0_0 (1 : Fin 2) * _ + 1 * (j 1).val = (j 1).val; rw [show win0_7.index t0_0 (1 : Fin 2) = 0 from by decide +kernel]; omega

/-- Window 8's block is its whole array. -/
theorem iblk0_8_whole (c : Dev nD) (t : Fin cfg0.N) : (iblk0 V c 8 t : Vec F S64x1 .f32) = V c (Pipeline.arrRef spec0 8) := by
  rw [t0_eq t]
  funext j
  show V c (Pipeline.arrRef spec0 8) (((cfg0.win 8).blk t0_0).view.emb j) = V c (Pipeline.arrRef spec0 8) j
  refine congrArg _ ?_
  funext a; apply Fin.ext
  match a with
  | ⟨0, _⟩ => show win0_8.index t0_0 (0 : Fin 2) * _ + 1 * (j 0).val = (j 0).val; rw [show win0_8.index t0_0 (0 : Fin 2) = 0 from by decide +kernel]; omega
  | ⟨1, _⟩ => show win0_8.index t0_0 (1 : Fin 2) * _ + 1 * (j 1).val = (j 1).val; rw [show win0_8.index t0_0 (1 : Fin 2) = 0 from by decide +kernel]; omega

/-- Window 9's block is its whole array. -/
theorem iblk0_9_whole (c : Dev nD) (t : Fin cfg0.N) : (iblk0 V c 9 t : Vec F S1x1 .f32) = V c (Pipeline.arrRef spec0 9) := by
  rw [t0_eq t]
  funext j
  show V c (Pipeline.arrRef spec0 9) (((cfg0.win 9).blk t0_0).view.emb j) = V c (Pipeline.arrRef spec0 9) j
  refine congrArg _ ?_
  funext a; apply Fin.ext
  match a with
  | ⟨0, _⟩ => show win0_9.index t0_0 (0 : Fin 2) * _ + 1 * (j 0).val = (j 0).val; rw [show win0_9.index t0_0 (0 : Fin 2) = 0 from by decide +kernel]; omega
  | ⟨1, _⟩ => show win0_9.index t0_0 (1 : Fin 2) * _ + 1 * (j 1).val = (j 1).val; rw [show win0_9.index t0_0 (1 : Fin 2) = 0 from by decide +kernel]; omega

/-- An index of result 0's array is in the one point's block. -/
theorem mem_blk0_10 (i : S768x1.Idx) : i ∈ ((cfg0.win 10).blk t0_0).view.set := by
  show i ∈ ((View.whole main_v4_0).slice (win0_10.rect t0_0)).set
  rw [View.set_slice_whole, Rect.mem_set_unit]
  have h0 : (i 0).val < 768 := (i 0).isLt
  have h1 : (i 1).val < 1 := (i 1).isLt
  have e0 : win0_10.index t0_0 (0 : Fin 2) = 0 := by decide +kernel
  have e1 : win0_10.index t0_0 (1 : Fin 2) = 0 := by decide +kernel
  intro a
  match a with
  | ⟨0, _⟩ => show win0_10.index t0_0 (0 : Fin 2) * 768 ≤ (i 0).val ∧ (i 0).val < win0_10.index t0_0 (0 : Fin 2) * 768 + 768; omega
  | ⟨1, _⟩ => show win0_10.index t0_0 (1 : Fin 2) * 1 ≤ (i 1).val ∧ (i 1).val < win0_10.index t0_0 (1 : Fin 2) * 1 + 1; omega

theorem covered0_10 (i : S768x1.Idx) : ∃ t : Fin cfg0.N, (cfg0.win 10).flush t = true ∧ i ∈ ((cfg0.win 10).blk t).view.set :=
  ⟨t0_0, flush0_10 t0_0, mem_blk0_10 i⟩

/-- The one point's block embeds as the identity. -/
theorem emb0_10 (j : S768x1.Idx) : ((cfg0.win 10).blk t0_0).view.emb j = j := by
  have e0 : win0_10.index t0_0 (0 : Fin 2) = 0 := by decide +kernel
  have e1 : win0_10.index t0_0 (1 : Fin 2) = 0 := by decide +kernel
  funext a; apply Fin.ext
  match a with
  | ⟨0, _⟩ => show win0_10.index t0_0 (0 : Fin 2) * 768 + 1 * (j 0).val = (j 0).val; omega
  | ⟨1, _⟩ => show win0_10.index t0_0 (1 : Fin 2) * 1 + 1 * (j 1).val = (j 1).val; omega

set_option maxHeartbeats 1000000 in
/-- What the one point writes back of result 0: the body's result block of the operand arrays, whole. -/
theorem flushed0_10 (c : Dev nD) (t : Fin cfg0.N) : (dat0 V c).flushed 10 t =
    ((cfg0.win 10).blk t).view.read (Elt F) (out0_10 (V c (Pipeline.arrRef spec0 0)) (V c (Pipeline.arrRef spec0 2)) (V c (Pipeline.arrRef spec0 3)) (V c (Pipeline.arrRef spec0 4)) (V c (Pipeline.arrRef spec0 5))) := by
  show (cfg0.win 10).cut (grid0.coords t) ((dat0 V c).after 10 t) = _
  rw [after0_10, iblk0_0_whole, iblk0_2_whole, iblk0_3_whole, iblk0_4_whole, iblk0_5_whole, t0_eq t]
  funext j
  show out0_10 (V c (Pipeline.arrRef spec0 0)) (V c (Pipeline.arrRef spec0 2)) (V c (Pipeline.arrRef spec0 3)) (V c (Pipeline.arrRef spec0 4)) (V c (Pipeline.arrRef spec0 5)) j = out0_10 (V c (Pipeline.arrRef spec0 0)) (V c (Pipeline.arrRef spec0 2)) (V c (Pipeline.arrRef spec0 3)) (V c (Pipeline.arrRef spec0 4)) (V c (Pipeline.arrRef spec0 5)) (((cfg0.win 10).blk t0_0).view.emb j)
  rw [emb0_10]

set_option maxHeartbeats 1000000 in
/-- Result 0's array after the region: the body's result block of the operand arrays. -/
theorem final0_10 (c : Dev nD) : (dat0 V c).arrAt 10 cfg0.N = out0_10 (V c (Pipeline.arrRef spec0 0)) (V c (Pipeline.arrRef spec0 2)) (V c (Pipeline.arrRef spec0 3)) (V c (Pipeline.arrRef spec0 4)) (V c (Pipeline.arrRef spec0 5)) :=
  (dat0 V c).arrAt_eq_of_cover 10 _ (fun t _ => flushed0_10 V c t) covered0_10

/-- An index of result 1's array is in the one point's block. -/
theorem mem_blk0_11 (i : S768x1.Idx) : i ∈ ((cfg0.win 11).blk t0_0).view.set := by
  show i ∈ ((View.whole main_v4_1).slice (win0_11.rect t0_0)).set
  rw [View.set_slice_whole, Rect.mem_set_unit]
  have h0 : (i 0).val < 768 := (i 0).isLt
  have h1 : (i 1).val < 1 := (i 1).isLt
  have e0 : win0_11.index t0_0 (0 : Fin 2) = 0 := by decide +kernel
  have e1 : win0_11.index t0_0 (1 : Fin 2) = 0 := by decide +kernel
  intro a
  match a with
  | ⟨0, _⟩ => show win0_11.index t0_0 (0 : Fin 2) * 768 ≤ (i 0).val ∧ (i 0).val < win0_11.index t0_0 (0 : Fin 2) * 768 + 768; omega
  | ⟨1, _⟩ => show win0_11.index t0_0 (1 : Fin 2) * 1 ≤ (i 1).val ∧ (i 1).val < win0_11.index t0_0 (1 : Fin 2) * 1 + 1; omega

theorem covered0_11 (i : S768x1.Idx) : ∃ t : Fin cfg0.N, (cfg0.win 11).flush t = true ∧ i ∈ ((cfg0.win 11).blk t).view.set :=
  ⟨t0_0, flush0_11 t0_0, mem_blk0_11 i⟩

/-- The one point's block embeds as the identity. -/
theorem emb0_11 (j : S768x1.Idx) : ((cfg0.win 11).blk t0_0).view.emb j = j := by
  have e0 : win0_11.index t0_0 (0 : Fin 2) = 0 := by decide +kernel
  have e1 : win0_11.index t0_0 (1 : Fin 2) = 0 := by decide +kernel
  funext a; apply Fin.ext
  match a with
  | ⟨0, _⟩ => show win0_11.index t0_0 (0 : Fin 2) * 768 + 1 * (j 0).val = (j 0).val; omega
  | ⟨1, _⟩ => show win0_11.index t0_0 (1 : Fin 2) * 1 + 1 * (j 1).val = (j 1).val; omega

set_option maxHeartbeats 1000000 in
/-- What the one point writes back of result 1: the body's result block of the operand arrays, whole. -/
theorem flushed0_11 (c : Dev nD) (t : Fin cfg0.N) : (dat0 V c).flushed 11 t =
    ((cfg0.win 11).blk t).view.read (Elt F) (out0_11 (V c (Pipeline.arrRef spec0 1)) (V c (Pipeline.arrRef spec0 6)) (V c (Pipeline.arrRef spec0 7)) (V c (Pipeline.arrRef spec0 8)) (V c (Pipeline.arrRef spec0 9))) := by
  show (cfg0.win 11).cut (grid0.coords t) ((dat0 V c).after 11 t) = _
  rw [after0_11, iblk0_1_whole, iblk0_6_whole, iblk0_7_whole, iblk0_8_whole, iblk0_9_whole, t0_eq t]
  funext j
  show out0_11 (V c (Pipeline.arrRef spec0 1)) (V c (Pipeline.arrRef spec0 6)) (V c (Pipeline.arrRef spec0 7)) (V c (Pipeline.arrRef spec0 8)) (V c (Pipeline.arrRef spec0 9)) j = out0_11 (V c (Pipeline.arrRef spec0 1)) (V c (Pipeline.arrRef spec0 6)) (V c (Pipeline.arrRef spec0 7)) (V c (Pipeline.arrRef spec0 8)) (V c (Pipeline.arrRef spec0 9)) (((cfg0.win 11).blk t0_0).view.emb j)
  rw [emb0_11]

set_option maxHeartbeats 1000000 in
/-- Result 1's array after the region: the body's result block of the operand arrays. -/
theorem final0_11 (c : Dev nD) : (dat0 V c).arrAt 11 cfg0.N = out0_11 (V c (Pipeline.arrRef spec0 1)) (V c (Pipeline.arrRef spec0 6)) (V c (Pipeline.arrRef spec0 7)) (V c (Pipeline.arrRef spec0 8)) (V c (Pipeline.arrRef spec0 9)) :=
  (dat0 V c).arrAt_eq_of_cover 11 _ (fun t _ => flushed0_11 V c t) covered0_11

end Cert.KernelIdeal.Reg

end
-- ==== Proof.KI.Reg1Value.lean ====
/- The value of regions 1 and 2 at the extended reals: the output block of the row-blocked maximum of products is, at
   row `p` and column `q`, the supremum over all 768 inner indices `j` of `x0 p j * x1 j q`. -/
import proofs.«153655_j17970143167165_2_alg».proof.Proof.KI.Reg1
import proofs.«153655_j17970143167165_2_alg».proof.Proof.KI.Reg2
import Idealize.ShloMosaic.Lib.Pipeline.Value
import Idealize.ShloMosaic.Lib.ValueIdx
import Idealize.ShloMosaic.PureOps.Ideal.Laws

set_option maxRecDepth 16384

noncomputable section

namespace Cert.KernelIdeal.RegValue

open Idealize.ShloMosaic Idealize.ShloMosaic.ValueIdx
open Cert.KernelIdeal Cert.KernelIdeal.Gen Cert.KernelIdeal.Reg

/-! ## Facts both regions share -/

/-- The pattern `0xFF80` of bf16 is `-∞`. -/
theorem ninf_bf16 : Ideal.ofBits .bf16 0xFF80#16 = (⊥ : EReal) := by
  simp [Ideal.ofBits, Ideal.ieee, -EReal.coe_mul]

/-- A fold of `max` from `⊥` is the lattice supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- Chunk `n` of the inner axis: `j ↦ 128 n + j`. -/
def chunk (n : ℕ) (hn : n < 6) : Fin 128 ↪ Fin 768 where
  toFun j := ⟨128 * n + j.val, by have := j.isLt; omega⟩
  inj' := by
    intro a b h
    have := congrArg Fin.val h
    simp only at this
    exact Fin.ext (by omega)

theorem chunk_val (n : ℕ) (hn : n < 6) (j : Fin 128) : (chunk n hn j).val = 128 * n + j.val := rfl

/-- The inner indices below `128 (n+1)` are those below `128 n` and chunk `n`. -/
theorem filter_succ (n : ℕ) (hn : n < 6) :
    (Finset.univ.filter fun j : Fin 768 => j.val < 128 * (n + 1))
      = (Finset.univ.filter fun j : Fin 768 => j.val < 128 * n) ∪ Finset.univ.map (chunk n hn) := by
  ext j
  simp only [Finset.mem_filter, Finset.mem_univ, true_and, Finset.mem_union, Finset.mem_map]
  constructor
  · intro h
    by_cases h' : j.val < 128 * n
    · exact .inl h'
    · exact .inr ⟨⟨j.val - 128 * n, by omega⟩, Fin.ext (by rw [chunk_val]; simp only; omega)⟩
  · rintro (h | ⟨i, rfl⟩)
    · omega
    · have := i.isLt; rw [chunk_val]; omega

/-- The left operand of the product, a 128×128 chunk given a trailing unit axis and broadcast along the output's
    columns, reads the chunk at (row, inner index). -/
theorem lhs_apply (v : FVec Ideal S128x128 .bf16) (p j : Fin 128) (q : Fin 256) :
    broadcastTo S128x128x256 (shapeCast S128x128x1 v shapeCasts_S128x128_S128x128x1) broadcasts_S128x128x1_S128x128x256 (ix3 p j q)
      = v (ix2 p j) := by
  rw [broadcastTo_apply _ _ _ (ix3 p j (0 : Fin 1)) (by intro a; match a with | ⟨0, _⟩ => rfl | ⟨1, _⟩ => rfl | ⟨2, _⟩ => rfl)]
  exact shapeCast_apply _ _ _ (ix2 p j) (by rw [Shape.rowMajor_val_two, Shape.rowMajor_val_three]; simp)

/-- The right operand, a 128×256 chunk given a leading unit axis and broadcast along the output's rows, reads the
    chunk at (inner index, column). -/
theorem rhs_apply (v : FVec Ideal S128x256 .bf16) (p j : Fin 128) (q : Fin 256) :
    broadcastTo S128x128x256 (shapeCast S1x128x256 v shapeCasts_S128x256_S1x128x256) broadcasts_S1x128x256_S128x128x256 (ix3 p j q)
      = v (ix2 j q) := by
  rw [broadcastTo_apply _ _ _ (ix3 (0 : Fin 1) j q) (by intro a; match a with | ⟨0, _⟩ => rfl | ⟨1, _⟩ => rfl | ⟨2, _⟩ => rfl)]
  exact shapeCast_apply _ _ _ (ix2 j q) (by rw [Shape.rowMajor_val_two, Shape.rowMajor_val_three]; simp)

/-- The reduced index with the inner coordinate put back. -/
theorem lift_eq (p : Fin 128) (q : Fin 256) (j : Fin 128) :
    reduces_S128x128x256_S128x256.lift (ix2 p q) j = ix3 p j q := by
  funext a; match a with | ⟨0, _⟩ => rfl | ⟨1, _⟩ => rfl | ⟨2, _⟩ => rfl

/-- The chunk's maximum of products, at the extended reals. -/
theorem maxprod_apply (v8 : FVec Ideal S128x128 .bf16) (v11 : FVec Ideal S128x256 .bf16) (hφ) (hacc) (p : Fin 128) (q : Fin 256) :
    multiReduction .maximumf [1] S128x256
        (mulf (broadcastTo S128x128x256 (shapeCast S128x128x1 v8 shapeCasts_S128x128_S128x128x1) broadcasts_S128x128x1_S128x128x256)
          (broadcastTo S128x128x256 (shapeCast S1x128x256 v11 shapeCasts_S128x256_S1x128x256) broadcasts_S1x128x256_S128x128x256))
        0xFF80#16 reduces_S128x128x256_S128x256 hφ hacc (ix2 p q)
      = Finset.univ.sup fun j : Fin 128 => v8 (ix2 p j) * v11 (ix2 j q) := by
  refine (Ideal.multiReduction_maximumf_single _ _ _ _ _ _).trans ?_
  rw [show FloatOps.ofBits (F := Ideal) .bf16 0xFF80#16 = (⊥ : EReal) from ninf_bf16, fold_max_bot]
  refine Finset.sup_congr rfl fun (j : Fin 128) _ => ?_
  show mulf _ _ (reduces_S128x128x256_S128x256.lift (ix2 p q) j) = _
  rw [lift_eq, mulf_apply, lhs_apply, rhs_apply]

/-! ## Region 1 -/

theorem trips1 : k1_t1_loop.trips = 6 := by decide

/-- The initial carried value is `-∞` everywhere. -/
theorem pay1_1_apply (i : S128x256.Idx) : (k1_pay1 (F := Ideal)) i = (⊥ : EReal) := by
  unfold k1_pay1
  exact ninf_bf16

/-- One trip's payload at row `p`, column `q`: the larger of the carried value and the supremum of the chunk's
    products (the narrowing conversions are the identity at the extended reals). -/
theorem pay2_1_apply (acc : FVec Ideal S128x256 .bf16) (v8 : Vec Ideal S128x128 .f32) (v11 : Vec Ideal S128x256 .f32)
    (p : Fin 128) (q : Fin 256) :
    k1_pay2 acc v8 v11 (ix2 p q) = max (acc (ix2 p q)) (Finset.univ.sup fun j : Fin 128 => v8 (ix2 p j) * v11 (ix2 j q)) := by
  unfold k1_pay2
  simp only []
  rw [maximumf_apply]
  exact congrArg (max _) (maxprod_apply _ _ _ _ p q)

/-- Trip `k`'s chunk of the first factor: rows as they are, inner index `128 k + j`. -/
theorem ld0_1_apply (k : Fin k1_t1_loop.trips) (hk : k.val < 6) (x0 : Vec Ideal S128x768 .f32) (p j : Fin 128) :
    View.ld x0 (l1_0 k) (ix2 p j) = x0 (ix2 p (chunk k.val hk j)) := by
  show x0 ((l1_0 k).idx (ix2 p j)) = _
  congr 1
  funext a
  have h := k1_off1_eq k
  match a with
  | ⟨0, _⟩ => exact Fin.ext (by show k1_off1 k 0 + 1 * p.val = p.val; rw [h]; simp)
  | ⟨1, _⟩ => exact Fin.ext (by show k1_off1 k 1 + 1 * j.val = 128 * k.val + j.val; rw [h]; simp)

/-- Trip `k`'s chunk of the second factor: inner index `128 k + j`, columns as they are. -/
theorem ld1_1_apply (k : Fin k1_t1_loop.trips) (hk : k.val < 6) (x1 : Vec Ideal S768x256 .f32) (j : Fin 128) (q : Fin 256) :
    View.ld x1 (l1_1 k) (ix2 j q) = x1 (ix2 (chunk k.val hk j) q) := by
  show x1 ((l1_1 k).idx (ix2 j q)) = _
  congr 1
  funext a
  have h := k1_off2_eq k
  match a with
  | ⟨0, _⟩ => exact Fin.ext (by show k1_off2 k 0 + 1 * j.val = 128 * k.val + j.val; rw [h]; simp)
  | ⟨1, _⟩ => exact Fin.ext (by show k1_off2 k 1 + 1 * q.val = q.val; rw [h]; simp)

/-- The carried value before trip `n`: the supremum of the products over the inner indices below `128 n`. -/
theorem acc1_apply (x0 : Vec Ideal S128x768 .f32) (x1 : Vec Ideal S768x256 .f32) (p : Fin 128) (q : Fin 256) :
    ∀ n, n ≤ 6 → acc1 x0 x1 n (ix2 p q)
      = (Finset.univ.filter fun j : Fin 768 => j.val < 128 * n).sup fun j => x0 (ix2 p j) * x1 (ix2 j q)
  | 0, _ => by
    rw [acc1.eq_1, pay1_1_apply]
    simp
  | n + 1, hn => by
    have hn' : n < 6 := hn
    have ht : n < k1_t1_loop.trips := by rw [trips1]; exact hn'
    rw [acc1.eq_2, dif_pos ht]
    unfold trip1
    rw [pay2_1_apply, acc1_apply x0 x1 p q n (by omega), filter_succ n hn', Finset.sup_union, Finset.sup_map]
    congr 1
    refine Finset.sup_congr rfl fun j _ => ?_
    rw [ld0_1_apply ⟨n, ht⟩ hn', ld1_1_apply ⟨n, ht⟩ hn']
    rfl

/-- Region 1's output block: at row `p`, column `q`, the supremum over the 768 inner indices of the products. -/
theorem out1_2_apply (x0 : Vec Ideal S128x768 .f32) (x1 : Vec Ideal S768x256 .f32) (p : Fin 128) (q : Fin 256) :
    out1_2 x0 x1 (ix2 p q) = Finset.univ.sup fun j : Fin 768 => x0 (ix2 p j) * x1 (ix2 j q) := by
  unfold out1_2
  rw [View.canon_unit_zero (by funext a; match a with | ⟨0, _⟩ => rfl | ⟨1, _⟩ => rfl)]
  show acc1 x0 x1 k1_t1_loop.trips (ix2 p q) = _
  have hf : (Finset.univ.filter fun j : Fin 768 => j.val < 128 * 6) = Finset.univ :=
    Finset.filter_true_of_mem fun j _ => by have := j.isLt; omega
  rw [trips1, acc1_apply x0 x1 p q 6 le_rfl, hf]

/-! ## Region 2 -/

theorem trips2 : k2_t1_loop.trips = 6 := by decide

/-- The initial carried value is `-∞` everywhere. -/
theorem pay1_2_apply (i : S128x256.Idx) : (k2_pay1 (F := Ideal)) i = (⊥ : EReal) := by
  unfold k2_pay1
  exact ninf_bf16

/-- One trip's payload at row `p`, column `q`: the larger of the carried value and the supremum of the chunk's
    products (the narrowing conversions are the identity at the extended reals). -/
theorem pay2_2_apply (acc : FVec Ideal S128x256 .bf16) (v8 : Vec Ideal S128x128 .f32) (v11 : Vec Ideal S128x256 .f32)
    (p : Fin 128) (q : Fin 256) :
    k2_pay2 acc v8 v11 (ix2 p q) = max (acc (ix2 p q)) (Finset.univ.sup fun j : Fin 128 => v8 (ix2 p j) * v11 (ix2 j q)) := by
  unfold k2_pay2
  simp only []
  rw [maximumf_apply]
  exact congrArg (max _) (maxprod_apply _ _ _ _ p q)

/-- Trip `k`'s chunk of the first factor: rows as they are, inner index `128 k + j`. -/
theorem ld0_2_apply (k : Fin k2_t1_loop.trips) (hk : k.val < 6) (x0 : Vec Ideal S128x768 .f32) (p j : Fin 128) :
    View.ld x0 (l2_0 k) (ix2 p j) = x0 (ix2 p (chunk k.val hk j)) := by
  show x0 ((l2_0 k).idx (ix2 p j)) = _
  congr 1
  funext a
  have h := k2_off1_eq k
  match a with
  | ⟨0, _⟩ => exact Fin.ext (by show k2_off1 k 0 + 1 * p.val = p.val; rw [h]; simp)
  | ⟨1, _⟩ => exact Fin.ext (by show k2_off1 k 1 + 1 * j.val = 128 * k.val + j.val; rw [h]; simp)

/-- Trip `k`'s chunk of the second factor: inner index `128 k + j`, columns as they are. -/
theorem ld1_2_apply (k : Fin k2_t1_loop.trips) (hk : k.val < 6) (x1 : Vec Ideal S768x256 .f32) (j : Fin 128) (q : Fin 256) :
    View.ld x1 (l2_1 k) (ix2 j q) = x1 (ix2 (chunk k.val hk j) q) := by
  show x1 ((l2_1 k).idx (ix2 j q)) = _
  congr 1
  funext a
  have h := k2_off2_eq k
  match a with
  | ⟨0, _⟩ => exact Fin.ext (by show k2_off2 k 0 + 1 * j.val = 128 * k.val + j.val; rw [h]; simp)
  | ⟨1, _⟩ => exact Fin.ext (by show k2_off2 k 1 + 1 * q.val = q.val; rw [h]; simp)

/-- The carried value before trip `n`: the supremum of the products over the inner indices below `128 n`. -/
theorem acc2_apply (x0 : Vec Ideal S128x768 .f32) (x1 : Vec Ideal S768x256 .f32) (p : Fin 128) (q : Fin 256) :
    ∀ n, n ≤ 6 → acc2 x0 x1 n (ix2 p q)
      = (Finset.univ.filter fun j : Fin 768 => j.val < 128 * n).sup fun j => x0 (ix2 p j) * x1 (ix2 j q)
  | 0, _ => by
    rw [acc2.eq_1, pay1_2_apply]
    simp
  | n + 1, hn => by
    have hn' : n < 6 := hn
    have ht : n < k2_t1_loop.trips := by rw [trips2]; exact hn'
    rw [acc2.eq_2, dif_pos ht]
    unfold trip2
    rw [pay2_2_apply, acc2_apply x0 x1 p q n (by omega), filter_succ n hn', Finset.sup_union, Finset.sup_map]
    congr 1
    refine Finset.sup_congr rfl fun j _ => ?_
    rw [ld0_2_apply ⟨n, ht⟩ hn', ld1_2_apply ⟨n, ht⟩ hn']
    rfl

/-- Region 2's output block: at row `p`, column `q`, the supremum over the 768 inner indices of the products. -/
theorem out2_2_apply (x0 : Vec Ideal S128x768 .f32) (x1 : Vec Ideal S768x256 .f32) (p : Fin 128) (q : Fin 256) :
    out2_2 x0 x1 (ix2 p q) = Finset.univ.sup fun j : Fin 768 => x0 (ix2 p j) * x1 (ix2 j q) := by
  unfold out2_2
  rw [View.canon_unit_zero (by funext a; match a with | ⟨0, _⟩ => rfl | ⟨1, _⟩ => rfl)]
  show acc2 x0 x1 k2_t1_loop.trips (ix2 p q) = _
  have hf : (Finset.univ.filter fun j : Fin 768 => j.val < 128 * 6) = Finset.univ :=
    Finset.filter_true_of_mem fun j _ => by have := j.isLt; omega
  rw [trips2, acc2_apply x0 x1 p q 6 le_rfl, hf]

end Cert.KernelIdeal.RegValue

end
-- ==== Proof.Spec.lean ====
/-
  The mathematics both programs compute, index by index on the extended reals, stated over no program.

  A prediction head sends a feature matrix x (768 by 256) to a column: hidden unit h of row r is
  max (sum_k x[r,k] W1[k,h] + b1[h]) 0, and the row's prediction is the logistic function of sum_h hid[r,h] W2[h] + b2.
  The first round applies the two heads to the edge and loop features (e0, l0). The update weights are
  w[n,m] = mask[n,m] |l0[n] - e0[m]|. An edge gathers the loop features weighted by its column of w, divided by
  max (column sum) eps; a loop gathers the edge features weighted by its row of w, divided by max (row sum) eps. The
  conflict pooling of row i is the maximum over j of mask[i,j] x[j,c]. The updated features are
  max (x W[0:256] + gathered W[256:512] + pooled W[512:768] + (b + image W[768:1792])) 0, and the second round applies
  the same two heads to them (e1, l1). The zero and eps are kept as the f32 words the programs print.
-/
import Idealize.ShloMosaic.PureOps.Ideal
import Idealize.ShloMosaic.Lib.ValueIdx

noncomputable section

namespace Cert.Spec

open Idealize.ShloMosaic Idealize.ShloMosaic.ValueIdx

/-- A matrix and a vector of extended reals over the printed index types. -/
abbrev M (a b : Nat) : Type := (⟨2, ![a, b]⟩ : Shape).Idx → EReal
abbrev V (a : Nat) : Type := (⟨1, ![a]⟩ : Shape).Idx → EReal

/-- The two f32 words the programs share: zero, and the floor of the divisors. -/
def z32 : EReal := Ideal.ofBits .f32 0x00000000#32
def eps32 : EReal := Ideal.ofBits .f32 0x38D1B717#32

/-- A row block of a weight matrix with 1792 rows: row `off + k`. -/
def wrow (W : M 1792 256) (off : Nat) {K : Nat} (hK : off + K ≤ 1792) (k : Fin K) (c : Fin 256) : EReal :=
  W (ix2 (⟨off + k.val, by have := k.isLt; omega⟩ : Fin 1792) c)

/-- Hidden unit `h` of row `r`. -/
def hid (x : Fin 768 → Fin 256 → EReal) (W1 : M 256 64) (b1 : V 64) (r : Fin 768) (h : Fin 64) : EReal :=
  max ((∑ k : Fin 256, x r k * W1 (ix2 k h)) + b1 (ix1 h)) z32

/-- The head's prediction for row `r`. -/
def head (x : Fin 768 → Fin 256 → EReal) (W1 : M 256 64) (b1 : V 64) (W2 : M 64 1) (b2 : V 1) (r : Fin 768) : EReal :=
  Ideal.logistic ((∑ h : Fin 64, hid x W1 b1 r h * W2 (ix2 h (0 : Fin 1))) + b2 (ix1 (0 : Fin 1)))

/-- The update weight of loop `n` and edge `m`. -/
def wgt (mask : M 768 768) (l0 e0 : Fin 768 → EReal) (n m : Fin 768) : EReal :=
  mask (ix2 n m) * max (l0 n - e0 m) (-(l0 n - e0 m))

/-- What edge `e` gathers from the loops. -/
def fromLoop (w : Fin 768 → Fin 768 → EReal) (lx : M 768 256) (e : Fin 768) (c : Fin 256) : EReal :=
  Ideal.div (∑ n : Fin 768, w n e * lx (ix2 n c)) (max (∑ n : Fin 768, w n e) eps32)

/-- What loop `l` gathers from the edges. -/
def fromEdge (w : Fin 768 → Fin 768 → EReal) (ex : M 768 256) (l : Fin 768) (c : Fin 256) : EReal :=
  Ideal.div (∑ e : Fin 768, w l e * ex (ix2 e c)) (max (∑ e : Fin 768, w l e) eps32)

/-- The conflict pooling of row `i`. -/
def pool (mask : M 768 768) (x : M 768 256) (i : Fin 768) (c : Fin 256) : EReal :=
  Finset.univ.sup fun j : Fin 768 => mask (ix2 i j) * x (ix2 j c)

/-- The updated features of row `r`. -/
def upd (x : M 768 256) (g p : Fin 768 → Fin 256 → EReal) (img : M 1 1024) (W : M 1792 256) (b : V 256) (r : Fin 768) (c : Fin 256) : EReal :=
  max ((((∑ k : Fin 256, x (ix2 r k) * wrow W 0 (by omega) k c) + ∑ k : Fin 256, g r k * wrow W 256 (by omega) k c)
      + ∑ k : Fin 256, p r k * wrow W 512 (by omega) k c)
    + (b (ix1 c) + ∑ k : Fin 1024, img (ix2 (0 : Fin 1) k) * wrow W 768 (by omega) k c)) z32

/-- The updated features with the weight's three 256-row blocks given apart and a bias that already holds the image
    term: the form a program that folds the image columns into the bias computes. -/
def updK (x : M 768 256) (g p : Fin 768 → Fin 256 → EReal) (W0 W1 W2 : Fin 256 → Fin 256 → EReal) (beff : Fin 256 → EReal)
    (r : Fin 768) (c : Fin 256) : EReal :=
  max ((((∑ k : Fin 256, x (ix2 r k) * W0 k c) + ∑ k : Fin 256, g r k * W1 k c) + ∑ k : Fin 256, p r k * W2 k c) + beff c) z32

/-- The bias with the image term folded in. -/
def beff (img : M 1 1024) (W : M 1792 256) (b : V 256) (c : Fin 256) : EReal :=
  b (ix1 c) + ∑ k : Fin 1024, img (ix2 (0 : Fin 1) k) * wrow W 768 (by omega) k c

theorem upd_eq_updK (x : M 768 256) (g p : Fin 768 → Fin 256 → EReal) (img : M 1 1024) (W : M 1792 256) (b : V 256) (r : Fin 768) (c : Fin 256) :
    upd x g p img W b r c = updK x g p (wrow W 0 (by omega)) (wrow W 256 (by omega)) (wrow W 512 (by omega)) (beff img W b) r c := rfl

section Whole

variable (ex lx : M 768 256) (img : M 1 1024) (lem ecm lcm : M 768 768)
  (We3 : M 1792 256) (be3 : V 256) (Wl3 : M 1792 256) (bl3 : V 256)
  (Wep1 : M 256 64) (bep1 : V 64) (Wep2 : M 64 1) (bep2 : V 1)
  (Wlp1 : M 256 64) (blp1 : V 64) (Wlp2 : M 64 1) (blp2 : V 1)

/-- The first-round predictions. -/
def e0 (r : Fin 768) : EReal := head (fun r k => ex (ix2 r k)) Wep1 bep1 Wep2 bep2 r
def l0 (r : Fin 768) : EReal := head (fun r k => lx (ix2 r k)) Wlp1 blp1 Wlp2 blp2 r

/-- The update weights. -/
def w (n m : Fin 768) : EReal :=
  wgt lem (l0 lx Wlp1 blp1 Wlp2 blp2) (e0 ex Wep1 bep1 Wep2 bep2) n m

/-- The updated edge and loop features. -/
def ex2 (r : Fin 768) (c : Fin 256) : EReal :=
  upd ex (fromLoop (w ex lx lem Wep1 bep1 Wep2 bep2 Wlp1 blp1 Wlp2 blp2) lx) (pool ecm ex) img We3 be3 r c
def lx2 (r : Fin 768) (c : Fin 256) : EReal :=
  upd lx (fromEdge (w ex lx lem Wep1 bep1 Wep2 bep2 Wlp1 blp1 Wlp2 blp2) ex) (pool lcm lx) img Wl3 bl3 r c

/-- The second-round predictions. -/
def e1 (r : Fin 768) : EReal :=
  head (ex2 ex lx img lem ecm We3 be3 Wep1 bep1 Wep2 bep2 Wlp1 blp1 Wlp2 blp2) Wep1 bep1 Wep2 bep2 r
def l1 (r : Fin 768) : EReal :=
  head (lx2 ex lx img lem lcm Wl3 bl3 Wep1 bep1 Wep2 bep2 Wlp1 blp1 Wlp2 blp2) Wlp1 blp1 Wlp2 blp2 r

end Whole

end Cert.Spec

end
-- ==== Proof.KI.Val1.lean ====
/- What regions 1 and 2 leave in their result arrays, at the extended reals: the 768×256 result is written in six
   128-row blocks, block `t` by grid point `t`, each the row-blocked maximum of products of the point's 128 mask rows and
   the whole feature matrix; so the array after the region is, at row `i` and column `c`, the supremum over `j` of
   `mask i j * x j c`. -/
import proofs.«153655_j17970143167165_2_alg».proof.Proof.KI.Reg1
import proofs.«153655_j17970143167165_2_alg».proof.Proof.KI.Reg2
import proofs.«153655_j17970143167165_2_alg».proof.Proof.KI.Reg1Value
import proofs.«153655_j17970143167165_2_alg».proof.Proof.Spec
import Idealize.ShloMosaic.Lib.Pipeline.Value

set_option maxRecDepth 16384

noncomputable section

namespace Cert.KernelIdeal.Reg

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Region 1 -/

/-- The printed index maps, decided over the six grid points: the mask's row block moves with the result's, its column
    block is 0; the feature matrix's block is (0, 0); the result's column block is 0 and its row block at most 5. -/
theorem idx_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 5 :=
  (by decide +kernel : ∀ t : Fin grid1.N, _)

/-- Every row block of the result is some point's. -/
theorem idx_onto1 : ∀ q0 : Fin 6, ∃ t : Fin cfg1.N, win1_2.index t = ![q0.val, 0] :=
  (by decide +kernel : ∀ q0 : Fin 6, ∃ t : Fin grid1.N, win1_2.index t = ![q0.val, 0])

/-- What point `t` writes back is block `t` of the pooling of the two operand arrays as the region finds them. -/
theorem flushed1_2_eq (c : Dev nD) (t : Fin cfg1.N) :
    (dat1 V c).flushed 2 t = ((cfg1.win 2).blk t).view.read (Elt Ideal)
      (fun i : S768x256.Idx => Cert.Spec.pool (V c (Pipeline.arrRef spec1 0)) (V c (Pipeline.arrRef spec1 1)) (i 0) (i 1)) := by
  show (cfg1.win 2).cut (grid1.coords t) ((dat1 V c).after 2 t) = _
  rw [after1_2]
  obtain ⟨e0, e1, e2, e3, e4, e5⟩ := idx_facts1 t
  refine funext fun (j : S128x256.Idx) => ?_
  show out1_2 (iblk1 V c 0 t) (iblk1 V c 1 t) j
    = Cert.Spec.pool (V c (Pipeline.arrRef spec1 0)) (V c (Pipeline.arrRef spec1 1))
        ((((cfg1.win 2).blk t).view.emb j) 0) ((((cfg1.win 2).blk t).view.emb j) 1)
  have hj : j = ix2 (n0 := 128) (n1 := 256) (j 0) (j 1) := by
    funext a; match a with | ⟨0, _⟩ => rfl | ⟨1, _⟩ => rfl
  refine (congrArg (out1_2 (iblk1 V c 0 t) (iblk1 V c 1 t)) hj).trans ((RegValue.out1_2_apply _ _ (j 0) (j 1)).trans ?_)
  unfold Cert.Spec.pool
  refine Finset.sup_congr rfl fun jj _ => ?_
  have h0 : iblk1 V c 0 t (ix2 (j 0) jj)
      = V c (Pipeline.arrRef spec1 0) (ix2 ((((cfg1.win 2).blk t).view.emb j) 0) jj) := by
    show V c (Pipeline.arrRef spec1 0) (((cfg1.win 0).blk t).view.emb (ix2 (j 0) jj)) = _
    refine congrArg _ (funext fun a => Fin.ext ?_)
    match a with
    | ⟨0, _⟩ => show win1_0.index t (0 : Fin 2) * 128 + 1 * (j 0).val = win1_2.index t (0 : Fin 2) * 128 + 1 * (j 0).val; omega
    | ⟨1, _⟩ => show win1_0.index t (1 : Fin 2) * 768 + 1 * jj.val = jj.val; omega
  have h1 : iblk1 V c 1 t (ix2 jj (j 1))
      = V c (Pipeline.arrRef spec1 1) (ix2 jj ((((cfg1.win 2).blk t).view.emb j) 1)) := by
    show V c (Pipeline.arrRef spec1 1) (((cfg1.win 1).blk t).view.emb (ix2 jj (j 1))) = _
    refine congrArg _ (funext fun a => Fin.ext ?_)
    match a with
    | ⟨0, _⟩ => show win1_1.index t (0 : Fin 2) * 768 + 1 * jj.val = jj.val; omega
    | ⟨1, _⟩ => show win1_1.index t (1 : Fin 2) * 256 + 1 * (j 1).val = win1_2.index t (1 : Fin 2) * 256 + 1 * (j 1).val; omega
  exact congrArg₂ (· * ·) h0 h1

/-- An index of the result array is in point `t`'s block iff each coordinate is in the block's range on its axis. -/
theorem mem_blk1_2 (t : Fin cfg1.N) (i : S768x256.Idx) :
    i ∈ ((cfg1.win 2).blk t).view.set ↔ ∀ a : Fin 2, win1_2.index t a * S128x256.size a ≤ (i a).val ∧ (i a).val < win1_2.index t a * S128x256.size a + S128x256.size a := by
  show i ∈ ((View.whole main_v5).slice (win1_2.rect t)).set ↔ _
  rw [View.set_slice_whole, Rect.mem_set_unit]
  exact Iff.rfl

/-- Every index of the result array is in some writing point's block: row `r` is in block `r / 128`. -/
theorem covered1_2 (i : S768x256.Idx) : ∃ t : Fin cfg1.N, (cfg1.win 2).flush t = true ∧ i ∈ ((cfg1.win 2).blk t).view.set := by
  have hi0 : (i 0).val < 768 := (i 0).isLt
  have hi1 : (i 1).val < 256 := (i 1).isLt
  obtain ⟨t, ht⟩ := idx_onto1 ⟨(i 0).val / 128, by omega⟩
  have q0 : win1_2.index t (0 : Fin 2) = (i 0).val / 128 := congrFun ht 0
  have q1 : win1_2.index t (1 : Fin 2) = 0 := congrFun ht 1
  refine ⟨t, flush1_2 t, ?_⟩
  rw [mem_blk1_2]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 256 ≤ (i 1).val ∧ (i 1).val < win1_2.index t (1 : Fin 2) * 256 + 256; omega

/-- The result array after region 1: the pooling of the mask and feature arrays as the region finds them. -/
theorem final1_2 (c : Dev nD) : (dat1 V c).arrAt 2 cfg1.N
    = fun i : S768x256.Idx => Cert.Spec.pool (V c (Pipeline.arrRef spec1 0)) (V c (Pipeline.arrRef spec1 1)) (i 0) (i 1) :=
  (dat1 V c).arrAt_eq_of_cover 2 _ (fun t _ => flushed1_2_eq V c t) covered1_2

/-! ## Region 2 -/

/-- The printed index maps, decided over the six grid points: the mask's row block moves with the result's, its column
    block is 0; the feature matrix's block is (0, 0); the result's column block is 0 and its row block at most 5. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 5 :=
  (by decide +kernel : ∀ t : Fin grid2.N, _)

/-- Every row block of the result is some point's. -/
theorem idx_onto2 : ∀ q0 : Fin 6, ∃ t : Fin cfg2.N, win2_2.index t = ![q0.val, 0] :=
  (by decide +kernel : ∀ q0 : Fin 6, ∃ t : Fin grid2.N, win2_2.index t = ![q0.val, 0])

/-- What point `t` writes back is block `t` of the pooling of the two operand arrays as the region finds them. -/
theorem flushed2_2_eq (c : Dev nD) (t : Fin cfg2.N) :
    (dat2 V c).flushed 2 t = ((cfg2.win 2).blk t).view.read (Elt Ideal)
      (fun i : S768x256.Idx => Cert.Spec.pool (V c (Pipeline.arrRef spec2 0)) (V c (Pipeline.arrRef spec2 1)) (i 0) (i 1)) := by
  show (cfg2.win 2).cut (grid2.coords t) ((dat2 V c).after 2 t) = _
  rw [after2_2]
  obtain ⟨e0, e1, e2, e3, e4, e5⟩ := idx_facts2 t
  refine funext fun (j : S128x256.Idx) => ?_
  show out2_2 (iblk2 V c 0 t) (iblk2 V c 1 t) j
    = Cert.Spec.pool (V c (Pipeline.arrRef spec2 0)) (V c (Pipeline.arrRef spec2 1))
        ((((cfg2.win 2).blk t).view.emb j) 0) ((((cfg2.win 2).blk t).view.emb j) 1)
  have hj : j = ix2 (n0 := 128) (n1 := 256) (j 0) (j 1) := by
    funext a; match a with | ⟨0, _⟩ => rfl | ⟨1, _⟩ => rfl
  refine (congrArg (out2_2 (iblk2 V c 0 t) (iblk2 V c 1 t)) hj).trans ((RegValue.out2_2_apply _ _ (j 0) (j 1)).trans ?_)
  unfold Cert.Spec.pool
  refine Finset.sup_congr rfl fun jj _ => ?_
  have h0 : iblk2 V c 0 t (ix2 (j 0) jj)
      = V c (Pipeline.arrRef spec2 0) (ix2 ((((cfg2.win 2).blk t).view.emb j) 0) jj) := by
    show V c (Pipeline.arrRef spec2 0) (((cfg2.win 0).blk t).view.emb (ix2 (j 0) jj)) = _
    refine congrArg _ (funext fun a => Fin.ext ?_)
    match a with
    | ⟨0, _⟩ => show win2_0.index t (0 : Fin 2) * 128 + 1 * (j 0).val = win2_2.index t (0 : Fin 2) * 128 + 1 * (j 0).val; omega
    | ⟨1, _⟩ => show win2_0.index t (1 : Fin 2) * 768 + 1 * jj.val = jj.val; omega
  have h1 : iblk2 V c 1 t (ix2 jj (j 1))
      = V c (Pipeline.arrRef spec2 1) (ix2 jj ((((cfg2.win 2).blk t).view.emb j) 1)) := by
    show V c (Pipeline.arrRef spec2 1) (((cfg2.win 1).blk t).view.emb (ix2 jj (j 1))) = _
    refine congrArg _ (funext fun a => Fin.ext ?_)
    match a with
    | ⟨0, _⟩ => show win2_1.index t (0 : Fin 2) * 768 + 1 * jj.val = jj.val; omega
    | ⟨1, _⟩ => show win2_1.index t (1 : Fin 2) * 256 + 1 * (j 1).val = win2_2.index t (1 : Fin 2) * 256 + 1 * (j 1).val; omega
  exact congrArg₂ (· * ·) h0 h1

/-- An index of the result array is in point `t`'s block iff each coordinate is in the block's range on its axis. -/
theorem mem_blk2_2 (t : Fin cfg2.N) (i : S768x256.Idx) :
    i ∈ ((cfg2.win 2).blk t).view.set ↔ ∀ a : Fin 2, win2_2.index t a * S128x256.size a ≤ (i a).val ∧ (i a).val < win2_2.index t a * S128x256.size a + S128x256.size a := by
  show i ∈ ((View.whole main_v6).slice (win2_2.rect t)).set ↔ _
  rw [View.set_slice_whole, Rect.mem_set_unit]
  exact Iff.rfl

/-- Every index of the result array is in some writing point's block: row `r` is in block `r / 128`. -/
theorem covered2_2 (i : S768x256.Idx) : ∃ t : Fin cfg2.N, (cfg2.win 2).flush t = true ∧ i ∈ ((cfg2.win 2).blk t).view.set := by
  have hi0 : (i 0).val < 768 := (i 0).isLt
  have hi1 : (i 1).val < 256 := (i 1).isLt
  obtain ⟨t, ht⟩ := idx_onto2 ⟨(i 0).val / 128, by omega⟩
  have q0 : win2_2.index t (0 : Fin 2) = (i 0).val / 128 := congrFun ht 0
  have q1 : win2_2.index t (1 : Fin 2) = 0 := congrFun ht 1
  refine ⟨t, flush2_2 t, ?_⟩
  rw [mem_blk2_2]
  intro a
  match a with
  | ⟨0, _⟩ => show win2_2.index t (0 : Fin 2) * 128 ≤ (i 0).val ∧ (i 0).val < win2_2.index t (0 : Fin 2) * 128 + 128; omega
  | ⟨1, _⟩ => show win2_2.index t (1 : Fin 2) * 256 ≤ (i 1).val ∧ (i 1).val < win2_2.index t (1 : Fin 2) * 256 + 256; omega

/-- The result array after region 2: the pooling of the mask and feature arrays as the region finds them. -/
theorem final2_2 (c : Dev nD) : (dat2 V c).arrAt 2 cfg2.N
    = fun i : S768x256.Idx => Cert.Spec.pool (V c (Pipeline.arrRef spec2 0)) (V c (Pipeline.arrRef spec2 1)) (i 0) (i 1) :=
  (dat2 V c).arrAt_eq_of_cover 2 _ (fun t _ => flushed2_2_eq V c t) covered2_2

end Cert.KernelIdeal.Reg

end
-- ==== Proof.KI.Val3P.lean ====
/-
  What region 3 leaves in its two result arrays. Every window of the region is its whole array in one block on a
  one-point grid, so a window's block at the point is the array itself, the one point's write-back is the body's result
  block whole, and each result array after the region is the body's arithmetic applied to the operand arrays.
-/
import proofs.«153655_j17970143167165_2_alg».proof.Proof.KI.Reg3
import Idealize.ShloMosaic.Lib.Pipeline.Value

set_option maxRecDepth 16384

noncomputable section

namespace Cert.KernelIdeal.Reg

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The one grid point. -/
theorem t3_eq (t : Fin cfg3.N) : t = t3_0 := fin_N3 t

/-- Window 0's block is its whole array. -/
theorem iblk3_0_whole (c : Dev nD) (t : Fin cfg3.N) : (iblk3 V c 0 t : Vec F S768x256 .f32) = V c (Pipeline.arrRef spec3 0) := by
  rw [t3_eq t]
  have e0 : win3_0.index t3_0 (0 : Fin 2) = 0 := by decide +kernel
  have e1 : win3_0.index t3_0 (1 : Fin 2) = 0 := by decide +kernel
  funext j
  show V c (Pipeline.arrRef spec3 0) (((cfg3.win 0).blk t3_0).view.emb j) = V c (Pipeline.arrRef spec3 0) j
  refine congrArg _ ?_
  funext a; apply Fin.ext
  match a with
  | ⟨0, _⟩ => show win3_0.index t3_0 (0 : Fin 2) * 768 + 1 * (j 0).val = (j 0).val; omega
  | ⟨1, _⟩ => show win3_0.index t3_0 (1 : Fin 2) * 256 + 1 * (j 1).val = (j 1).val; omega

/-- Window 1's block is its whole array. -/
theorem iblk3_1_whole (c : Dev nD) (t : Fin cfg3.N) : (iblk3 V c 1 t : Vec F S768x256 .f32) = V c (Pipeline.arrRef spec3 1) := by
  rw [t3_eq t]
  have e0 : win3_1.index t3_0 (0 : Fin 2) = 0 := by decide +kernel
  have e1 : win3_1.index t3_0 (1 : Fin 2) = 0 := by decide +kernel
  funext j
  show V c (Pipeline.arrRef spec3 1) (((cfg3.win 1).blk t3_0).view.emb j) = V c (Pipeline.arrRef spec3 1) j
  refine congrArg _ ?_
  funext a; apply Fin.ext
  match a with
  | ⟨0, _⟩ => show win3_1.index t3_0 (0 : Fin 2) * 768 + 1 * (j 0).val = (j 0).val; omega
  | ⟨1, _⟩ => show win3_1.index t3_0 (1 : Fin 2) * 256 + 1 * (j 1).val = (j 1).val; omega

/-- Window 2's block is its whole array. -/
theorem iblk3_2_whole (c : Dev nD) (t : Fin cfg3.N) : (iblk3 V c 2 t : Vec F S768x768 .f32) = V c (Pipeline.arrRef spec3 2) := by
  rw [t3_eq t]
  have e0 : win3_2.index t3_0 (0 : Fin 2) = 0 := by decide +kernel
  have e1 : win3_2.index t3_0 (1 : Fin 2) = 0 := by decide +kernel
  funext j
  show V c (Pipeline.arrRef spec3 2) (((cfg3.win 2).blk t3_0).view.emb j) = V c (Pipeline.arrRef spec3 2) j
  refine congrArg _ ?_
  funext a; apply Fin.ext
  match a with
  | ⟨0, _⟩ => show win3_2.index t3_0 (0 : Fin 2) * 768 + 1 * (j 0).val = (j 0).val; omega
  | ⟨1, _⟩ => show win3_2.index t3_0 (1 : Fin 2) * 768 + 1 * (j 1).val = (j 1).val; omega

/-- Window 3's block is its whole array. -/
theorem iblk3_3_whole (c : Dev nD) (t : Fin cfg3.N) : (iblk3 V c 3 t : Vec F S1x768 .f32) = V c (Pipeline.arrRef spec3 3) := by
  rw [t3_eq t]
  have e0 : win3_3.index t3_0 (0 : Fin 2) = 0 := by decide +kernel
  have e1 : win3_3.index t3_0 (1 : Fin 2) = 0 := by decide +kernel
  funext j
  show V c (Pipeline.arrRef spec3 3) (((cfg3.win 3).blk t3_0).view.emb j) = V c (Pipeline.arrRef spec3 3) j
  refine congrArg _ ?_
  funext a; apply Fin.ext
  match a with
  | ⟨0, _⟩ => show win3_3.index t3_0 (0 : Fin 2) * 1 + 1 * (j 0).val = (j 0).val; omega
  | ⟨1, _⟩ => show win3_3.index t3_0 (1 : Fin 2) * 768 + 1 * (j 1).val = (j 1).val; omega

/-- Window 4's block is its whole array. -/
theorem iblk3_4_whole (c : Dev nD) (t : Fin cfg3.N) : (iblk3 V c 4 t : Vec F S768x1 .f32) = V c (Pipeline.arrRef spec3 4) := by
  rw [t3_eq t]
  have e0 : win3_4.index t3_0 (0 : Fin 2) = 0 := by decide +kernel
  have e1 : win3_4.index t3_0 (1 : Fin 2) = 0 := by decide +kernel
  funext j
  show V c (Pipeline.arrRef spec3 4) (((cfg3.win 4).blk t3_0).view.emb j) = V c (Pipeline.arrRef spec3 4) j
  refine congrArg _ ?_
  funext a; apply Fin.ext
  match a with
  | ⟨0, _⟩ => show win3_4.index t3_0 (0 : Fin 2) * 768 + 1 * (j 0).val = (j 0).val; omega
  | ⟨1, _⟩ => show win3_4.index t3_0 (1 : Fin 2) * 1 + 1 * (j 1).val = (j 1).val; omega

/-- Window 5's block is its whole array. -/
theorem iblk3_5_whole (c : Dev nD) (t : Fin cfg3.N) : (iblk3 V c 5 t : Vec F S768x256 .f32) = V c (Pipeline.arrRef spec3 5) := by
  rw [t3_eq t]
  have e0 : win3_5.index t3_0 (0 : Fin 2) = 0 := by decide +kernel
  have e1 : win3_5.index t3_0 (1 : Fin 2) = 0 := by decide +kernel
  funext j
  show V c (Pipeline.arrRef spec3 5) (((cfg3.win 5).blk t3_0).view.emb j) = V c (Pipeline.arrRef spec3 5) j
  refine congrArg _ ?_
  funext a; apply Fin.ext
  match a with
  | ⟨0, _⟩ => show win3_5.index t3_0 (0 : Fin 2) * 768 + 1 * (j 0).val = (j 0).val; omega
  | ⟨1, _⟩ => show win3_5.index t3_0 (1 : Fin 2) * 256 + 1 * (j 1).val = (j 1).val; omega

/-- Window 6's block is its whole array. -/
theorem iblk3_6_whole (c : Dev nD) (t : Fin cfg3.N) : (iblk3 V c 6 t : Vec F S768x256 .f32) = V c (Pipeline.arrRef spec3 6) := by
  rw [t3_eq t]
  have e0 : win3_6.index t3_0 (0 : Fin 2) = 0 := by decide +kernel
  have e1 : win3_6.index t3_0 (1 : Fin 2) = 0 := by decide +kernel
  funext j
  show V c (Pipeline.arrRef spec3 6) (((cfg3.win 6).blk t3_0).view.emb j) = V c (Pipeline.arrRef spec3 6) j
  refine congrArg _ ?_
  funext a; apply Fin.ext
  match a with
  | ⟨0, _⟩ => show win3_6.index t3_0 (0 : Fin 2) * 768 + 1 * (j 0).val = (j 0).val; omega
  | ⟨1, _⟩ => show win3_6.index t3_0 (1 : Fin 2) * 256 + 1 * (j 1).val = (j 1).val; omega

/-- Window 7's block is its whole array. -/
theorem iblk3_7_whole (c : Dev nD) (t : Fin cfg3.N) : (iblk3 V c 7 t : Vec F S256x256 .f32) = V c (Pipeline.arrRef spec3 7) := by
  rw [t3_eq t]
  have e0 : win3_7.index t3_0 (0 : Fin 2) = 0 := by decide +kernel
  have e1 : win3_7.index t3_0 (1 : Fin 2) = 0 := by decide +kernel
  funext j
  show V c (Pipeline.arrRef spec3 7) (((cfg3.win 7).blk t3_0).view.emb j) = V c (Pipeline.arrRef spec3 7) j
  refine congrArg _ ?_
  funext a; apply Fin.ext
  match a with
  | ⟨0, _⟩ => show win3_7.index t3_0 (0 : Fin 2) * 256 + 1 * (j 0).val = (j 0).val; omega
  | ⟨1, _⟩ => show win3_7.index t3_0 (1 : Fin 2) * 256 + 1 * (j 1).val = (j 1).val; omega

/-- Window 8's block is its whole array. -/
theorem iblk3_8_whole (c : Dev nD) (t : Fin cfg3.N) : (iblk3 V c 8 t : Vec F S256x256 .f32) = V c (Pipeline.arrRef spec3 8) := by
  rw [t3_eq t]
  have e0 : win3_8.index t3_0 (0 : Fin 2) = 0 := by decide +kernel
  have e1 : win3_8.index t3_0 (1 : Fin 2) = 0 := by decide +kernel
  funext j
  show V c (Pipeline.arrRef spec3 8) (((cfg3.win 8).blk t3_0).view.emb j) = V c (Pipeline.arrRef spec3 8) j
  refine congrArg _ ?_
  funext a; apply Fin.ext
  match a with
  | ⟨0, _⟩ => show win3_8.index t3_0 (0 : Fin 2) * 256 + 1 * (j 0).val = (j 0).val; omega
  | ⟨1, _⟩ => show win3_8.index t3_0 (1 : Fin 2) * 256 + 1 * (j 1).val = (j 1).val; omega

/-- Window 9's block is its whole array. -/
theorem iblk3_9_whole (c : Dev nD) (t : Fin cfg3.N) : (iblk3 V c 9 t : Vec F S256x256 .f32) = V c (Pipeline.arrRef spec3 9) := by
  rw [t3_eq t]
  have e0 : win3_9.index t3_0 (0 : Fin 2) = 0 := by decide +kernel
  have e1 : win3_9.index t3_0 (1 : Fin 2) = 0 := by decide +kernel
  funext j
  show V c (Pipeline.arrRef spec3 9) (((cfg3.win 9).blk t3_0).view.emb j) = V c (Pipeline.arrRef spec3 9) j
  refine congrArg _ ?_
  funext a; apply Fin.ext
  match a with
  | ⟨0, _⟩ => show win3_9.index t3_0 (0 : Fin 2) * 256 + 1 * (j 0).val = (j 0).val; omega
  | ⟨1, _⟩ => show win3_9.index t3_0 (1 : Fin 2) * 256 + 1 * (j 1).val = (j 1).val; omega

/-- Window 10's block is its whole array. -/
theorem iblk3_10_whole (c : Dev nD) (t : Fin cfg3.N) : (iblk3 V c 10 t : Vec F S1x256 .f32) = V c (Pipeline.arrRef spec3 10) := by
  rw [t3_eq t]
  have e0 : win3_10.index t3_0 (0 : Fin 2) = 0 := by decide +kernel
  have e1 : win3_10.index t3_0 (1 : Fin 2) = 0 := by decide +kernel
  funext j
  show V c (Pipeline.arrRef spec3 10) (((cfg3.win 10).blk t3_0).view.emb j) = V c (Pipeline.arrRef spec3 10) j
  refine congrArg _ ?_
  funext a; apply Fin.ext
  match a with
  | ⟨0, _⟩ => show win3_10.index t3_0 (0 : Fin 2) * 1 + 1 * (j 0).val = (j 0).val; omega
  | ⟨1, _⟩ => show win3_10.index t3_0 (1 : Fin 2) * 256 + 1 * (j 1).val = (j 1).val; omega

/-- Window 11's block is its whole array. -/
theorem iblk3_11_whole (c : Dev nD) (t : Fin cfg3.N) : (iblk3 V c 11 t : Vec F S256x256 .f32) = V c (Pipeline.arrRef spec3 11) := by
  rw [t3_eq t]
  have e0 : win3_11.index t3_0 (0 : Fin 2) = 0 := by decide +kernel
  have e1 : win3_11.index t3_0 (1 : Fin 2) = 0 := by decide +kernel
  funext j
  show V c (Pipeline.arrRef spec3 11) (((cfg3.win 11).blk t3_0).view.emb j) = V c (Pipeline.arrRef spec3 11) j
  refine congrArg _ ?_
  funext a; apply Fin.ext
  match a with
  | ⟨0, _⟩ => show win3_11.index t3_0 (0 : Fin 2) * 256 + 1 * (j 0).val = (j 0).val; omega
  | ⟨1, _⟩ => show win3_11.index t3_0 (1 : Fin 2) * 256 + 1 * (j 1).val = (j 1).val; omega

/-- Window 12's block is its whole array. -/
theorem iblk3_12_whole (c : Dev nD) (t : Fin cfg3.N) : (iblk3 V c 12 t : Vec F S256x256 .f32) = V c (Pipeline.arrRef spec3 12) := by
  rw [t3_eq t]
  have e0 : win3_12.index t3_0 (0 : Fin 2) = 0 := by decide +kernel
  have e1 : win3_12.index t3_0 (1 : Fin 2) = 0 := by decide +kernel
  funext j
  show V c (Pipeline.arrRef spec3 12) (((cfg3.win 12).blk t3_0).view.emb j) = V c (Pipeline.arrRef spec3 12) j
  refine congrArg _ ?_
  funext a; apply Fin.ext
  match a with
  | ⟨0, _⟩ => show win3_12.index t3_0 (0 : Fin 2) * 256 + 1 * (j 0).val = (j 0).val; omega
  | ⟨1, _⟩ => show win3_12.index t3_0 (1 : Fin 2) * 256 + 1 * (j 1).val = (j 1).val; omega

/-- Window 13's block is its whole array. -/
theorem iblk3_13_whole (c : Dev nD) (t : Fin cfg3.N) : (iblk3 V c 13 t : Vec F S256x256 .f32) = V c (Pipeline.arrRef spec3 13) := by
  rw [t3_eq t]
  have e0 : win3_13.index t3_0 (0 : Fin 2) = 0 := by decide +kernel
  have e1 : win3_13.index t3_0 (1 : Fin 2) = 0 := by decide +kernel
  funext j
  show V c (Pipeline.arrRef spec3 13) (((cfg3.win 13).blk t3_0).view.emb j) = V c (Pipeline.arrRef spec3 13) j
  refine congrArg _ ?_
  funext a; apply Fin.ext
  match a with
  | ⟨0, _⟩ => show win3_13.index t3_0 (0 : Fin 2) * 256 + 1 * (j 0).val = (j 0).val; omega
  | ⟨1, _⟩ => show win3_13.index t3_0 (1 : Fin 2) * 256 + 1 * (j 1).val = (j 1).val; omega

/-- Window 14's block is its whole array. -/
theorem iblk3_14_whole (c : Dev nD) (t : Fin cfg3.N) : (iblk3 V c 14 t : Vec F S1x256 .f32) = V c (Pipeline.arrRef spec3 14) := by
  rw [t3_eq t]
  have e0 : win3_14.index t3_0 (0 : Fin 2) = 0 := by decide +kernel
  have e1 : win3_14.index t3_0 (1 : Fin 2) = 0 := by decide +kernel
  funext j
  show V c (Pipeline.arrRef spec3 14) (((cfg3.win 14).blk t3_0).view.emb j) = V c (Pipeline.arrRef spec3 14) j
  refine congrArg _ ?_
  funext a; apply Fin.ext
  match a with
  | ⟨0, _⟩ => show win3_14.index t3_0 (0 : Fin 2) * 1 + 1 * (j 0).val = (j 0).val; omega
  | ⟨1, _⟩ => show win3_14.index t3_0 (1 : Fin 2) * 256 + 1 * (j 1).val = (j 1).val; omega

/-- Window 15's block is its whole array. -/
theorem iblk3_15_whole (c : Dev nD) (t : Fin cfg3.N) : (iblk3 V c 15 t : Vec F S256x64 .f32) = V c (Pipeline.arrRef spec3 15) := by
  rw [t3_eq t]
  have e0 : win3_15.index t3_0 (0 : Fin 2) = 0 := by decide +kernel
  have e1 : win3_15.index t3_0 (1 : Fin 2) = 0 := by decide +kernel
  funext j
  show V c (Pipeline.arrRef spec3 15) (((cfg3.win 15).blk t3_0).view.emb j) = V c (Pipeline.arrRef spec3 15) j
  refine congrArg _ ?_
  funext a; apply Fin.ext
  match a with
  | ⟨0, _⟩ => show win3_15.index t3_0 (0 : Fin 2) * 256 + 1 * (j 0).val = (j 0).val; omega
  | ⟨1, _⟩ => show win3_15.index t3_0 (1 : Fin 2) * 64 + 1 * (j 1).val = (j 1).val; omega

/-- Window 16's block is its whole array. -/
theorem iblk3_16_whole (c : Dev nD) (t : Fin cfg3.N) : (iblk3 V c 16 t : Vec F S1x64 .f32) = V c (Pipeline.arrRef spec3 16) := by
  rw [t3_eq t]
  have e0 : win3_16.index t3_0 (0 : Fin 2) = 0 := by decide +kernel
  have e1 : win3_16.index t3_0 (1 : Fin 2) = 0 := by decide +kernel
  funext j
  show V c (Pipeline.arrRef spec3 16) (((cfg3.win 16).blk t3_0).view.emb j) = V c (Pipeline.arrRef spec3 16) j
  refine congrArg _ ?_
  funext a; apply Fin.ext
  match a with
  | ⟨0, _⟩ => show win3_16.index t3_0 (0 : Fin 2) * 1 + 1 * (j 0).val = (j 0).val; omega
  | ⟨1, _⟩ => show win3_16.index t3_0 (1 : Fin 2) * 64 + 1 * (j 1).val = (j 1).val; omega

/-- Window 17's block is its whole array. -/
theorem iblk3_17_whole (c : Dev nD) (t : Fin cfg3.N) : (iblk3 V c 17 t : Vec F S64x1 .f32) = V c (Pipeline.arrRef spec3 17) := by
  rw [t3_eq t]
  have e0 : win3_17.index t3_0 (0 : Fin 2) = 0 := by decide +kernel
  have e1 : win3_17.index t3_0 (1 : Fin 2) = 0 := by decide +kernel
  funext j
  show V c (Pipeline.arrRef spec3 17) (((cfg3.win 17).blk t3_0).view.emb j) = V c (Pipeline.arrRef spec3 17) j
  refine congrArg _ ?_
  funext a; apply Fin.ext
  match a with
  | ⟨0, _⟩ => show win3_17.index t3_0 (0 : Fin 2) * 64 + 1 * (j 0).val = (j 0).val; omega
  | ⟨1, _⟩ => show win3_17.index t3_0 (1 : Fin 2) * 1 + 1 * (j 1).val = (j 1).val; omega

/-- Window 18's block is its whole array. -/
theorem iblk3_18_whole (c : Dev nD) (t : Fin cfg3.N) : (iblk3 V c 18 t : Vec F S1x1 .f32) = V c (Pipeline.arrRef spec3 18) := by
  rw [t3_eq t]
  have e0 : win3_18.index t3_0 (0 : Fin 2) = 0 := by decide +kernel
  have e1 : win3_18.index t3_0 (1 : Fin 2) = 0 := by decide +kernel
  funext j
  show V c (Pipeline.arrRef spec3 18) (((cfg3.win 18).blk t3_0).view.emb j) = V c (Pipeline.arrRef spec3 18) j
  refine congrArg _ ?_
  funext a; apply Fin.ext
  match a with
  | ⟨0, _⟩ => show win3_18.index t3_0 (0 : Fin 2) * 1 + 1 * (j 0).val = (j 0).val; omega
  | ⟨1, _⟩ => show win3_18.index t3_0 (1 : Fin 2) * 1 + 1 * (j 1).val = (j 1).val; omega

/-- Window 19's block is its whole array. -/
theorem iblk3_19_whole (c : Dev nD) (t : Fin cfg3.N) : (iblk3 V c 19 t : Vec F S256x64 .f32) = V c (Pipeline.arrRef spec3 19) := by
  rw [t3_eq t]
  have e0 : win3_19.index t3_0 (0 : Fin 2) = 0 := by decide +kernel
  have e1 : win3_19.index t3_0 (1 : Fin 2) = 0 := by decide +kernel
  funext j
  show V c (Pipeline.arrRef spec3 19) (((cfg3.win 19).blk t3_0).view.emb j) = V c (Pipeline.arrRef spec3 19) j
  refine congrArg _ ?_
  funext a; apply Fin.ext
  match a with
  | ⟨0, _⟩ => show win3_19.index t3_0 (0 : Fin 2) * 256 + 1 * (j 0).val = (j 0).val; omega
  | ⟨1, _⟩ => show win3_19.index t3_0 (1 : Fin 2) * 64 + 1 * (j 1).val = (j 1).val; omega

/-- Window 20's block is its whole array. -/
theorem iblk3_20_whole (c : Dev nD) (t : Fin cfg3.N) : (iblk3 V c 20 t : Vec F S1x64 .f32) = V c (Pipeline.arrRef spec3 20) := by
  rw [t3_eq t]
  have e0 : win3_20.index t3_0 (0 : Fin 2) = 0 := by decide +kernel
  have e1 : win3_20.index t3_0 (1 : Fin 2) = 0 := by decide +kernel
  funext j
  show V c (Pipeline.arrRef spec3 20) (((cfg3.win 20).blk t3_0).view.emb j) = V c (Pipeline.arrRef spec3 20) j
  refine congrArg _ ?_
  funext a; apply Fin.ext
  match a with
  | ⟨0, _⟩ => show win3_20.index t3_0 (0 : Fin 2) * 1 + 1 * (j 0).val = (j 0).val; omega
  | ⟨1, _⟩ => show win3_20.index t3_0 (1 : Fin 2) * 64 + 1 * (j 1).val = (j 1).val; omega

/-- Window 21's block is its whole array. -/
theorem iblk3_21_whole (c : Dev nD) (t : Fin cfg3.N) : (iblk3 V c 21 t : Vec F S64x1 .f32) = V c (Pipeline.arrRef spec3 21) := by
  rw [t3_eq t]
  have e0 : win3_21.index t3_0 (0 : Fin 2) = 0 := by decide +kernel
  have e1 : win3_21.index t3_0 (1 : Fin 2) = 0 := by decide +kernel
  funext j
  show V c (Pipeline.arrRef spec3 21) (((cfg3.win 21).blk t3_0).view.emb j) = V c (Pipeline.arrRef spec3 21) j
  refine congrArg _ ?_
  funext a; apply Fin.ext
  match a with
  | ⟨0, _⟩ => show win3_21.index t3_0 (0 : Fin 2) * 64 + 1 * (j 0).val = (j 0).val; omega
  | ⟨1, _⟩ => show win3_21.index t3_0 (1 : Fin 2) * 1 + 1 * (j 1).val = (j 1).val; omega

/-- Window 22's block is its whole array. -/
theorem iblk3_22_whole (c : Dev nD) (t : Fin cfg3.N) : (iblk3 V c 22 t : Vec F S1x1 .f32) = V c (Pipeline.arrRef spec3 22) := by
  rw [t3_eq t]
  have e0 : win3_22.index t3_0 (0 : Fin 2) = 0 := by decide +kernel
  have e1 : win3_22.index t3_0 (1 : Fin 2) = 0 := by decide +kernel
  funext j
  show V c (Pipeline.arrRef spec3 22) (((cfg3.win 22).blk t3_0).view.emb j) = V c (Pipeline.arrRef spec3 22) j
  refine congrArg _ ?_
  funext a; apply Fin.ext
  match a with
  | ⟨0, _⟩ => show win3_22.index t3_0 (0 : Fin 2) * 1 + 1 * (j 0).val = (j 0).val; omega
  | ⟨1, _⟩ => show win3_22.index t3_0 (1 : Fin 2) * 1 + 1 * (j 1).val = (j 1).val; omega

/-- An index of result 0's array is in the one point's block. -/
theorem mem_blk3_23 (i : S768x1.Idx) : i ∈ ((cfg3.win 23).blk t3_0).view.set := by
  show i ∈ ((View.whole main_v26_0).slice (win3_23.rect t3_0)).set
  rw [View.set_slice_whole, Rect.mem_set_unit]
  have h0 : (i 0).val < 768 := (i 0).isLt
  have h1 : (i 1).val < 1 := (i 1).isLt
  have e0 : win3_23.index t3_0 (0 : Fin 2) = 0 := by decide +kernel
  have e1 : win3_23.index t3_0 (1 : Fin 2) = 0 := by decide +kernel
  intro a
  match a with
  | ⟨0, _⟩ => show win3_23.index t3_0 (0 : Fin 2) * 768 ≤ (i 0).val ∧ (i 0).val < win3_23.index t3_0 (0 : Fin 2) * 768 + 768; omega
  | ⟨1, _⟩ => show win3_23.index t3_0 (1 : Fin 2) * 1 ≤ (i 1).val ∧ (i 1).val < win3_23.index t3_0 (1 : Fin 2) * 1 + 1; omega

theorem covered3_23 (i : S768x1.Idx) : ∃ t : Fin cfg3.N, (cfg3.win 23).flush t = true ∧ i ∈ ((cfg3.win 23).blk t).view.set :=
  ⟨t3_0, flush3_23 t3_0, mem_blk3_23 i⟩

/-- The one point's block embeds as the identity. -/
theorem emb3_23 (j : S768x1.Idx) : ((cfg3.win 23).blk t3_0).view.emb j = j := by
  have e0 : win3_23.index t3_0 (0 : Fin 2) = 0 := by decide +kernel
  have e1 : win3_23.index t3_0 (1 : Fin 2) = 0 := by decide +kernel
  funext a; apply Fin.ext
  match a with
  | ⟨0, _⟩ => show win3_23.index t3_0 (0 : Fin 2) * 768 + 1 * (j 0).val = (j 0).val; omega
  | ⟨1, _⟩ => show win3_23.index t3_0 (1 : Fin 2) * 1 + 1 * (j 1).val = (j 1).val; omega

set_option maxHeartbeats 2000000 in
/-- What the one point writes back of result 0: the body's result block of the operand arrays, whole. -/
theorem flushed3_23 (c : Dev nD) (t : Fin cfg3.N) : (dat3 V c).flushed 23 t =
    ((cfg3.win 23).blk t).view.read (Elt F) (out3_23 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7)) (V c (Pipeline.arrRef spec3 8)) (V c (Pipeline.arrRef spec3 9)) (V c (Pipeline.arrRef spec3 10)) (V c (Pipeline.arrRef spec3 15)) (V c (Pipeline.arrRef spec3 16)) (V c (Pipeline.arrRef spec3 17)) (V c (Pipeline.arrRef spec3 18))) := by
  show (cfg3.win 23).cut (grid3.coords t) ((dat3 V c).after 23 t) = _
  rw [after3_23, iblk3_0_whole, iblk3_1_whole, iblk3_2_whole, iblk3_3_whole, iblk3_4_whole, iblk3_5_whole, iblk3_7_whole, iblk3_8_whole, iblk3_9_whole, iblk3_10_whole, iblk3_15_whole, iblk3_16_whole, iblk3_17_whole, iblk3_18_whole, t3_eq t]
  funext j
  show out3_23 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7)) (V c (Pipeline.arrRef spec3 8)) (V c (Pipeline.arrRef spec3 9)) (V c (Pipeline.arrRef spec3 10)) (V c (Pipeline.arrRef spec3 15)) (V c (Pipeline.arrRef spec3 16)) (V c (Pipeline.arrRef spec3 17)) (V c (Pipeline.arrRef spec3 18)) j = out3_23 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7)) (V c (Pipeline.arrRef spec3 8)) (V c (Pipeline.arrRef spec3 9)) (V c (Pipeline.arrRef spec3 10)) (V c (Pipeline.arrRef spec3 15)) (V c (Pipeline.arrRef spec3 16)) (V c (Pipeline.arrRef spec3 17)) (V c (Pipeline.arrRef spec3 18)) (((cfg3.win 23).blk t3_0).view.emb j)
  rw [emb3_23]

set_option maxHeartbeats 2000000 in
/-- Result 0's array after the region: the body's result block of the operand arrays. -/
theorem final3_23 (c : Dev nD) : (dat3 V c).arrAt 23 cfg3.N = out3_23 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7)) (V c (Pipeline.arrRef spec3 8)) (V c (Pipeline.arrRef spec3 9)) (V c (Pipeline.arrRef spec3 10)) (V c (Pipeline.arrRef spec3 15)) (V c (Pipeline.arrRef spec3 16)) (V c (Pipeline.arrRef spec3 17)) (V c (Pipeline.arrRef spec3 18)) :=
  (dat3 V c).arrAt_eq_of_cover 23 _ (fun t _ => flushed3_23 V c t) covered3_23

/-- An index of result 1's array is in the one point's block. -/
theorem mem_blk3_24 (i : S768x1.Idx) : i ∈ ((cfg3.win 24).blk t3_0).view.set := by
  show i ∈ ((View.whole main_v26_1).slice (win3_24.rect t3_0)).set
  rw [View.set_slice_whole, Rect.mem_set_unit]
  have h0 : (i 0).val < 768 := (i 0).isLt
  have h1 : (i 1).val < 1 := (i 1).isLt
  have e0 : win3_24.index t3_0 (0 : Fin 2) = 0 := by decide +kernel
  have e1 : win3_24.index t3_0 (1 : Fin 2) = 0 := by decide +kernel
  intro a
  match a with
  | ⟨0, _⟩ => show win3_24.index t3_0 (0 : Fin 2) * 768 ≤ (i 0).val ∧ (i 0).val < win3_24.index t3_0 (0 : Fin 2) * 768 + 768; omega
  | ⟨1, _⟩ => show win3_24.index t3_0 (1 : Fin 2) * 1 ≤ (i 1).val ∧ (i 1).val < win3_24.index t3_0 (1 : Fin 2) * 1 + 1; omega

theorem covered3_24 (i : S768x1.Idx) : ∃ t : Fin cfg3.N, (cfg3.win 24).flush t = true ∧ i ∈ ((cfg3.win 24).blk t).view.set :=
  ⟨t3_0, flush3_24 t3_0, mem_blk3_24 i⟩

/-- The one point's block embeds as the identity. -/
theorem emb3_24 (j : S768x1.Idx) : ((cfg3.win 24).blk t3_0).view.emb j = j := by
  have e0 : win3_24.index t3_0 (0 : Fin 2) = 0 := by decide +kernel
  have e1 : win3_24.index t3_0 (1 : Fin 2) = 0 := by decide +kernel
  funext a; apply Fin.ext
  match a with
  | ⟨0, _⟩ => show win3_24.index t3_0 (0 : Fin 2) * 768 + 1 * (j 0).val = (j 0).val; omega
  | ⟨1, _⟩ => show win3_24.index t3_0 (1 : Fin 2) * 1 + 1 * (j 1).val = (j 1).val; omega

set_option maxHeartbeats 2000000 in
/-- What the one point writes back of result 1: the body's result block of the operand arrays, whole. -/
theorem flushed3_24 (c : Dev nD) (t : Fin cfg3.N) : (dat3 V c).flushed 24 t =
    ((cfg3.win 24).blk t).view.read (Elt F) (out3_24 (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 11)) (V c (Pipeline.arrRef spec3 12)) (V c (Pipeline.arrRef spec3 13)) (V c (Pipeline.arrRef spec3 14)) (V c (Pipeline.arrRef spec3 19)) (V c (Pipeline.arrRef spec3 20)) (V c (Pipeline.arrRef spec3 21)) (V c (Pipeline.arrRef spec3 22))) := by
  show (cfg3.win 24).cut (grid3.coords t) ((dat3 V c).after 24 t) = _
  rw [after3_24, iblk3_0_whole, iblk3_1_whole, iblk3_2_whole, iblk3_3_whole, iblk3_4_whole, iblk3_6_whole, iblk3_11_whole, iblk3_12_whole, iblk3_13_whole, iblk3_14_whole, iblk3_19_whole, iblk3_20_whole, iblk3_21_whole, iblk3_22_whole, t3_eq t]
  funext j
  show out3_24 (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 11)) (V c (Pipeline.arrRef spec3 12)) (V c (Pipeline.arrRef spec3 13)) (V c (Pipeline.arrRef spec3 14)) (V c (Pipeline.arrRef spec3 19)) (V c (Pipeline.arrRef spec3 20)) (V c (Pipeline.arrRef spec3 21)) (V c (Pipeline.arrRef spec3 22)) j = out3_24 (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 11)) (V c (Pipeline.arrRef spec3 12)) (V c (Pipeline.arrRef spec3 13)) (V c (Pipeline.arrRef spec3 14)) (V c (Pipeline.arrRef spec3 19)) (V c (Pipeline.arrRef spec3 20)) (V c (Pipeline.arrRef spec3 21)) (V c (Pipeline.arrRef spec3 22)) (((cfg3.win 24).blk t3_0).view.emb j)
  rw [emb3_24]

set_option maxHeartbeats 2000000 in
/-- Result 1's array after the region: the body's result block of the operand arrays. -/
theorem final3_24 (c : Dev nD) : (dat3 V c).arrAt 24 cfg3.N = out3_24 (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 11)) (V c (Pipeline.arrRef spec3 12)) (V c (Pipeline.arrRef spec3 13)) (V c (Pipeline.arrRef spec3 14)) (V c (Pipeline.arrRef spec3 19)) (V c (Pipeline.arrRef spec3 20)) (V c (Pipeline.arrRef spec3 21)) (V c (Pipeline.arrRef spec3 22)) :=
  (dat3 V c).arrAt_eq_of_cover 24 _ (fun t _ => flushed3_24 V c t) covered3_24

end Cert.KernelIdeal.Reg

end
-- ==== Proof.KI.PayLemmas.lean ====
/- Index lemmas the value proofs of the prediction and update kernels share, all at the ideal values and at an index
   given by its coordinates: a column broadcast along rows, a vector made a column, a lane sum, and each matrix
   product of the kernels as a finite sum over the contracted coordinate. -/
import proofs.«153655_j17970143167165_2_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegValue

open Cert.KernelIdeal Cert.KernelIdeal.Gen Idealize.ShloMosaic Idealize.ShloMosaic.ValueIdx

/-! ## Layout operations at an index -/

section Layout
variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## A lane sum at an index -/

/-- The sum over axis 1 of a `[768, 768]` matrix from the zero word, at row `p`: the sum of the row's entries. -/
theorem rowSum_S768x768_apply (src : FVec Ideal S768x768 .f32) (h : S768x768.Reduces [1] S768) (hφ : FKind.Formats .f32)
    (hacc : (0x00000000#32 : BitVec 32) = FKind.add.neutral .f32 hφ) (p : Fin 768) :
    multiReduction (F := Ideal) .add [1] S768 src 0x00000000#32 h hφ hacc (ix1 p) = ∑ k : Fin 768, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The matrix products at an index -/

/-- The left operand's index on its kept axis is the output's row coordinate, -/
theorem lhsN_S768x256_S256x64_S768x64_1_0_0_1_n_n (i : S768x64.Idx) (c : dot_S768x256_S256x64_S768x64_1_0_0_1_n_n.contr.Idx) : (dot_S768x256_S256x64_S768x64_1_0_0_1_n_n.lhsIdx i c 0).val = (i 0).val := by
  unfold DotDims.lhsIdx
  rw [dif_neg (show ¬(0 : Fin S768x256.rank) ∈ dot_S768x256_S256x64_S768x64_1_0_0_1_n_n.lhsBatch by decide), dif_pos (show (0 : Fin S768x256.rank) ∈ dot_S768x256_S256x64_S768x64_1_0_0_1_n_n.lhsNonContracting by decide)]
  rfl
/-- on its contracted axis the contraction's coordinate; -/
theorem lhsC_S768x256_S256x64_S768x64_1_0_0_1_n_n (i : S768x64.Idx) (c : dot_S768x256_S256x64_S768x64_1_0_0_1_n_n.contr.Idx) : (dot_S768x256_S256x64_S768x64_1_0_0_1_n_n.lhsIdx i c 1).val = (c ⟨0, by decide⟩).val :=
  dot_S768x256_S256x64_S768x64_1_0_0_1_n_n.lhsIdx_val_of_single rfl i c
/-- the right operand's on its contracted axis the contraction's coordinate, -/
theorem rhsC_S768x256_S256x64_S768x64_1_0_0_1_n_n (i : S768x64.Idx) (c : dot_S768x256_S256x64_S768x64_1_0_0_1_n_n.contr.Idx) : (dot_S768x256_S256x64_S768x64_1_0_0_1_n_n.rhsIdx i c 0).val = (c ⟨0, by decide⟩).val :=
  dot_S768x256_S256x64_S768x64_1_0_0_1_n_n.rhsIdx_val_of_single rfl i c
/-- and on its kept axis the output's column coordinate. -/
theorem rhsN_S768x256_S256x64_S768x64_1_0_0_1_n_n (i : S768x64.Idx) (c : dot_S768x256_S256x64_S768x64_1_0_0_1_n_n.contr.Idx) : (dot_S768x256_S256x64_S768x64_1_0_0_1_n_n.rhsIdx i c 1).val = (i 1).val := by
  unfold DotDims.rhsIdx
  rw [dif_neg (show ¬(1 : Fin S256x64.rank) ∈ dot_S768x256_S256x64_S768x64_1_0_0_1_n_n.rhsBatch by decide), dif_pos (show (1 : Fin S256x64.rank) ∈ dot_S768x256_S256x64_S768x64_1_0_0_1_n_n.rhsNonContracting by decide)]
  rfl
/-- The matrix product `dot_S768x256_S256x64_S768x64_1_0_0_1_n_n` into a zero accumulator, at `(p, q)`: row `p` of the left operand against column `q` of the right, summed over the 256 contracted coordinates. -/
theorem matmul_S768x256_S256x64_S768x64_1_0_0_1_n_n_apply {φ₁ φ₂ : FTy} (prec : Option ContractPrecision) (l : FVec Ideal S768x256 φ₁) (r : FVec Ideal S256x64 φ₂)
    (p : Fin 768) (q : Fin 64) :
    matmul dot_S768x256_S256x64_S768x64_1_0_0_1_n_n prec l r (constant (F := Ideal) S768x64 .f32 0x00000000#32) (ix2 p q)
      = ∑ k : Fin 256, l (ix2 p k) * r (ix2 k q) := by
  simp only [matmul]
  rw [Ideal.matmul_constant_zero_apply, ← Equiv.sum_comp (contrEquiv1 dot_S768x256_S256x64_S768x64_1_0_0_1_n_n 256 rfl rfl).symm]
  refine Finset.sum_congr rfl fun k _ => ?_
  have hk := contrEquiv1_symm_val dot_S768x256_S256x64_S768x64_1_0_0_1_n_n 256 rfl rfl k
  have el : dot_S768x256_S256x64_S768x64_1_0_0_1_n_n.lhsIdx (ix2 p q) ((contrEquiv1 dot_S768x256_S256x64_S768x64_1_0_0_1_n_n 256 rfl rfl).symm k) = ix2 p k := funext fun a => Fin.ext (by
    match a with
    | ⟨0, _⟩ => exact lhsN_S768x256_S256x64_S768x64_1_0_0_1_n_n _ _
    | ⟨1, _⟩ => exact (lhsC_S768x256_S256x64_S768x64_1_0_0_1_n_n _ _).trans hk)
  have er : dot_S768x256_S256x64_S768x64_1_0_0_1_n_n.rhsIdx (ix2 p q) ((contrEquiv1 dot_S768x256_S256x64_S768x64_1_0_0_1_n_n 256 rfl rfl).symm k) = ix2 k q := funext fun a => Fin.ext (by
    match a with
    | ⟨0, _⟩ => exact (rhsC_S768x256_S256x64_S768x64_1_0_0_1_n_n _ _).trans hk
    | ⟨1, _⟩ => exact rhsN_S768x256_S256x64_S768x64_1_0_0_1_n_n _ _)
  rw [el, er]

/-- The left operand's index on its kept axis is the output's row coordinate, -/
theorem lhsN_S768x64_S64x1_S768x1_1_0_0_1_n_n (i : S768x1.Idx) (c : dot_S768x64_S64x1_S768x1_1_0_0_1_n_n.contr.Idx) : (dot_S768x64_S64x1_S768x1_1_0_0_1_n_n.lhsIdx i c 0).val = (i 0).val := by
  unfold DotDims.lhsIdx
  rw [dif_neg (show ¬(0 : Fin S768x64.rank) ∈ dot_S768x64_S64x1_S768x1_1_0_0_1_n_n.lhsBatch by decide), dif_pos (show (0 : Fin S768x64.rank) ∈ dot_S768x64_S64x1_S768x1_1_0_0_1_n_n.lhsNonContracting by decide)]
  rfl
/-- on its contracted axis the contraction's coordinate; -/
theorem lhsC_S768x64_S64x1_S768x1_1_0_0_1_n_n (i : S768x1.Idx) (c : dot_S768x64_S64x1_S768x1_1_0_0_1_n_n.contr.Idx) : (dot_S768x64_S64x1_S768x1_1_0_0_1_n_n.lhsIdx i c 1).val = (c ⟨0, by decide⟩).val :=
  dot_S768x64_S64x1_S768x1_1_0_0_1_n_n.lhsIdx_val_of_single rfl i c
/-- the right operand's on its contracted axis the contraction's coordinate, -/
theorem rhsC_S768x64_S64x1_S768x1_1_0_0_1_n_n (i : S768x1.Idx) (c : dot_S768x64_S64x1_S768x1_1_0_0_1_n_n.contr.Idx) : (dot_S768x64_S64x1_S768x1_1_0_0_1_n_n.rhsIdx i c 0).val = (c ⟨0, by decide⟩).val :=
  dot_S768x64_S64x1_S768x1_1_0_0_1_n_n.rhsIdx_val_of_single rfl i c
/-- and on its kept axis the output's column coordinate. -/
theorem rhsN_S768x64_S64x1_S768x1_1_0_0_1_n_n (i : S768x1.Idx) (c : dot_S768x64_S64x1_S768x1_1_0_0_1_n_n.contr.Idx) : (dot_S768x64_S64x1_S768x1_1_0_0_1_n_n.rhsIdx i c 1).val = (i 1).val := by
  unfold DotDims.rhsIdx
  rw [dif_neg (show ¬(1 : Fin S64x1.rank) ∈ dot_S768x64_S64x1_S768x1_1_0_0_1_n_n.rhsBatch by decide), dif_pos (show (1 : Fin S64x1.rank) ∈ dot_S768x64_S64x1_S768x1_1_0_0_1_n_n.rhsNonContracting by decide)]
  rfl
/-- The matrix product `dot_S768x64_S64x1_S768x1_1_0_0_1_n_n` into a zero accumulator, at `(p, q)`: row `p` of the left operand against column `q` of the right, summed over the 64 contracted coordinates. -/
theorem matmul_S768x64_S64x1_S768x1_1_0_0_1_n_n_apply {φ₁ φ₂ : FTy} (prec : Option ContractPrecision) (l : FVec Ideal S768x64 φ₁) (r : FVec Ideal S64x1 φ₂)
    (p : Fin 768) (q : Fin 1) :
    matmul dot_S768x64_S64x1_S768x1_1_0_0_1_n_n prec l r (constant (F := Ideal) S768x1 .f32 0x00000000#32) (ix2 p q)
      = ∑ k : Fin 64, l (ix2 p k) * r (ix2 k q) := by
  simp only [matmul]
  rw [Ideal.matmul_constant_zero_apply, ← Equiv.sum_comp (contrEquiv1 dot_S768x64_S64x1_S768x1_1_0_0_1_n_n 64 rfl rfl).symm]
  refine Finset.sum_congr rfl fun k _ => ?_
  have hk := contrEquiv1_symm_val dot_S768x64_S64x1_S768x1_1_0_0_1_n_n 64 rfl rfl k
  have el : dot_S768x64_S64x1_S768x1_1_0_0_1_n_n.lhsIdx (ix2 p q) ((contrEquiv1 dot_S768x64_S64x1_S768x1_1_0_0_1_n_n 64 rfl rfl).symm k) = ix2 p k := funext fun a => Fin.ext (by
    match a with
    | ⟨0, _⟩ => exact lhsN_S768x64_S64x1_S768x1_1_0_0_1_n_n _ _
    | ⟨1, _⟩ => exact (lhsC_S768x64_S64x1_S768x1_1_0_0_1_n_n _ _).trans hk)
  have er : dot_S768x64_S64x1_S768x1_1_0_0_1_n_n.rhsIdx (ix2 p q) ((contrEquiv1 dot_S768x64_S64x1_S768x1_1_0_0_1_n_n 64 rfl rfl).symm k) = ix2 k q := funext fun a => Fin.ext (by
    match a with
    | ⟨0, _⟩ => exact (rhsC_S768x64_S64x1_S768x1_1_0_0_1_n_n _ _).trans hk
    | ⟨1, _⟩ => exact rhsN_S768x64_S64x1_S768x1_1_0_0_1_n_n _ _)
  rw [el, er]

/-- The left operand's index on its kept axis is the output's row coordinate, -/
theorem lhsN_S768x256_S256x256_S768x256_1_0_0_1_n_n (i : S768x256.Idx) (c : dot_S768x256_S256x256_S768x256_1_0_0_1_n_n.contr.Idx) : (dot_S768x256_S256x256_S768x256_1_0_0_1_n_n.lhsIdx i c 0).val = (i 0).val := by
  unfold DotDims.lhsIdx
  rw [dif_neg (show ¬(0 : Fin S768x256.rank) ∈ dot_S768x256_S256x256_S768x256_1_0_0_1_n_n.lhsBatch by decide), dif_pos (show (0 : Fin S768x256.rank) ∈ dot_S768x256_S256x256_S768x256_1_0_0_1_n_n.lhsNonContracting by decide)]
  rfl
/-- on its contracted axis the contraction's coordinate; -/
theorem lhsC_S768x256_S256x256_S768x256_1_0_0_1_n_n (i : S768x256.Idx) (c : dot_S768x256_S256x256_S768x256_1_0_0_1_n_n.contr.Idx) : (dot_S768x256_S256x256_S768x256_1_0_0_1_n_n.lhsIdx i c 1).val = (c ⟨0, by decide⟩).val :=
  dot_S768x256_S256x256_S768x256_1_0_0_1_n_n.lhsIdx_val_of_single rfl i c
/-- the right operand's on its contracted axis the contraction's coordinate, -/
theorem rhsC_S768x256_S256x256_S768x256_1_0_0_1_n_n (i : S768x256.Idx) (c : dot_S768x256_S256x256_S768x256_1_0_0_1_n_n.contr.Idx) : (dot_S768x256_S256x256_S768x256_1_0_0_1_n_n.rhsIdx i c 0).val = (c ⟨0, by decide⟩).val :=
  dot_S768x256_S256x256_S768x256_1_0_0_1_n_n.rhsIdx_val_of_single rfl i c
/-- and on its kept axis the output's column coordinate. -/
theorem rhsN_S768x256_S256x256_S768x256_1_0_0_1_n_n (i : S768x256.Idx) (c : dot_S768x256_S256x256_S768x256_1_0_0_1_n_n.contr.Idx) : (dot_S768x256_S256x256_S768x256_1_0_0_1_n_n.rhsIdx i c 1).val = (i 1).val := by
  unfold DotDims.rhsIdx
  rw [dif_neg (show ¬(1 : Fin S256x256.rank) ∈ dot_S768x256_S256x256_S768x256_1_0_0_1_n_n.rhsBatch by decide), dif_pos (show (1 : Fin S256x256.rank) ∈ dot_S768x256_S256x256_S768x256_1_0_0_1_n_n.rhsNonContracting by decide)]
  rfl
/-- The matrix product `dot_S768x256_S256x256_S768x256_1_0_0_1_n_n` into a zero accumulator, at `(p, q)`: row `p` of the left operand against column `q` of the right, summed over the 256 contracted coordinates. -/
theorem matmul_S768x256_S256x256_S768x256_1_0_0_1_n_n_apply {φ₁ φ₂ : FTy} (prec : Option ContractPrecision) (l : FVec Ideal S768x256 φ₁) (r : FVec Ideal S256x256 φ₂)
    (p : Fin 768) (q : Fin 256) :
    matmul dot_S768x256_S256x256_S768x256_1_0_0_1_n_n prec l r (constant (F := Ideal) S768x256 .f32 0x00000000#32) (ix2 p q)
      = ∑ k : Fin 256, l (ix2 p k) * r (ix2 k q) := by
  simp only [matmul]
  rw [Ideal.matmul_constant_zero_apply, ← Equiv.sum_comp (contrEquiv1 dot_S768x256_S256x256_S768x256_1_0_0_1_n_n 256 rfl rfl).symm]
  refine Finset.sum_congr rfl fun k _ => ?_
  have hk := contrEquiv1_symm_val dot_S768x256_S256x256_S768x256_1_0_0_1_n_n 256 rfl rfl k
  have el : dot_S768x256_S256x256_S768x256_1_0_0_1_n_n.lhsIdx (ix2 p q) ((contrEquiv1 dot_S768x256_S256x256_S768x256_1_0_0_1_n_n 256 rfl rfl).symm k) = ix2 p k := funext fun a => Fin.ext (by
    match a with
    | ⟨0, _⟩ => exact lhsN_S768x256_S256x256_S768x256_1_0_0_1_n_n _ _
    | ⟨1, _⟩ => exact (lhsC_S768x256_S256x256_S768x256_1_0_0_1_n_n _ _).trans hk)
  have er : dot_S768x256_S256x256_S768x256_1_0_0_1_n_n.rhsIdx (ix2 p q) ((contrEquiv1 dot_S768x256_S256x256_S768x256_1_0_0_1_n_n 256 rfl rfl).symm k) = ix2 k q := funext fun a => Fin.ext (by
    match a with
    | ⟨0, _⟩ => exact (rhsC_S768x256_S256x256_S768x256_1_0_0_1_n_n _ _).trans hk
    | ⟨1, _⟩ => exact rhsN_S768x256_S256x256_S768x256_1_0_0_1_n_n _ _)
  rw [el, er]

/-- The left operand's index on its kept axis is the output's row coordinate, -/
theorem lhsN_S768x768_S768x256_S768x256_1_0_0_1_n_n (i : S768x256.Idx) (c : dot_S768x768_S768x256_S768x256_1_0_0_1_n_n.contr.Idx) : (dot_S768x768_S768x256_S768x256_1_0_0_1_n_n.lhsIdx i c 0).val = (i 0).val := by
  unfold DotDims.lhsIdx
  rw [dif_neg (show ¬(0 : Fin S768x768.rank) ∈ dot_S768x768_S768x256_S768x256_1_0_0_1_n_n.lhsBatch by decide), dif_pos (show (0 : Fin S768x768.rank) ∈ dot_S768x768_S768x256_S768x256_1_0_0_1_n_n.lhsNonContracting by decide)]
  rfl
/-- on its contracted axis the contraction's coordinate; -/
theorem lhsC_S768x768_S768x256_S768x256_1_0_0_1_n_n (i : S768x256.Idx) (c : dot_S768x768_S768x256_S768x256_1_0_0_1_n_n.contr.Idx) : (dot_S768x768_S768x256_S768x256_1_0_0_1_n_n.lhsIdx i c 1).val = (c ⟨0, by decide⟩).val :=
  dot_S768x768_S768x256_S768x256_1_0_0_1_n_n.lhsIdx_val_of_single rfl i c
/-- the right operand's on its contracted axis the contraction's coordinate, -/
theorem rhsC_S768x768_S768x256_S768x256_1_0_0_1_n_n (i : S768x256.Idx) (c : dot_S768x768_S768x256_S768x256_1_0_0_1_n_n.contr.Idx) : (dot_S768x768_S768x256_S768x256_1_0_0_1_n_n.rhsIdx i c 0).val = (c ⟨0, by decide⟩).val :=
  dot_S768x768_S768x256_S768x256_1_0_0_1_n_n.rhsIdx_val_of_single rfl i c
/-- and on its kept axis the output's column coordinate. -/
theorem rhsN_S768x768_S768x256_S768x256_1_0_0_1_n_n (i : S768x256.Idx) (c : dot_S768x768_S768x256_S768x256_1_0_0_1_n_n.contr.Idx) : (dot_S768x768_S768x256_S768x256_1_0_0_1_n_n.rhsIdx i c 1).val = (i 1).val := by
  unfold DotDims.rhsIdx
  rw [dif_neg (show ¬(1 : Fin S768x256.rank) ∈ dot_S768x768_S768x256_S768x256_1_0_0_1_n_n.rhsBatch by decide), dif_pos (show (1 : Fin S768x256.rank) ∈ dot_S768x768_S768x256_S768x256_1_0_0_1_n_n.rhsNonContracting by decide)]
  rfl
/-- The matrix product `dot_S768x768_S768x256_S768x256_1_0_0_1_n_n` into a zero accumulator, at `(p, q)`: row `p` of the left operand against column `q` of the right, summed over the 768 contracted coordinates. -/
theorem matmul_S768x768_S768x256_S768x256_1_0_0_1_n_n_apply {φ₁ φ₂ : FTy} (prec : Option ContractPrecision) (l : FVec Ideal S768x768 φ₁) (r : FVec Ideal S768x256 φ₂)
    (p : Fin 768) (q : Fin 256) :
    matmul dot_S768x768_S768x256_S768x256_1_0_0_1_n_n prec l r (constant (F := Ideal) S768x256 .f32 0x00000000#32) (ix2 p q)
      = ∑ k : Fin 768, l (ix2 p k) * r (ix2 k q) := by
  simp only [matmul]
  rw [Ideal.matmul_constant_zero_apply, ← Equiv.sum_comp (contrEquiv1 dot_S768x768_S768x256_S768x256_1_0_0_1_n_n 768 rfl rfl).symm]
  refine Finset.sum_congr rfl fun k _ => ?_
  have hk := contrEquiv1_symm_val dot_S768x768_S768x256_S768x256_1_0_0_1_n_n 768 rfl rfl k
  have el : dot_S768x768_S768x256_S768x256_1_0_0_1_n_n.lhsIdx (ix2 p q) ((contrEquiv1 dot_S768x768_S768x256_S768x256_1_0_0_1_n_n 768 rfl rfl).symm k) = ix2 p k := funext fun a => Fin.ext (by
    match a with
    | ⟨0, _⟩ => exact lhsN_S768x768_S768x256_S768x256_1_0_0_1_n_n _ _
    | ⟨1, _⟩ => exact (lhsC_S768x768_S768x256_S768x256_1_0_0_1_n_n _ _).trans hk)
  have er : dot_S768x768_S768x256_S768x256_1_0_0_1_n_n.rhsIdx (ix2 p q) ((contrEquiv1 dot_S768x768_S768x256_S768x256_1_0_0_1_n_n 768 rfl rfl).symm k) = ix2 k q := funext fun a => Fin.ext (by
    match a with
    | ⟨0, _⟩ => exact (rhsC_S768x768_S768x256_S768x256_1_0_0_1_n_n _ _).trans hk
    | ⟨1, _⟩ => exact rhsN_S768x768_S768x256_S768x256_1_0_0_1_n_n _ _)
  rw [el, er]

/-- The left operand's index on its kept axis is the output's row coordinate, -/
theorem lhsN_S768x768_S768x256_S768x256_0_0_1_1_n_n (i : S768x256.Idx) (c : dot_S768x768_S768x256_S768x256_0_0_1_1_n_n.contr.Idx) : (dot_S768x768_S768x256_S768x256_0_0_1_1_n_n.lhsIdx i c 1).val = (i 0).val := by
  unfold DotDims.lhsIdx
  rw [dif_neg (show ¬(1 : Fin S768x768.rank) ∈ dot_S768x768_S768x256_S768x256_0_0_1_1_n_n.lhsBatch by decide), dif_pos (show (1 : Fin S768x768.rank) ∈ dot_S768x768_S768x256_S768x256_0_0_1_1_n_n.lhsNonContracting by decide)]
  rfl
/-- on its contracted axis the contraction's coordinate; -/
theorem lhsC_S768x768_S768x256_S768x256_0_0_1_1_n_n (i : S768x256.Idx) (c : dot_S768x768_S768x256_S768x256_0_0_1_1_n_n.contr.Idx) : (dot_S768x768_S768x256_S768x256_0_0_1_1_n_n.lhsIdx i c 0).val = (c ⟨0, by decide⟩).val :=
  dot_S768x768_S768x256_S768x256_0_0_1_1_n_n.lhsIdx_val_of_single rfl i c
/-- the right operand's on its contracted axis the contraction's coordinate, -/
theorem rhsC_S768x768_S768x256_S768x256_0_0_1_1_n_n (i : S768x256.Idx) (c : dot_S768x768_S768x256_S768x256_0_0_1_1_n_n.contr.Idx) : (dot_S768x768_S768x256_S768x256_0_0_1_1_n_n.rhsIdx i c 0).val = (c ⟨0, by decide⟩).val :=
  dot_S768x768_S768x256_S768x256_0_0_1_1_n_n.rhsIdx_val_of_single rfl i c
/-- and on its kept axis the output's column coordinate. -/
theorem rhsN_S768x768_S768x256_S768x256_0_0_1_1_n_n (i : S768x256.Idx) (c : dot_S768x768_S768x256_S768x256_0_0_1_1_n_n.contr.Idx) : (dot_S768x768_S768x256_S768x256_0_0_1_1_n_n.rhsIdx i c 1).val = (i 1).val := by
  unfold DotDims.rhsIdx
  rw [dif_neg (show ¬(1 : Fin S768x256.rank) ∈ dot_S768x768_S768x256_S768x256_0_0_1_1_n_n.rhsBatch by decide), dif_pos (show (1 : Fin S768x256.rank) ∈ dot_S768x768_S768x256_S768x256_0_0_1_1_n_n.rhsNonContracting by decide)]
  rfl
/-- The matrix product `dot_S768x768_S768x256_S768x256_0_0_1_1_n_n` into a zero accumulator, at `(p, q)`: column `p` of the left operand against column `q` of the right (the left operand enters transposed), summed over the 768 contracted coordinates. -/
theorem matmul_S768x768_S768x256_S768x256_0_0_1_1_n_n_apply {φ₁ φ₂ : FTy} (prec : Option ContractPrecision) (l : FVec Ideal S768x768 φ₁) (r : FVec Ideal S768x256 φ₂)
    (p : Fin 768) (q : Fin 256) :
    matmul dot_S768x768_S768x256_S768x256_0_0_1_1_n_n prec l r (constant (F := Ideal) S768x256 .f32 0x00000000#32) (ix2 p q)
      = ∑ k : Fin 768, l (ix2 k p) * r (ix2 k q) := by
  simp only [matmul]
  rw [Ideal.matmul_constant_zero_apply, ← Equiv.sum_comp (contrEquiv1 dot_S768x768_S768x256_S768x256_0_0_1_1_n_n 768 rfl rfl).symm]
  refine Finset.sum_congr rfl fun k _ => ?_
  have hk := contrEquiv1_symm_val dot_S768x768_S768x256_S768x256_0_0_1_1_n_n 768 rfl rfl k
  have el : dot_S768x768_S768x256_S768x256_0_0_1_1_n_n.lhsIdx (ix2 p q) ((contrEquiv1 dot_S768x768_S768x256_S768x256_0_0_1_1_n_n 768 rfl rfl).symm k) = ix2 k p := funext fun a => Fin.ext (by
    match a with
    | ⟨0, _⟩ => exact (lhsC_S768x768_S768x256_S768x256_0_0_1_1_n_n _ _).trans hk
    | ⟨1, _⟩ => exact lhsN_S768x768_S768x256_S768x256_0_0_1_1_n_n _ _)
  have er : dot_S768x768_S768x256_S768x256_0_0_1_1_n_n.rhsIdx (ix2 p q) ((contrEquiv1 dot_S768x768_S768x256_S768x256_0_0_1_1_n_n 768 rfl rfl).symm k) = ix2 k q := funext fun a => Fin.ext (by
    match a with
    | ⟨0, _⟩ => exact (rhsC_S768x768_S768x256_S768x256_0_0_1_1_n_n _ _).trans hk
    | ⟨1, _⟩ => exact rhsN_S768x768_S768x256_S768x256_0_0_1_1_n_n _ _)
  rw [el, er]

/-- The left operand's index on its kept axis is the output's row coordinate, -/
theorem lhsN_S768x768_S768x1_S768x1_0_0_1_1_n_n (i : S768x1.Idx) (c : dot_S768x768_S768x1_S768x1_0_0_1_1_n_n.contr.Idx) : (dot_S768x768_S768x1_S768x1_0_0_1_1_n_n.lhsIdx i c 1).val = (i 0).val := by
  unfold DotDims.lhsIdx
  rw [dif_neg (show ¬(1 : Fin S768x768.rank) ∈ dot_S768x768_S768x1_S768x1_0_0_1_1_n_n.lhsBatch by decide), dif_pos (show (1 : Fin S768x768.rank) ∈ dot_S768x768_S768x1_S768x1_0_0_1_1_n_n.lhsNonContracting by decide)]
  rfl
/-- on its contracted axis the contraction's coordinate; -/
theorem lhsC_S768x768_S768x1_S768x1_0_0_1_1_n_n (i : S768x1.Idx) (c : dot_S768x768_S768x1_S768x1_0_0_1_1_n_n.contr.Idx) : (dot_S768x768_S768x1_S768x1_0_0_1_1_n_n.lhsIdx i c 0).val = (c ⟨0, by decide⟩).val :=
  dot_S768x768_S768x1_S768x1_0_0_1_1_n_n.lhsIdx_val_of_single rfl i c
/-- the right operand's on its contracted axis the contraction's coordinate, -/
theorem rhsC_S768x768_S768x1_S768x1_0_0_1_1_n_n (i : S768x1.Idx) (c : dot_S768x768_S768x1_S768x1_0_0_1_1_n_n.contr.Idx) : (dot_S768x768_S768x1_S768x1_0_0_1_1_n_n.rhsIdx i c 0).val = (c ⟨0, by decide⟩).val :=
  dot_S768x768_S768x1_S768x1_0_0_1_1_n_n.rhsIdx_val_of_single rfl i c
/-- and on its kept axis the output's column coordinate. -/
theorem rhsN_S768x768_S768x1_S768x1_0_0_1_1_n_n (i : S768x1.Idx) (c : dot_S768x768_S768x1_S768x1_0_0_1_1_n_n.contr.Idx) : (dot_S768x768_S768x1_S768x1_0_0_1_1_n_n.rhsIdx i c 1).val = (i 1).val := by
  unfold DotDims.rhsIdx
  rw [dif_neg (show ¬(1 : Fin S768x1.rank) ∈ dot_S768x768_S768x1_S768x1_0_0_1_1_n_n.rhsBatch by decide), dif_pos (show (1 : Fin S768x1.rank) ∈ dot_S768x768_S768x1_S768x1_0_0_1_1_n_n.rhsNonContracting by decide)]
  rfl
/-- The matrix product `dot_S768x768_S768x1_S768x1_0_0_1_1_n_n` into a zero accumulator, at `(p, q)`: column `p` of the left operand against column `q` of the right (the left operand enters transposed), summed over the 768 contracted coordinates. -/
theorem matmul_S768x768_S768x1_S768x1_0_0_1_1_n_n_apply {φ₁ φ₂ : FTy} (prec : Option ContractPrecision) (l : FVec Ideal S768x768 φ₁) (r : FVec Ideal S768x1 φ₂)
    (p : Fin 768) (q : Fin 1) :
    matmul dot_S768x768_S768x1_S768x1_0_0_1_1_n_n prec l r (constant (F := Ideal) S768x1 .f32 0x00000000#32) (ix2 p q)
      = ∑ k : Fin 768, l (ix2 k p) * r (ix2 k q) := by
  simp only [matmul]
  rw [Ideal.matmul_constant_zero_apply, ← Equiv.sum_comp (contrEquiv1 dot_S768x768_S768x1_S768x1_0_0_1_1_n_n 768 rfl rfl).symm]
  refine Finset.sum_congr rfl fun k _ => ?_
  have hk := contrEquiv1_symm_val dot_S768x768_S768x1_S768x1_0_0_1_1_n_n 768 rfl rfl k
  have el : dot_S768x768_S768x1_S768x1_0_0_1_1_n_n.lhsIdx (ix2 p q) ((contrEquiv1 dot_S768x768_S768x1_S768x1_0_0_1_1_n_n 768 rfl rfl).symm k) = ix2 k p := funext fun a => Fin.ext (by
    match a with
    | ⟨0, _⟩ => exact (lhsC_S768x768_S768x1_S768x1_0_0_1_1_n_n _ _).trans hk
    | ⟨1, _⟩ => exact lhsN_S768x768_S768x1_S768x1_0_0_1_1_n_n _ _)
  have er : dot_S768x768_S768x1_S768x1_0_0_1_1_n_n.rhsIdx (ix2 p q) ((contrEquiv1 dot_S768x768_S768x1_S768x1_0_0_1_1_n_n 768 rfl rfl).symm k) = ix2 k q := funext fun a => Fin.ext (by
    match a with
    | ⟨0, _⟩ => exact (rhsC_S768x768_S768x1_S768x1_0_0_1_1_n_n _ _).trans hk
    | ⟨1, _⟩ => exact rhsN_S768x768_S768x1_S768x1_0_0_1_1_n_n _ _)
  rw [el, er]

end Cert.KernelIdeal.RegValue

end
-- ==== Proof.KI.Val0Heads.lean ====
/-
  Region 0's two prediction heads at the extended reals: the block the body leaves in each of its two result
  windows, read at row r, is the specification's head of the features and the head's parameters: the logistic function
  of the second linear layer applied to the rectified first linear layer.
-/
import proofs.«153655_j17970143167165_2_alg».proof.Proof.KI.Reg0
import proofs.«153655_j17970143167165_2_alg».proof.Proof.KI.PayLemmas
import proofs.«153655_j17970143167165_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegValue

open Cert.KernelIdeal Cert.KernelIdeal.Gen Cert.KernelIdeal.Reg Idealize.ShloMosaic Idealize.ShloMosaic.ValueIdx

/-- The zero offsets, however spelt. -/
theorem hz_heads : (![0, 0] : Fin 2 → Nat) = fun _ => 0 := funext fun a => by fin_cases a <;> rfl

/-- The first layer: the rectified sum of the matrix product and the bias row, at (r, h), is the specification's
    hidden unit h of row r. -/
theorem hid_read (A : Vec Ideal S768x256 .f32) (W : Vec Ideal S256x64 .f32) (brow : Vec Ideal S1x64 .f32)
    (b1 : Cert.Spec.V 64) (hb1 : ∀ h : Fin 64, brow (ix2 (0 : Fin 1) h) = b1 (ix1 h))
    (ht : FTy.bf16.bits < FTy.f32.bits) (hbc : S1x64.Broadcasts S768x64) (r : Fin 768) (h : Fin 64) :
    (maximumf (addf (matmul dot_S768x256_S256x64_S768x64_1_0_0_1_n_n none (truncf .bf16 A ht) (truncf .bf16 W ht)
          (constant (F := Ideal) S768x64 .f32 0x00000000#32)) (broadcastTo S768x64 brow hbc))
        (broadcast S768x64 (Scalar.ofBits (F := Ideal) .f32 0x00000000#32)) : FVec Ideal S768x64 .f32) (ix2 r h)
      = Cert.Spec.hid (fun r k => A (ix2 r k)) W b1 r h := by
  rw [maximumf_apply, addf_apply, matmul_S768x256_S256x64_S768x64_1_0_0_1_n_n_apply, broadcastTo_1b_ab_apply, hb1]
  rfl

/-- The second layer: the logistic function of the sum of the product with the one-column matrix and the bias, at
    (r, 0), is the specification's head at row r, given the hidden units. -/
theorem head_read (x : Fin 768 → Fin 256 → EReal) (W1 : Cert.Spec.M 256 64) (b1 : Cert.Spec.V 64)
    (H : FVec Ideal S768x64 .f32) (hH : ∀ (r : Fin 768) (h : Fin 64), H (ix2 r h) = Cert.Spec.hid x W1 b1 r h)
    (W2 : Vec Ideal S64x1 .f32) (brow : Vec Ideal S1x1 .f32) (b2 : Cert.Spec.V 1)
    (hb2 : brow (ix2 (0 : Fin 1) (0 : Fin 1)) = b2 (ix1 (0 : Fin 1)))
    (ht : FTy.bf16.bits < FTy.f32.bits) (hbc : S1x1.Broadcasts S768x1) (r : Fin 768) :
    (logistic (addf (matmul dot_S768x64_S64x1_S768x1_1_0_0_1_n_n none (truncf .bf16 H ht) (truncf .bf16 W2 ht)
          (constant (F := Ideal) S768x1 .f32 0x00000000#32)) (broadcastTo S768x1 brow hbc)) : FVec Ideal S768x1 .f32) (ix2 r (0 : Fin 1))
      = Cert.Spec.head x W1 b1 W2 b2 r := by
  show FloatOps.logistic (F := Ideal) _ = _
  rw [Ideal.logistic_def, addf_apply, matmul_S768x64_S64x1_S768x1_1_0_0_1_n_n_apply, broadcastTo_1b_ab_apply, hb2]
  unfold Cert.Spec.head
  refine congrArg (fun s => Ideal.logistic (s + b2 (ix1 (0 : Fin 1)))) ?_
  refine Finset.sum_congr rfl fun k _ => ?_
  rw [truncf_apply, truncf_apply, hH]

/-- The first head's result block at row r. -/
theorem ker_e0 (x0 : Vec Ideal S768x256 .f32) (x2 : Vec Ideal S256x64 .f32) (x3 : Vec Ideal S1x64 .f32) (x4 : Vec Ideal S64x1 .f32)
    (x5 : Vec Ideal S1x1 .f32) (b1 : Cert.Spec.V 64) (b2 : Cert.Spec.V 1)
    (h3 : ∀ h : Fin 64, x3 (ix2 (0 : Fin 1) h) = b1 (ix1 h)) (h5 : x5 (ix2 (0 : Fin 1) (0 : Fin 1)) = b2 (ix1 (0 : Fin 1)))
    (r : Fin 768) :
    out0_10 (F := Ideal) x0 x2 x3 x4 x5 (ix2 r (0 : Fin 1)) = Cert.Spec.head (fun r k => x0 (ix2 r k)) x2 b1 x4 b2 r := by
  unfold out0_10
  rw [View.canon_unit_zero hz_heads]
  simp only [View.ld_unit_zero (S := S768x256) hz_heads, View.ld_unit_zero (S := S256x64) hz_heads,
    View.ld_unit_zero (S := S1x64) hz_heads, View.ld_unit_zero (S := S64x1) hz_heads, View.ld_unit_zero (S := S1x1) hz_heads]
  unfold k0_pay2
  simp only [shapeCast_self]
  exact head_read (fun r k => x0 (ix2 r k)) x2 b1 _ (hid_read x0 x2 x3 b1 h3 _ _) x4 x5 b2 h5 _ _ r

/-- The second head's result block at row r. -/
theorem ker_l0 (x1 : Vec Ideal S768x256 .f32) (x6 : Vec Ideal S256x64 .f32) (x7 : Vec Ideal S1x64 .f32) (x8 : Vec Ideal S64x1 .f32)
    (x9 : Vec Ideal S1x1 .f32) (b1 : Cert.Spec.V 64) (b2 : Cert.Spec.V 1)
    (h7 : ∀ h : Fin 64, x7 (ix2 (0 : Fin 1) h) = b1 (ix1 h)) (h9 : x9 (ix2 (0 : Fin 1) (0 : Fin 1)) = b2 (ix1 (0 : Fin 1)))
    (r : Fin 768) :
    out0_11 (F := Ideal) x1 x6 x7 x8 x9 (ix2 r (0 : Fin 1)) = Cert.Spec.head (fun r k => x1 (ix2 r k)) x6 b1 x8 b2 r := by
  unfold out0_11
  rw [View.canon_unit_zero hz_heads]
  simp only [View.ld_unit_zero (S := S768x256) hz_heads, View.ld_unit_zero (S := S256x64) hz_heads,
    View.ld_unit_zero (S := S1x64) hz_heads, View.ld_unit_zero (S := S64x1) hz_heads, View.ld_unit_zero (S := S1x1) hz_heads]
  unfold k0_pay1 k0_pay3 k0_pay4 k0_pay5
  simp only [shapeCast_self]
  exact head_read (fun r k => x1 (ix2 r k)) x6 b1 _ (hid_read x1 x6 x7 b1 h7 _ _) x8 x9 b2 h9 _ _ r

end Cert.KernelIdeal.RegValue

end
-- ==== Proof.KI.Pay3.lean ====
/- The update kernel's payloads read at an index, at the ideal values: each named payload as the finite sums,
   maxima and quotient it computes, written with the specification's own names where one exists. -/
import proofs.«153655_j17970143167165_2_alg».proof.Proof.Gen.KernelIdeal.Skeleton
import proofs.«153655_j17970143167165_2_alg».proof.Proof.KI.PayLemmas
import proofs.«153655_j17970143167165_2_alg».proof.Proof.Spec
import Idealize.ShloMosaic.Lib.IdealHost

noncomputable section

open scoped BigOperators

namespace Cert.KernelIdeal.RegValue

open Cert.KernelIdeal Cert.KernelIdeal.Gen Idealize.ShloMosaic Idealize.ShloMosaic.ValueIdx

/-! ## Two lane-by-lane operations at an index -/

/-- An absolute value at an index is the larger of the element and its negation. -/
theorem absf_apply {s : Shape} {φ : FTy} (a : FVec Ideal s φ) (i : s.Idx) : absf a i = max (a i) (-(a i)) := rfl
/-- A logistic at an index is the logistic function of the element. -/
theorem logistic_apply {s : Shape} {φ : FTy} (a : FVec Ideal s φ) (i : s.Idx) : logistic a i = Ideal.logistic (a i) := rfl
/-- The zero word and the divisors' floor are the specification's. -/
theorem zeroWord_eq : Scalar.ofBits (F := Ideal) .f32 0x00000000#32 = Spec.z32 := rfl
theorem epsWord_eq : Scalar.ofBits (F := Ideal) .f32 0x38D1B717#32 = Spec.eps32 := rfl
/-- The word of one is one. -/
theorem oneWord_eq : Scalar.ofBits (F := Ideal) .f32 0x3F800000#32 = 1 := Ideal.ofBits_one_f32

/-- The update weights from the mask, the loop predictions as a column and the edge predictions as a row. -/
abbrev wOf (v0 : Vec Ideal S1x768 .f32) (v2 : Vec Ideal S768x1 .f32) (v8 : Vec Ideal S768x768 .f32) : Fin 768 → Fin 768 → EReal :=
  Spec.wgt v8 (fun n => v2 (ix2 n (0 : Fin 1))) (fun m => v0 (ix2 (0 : Fin 1) m))

/-! ## The weights -/

/-- The weight payload at `(n, m)`: the mask's entry times the distance between loop `n`'s and edge `m`'s predictions. -/
theorem pay2_apply (v0 : Vec Ideal S1x768 .f32) (v2 : Vec Ideal S768x1 .f32) (v8 : Vec Ideal S768x768 .f32) (n m : Fin 768) :
    k3_pay2 (F := Ideal) v0 v2 v8 (ix2 n m) = wOf v0 v2 v8 n m := by
  unfold k3_pay2
  simp only [addf_apply, mulf_apply, subf_apply, divf_apply, maximumf_apply, truncf_apply, broadcast_apply, absf_apply, logistic_apply, shapeCast_self, broadcastTo_1b_ab_apply, broadcastTo_a1_ab_apply, shapeCast_a_a1_apply, zeroWord_eq, epsWord_eq, oneWord_eq]
  rfl

/-- Its narrowed copy is the same matrix. -/
theorem pay3_apply (v0 : Vec Ideal S1x768 .f32) (v2 : Vec Ideal S768x1 .f32) (v8 : Vec Ideal S768x768 .f32) (n m : Fin 768) :
    k3_pay3 (F := Ideal) v0 v2 v8 (ix2 n m) = wOf v0 v2 v8 n m := by
  unfold k3_pay3
  simp only [truncf_apply, pay2_apply]

/-! ## The edge side -/

/-- The edge features times the first weight block plus what the edge gathers from the loops times the second: the
    gathered term is the weighted column sum over the column's total floored at the small word. -/
theorem pay4_apply (v0 : Vec Ideal S1x768 .f32) (v2 : Vec Ideal S768x1 .f32) (v8 : Vec Ideal S768x768 .f32)
    (v11 v12 : Vec Ideal S768x256 .f32) (v22 v27 : Vec Ideal S256x256 .f32) (r : Fin 768) (c : Fin 256) :
    k3_pay4 (F := Ideal) v0 v2 v8 v11 v12 v22 v27 (ix2 r c)
      = (∑ k : Fin 256, v12 (ix2 r k) * v22 (ix2 k c)) + ∑ k : Fin 256, Spec.fromLoop (wOf v0 v2 v8) v11 r k * v27 (ix2 k c) := by
  unfold k3_pay4
  simp only [addf_apply, mulf_apply, subf_apply, divf_apply, maximumf_apply, truncf_apply, broadcast_apply, absf_apply, logistic_apply, shapeCast_self, broadcastTo_1b_ab_apply, broadcastTo_a1_ab_apply, shapeCast_a_a1_apply, zeroWord_eq, epsWord_eq, oneWord_eq, matmul_S768x256_S256x256_S768x256_1_0_0_1_n_n_apply, matmul_S768x768_S768x256_S768x256_0_0_1_1_n_n_apply, matmul_S768x768_S768x1_S768x1_0_0_1_1_n_n_apply, pay2_apply, pay3_apply, mul_one]
  rfl

/-- The pooled features pass through unchanged. -/
theorem pay5_apply (v32 : Vec Ideal S768x256 .f32) (r : Fin 768) (k : Fin 256) : k3_pay5 (F := Ideal) v32 (ix2 r k) = v32 (ix2 r k) := by
  unfold k3_pay5
  simp only [truncf_apply, shapeCast_self]

/-- The first head's prediction of row `r`, from the two products already summed (`v31`) and the pooled features
    (`v34`): the third product and the bias row are added, the sum floored at zero, and the head applied. -/
theorem pay6_apply (v31 : FVec Ideal S768x256 .f32) (v34 : FVec Ideal S768x256 .bf16) (v35 : Vec Ideal S256x256 .f32)
    (v40 : Vec Ideal S1x256 .f32) (v46 : Vec Ideal S256x64 .f32) (v47 : Vec Ideal S1x64 .f32) (v49 : Vec Ideal S64x1 .f32)
    (v50 : Vec Ideal S1x1 .f32) (r : Fin 768) (u : Fin 1) :
    k3_pay6 (F := Ideal) v31 v34 v35 v40 v46 v47 v49 v50 (ix2 r u)
      = Ideal.logistic ((∑ h : Fin 64,
          max ((∑ k : Fin 256, max ((v31 (ix2 r k) + ∑ j : Fin 256, v34 (ix2 r j) * v35 (ix2 j k)) + v40 (ix2 (0 : Fin 1) k)) Spec.z32
                * v46 (ix2 k h)) + v47 (ix2 (0 : Fin 1) h)) Spec.z32 * v49 (ix2 h u)) + v50 (ix2 (0 : Fin 1) u)) := by
  unfold k3_pay6
  simp only [addf_apply, mulf_apply, subf_apply, divf_apply, maximumf_apply, truncf_apply, broadcast_apply, absf_apply, logistic_apply, shapeCast_self, broadcastTo_1b_ab_apply, broadcastTo_a1_ab_apply, shapeCast_a_a1_apply, zeroWord_eq, epsWord_eq, oneWord_eq, matmul_S768x256_S256x256_S768x256_1_0_0_1_n_n_apply, matmul_S768x256_S256x64_S768x64_1_0_0_1_n_n_apply, matmul_S768x64_S64x1_S768x1_1_0_0_1_n_n_apply]

/-! ## The loop side -/

/-- What loop `l` gathers from the edges: the weighted row sum over the row's total floored at the small word. -/
theorem pay7_apply (v9 : FVec Ideal S768x768 .f32) (v10 : FVec Ideal S768x768 .bf16) (v12 : Vec Ideal S768x256 .f32)
    (l : Fin 768) (c : Fin 256) :
    k3_pay7 (F := Ideal) v9 v10 v12 (ix2 l c)
      = Ideal.div (∑ e : Fin 768, v10 (ix2 l e) * v12 (ix2 e c)) (max (∑ e : Fin 768, v9 (ix2 l e)) Spec.eps32) := by
  unfold k3_pay7
  simp only [addf_apply, mulf_apply, subf_apply, divf_apply, maximumf_apply, truncf_apply, broadcast_apply, absf_apply, logistic_apply, shapeCast_self, broadcastTo_1b_ab_apply, broadcastTo_a1_ab_apply, shapeCast_a_a1_apply, zeroWord_eq, epsWord_eq, oneWord_eq, matmul_S768x768_S768x256_S768x256_1_0_0_1_n_n_apply]
  refine congrArg (fun t => Ideal.div (∑ e : Fin 768, v10 (ix2 l e) * v12 (ix2 e c)) (max t Spec.eps32)) ?_
  exact rowSum_S768x768_apply v9 _ _ _ l

/-- The second head's scalar bias passes through unchanged. -/
theorem pay8_apply (v103 : Vec Ideal S1x1 .f32) : k3_pay8 (F := Ideal) v103 = v103 := by
  unfold k3_pay8
  simp only [shapeCast_self]

/-- The second head's hidden layer before its floor, of row `r` and unit `h`: the three products and the bias row
    summed and floored at zero, times the head's first weights, plus its first bias. -/
theorem pay9_apply (v11 : Vec Ideal S768x256 .f32) (v73 : FVec Ideal S768x256 .f32) (v75 v80 : Vec Ideal S256x256 .f32)
    (v85 : Vec Ideal S768x256 .f32) (v88 : Vec Ideal S256x256 .f32) (v93 : Vec Ideal S1x256 .f32) (v99 : Vec Ideal S256x64 .f32)
    (v100 : Vec Ideal S1x64 .f32) (r : Fin 768) (h : Fin 64) :
    k3_pay9 (F := Ideal) v11 v73 v75 v80 v85 v88 v93 v99 v100 (ix2 r h)
      = (∑ k : Fin 256, max (((((∑ j : Fin 256, v11 (ix2 r j) * v75 (ix2 j k)) + ∑ j : Fin 256, v73 (ix2 r j) * v80 (ix2 j k))
            + ∑ j : Fin 256, v85 (ix2 r j) * v88 (ix2 j k)) + v93 (ix2 (0 : Fin 1) k))) Spec.z32 * v99 (ix2 k h))
          + v100 (ix2 (0 : Fin 1) h) := by
  unfold k3_pay9
  simp only [addf_apply, mulf_apply, subf_apply, divf_apply, maximumf_apply, truncf_apply, broadcast_apply, absf_apply, logistic_apply, shapeCast_self, broadcastTo_1b_ab_apply, broadcastTo_a1_ab_apply, shapeCast_a_a1_apply, zeroWord_eq, epsWord_eq, oneWord_eq, matmul_S768x256_S256x256_S768x256_1_0_0_1_n_n_apply, matmul_S768x256_S256x64_S768x64_1_0_0_1_n_n_apply]

/-- The second head's prediction of row `r` from its hidden layer before the floor (`v109`), the floor's word `z`,
    its second weights and its scalar bias. -/
theorem pay1_apply (v102 : Vec Ideal S64x1 .f32) (v104 : FVec Ideal S1x1 .f32) (v109 : FVec Ideal S768x64 .f32) (z : Ideal .f32)
    (r : Fin 768) (u : Fin 1) :
    k3_pay1 (F := Ideal) v102 v104 v109 z (ix2 r u)
      = Ideal.logistic ((∑ h : Fin 64, max (v109 (ix2 r h)) z * v102 (ix2 h u)) + v104 (ix2 (0 : Fin 1) u)) := by
  unfold k3_pay1
  simp only [addf_apply, mulf_apply, subf_apply, divf_apply, maximumf_apply, truncf_apply, broadcast_apply, absf_apply, logistic_apply, shapeCast_self, broadcastTo_1b_ab_apply, broadcastTo_a1_ab_apply, shapeCast_a_a1_apply, zeroWord_eq, epsWord_eq, oneWord_eq, matmul_S768x64_S64x1_S768x1_1_0_0_1_n_n_apply]

end Cert.KernelIdeal.RegValue

end
-- ==== Proof.KI.Val3.lean ====
/- The update kernel's two outputs at the ideal values, row by row: each is the canon of one whole store, so the
   stored payload itself; read at a row, the payload chain is the specification's prediction head applied to the
   updated features, the gathered term the weighted mean the specification names. -/
import proofs.«153655_j17970143167165_2_alg».proof.Proof.KI.Reg3
import proofs.«153655_j17970143167165_2_alg».proof.Proof.KI.Pay3
import proofs.«153655_j17970143167165_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegValue

open Cert.KernelIdeal Cert.KernelIdeal.Gen Cert.KernelIdeal.Reg Idealize.ShloMosaic Idealize.ShloMosaic.ValueIdx

/-- The zero offsets of a whole-buffer access, as the constant function. -/
theorem zeroOff2 : (![0, 0] : Fin 2 → Nat) = fun _ => 0 := by
  funext a; match a with | ⟨0, _⟩ => rfl | ⟨1, _⟩ => rfl

/-- The first output at row `r`: the edge head applied to the updated edge features — the edge features, what the
    edge gathers from the loops under the update weights, and the conflict pooling, through the three weight blocks
    and the bias row, floored at zero. The head's two biases arrive as a row and a one-by-one matrix (`h16`, `h18`). -/
theorem ker_e1 (x0 : Vec Ideal S768x256 .f32) (x1 : Vec Ideal S768x256 .f32) (x2 : Vec Ideal S768x768 .f32) (x3 : Vec Ideal S1x768 .f32) (x4 : Vec Ideal S768x1 .f32) (x5 : Vec Ideal S768x256 .f32) (x7 : Vec Ideal S256x256 .f32) (x8 : Vec Ideal S256x256 .f32) (x9 : Vec Ideal S256x256 .f32) (x10 : Vec Ideal S1x256 .f32) (x15 : Vec Ideal S256x64 .f32) (x16 : Vec Ideal S1x64 .f32) (x17 : Vec Ideal S64x1 .f32) (x18 : Vec Ideal S1x1 .f32)
    (b1 : Spec.V 64) (b2 : Spec.V 1) (h16 : ∀ h : Fin 64, x16 (ix2 (0 : Fin 1) h) = b1 (ix1 h))
    (h18 : x18 (ix2 (0 : Fin 1) (0 : Fin 1)) = b2 (ix1 (0 : Fin 1))) (r : Fin 768) :
    out3_23 (F := Ideal) x0 x1 x2 x3 x4 x5 x7 x8 x9 x10 x15 x16 x17 x18 (ix2 r (0 : Fin 1)) =
      Spec.head (Spec.updK x0 (Spec.fromLoop (Spec.wgt x2 (fun n => x4 (ix2 n (0 : Fin 1))) (fun m => x3 (ix2 (0 : Fin 1) m))) x1)
        (fun r k => x5 (ix2 r k)) (fun k c => x7 (ix2 k c)) (fun k c => x8 (ix2 k c)) (fun k c => x9 (ix2 k c))
        (fun c => x10 (ix2 (0 : Fin 1) c))) x15 b1 x17 b2 r := by
  unfold out3_23
  rw [View.canon_unit_zero zeroOff2]
  simp only [View.ld_unit_zero (S := S768x256) zeroOff2, View.ld_unit_zero (S := S768x768) zeroOff2, View.ld_unit_zero (S := S1x768) zeroOff2, View.ld_unit_zero (S := S768x1) zeroOff2, View.ld_unit_zero (S := S256x256) zeroOff2, View.ld_unit_zero (S := S1x256) zeroOff2, View.ld_unit_zero (S := S256x64) zeroOff2, View.ld_unit_zero (S := S1x64) zeroOff2, View.ld_unit_zero (S := S64x1) zeroOff2, View.ld_unit_zero (S := S1x1) zeroOff2]
  rw [pay6_apply]
  simp only [pay4_apply, pay5_apply, h16, h18]
  unfold Spec.head Spec.hid Spec.updK
  rfl

/-- The second output at row `r`: the loop head applied to the updated loop features, the gathered term what the
    loop gathers from the edges. -/
theorem ker_l1 (x0 : Vec Ideal S768x256 .f32) (x1 : Vec Ideal S768x256 .f32) (x2 : Vec Ideal S768x768 .f32) (x3 : Vec Ideal S1x768 .f32) (x4 : Vec Ideal S768x1 .f32) (x6 : Vec Ideal S768x256 .f32) (x11 : Vec Ideal S256x256 .f32) (x12 : Vec Ideal S256x256 .f32) (x13 : Vec Ideal S256x256 .f32) (x14 : Vec Ideal S1x256 .f32) (x19 : Vec Ideal S256x64 .f32) (x20 : Vec Ideal S1x64 .f32) (x21 : Vec Ideal S64x1 .f32) (x22 : Vec Ideal S1x1 .f32)
    (b1 : Spec.V 64) (b2 : Spec.V 1) (h20 : ∀ h : Fin 64, x20 (ix2 (0 : Fin 1) h) = b1 (ix1 h))
    (h22 : x22 (ix2 (0 : Fin 1) (0 : Fin 1)) = b2 (ix1 (0 : Fin 1))) (r : Fin 768) :
    out3_24 (F := Ideal) x0 x1 x2 x3 x4 x6 x11 x12 x13 x14 x19 x20 x21 x22 (ix2 r (0 : Fin 1)) =
      Spec.head (Spec.updK x1 (Spec.fromEdge (Spec.wgt x2 (fun n => x4 (ix2 n (0 : Fin 1))) (fun m => x3 (ix2 (0 : Fin 1) m))) x0)
        (fun r k => x6 (ix2 r k)) (fun k c => x11 (ix2 k c)) (fun k c => x12 (ix2 k c)) (fun k c => x13 (ix2 k c))
        (fun c => x14 (ix2 (0 : Fin 1) c))) x19 b1 x21 b2 r := by
  unfold out3_24
  rw [View.canon_unit_zero zeroOff2]
  simp only [View.ld_unit_zero (S := S768x256) zeroOff2, View.ld_unit_zero (S := S768x768) zeroOff2, View.ld_unit_zero (S := S1x768) zeroOff2, View.ld_unit_zero (S := S768x1) zeroOff2, View.ld_unit_zero (S := S256x256) zeroOff2, View.ld_unit_zero (S := S1x256) zeroOff2, View.ld_unit_zero (S := S256x64) zeroOff2, View.ld_unit_zero (S := S1x64) zeroOff2, View.ld_unit_zero (S := S64x1) zeroOff2, View.ld_unit_zero (S := S1x1) zeroOff2]
  rw [pay1_apply]
  simp only [pay9_apply, pay8_apply, pay7_apply, pay2_apply, pay3_apply, zeroWord_eq, h20, h22]
  unfold Spec.head Spec.hid Spec.updK Spec.fromEdge
  rfl

end Cert.KernelIdeal.RegValue

end
-- ==== Proof.KI.HostReads.lean ====
/-
  The kernel program's host operations read at an index: the unit-row casts of the head biases, the row cast of a
  prediction column, the row blocks of a 1792-row weight, and the bias with the image term folded in.
-/
import proofs.«153655_j17970143167165_2_alg».proof.Proof.Gen.KernelIdeal
import proofs.«153655_j17970143167165_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegValue

open Cert.KernelIdeal Cert.KernelIdeal.Gen Idealize.ShloMosaic Idealize.ShloMosaic.ValueIdx

/-- A 64-vector cast to a one-row matrix reads, at (0, h), the vector at h. -/
theorem row64_read (A : Vec Ideal S64 .f32) (h : Fin 64) :
    shapeCast S1x64 A shapeCasts_S64_S1x64 (ix2 (0 : Fin 1) h) = A (ix1 h) :=
  shapeCast_a_1a_apply A shapeCasts_S64_S1x64 0 h

/-- A 1-vector cast to a 1 by 1 matrix reads its one element. -/
theorem row1_read (A : Vec Ideal S1 .f32) :
    shapeCast S1x1 A shapeCasts_S1_S1x1 (ix2 (0 : Fin 1) (0 : Fin 1)) = A (ix1 (0 : Fin 1)) :=
  shapeCast_a_1a_apply A shapeCasts_S1_S1x1 0 0

/-- A 768 by 1 column cast to a 1 by 768 row reads, at (0, m), the column at (m, 0): both sit at row-major position m. -/
theorem rowOfCol_read (X : Vec Ideal S768x1 .f32) (m : Fin 768) :
    shapeCast S1x768 X shapeCasts_S768x1_S1x768 (ix2 (0 : Fin 1) m) = X (ix2 m (0 : Fin 1)) :=
  shapeCast_apply X shapeCasts_S768x1_S1x768 _ _ (by
    rw [Shape.rowMajor_val_two, Shape.rowMajor_val_two]
    show m.val * 1 + 0 = 0 * 768 + m.val
    omega)

/-- Rows 0 to 255 of a 1792-row weight. -/
theorem wblock_read (W : Vec Ideal S1792x256 .f32) (k c : Fin 256) :
    extractStridedSlice S256x256 ![0, 0] W slices_S1792x256_S256x256_0_0 (ix2 k c) = Cert.Spec.wrow W 0 (by omega) k c :=
  slice2_axis0_apply 0 W slices_S1792x256_S256x256_0_0 k c ⟨0 + k.val, by have := k.isLt; omega⟩ rfl

/-- Rows 256 to 511 of a 1792-row weight. -/
theorem wblock256_read (W : Vec Ideal S1792x256 .f32) (k c : Fin 256) :
    extractStridedSlice S256x256 ![256, 0] W slices_S1792x256_S256x256_256_0 (ix2 k c) = Cert.Spec.wrow W 256 (by omega) k c :=
  slice2_axis0_apply 256 W slices_S1792x256_S256x256_256_0 k c ⟨256 + k.val, by have := k.isLt; omega⟩ rfl

/-- Rows 512 to 767 of a 1792-row weight. -/
theorem wblock512_read (W : Vec Ideal S1792x256 .f32) (k c : Fin 256) :
    extractStridedSlice S256x256 ![512, 0] W slices_S1792x256_S256x256_512_0 (ix2 k c) = Cert.Spec.wrow W 512 (by omega) k c :=
  slice2_axis0_apply 512 W slices_S1792x256_S256x256_512_0 k c ⟨512 + k.val, by have := k.isLt; omega⟩ rfl

/-- Rows 768 to 1791 of a 1792-row weight, the rows the image columns meet. -/
theorem wblock768_read (W : Vec Ideal S1792x256 .f32) (k : Fin 1024) (c : Fin 256) :
    extractStridedSlice S1024x256 ![768, 0] W slices_S1792x256_S1024x256_768_0 (ix2 k c) = Cert.Spec.wrow W 768 (by omega) k c :=
  slice2_axis0_apply 768 W slices_S1792x256_S1024x256_768_0 k c ⟨768 + k.val, by have := k.isLt; omega⟩ rfl

/-- In the image row's product, the left operand's index on its kept axis is the output's row coordinate. -/
theorem lhsN_dot_S1x1024_S1024x256_S1x256_1_0_0_1_n_n (i : S1x256.Idx) (q : dot_S1x1024_S1024x256_S1x256_1_0_0_1_n_n.contr.Idx) : (dot_S1x1024_S1024x256_S1x256_1_0_0_1_n_n.lhsIdx i q 0).val = (i 0).val := by
  unfold DotDims.lhsIdx
  rw [dif_neg (show ¬(0 : Fin S1x1024.rank) ∈ dot_S1x1024_S1024x256_S1x256_1_0_0_1_n_n.lhsBatch by decide), dif_pos (show (0 : Fin S1x1024.rank) ∈ dot_S1x1024_S1024x256_S1x256_1_0_0_1_n_n.lhsNonContracting by decide)]
  rfl
/-- The left operand's index on its contracted axis is the contraction's coordinate. -/
theorem lhsC_dot_S1x1024_S1024x256_S1x256_1_0_0_1_n_n (i : S1x256.Idx) (q : dot_S1x1024_S1024x256_S1x256_1_0_0_1_n_n.contr.Idx) : (dot_S1x1024_S1024x256_S1x256_1_0_0_1_n_n.lhsIdx i q 1).val = (q ⟨0, by decide⟩).val :=
  dot_S1x1024_S1024x256_S1x256_1_0_0_1_n_n.lhsIdx_val_of_single rfl i q
/-- The right operand's index on its contracted axis is the contraction's coordinate. -/
theorem rhsC_dot_S1x1024_S1024x256_S1x256_1_0_0_1_n_n (i : S1x256.Idx) (q : dot_S1x1024_S1024x256_S1x256_1_0_0_1_n_n.contr.Idx) : (dot_S1x1024_S1024x256_S1x256_1_0_0_1_n_n.rhsIdx i q 0).val = (q ⟨0, by decide⟩).val :=
  dot_S1x1024_S1024x256_S1x256_1_0_0_1_n_n.rhsIdx_val_of_single rfl i q
/-- The right operand's index on its kept axis is the output's column coordinate. -/
theorem rhsN_dot_S1x1024_S1024x256_S1x256_1_0_0_1_n_n (i : S1x256.Idx) (q : dot_S1x1024_S1024x256_S1x256_1_0_0_1_n_n.contr.Idx) : (dot_S1x1024_S1024x256_S1x256_1_0_0_1_n_n.rhsIdx i q 1).val = (i 1).val := by
  unfold DotDims.rhsIdx
  rw [dif_neg (show ¬(1 : Fin S1024x256.rank) ∈ dot_S1x1024_S1024x256_S1x256_1_0_0_1_n_n.rhsBatch by decide), dif_pos (show (1 : Fin S1024x256.rank) ∈ dot_S1x1024_S1024x256_S1x256_1_0_0_1_n_n.rhsNonContracting by decide)]
  rfl

/-- The host's product of the image row with a 1024 by 256 matrix, at (0, c): the sum over the 1024 contracted coordinates. -/
theorem hostDot_dot_S1x1024_S1024x256_S1x256_1_0_0_1_n_n_apply (X : Vec Ideal S1x1024 .f32) (Y : Vec Ideal S1024x256 .f32) (c : Fin 256) :
    Host.dotGeneral (F := Ideal) (φ₁ := .f32) (φ₂ := .f32) dot_S1x1024_S1024x256_S1x256_1_0_0_1_n_n none X Y (ix2 (0 : Fin 1) c) = ∑ k : Fin 1024, X (ix2 (0 : Fin 1) k) * Y (ix2 k c) := by
  simp only [Host.dotGeneral]
  rw [Ideal.dotGeneral_apply, ← Equiv.sum_comp (contrEquiv1 dot_S1x1024_S1024x256_S1x256_1_0_0_1_n_n 1024 rfl rfl).symm]
  refine Finset.sum_congr rfl fun k _ => ?_
  have hk := contrEquiv1_symm_val dot_S1x1024_S1024x256_S1x256_1_0_0_1_n_n 1024 rfl rfl k
  have el : dot_S1x1024_S1024x256_S1x256_1_0_0_1_n_n.lhsIdx (ix2 (0 : Fin 1) c) ((contrEquiv1 dot_S1x1024_S1024x256_S1x256_1_0_0_1_n_n 1024 rfl rfl).symm k) = ix2 (0 : Fin 1) k := funext fun a => Fin.ext (by
    match a with
    | ⟨0, _⟩ => exact lhsN_dot_S1x1024_S1024x256_S1x256_1_0_0_1_n_n _ _
    | ⟨1, _⟩ => exact (lhsC_dot_S1x1024_S1024x256_S1x256_1_0_0_1_n_n _ _).trans hk)
  have er : dot_S1x1024_S1024x256_S1x256_1_0_0_1_n_n.rhsIdx (ix2 (0 : Fin 1) c) ((contrEquiv1 dot_S1x1024_S1024x256_S1x256_1_0_0_1_n_n 1024 rfl rfl).symm k) = ix2 k c := funext fun a => Fin.ext (by
    match a with
    | ⟨0, _⟩ => exact (rhsC_dot_S1x1024_S1024x256_S1x256_1_0_0_1_n_n _ _).trans hk
    | ⟨1, _⟩ => exact rhsN_dot_S1x1024_S1024x256_S1x256_1_0_0_1_n_n _ _)
  rw [el, er]

/-- The bias row plus the image row times the weight's last 1024 rows, at (0, c), is the bias with the image term folded in. -/
theorem beff_read (X : Vec Ideal S1x1024 .f32) (W : Vec Ideal S1792x256 .f32) (b : Vec Ideal S256 .f32) (c : Fin 256) :
    addf (shapeCast S1x256 b shapeCasts_S256_S1x256)
        (Host.dotGeneral (F := Ideal) (φ₁ := .f32) (φ₂ := .f32) dot_S1x1024_S1024x256_S1x256_1_0_0_1_n_n none X (extractStridedSlice S1024x256 ![768, 0] W slices_S1792x256_S1024x256_768_0))
        (ix2 (0 : Fin 1) c)
      = Cert.Spec.beff X W b c := by
  rw [addf_apply, shapeCast_a_1a_apply, hostDot_dot_S1x1024_S1024x256_S1x256_1_0_0_1_n_n_apply]
  refine congrArg (b (ix1 c) + ·) (Finset.sum_congr rfl fun k _ => ?_)
  rw [wblock768_read]

end Cert.KernelIdeal.RegValue
-- ==== Proof.KI.Value.lean ====
/-
  The kernel program's result is the specification's. Region 0 leaves the two first-round prediction columns; regions 1
  and 2 leave the two conflict poolings; the second host stretch lays the first edge prediction out as a row, cuts the
  weights into blocks and folds the image term into the biases; region 3 computes the update weights from the two
  first-round columns, gathers, updates the features and applies the heads again; the last host stretch joins the four
  columns end to end. Each column read at a row is the specification's prediction for that row.
-/
import proofs.«153655_j17970143167165_2_alg».proof.Proof.KI.Host
import proofs.«153655_j17970143167165_2_alg».proof.Proof.KI.Val0
import proofs.«153655_j17970143167165_2_alg».proof.Proof.KI.Val1
import proofs.«153655_j17970143167165_2_alg».proof.Proof.KI.Val3P
import proofs.«153655_j17970143167165_2_alg».proof.Proof.KI.Val0Heads
import proofs.«153655_j17970143167165_2_alg».proof.Proof.KI.Val3
import proofs.«153655_j17970143167165_2_alg».proof.Proof.KI.HostReads
import proofs.«153655_j17970143167165_2_alg».proof.Proof.Spec

set_option maxRecDepth 16384

noncomputable section

namespace Cert.KernelIdeal.Reg

open Idealize.ShloMosaic Idealize.ShloMosaic.TcCoe Idealize.ShloMosaic.ValueIdx
open Idealize.SL Idealize.SL.Sem
open Cert.KernelIdeal Cert.KernelIdeal.Gen Cert.KernelIdeal.RegValue

variable (m : (ℓ : Loc nD τ sig) → Buf (Elt Ideal) ℓ) (c : Dev nD)

/-- An index of a one-column matrix is its row and the zero column. -/
theorem col_idx (i : S768x1.Idx) : i = ix2 (i 0) (0 : Fin 1) := by
  funext a
  match a with
  | ⟨0, _⟩ => rfl
  | ⟨1, _⟩ => exact Fin.ext (by have h : (i 1).val < 1 := (i 1).isLt; show (i 1).val = 0; omega)

/-- Region 0's first result: the first-round edge predictions. -/
theorem col_e0 : B2 m c (Proc.devRef .tc main_v4_0) = fun i : S768x1.Idx =>
    Cert.Spec.e0 (m ((c : Thread nD τ).loc main_arg0)) (m ((c : Thread nD τ).loc main_arg13)) (m ((c : Thread nD τ).loc main_arg14))
      (m ((c : Thread nD τ).loc main_arg15)) (m ((c : Thread nD τ).loc main_arg16)) (i 0) := by
  have h : B2 m c (Proc.devRef .tc main_v4_0) = out0_10 (B1 m c (Proc.devRef .tc main_arg0)) (B1 m c (Proc.devRef .tc main_arg13))
      (B1 m c (Proc.devRef .tc main_v0)) (B1 m c (Proc.devRef .tc main_arg15)) (B1 m c (Proc.devRef .tc main_v1)) :=
    (B2_arr m c 10).trans (final0_10 (E1 m) c)
  rw [h, B1_arg0, B1_arg13, B1_v0, B1_arg15, B1_v1]
  funext i
  rw [col_idx i]
  exact ker_e0 _ _ _ _ _ (m ((c : Thread nD τ).loc main_arg14)) (m ((c : Thread nD τ).loc main_arg16))
    (row64_read _) (row1_read _) (i 0)

/-- Region 0's second result: the first-round loop predictions. -/
theorem col_l0 : B2 m c (Proc.devRef .tc main_v4_1) = fun i : S768x1.Idx =>
    Cert.Spec.l0 (m ((c : Thread nD τ).loc main_arg1)) (m ((c : Thread nD τ).loc main_arg17)) (m ((c : Thread nD τ).loc main_arg18))
      (m ((c : Thread nD τ).loc main_arg19)) (m ((c : Thread nD τ).loc main_arg20)) (i 0) := by
  have h : B2 m c (Proc.devRef .tc main_v4_1) = out0_11 (B1 m c (Proc.devRef .tc main_arg1)) (B1 m c (Proc.devRef .tc main_arg17))
      (B1 m c (Proc.devRef .tc main_v2)) (B1 m c (Proc.devRef .tc main_arg19)) (B1 m c (Proc.devRef .tc main_v3)) :=
    (B2_arr m c 11).trans (final0_11 (E1 m) c)
  rw [h, B1_arg1, B1_arg17, B1_v2, B1_arg19, B1_v3]
  funext i
  rw [col_idx i]
  exact ker_l0 _ _ _ _ _ (m ((c : Thread nD τ).loc main_arg18)) (m ((c : Thread nD τ).loc main_arg20))
    (row64_read _) (row1_read _) (i 0)

set_option maxHeartbeats 4000000 in
/-- Region 1's result: the conflict pooling of the edge features. -/
theorem pooled_e : B3 m c (Proc.devRef .tc main_v5) = fun i : S768x256.Idx =>
    Cert.Spec.pool (m ((c : Thread nD τ).loc main_arg4)) (m ((c : Thread nD τ).loc main_arg0)) (i 0) (i 1) := by
  refine ((B3_arr m c 2).trans (final1_2 (E2 m) c)).trans ?_
  show (fun i : S768x256.Idx => Cert.Spec.pool (B2 m c (Proc.devRef .tc main_arg4)) (B2 m c (Proc.devRef .tc main_arg0)) (i 0) (i 1)) = _
  rw [B2_arg4, B2_arg0]

set_option maxHeartbeats 4000000 in
/-- Region 2's result: the conflict pooling of the loop features. -/
theorem pooled_l : B4 m c (Proc.devRef .tc main_v6) = fun i : S768x256.Idx =>
    Cert.Spec.pool (m ((c : Thread nD τ).loc main_arg5)) (m ((c : Thread nD τ).loc main_arg1)) (i 0) (i 1) := by
  refine ((B4_arr m c 2).trans (final2_2 (E3 m) c)).trans ?_
  show (fun i : S768x256.Idx => Cert.Spec.pool (B3 m c (Proc.devRef .tc main_arg5)) (B3 m c (Proc.devRef .tc main_arg1)) (i 0) (i 1)) = _
  rw [B3_arg5, B3_arg1]

set_option maxHeartbeats 4000000 in
/-- Region 3's first result: the second-round edge predictions. -/
theorem col_e1 : B6 m c (Proc.devRef .tc main_v26_0) = fun i : S768x1.Idx =>
    Cert.Spec.e1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg9))
      (m ((c : Thread nD τ).loc main_arg10)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20)) (i 0) := by
  have h : B6 m c (Proc.devRef .tc main_v26_0) = out3_23 (B5 m c (Proc.devRef .tc main_arg0)) (B5 m c (Proc.devRef .tc main_arg1))
      (B5 m c (Proc.devRef .tc main_arg3)) (B5 m c (Proc.devRef .tc main_v7)) (B5 m c (Proc.devRef .tc main_v4_1))
      (B5 m c (Proc.devRef .tc main_v5)) (B5 m c (Proc.devRef .tc main_v16)) (B5 m c (Proc.devRef .tc main_v17))
      (B5 m c (Proc.devRef .tc main_v18)) (B5 m c (Proc.devRef .tc main_v12)) (B5 m c (Proc.devRef .tc main_arg13))
      (B5 m c (Proc.devRef .tc main_v22)) (B5 m c (Proc.devRef .tc main_arg15)) (B5 m c (Proc.devRef .tc main_v23)) :=
    (B6_arr m c 23).trans (final3_23 (E5 m) c)
  rw [h, B5_arg0, B5_arg1, B5_arg3, B5_v7, B5_v4_1, B5_v5, B5_v16, B5_v17, B5_v18, B5_v12, B5_arg13, B5_v22, B5_arg15, B5_v23,
    col_e0, col_l0, pooled_e]
  funext i
  rw [col_idx i]
  refine (ker_e1 _ _ _ _ _ _ _ _ _ _ _ _ _ _ (m ((c : Thread nD τ).loc main_arg14)) (m ((c : Thread nD τ).loc main_arg16))
    (row64_read _) (row1_read _) (i 0)).trans ?_
  simp only [beff_read]
  rw [funext (rowOfCol_read (fun i : S768x1.Idx => Cert.Spec.e0 (m ((c : Thread nD τ).loc main_arg0)) (m ((c : Thread nD τ).loc main_arg13)) (m ((c : Thread nD τ).loc main_arg14)) (m ((c : Thread nD τ).loc main_arg15)) (m ((c : Thread nD τ).loc main_arg16)) (i 0))),
    funext fun k => funext fun c' => wblock_read (m ((c : Thread nD τ).loc main_arg9)) k c',
    funext fun k => funext fun c' => wblock256_read (m ((c : Thread nD τ).loc main_arg9)) k c',
    funext fun k => funext fun c' => wblock512_read (m ((c : Thread nD τ).loc main_arg9)) k c']
  rfl

set_option maxHeartbeats 4000000 in
/-- Region 3's second result: the second-round loop predictions. -/
theorem col_l1 : B6 m c (Proc.devRef .tc main_v26_1) = fun i : S768x1.Idx =>
    Cert.Spec.l1 (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20)) (i 0) := by
  have h : B6 m c (Proc.devRef .tc main_v26_1) = out3_24 (B5 m c (Proc.devRef .tc main_arg0)) (B5 m c (Proc.devRef .tc main_arg1))
      (B5 m c (Proc.devRef .tc main_arg3)) (B5 m c (Proc.devRef .tc main_v7)) (B5 m c (Proc.devRef .tc main_v4_1))
      (B5 m c (Proc.devRef .tc main_v6)) (B5 m c (Proc.devRef .tc main_v19)) (B5 m c (Proc.devRef .tc main_v20))
      (B5 m c (Proc.devRef .tc main_v21)) (B5 m c (Proc.devRef .tc main_v15)) (B5 m c (Proc.devRef .tc main_arg17))
      (B5 m c (Proc.devRef .tc main_v24)) (B5 m c (Proc.devRef .tc main_arg19)) (B5 m c (Proc.devRef .tc main_v25)) :=
    (B6_arr m c 24).trans (final3_24 (E5 m) c)
  rw [h, B5_arg0, B5_arg1, B5_arg3, B5_v7, B5_v4_1, B5_v6, B5_v19, B5_v20, B5_v21, B5_v15, B5_arg17, B5_v24, B5_arg19, B5_v25,
    col_e0, col_l0, pooled_l]
  funext i
  rw [col_idx i]
  refine (ker_l1 _ _ _ _ _ _ _ _ _ _ _ _ _ _ (m ((c : Thread nD τ).loc main_arg18)) (m ((c : Thread nD τ).loc main_arg20))
    (row64_read _) (row1_read _) (i 0)).trans ?_
  simp only [beff_read]
  rw [funext (rowOfCol_read (fun i : S768x1.Idx => Cert.Spec.e0 (m ((c : Thread nD τ).loc main_arg0)) (m ((c : Thread nD τ).loc main_arg13)) (m ((c : Thread nD τ).loc main_arg14)) (m ((c : Thread nD τ).loc main_arg15)) (m ((c : Thread nD τ).loc main_arg16)) (i 0))),
    funext fun k => funext fun c' => wblock_read (m ((c : Thread nD τ).loc main_arg11)) k c',
    funext fun k => funext fun c' => wblock256_read (m ((c : Thread nD τ).loc main_arg11)) k c',
    funext fun k => funext fun c' => wblock512_read (m ((c : Thread nD τ).loc main_arg11)) k c']
  rfl

/-- THE RESULT: the program's result array is the four specification columns end to end. -/
theorem result : B7 m c (Proc.devRef .tc main_v31) =
    concatenate S3072 0 [⟨S768, shapeCast S768 (fun i : S768x1.Idx => Cert.Spec.e0 (m ((c : Thread nD τ).loc main_arg0)) (m ((c : Thread nD τ).loc main_arg13)) (m ((c : Thread nD τ).loc main_arg14)) (m ((c : Thread nD τ).loc main_arg15)) (m ((c : Thread nD τ).loc main_arg16)) (i 0)) shapeCasts_S768x1_S768⟩,
      ⟨S768, shapeCast S768 (fun i : S768x1.Idx => Cert.Spec.l0 (m ((c : Thread nD τ).loc main_arg1)) (m ((c : Thread nD τ).loc main_arg17)) (m ((c : Thread nD τ).loc main_arg18)) (m ((c : Thread nD τ).loc main_arg19)) (m ((c : Thread nD τ).loc main_arg20)) (i 0)) shapeCasts_S768x1_S768⟩,
      ⟨S768, shapeCast S768 (fun i : S768x1.Idx => Cert.Spec.e1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (i 0)) shapeCasts_S768x1_S768⟩,
      ⟨S768, shapeCast S768 (fun i : S768x1.Idx => Cert.Spec.l1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (i 0)) shapeCasts_S768x1_S768⟩]
      concatenates_S768_S768_S768_S768_S3072_d0 := by
  rw [B7_v31, col_e0, col_l0, col_e1, col_l1]

end Cert.KernelIdeal.Reg

end
-- ==== Proof.KI.Final.lean ====
/-
  The kernel program's run with its result named: every weakly fair execution terminates with the result array at the
  four specification columns end to end and every argument array as launched.
-/
import proofs.«153655_j17970143167165_2_alg».proof.Proof.KI.Value

set_option maxRecDepth 16384

noncomputable section

namespace Cert.KernelIdeal.Reg

open Idealize.ShloMosaic Idealize.ShloMosaic.TcCoe Idealize.ShloMosaic.ValueIdx
open Idealize.SL Idealize.SL.Sem
open Cert.KernelIdeal Cert.KernelIdeal.Gen

/-- The result array as a function of the launch memory: the four specification columns end to end. -/
def resultOf (m : (ℓ : Loc nD τ sig) → Buf (Elt Ideal) ℓ) (c : Dev nD) : Buf (Elt Ideal) ((c.tc : Thread nD τ).loc main_v31) :=
  concatenate S3072 0 [⟨S768, shapeCast S768 (fun i : S768x1.Idx => Cert.Spec.e0 (m ((c : Thread nD τ).loc main_arg0)) (m ((c : Thread nD τ).loc main_arg13)) (m ((c : Thread nD τ).loc main_arg14)) (m ((c : Thread nD τ).loc main_arg15)) (m ((c : Thread nD τ).loc main_arg16)) (i 0)) shapeCasts_S768x1_S768⟩,
      ⟨S768, shapeCast S768 (fun i : S768x1.Idx => Cert.Spec.l0 (m ((c : Thread nD τ).loc main_arg1)) (m ((c : Thread nD τ).loc main_arg17)) (m ((c : Thread nD τ).loc main_arg18)) (m ((c : Thread nD τ).loc main_arg19)) (m ((c : Thread nD τ).loc main_arg20)) (i 0)) shapeCasts_S768x1_S768⟩,
      ⟨S768, shapeCast S768 (fun i : S768x1.Idx => Cert.Spec.e1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (i 0)) shapeCasts_S768x1_S768⟩,
      ⟨S768, shapeCast S768 (fun i : S768x1.Idx => Cert.Spec.l1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (i 0)) shapeCasts_S768x1_S768⟩]
      concatenates_S768_S768_S768_S768_S3072_d0

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v31) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_ucr main_v31 (by decide))).trans (result m c),
      (h c _ (mem_ucr main_arg0 (by decide))).trans (B7_main_arg0 m c),
      (h c _ (mem_ucr main_arg1 (by decide))).trans (B7_main_arg1 m c),
      (h c _ (mem_ucr main_arg2 (by decide))).trans (B7_main_arg2 m c),
      (h c _ (mem_ucr main_arg3 (by decide))).trans (B7_main_arg3 m c),
      (h c _ (mem_ucr main_arg4 (by decide))).trans (B7_main_arg4 m c),
      (h c _ (mem_ucr main_arg5 (by decide))).trans (B7_main_arg5 m c),
      (h c _ (mem_ucr main_arg6 (by decide))).trans (B7_main_arg6 m c),
      (h c _ (mem_ucr main_arg7 (by decide))).trans (B7_main_arg7 m c),
      (h c _ (mem_ucr main_arg8 (by decide))).trans (B7_main_arg8 m c),
      (h c _ (mem_ucr main_arg9 (by decide))).trans (B7_main_arg9 m c),
      (h c _ (mem_ucr main_arg10 (by decide))).trans (B7_main_arg10 m c),
      (h c _ (mem_ucr main_arg11 (by decide))).trans (B7_main_arg11 m c),
      (h c _ (mem_ucr main_arg12 (by decide))).trans (B7_main_arg12 m c),
      (h c _ (mem_ucr main_arg13 (by decide))).trans (B7_main_arg13 m c),
      (h c _ (mem_ucr main_arg14 (by decide))).trans (B7_main_arg14 m c),
      (h c _ (mem_ucr main_arg15 (by decide))).trans (B7_main_arg15 m c),
      (h c _ (mem_ucr main_arg16 (by decide))).trans (B7_main_arg16 m c),
      (h c _ (mem_ucr main_arg17 (by decide))).trans (B7_main_arg17 m c),
      (h c _ (mem_ucr main_arg18 (by decide))).trans (B7_main_arg18 m c),
      (h c _ (mem_ucr main_arg19 (by decide))).trans (B7_main_arg19 m c),
      (h c _ (mem_ucr main_arg20 (by decide))).trans (B7_main_arg20 m c)⟩)
    (run_all m ρ)

end Cert.KernelIdeal.Reg

end
-- ==== Proof.RefSpecA.lean ====
/-
  The reference's first-round prediction heads, update weights and weighted gathers, read at an index, are the specification's.
-/
import proofs.«153655_j17970143167165_2_alg».proof.Proof.RefRead
import proofs.«153655_j17970143167165_2_alg».proof.Proof.Spec
import Idealize.ShloMosaic.Lib.IdealHost

noncomputable section

namespace Cert.RefSpec

open Cert.ReferenceIdeal Cert.ReferenceIdeal.Read Idealize.ShloMosaic Idealize.ShloMosaic.ValueIdx

/-- The head's prediction with the logistic function spelt out as 1 / (1 + exp (-y)), the one being the f32 word of one. -/
theorem head_words (x : Fin 768 → Fin 256 → EReal) (W1 : Spec.M 256 64) (b1 : Spec.V 64) (W2 : Spec.M 64 1) (b2 : Spec.V 1) (r : Fin 768) :
    Spec.head x W1 b1 W2 b2 r
      = Ideal.div (Ideal.ofBits .f32 0x3F800000#32) (Ideal.ofBits .f32 0x3F800000#32 + Ideal.exp (-((∑ h : Fin 64,
          max ((∑ k : Fin 256, x r k * W1 (ix2 k h)) + b1 (ix1 h)) (Ideal.ofBits .f32 0x00000000#32) * W2 (ix2 h (0 : Fin 1))) + b2 (ix1 (0 : Fin 1))))) := by
  rw [Ideal.ofBits_one_f32]; rfl

/-- The reference's first-round edge prediction (operations %0 to %14) is the specification's. -/
theorem ref_e0_at (x0 : (⟨S768x256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (r : Fin 768) (c : Fin 1) :
    val_main_v14 (F := Ideal) x0 x13 x14 x15 x16 (ix2 r c) = Spec.e0 x0 x13 x14 x15 x16 r := by
  obtain rfl : c = 0 := Subsingleton.elim _ _
  have hL : ∀ (h : Fin 64) (k : Fin 256), lidx_main_v0 (lidx_main_v5 (ix2 r (0 : Fin 1)) h) k = ix2 r k :=
    fun h k => funext fun a => by match a with | ⟨0, _⟩ => rfl | ⟨1, _⟩ => rfl
  have hR : ∀ (h : Fin 64) (k : Fin 256), ridx_main_v0 (lidx_main_v5 (ix2 r (0 : Fin 1)) h) k = ix2 k h :=
    fun h k => funext fun a => by match a with | ⟨0, _⟩ => rfl | ⟨1, _⟩ => rfl
  have hB : ∀ (h : Fin 64), idx_main_v1 (idx_main_v2 (lidx_main_v5 (ix2 r (0 : Fin 1)) h)) = ix1 h :=
    fun h => funext fun a => by match a with | ⟨0, _⟩ => rfl
  have hR2 : ∀ (h : Fin 64), ridx_main_v5 (ix2 r (0 : Fin 1)) h = ix2 h (0 : Fin 1) :=
    fun h => funext fun a => by match a with | ⟨0, _⟩ => rfl | ⟨1, _⟩ => rfl
  have hB2 : idx_main_v6 (idx_main_v7 (ix2 r (0 : Fin 1))) = ix1 (0 : Fin 1) :=
    funext fun a => by match a with | ⟨0, _⟩ => rfl
  unfold Spec.e0
  rw [head_words, val_main_v14_apply, val_main_v13_apply, val_main_cst_0_apply, val_main_v12_apply, val_main_v11_apply, val_main_cst_apply,
    val_main_v10_apply, val_main_v9_apply, val_main_v8_apply, val_main_v7_apply, val_main_v6_apply, val_main_v5_apply]
  simp only [val_main_v4_apply, val_main_v3_apply, val_main_call0_v0_apply, val_main_call0_cst_apply, val_main_v2_apply, val_main_v1_apply,
    val_main_v0_apply, hL, hR, hB, hR2, hB2, Ideal.ofBits_def, Ideal.addf_def, Ideal.maximumf_def, Ideal.hostDivf_def, Ideal.hostNegf_def,
    Ideal.negf_def, Ideal.hostUnary_exp_def]

theorem ref_e0 (x0 : (⟨S768x256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (i : S768x1.Idx) :
    val_main_v14 (F := Ideal) x0 x13 x14 x15 x16 i = Spec.e0 x0 x13 x14 x15 x16 (i 0) :=
  (congrArg (val_main_v14 (F := Ideal) x0 x13 x14 x15 x16) (eq_ix2 i)).trans (ref_e0_at x0 x13 x14 x15 x16 (i 0) (i 1))

/-- The reference's first-round loop prediction (operations %16 to %30) is the specification's. -/
theorem ref_l0_at (x1 : (⟨S768x256, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (r : Fin 768) (c : Fin 1) :
    val_main_v30 (F := Ideal) x1 x17 x18 x19 x20 (ix2 r c) = Spec.l0 x1 x17 x18 x19 x20 r := by
  obtain rfl : c = 0 := Subsingleton.elim _ _
  have hL : ∀ (h : Fin 64) (k : Fin 256), lidx_main_v16 (lidx_main_v21 (ix2 r (0 : Fin 1)) h) k = ix2 r k :=
    fun h k => funext fun a => by match a with | ⟨0, _⟩ => rfl | ⟨1, _⟩ => rfl
  have hR : ∀ (h : Fin 64) (k : Fin 256), ridx_main_v16 (lidx_main_v21 (ix2 r (0 : Fin 1)) h) k = ix2 k h :=
    fun h k => funext fun a => by match a with | ⟨0, _⟩ => rfl | ⟨1, _⟩ => rfl
  have hB : ∀ (h : Fin 64), idx_main_v17 (idx_main_v18 (lidx_main_v21 (ix2 r (0 : Fin 1)) h)) = ix1 h :=
    fun h => funext fun a => by match a with | ⟨0, _⟩ => rfl
  have hR2 : ∀ (h : Fin 64), ridx_main_v21 (ix2 r (0 : Fin 1)) h = ix2 h (0 : Fin 1) :=
    fun h => funext fun a => by match a with | ⟨0, _⟩ => rfl | ⟨1, _⟩ => rfl
  have hB2 : idx_main_v22 (idx_main_v23 (ix2 r (0 : Fin 1))) = ix1 (0 : Fin 1) :=
    funext fun a => by match a with | ⟨0, _⟩ => rfl
  unfold Spec.l0
  rw [head_words, val_main_v30_apply, val_main_v29_apply, val_main_cst_2_apply, val_main_v28_apply, val_main_v27_apply, val_main_cst_1_apply,
    val_main_v26_apply, val_main_v25_apply, val_main_v24_apply, val_main_v23_apply, val_main_v22_apply, val_main_v21_apply]
  simp only [val_main_v20_apply, val_main_v19_apply, val_main_call1_v0_apply, val_main_call1_cst_apply, val_main_v18_apply, val_main_v17_apply,
    val_main_v16_apply, hL, hR, hB, hR2, hB2, Ideal.ofBits_def, Ideal.addf_def, Ideal.maximumf_def, Ideal.hostDivf_def, Ideal.hostNegf_def,
    Ideal.negf_def, Ideal.hostUnary_exp_def]

theorem ref_l0 (x1 : (⟨S768x256, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (i : S768x1.Idx) :
    val_main_v30 (F := Ideal) x1 x17 x18 x19 x20 i = Spec.l0 x1 x17 x18 x19 x20 (i 0) :=
  (congrArg (val_main_v30 (F := Ideal) x1 x17 x18 x19 x20) (eq_ix2 i)).trans (ref_l0_at x1 x17 x18 x19 x20 (i 0) (i 1))

/-- The reference's update weights (operations %31 to %38): mask times the absolute difference of the two first-round predictions. -/
theorem ref_w (x0 : (⟨S768x256, .f32⟩ : BufTy).Contents (Elt Ideal)) (x1 : (⟨S768x256, .f32⟩ : BufTy).Contents (Elt Ideal)) (x3 : (⟨S768x768, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (n m : Fin 768) :
    val_main_v38 (F := Ideal) x0 x1 x3 x13 x14 x15 x16 x17 x18 x19 x20 (ix2 n m) = Spec.w x0 x1 x3 x13 x14 x15 x16 x17 x18 x19 x20 n m := by
  have h34 : idx_main_v31 (idx_main_v32 (idx_main_v34 (ix2 n m))) = ix2 n (0 : Fin 1) :=
    funext fun a => by
      match a with
      | ⟨0, _⟩ => exact Fin.ext (by show n.val / 1 = n.val; exact Nat.div_one _)
      | ⟨1, _⟩ => rfl
  have h35 : idx_main_v15 (idx_main_v33 (idx_main_v35 (ix2 n m))) = ix2 m (0 : Fin 1) :=
    funext fun a => by
      match a with
      | ⟨0, _⟩ => exact Fin.ext (by show m.val / 1 = m.val; exact Nat.div_one _)
      | ⟨1, _⟩ => rfl
  rw [val_main_v38_apply, val_main_v37_apply, val_main_v36_apply, val_main_v34_apply, val_main_v32_apply, val_main_v31_apply,
    val_main_v35_apply, val_main_v33_apply, val_main_v15_apply, h34, h35, ref_l0_at, ref_e0_at]
  rfl

/-- What an edge gathers from the loops (operations %39 to %45). -/
theorem ref_fromLoop (x0 : (⟨S768x256, .f32⟩ : BufTy).Contents (Elt Ideal)) (x1 : (⟨S768x256, .f32⟩ : BufTy).Contents (Elt Ideal)) (x3 : (⟨S768x768, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (e : Fin 768) (c : Fin 256) :
    val_main_v45 (F := Ideal) x0 x1 x3 x13 x14 x15 x16 x17 x18 x19 x20 (ix2 e c) = Spec.fromLoop (Spec.w x0 x1 x3 x13 x14 x15 x16 x17 x18 x19 x20) x1 e c := by
  have hl : ∀ k : Fin 768, lidx_main_v39 (ix2 e c) k = ix2 k e :=
    fun k => funext fun a => by match a with | ⟨0, _⟩ => rfl | ⟨1, _⟩ => rfl
  have hr : ∀ k : Fin 768, ridx_main_v39 (ix2 e c) k = ix2 k c :=
    fun k => funext fun a => by match a with | ⟨0, _⟩ => rfl | ⟨1, _⟩ => rfl
  have hs : ∀ k : Fin 768, idx_main_v40 (idx_main_v43 (idx_main_v44 (ix2 e c))) k = ix2 k e :=
    fun k => funext fun a => by match a with | ⟨0, _⟩ => rfl | ⟨1, _⟩ => rfl
  rw [val_main_v45_apply, val_main_v39_apply, val_main_v44_apply, val_main_v43_apply, val_main_v42_apply, val_main_v40_apply,
    val_main_cst_3_apply, val_main_v41_apply, val_main_cst_4_apply]
  simp only [hl, hr, hs, ref_w, Ideal.ofBits_def, Ideal.ofBits_zero_f32, zero_add, Ideal.hostDivf_def, Ideal.maximumf_def]
  rfl

/-- What a loop gathers from the edges (operations %46 to %52). -/
theorem ref_fromEdge (x0 : (⟨S768x256, .f32⟩ : BufTy).Contents (Elt Ideal)) (x1 : (⟨S768x256, .f32⟩ : BufTy).Contents (Elt Ideal)) (x3 : (⟨S768x768, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (l : Fin 768) (c : Fin 256) :
    val_main_v52 (F := Ideal) x0 x1 x3 x13 x14 x15 x16 x17 x18 x19 x20 (ix2 l c) = Spec.fromEdge (Spec.w x0 x1 x3 x13 x14 x15 x16 x17 x18 x19 x20) x0 l c := by
  have hl : ∀ k : Fin 768, lidx_main_v46 (ix2 l c) k = ix2 l k :=
    fun k => funext fun a => by match a with | ⟨0, _⟩ => rfl | ⟨1, _⟩ => rfl
  have hr : ∀ k : Fin 768, ridx_main_v46 (ix2 l c) k = ix2 k c :=
    fun k => funext fun a => by match a with | ⟨0, _⟩ => rfl | ⟨1, _⟩ => rfl
  have hs : ∀ k : Fin 768, idx_main_v47 (idx_main_v50 (idx_main_v51 (ix2 l c))) k = ix2 l k :=
    fun k => funext fun a => by match a with | ⟨0, _⟩ => rfl | ⟨1, _⟩ => rfl
  rw [val_main_v52_apply, val_main_v46_apply, val_main_v51_apply, val_main_v50_apply, val_main_v49_apply, val_main_v47_apply,
    val_main_cst_5_apply, val_main_v48_apply, val_main_cst_6_apply]
  simp only [hl, hr, hs, ref_w, Ideal.ofBits_def, Ideal.ofBits_zero_f32, zero_add, Ideal.hostDivf_def, Ideal.maximumf_def]
  rfl

end Cert.RefSpec
-- ==== Proof.RefPieces.lean ====
/-
  The two kinds of stage of the reference that are not read at an index elsewhere, read here at the extended reals:
  the maximum over j of mask[i,j] * x[j,c] (a reduce with a maximum body from -infinity over the middle axis of the
  product mask[i,j] * x[j,c]), and the product of the row (x | gathered | pooled | image) of 1792 entries with the
  1792-row weight matrix, as the four partial sums over the row's four blocks.
-/
import proofs.«153655_j17970143167165_2_alg».proof.Proof.RefRead
import proofs.«153655_j17970143167165_2_alg».proof.Proof.Spec

noncomputable section

namespace Cert.RefPieces

open Cert.ReferenceIdeal Cert.ReferenceIdeal.Gen Cert.ReferenceIdeal.Read Idealize.ShloMosaic Idealize.ShloMosaic.ValueIdx

/-! ## General facts -/

/-- A fold of the maximum from the bottom element is the supremum. -/
theorem fold_max_bot_eq_sup {ι : Type} (s : Finset ι) (f : ι → EReal) : s.fold max ⊥ f = s.sup f := rfl

/-- The f32 word of minus infinity is the bottom of the extended reals. -/
theorem ofBits_neg_inf : Ideal.ofBits .f32 0xFF800000#32 = (⊥ : EReal) := by
  simp [Ideal.ofBits, Ideal.ieee]

/-- A sum over n = a + b indices is the sum over the first a plus the sum over the last b. -/
theorem sum_fin_split {M : Type} [AddCommMonoid M] {n : Nat} (a b : Nat) (h : n = a + b) (f : Fin n → M) :
    ∑ i, f i = (∑ i : Fin a, f ⟨i.val, by omega⟩) + ∑ j : Fin b, f ⟨a + j.val, by omega⟩ := by
  subst h
  rw [Fin.sum_univ_add]
  rfl

/-- A sum over 1792 = 256 + 256 + 256 + 1024 indices, block by block. -/
theorem sum_fin_1792 {M : Type} [AddCommMonoid M] (f : Fin 1792 → M) :
    ∑ k, f k = (((∑ k : Fin 256, f ⟨k.val, by omega⟩) + ∑ k : Fin 256, f ⟨256 + k.val, by omega⟩)
        + ∑ k : Fin 256, f ⟨512 + k.val, by omega⟩) + ∑ k : Fin 1024, f ⟨768 + k.val, by omega⟩ := by
  have h1 := sum_fin_split 768 1024 rfl f
  have h2 := sum_fin_split 512 256 rfl (fun i : Fin 768 => f ⟨i.val, by omega⟩)
  have h3 := sum_fin_split 256 256 rfl (fun i : Fin 512 => f ⟨i.val, by omega⟩)
  dsimp only at h2 h3
  rw [h1, h2, h3]

/-! ## The maximum over the middle axis -/

/-- The reduced index (r, c) with j put back on the middle axis is (r, j, c). -/
theorem lift_ix3 (h : S768x768x256.Reduces [1] S768x256) (r : Fin 768) (c : Fin 256) (k : Fin (S768x768x256.size 1)) :
    h.lift (ix2 r c) k = ix3 r (⟨k.val, k.isLt⟩ : Fin 768) c := by
  funext d; apply Fin.ext
  fin_cases d <;> rfl

/-- From minus infinity, the reduce with a maximum body over the middle axis of a [768,768,256] array whose entry
    (r, j, c) is m[r,j] * x[j,c] is, at (r, c), the supremum over j of those products. -/
theorem pool_read (v : FVec Ideal S768x768x256 .f32) (m : Spec.M 768 768) (x : Spec.M 768 256)
    (hv : ∀ (r j : Fin 768) (c : Fin 256), v (ix3 r j c) = m (ix2 r j) * x (ix2 j c)) (r : Fin 768) (c : Fin 256) :
    Host.reduce (FloatOps.maximumf (F := Ideal) (φ := .f32)) v (constant (F := Ideal) S_ .f32 0xFF800000#32)
        reducesTo_S768x768x256_S768x256_d1 h_S_ (ix2 r c)
      = Spec.pool m x r c := by
  have h : S768x768x256.Reduces [1] S768x256 := by decide
  rw [Host.reduce_eq_fold_single (FloatOps.maximumf (F := Ideal) (φ := .f32)) v _ reducesTo_S768x768x256_S768x256_d1 h h_S_]
  have hf : (v ∘ h.lift (ix2 r c)) = fun j : Fin 768 => m (ix2 r j) * x (ix2 j c) := funext fun k => by
    show v (h.lift (ix2 r c) k) = _
    rw [lift_ix3 h r c k, hv]
    rfl
  have hb : constant (F := Ideal) S_ .f32 0xFF800000#32 (Shape.Idx.first h_S_) = (⊥ : EReal) :=
    ofBits_neg_inf
  rw [hf, hb]
  exact fold_max_bot_eq_sup _ _

/-- The product stage %57 at (r, j, c). -/
theorem v57_at (x0 : (⟨S768x256, .f32⟩ : BufTy).Contents (Elt Ideal)) (x4 : (⟨S768x768, .f32⟩ : BufTy).Contents (Elt Ideal))
    (r j : Fin 768) (c : Fin 256) : val_main_v57 (F := Ideal) x0 x4 (ix3 r j c) = x4 (ix2 r j) * x0 (ix2 j c) := by
  rw [val_main_v57_apply, val_main_v55_apply, val_main_v53_apply, val_main_v56_apply, val_main_v54_apply, Ideal.mulf_def]
  have e1 : idx_main_v53 (idx_main_v55 (ix3 r j c)) = ix2 r j := by
    funext a; match a with | ⟨0, _⟩ => rfl | ⟨1, _⟩ => rfl
  have e2 : idx_main_v54 (idx_main_v56 (ix3 r j c)) = ix2 j c := by
    funext a; match a with | ⟨0, _⟩ => rfl | ⟨1, _⟩ => rfl
  rw [e1, e2]

/-- The product stage %63 at (r, j, c). -/
theorem v63_at (x1 : (⟨S768x256, .f32⟩ : BufTy).Contents (Elt Ideal)) (x5 : (⟨S768x768, .f32⟩ : BufTy).Contents (Elt Ideal))
    (r j : Fin 768) (c : Fin 256) : val_main_v63 (F := Ideal) x1 x5 (ix3 r j c) = x5 (ix2 r j) * x1 (ix2 j c) := by
  rw [val_main_v63_apply, val_main_v61_apply, val_main_v59_apply, val_main_v62_apply, val_main_v60_apply, Ideal.mulf_def]
  have e1 : idx_main_v59 (idx_main_v61 (ix3 r j c)) = ix2 r j := by
    funext a; match a with | ⟨0, _⟩ => rfl | ⟨1, _⟩ => rfl
  have e2 : idx_main_v60 (idx_main_v62 (ix3 r j c)) = ix2 j c := by
    funext a; match a with | ⟨0, _⟩ => rfl | ⟨1, _⟩ => rfl
  rw [e1, e2]

/-- The edge pooling stage %58 at (r, c) is the specification's pooling of the mask %arg4 and the features %arg0. -/
theorem pool_e (x0 : (⟨S768x256, .f32⟩ : BufTy).Contents (Elt Ideal)) (x4 : (⟨S768x768, .f32⟩ : BufTy).Contents (Elt Ideal))
    (r : Fin 768) (c : Fin 256) : val_main_v58 (F := Ideal) x0 x4 (ix2 r c) = Spec.pool x4 x0 r c := by
  unfold val_main_v58 val_main_cst_7
  exact pool_read _ x4 x0 (v57_at x0 x4) r c

/-- The loop pooling stage %64 at (r, c) is the specification's pooling of the mask %arg5 and the features %arg1. -/
theorem pool_l (x1 : (⟨S768x256, .f32⟩ : BufTy).Contents (Elt Ideal)) (x5 : (⟨S768x768, .f32⟩ : BufTy).Contents (Elt Ideal))
    (r : Fin 768) (c : Fin 256) : val_main_v64 (F := Ideal) x1 x5 (ix2 r c) = Spec.pool x5 x1 r c := by
  unfold val_main_v64 val_main_cst_8
  exact pool_read _ x5 x1 (v63_at x1 x5) r c

/-! ## The row of four blocks -/

section Cat
variable {α : Type} (hc : Shape.Concatenates [S768x256, S768x256, S768x256, S768x1024] S768x1792 1)
  (p0 p1 p2 : S768x256.Idx → α) (p3 : S768x1024.Idx → α)

/-- The four blocks joined along the columns, read at a column of each block. -/
theorem cat4_p0 (r : Fin 768) (c : Fin 256) :
    concatenate S768x1792 1 [⟨S768x256, p0⟩, ⟨S768x256, p1⟩, ⟨S768x256, p2⟩, ⟨S768x1024, p3⟩] hc (ix2 r (⟨c.val, by omega⟩ : Fin 1792)) = p0 (ix2 r c) :=
  concatenate_apply_piece (t := S768x1792) 1 [⟨S768x256, p0⟩, ⟨S768x256, p1⟩, ⟨S768x256, p2⟩, ⟨S768x1024, p3⟩] hc _ 0 (by simp) S768x256 p0 rfl rfl 0 rfl (ix2 r c)
    (fun b hb => match b with | ⟨0, _⟩ => rfl | ⟨1, _⟩ => absurd rfl hb) (Nat.zero_add _)

theorem cat4_p1 (r : Fin 768) (c : Fin 256) :
    concatenate S768x1792 1 [⟨S768x256, p0⟩, ⟨S768x256, p1⟩, ⟨S768x256, p2⟩, ⟨S768x1024, p3⟩] hc (ix2 r (⟨256 + c.val, by omega⟩ : Fin 1792)) = p1 (ix2 r c) :=
  concatenate_apply_piece (t := S768x1792) 1 [⟨S768x256, p0⟩, ⟨S768x256, p1⟩, ⟨S768x256, p2⟩, ⟨S768x1024, p3⟩] hc _ 1 (by simp) S768x256 p1 rfl rfl 256 rfl (ix2 r c)
    (fun b hb => match b with | ⟨0, _⟩ => rfl | ⟨1, _⟩ => absurd rfl hb) rfl

theorem cat4_p2 (r : Fin 768) (c : Fin 256) :
    concatenate S768x1792 1 [⟨S768x256, p0⟩, ⟨S768x256, p1⟩, ⟨S768x256, p2⟩, ⟨S768x1024, p3⟩] hc (ix2 r (⟨512 + c.val, by omega⟩ : Fin 1792)) = p2 (ix2 r c) :=
  concatenate_apply_piece (t := S768x1792) 1 [⟨S768x256, p0⟩, ⟨S768x256, p1⟩, ⟨S768x256, p2⟩, ⟨S768x1024, p3⟩] hc _ 2 (by simp) S768x256 p2 rfl rfl 512 rfl (ix2 r c)
    (fun b hb => match b with | ⟨0, _⟩ => rfl | ⟨1, _⟩ => absurd rfl hb) rfl

theorem cat4_p3 (r : Fin 768) (c : Fin 1024) :
    concatenate S768x1792 1 [⟨S768x256, p0⟩, ⟨S768x256, p1⟩, ⟨S768x256, p2⟩, ⟨S768x1024, p3⟩] hc (ix2 r (⟨768 + c.val, by omega⟩ : Fin 1792)) = p3 (ix2 r c) :=
  concatenate_apply_piece (t := S768x1792) 1 [⟨S768x256, p0⟩, ⟨S768x256, p1⟩, ⟨S768x256, p2⟩, ⟨S768x1024, p3⟩] hc _ 3 (by simp) S768x1024 p3 rfl rfl 768 rfl (ix2 r c)
    (fun b hb => match b with | ⟨0, _⟩ => rfl | ⟨1, _⟩ => absurd rfl hb) rfl

end Cat

/-- A sum over the 1792 columns of (the four blocks joined) times a 1792-row weight matrix's column c, as the four
    partial sums; the image block is one row repeated. -/
theorem catdot_read (p0 p1 p2 : (⟨S768x256, .f32⟩ : BufTy).Contents (Elt Ideal)) (x2 : (⟨S1x1024, .f32⟩ : BufTy).Contents (Elt Ideal))
    (p3 : (⟨S768x1024, .f32⟩ : BufTy).Contents (Elt Ideal)) (hp3 : ∀ (r : Fin 768) (k : Fin 1024), p3 (ix2 r k) = x2 (ix2 (0 : Fin 1) k))
    (W : (⟨S1792x256, .f32⟩ : BufTy).Contents (Elt Ideal)) (r : Fin 768) (c : Fin 256) :
    (∑ k : Fin 1792, (concatenate S768x1792 1 [⟨S768x256, p0⟩, ⟨S768x256, p1⟩, ⟨S768x256, p2⟩, ⟨S768x1024, p3⟩] concatenates_S768x256_S768x256_S768x256_S768x1024_S768x1792_d1 :
        (⟨S768x1792, .f32⟩ : BufTy).Contents (Elt Ideal)) (ix2 r k) * W (ix2 k c))
      = (((∑ k : Fin 256, p0 (ix2 r k) * Spec.wrow W 0 (by omega) k c) + ∑ k : Fin 256, p1 (ix2 r k) * Spec.wrow W 256 (by omega) k c)
          + ∑ k : Fin 256, p2 (ix2 r k) * Spec.wrow W 512 (by omega) k c) + ∑ k : Fin 1024, x2 (ix2 (0 : Fin 1) k) * Spec.wrow W 768 (by omega) k c := by
  rw [sum_fin_1792]
  refine congrArg₂ (· + ·) (congrArg₂ (· + ·) (congrArg₂ (· + ·) ?_ ?_) ?_) ?_
  · refine Finset.sum_congr rfl fun k _ => ?_
    rw [cat4_p0]
    refine congrArg (fun t => p0 (ix2 r k) * W t) ?_
    funext a; match a with
      | ⟨0, _⟩ => exact Fin.ext (Nat.zero_add _).symm
      | ⟨1, _⟩ => rfl
  · refine Finset.sum_congr rfl fun k _ => ?_
    rw [cat4_p1]; rfl
  · refine Finset.sum_congr rfl fun k _ => ?_
    rw [cat4_p2]; rfl
  · refine Finset.sum_congr rfl fun k _ => ?_
    rw [cat4_p3, hp3]; rfl

/-- The image broadcast %65 at (r, k) is the image row at k. -/
theorem v65_at (x2 : (⟨S1x1024, .f32⟩ : BufTy).Contents (Elt Ideal)) (r : Fin 768) (k : Fin 1024) :
    val_main_v65 (F := Ideal) x2 (ix2 r k) = x2 (ix2 (0 : Fin 1) k) := by
  rw [val_main_v65_apply]
  refine congrArg x2 ?_
  funext a; match a with | ⟨0, _⟩ => rfl | ⟨1, _⟩ => rfl

/-- The image broadcast %66 at (r, k) is the image row at k. -/
theorem v66_at (x2 : (⟨S1x1024, .f32⟩ : BufTy).Contents (Elt Ideal)) (r : Fin 768) (k : Fin 1024) :
    val_main_v66 (F := Ideal) x2 (ix2 r k) = x2 (ix2 (0 : Fin 1) k) := by
  rw [val_main_v66_apply]
  refine congrArg x2 ?_
  funext a; match a with | ⟨0, _⟩ => rfl | ⟨1, _⟩ => rfl

/-- The edge update's product %68 at (r, c): the four partial sums over the blocks of the row
    (%arg0 | %45 | %58 | image) against the row blocks of the weight %arg9. -/
theorem catdot_e (x0 x1 : (⟨S768x256, .f32⟩ : BufTy).Contents (Elt Ideal)) (x2 : (⟨S1x1024, .f32⟩ : BufTy).Contents (Elt Ideal)) (x3 x4 : (⟨S768x768, .f32⟩ : BufTy).Contents (Elt Ideal)) (x9 : (⟨S1792x256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (r : Fin 768) (c : Fin 256) :
    val_main_v68 (F := Ideal) x0 x1 x2 x3 x4 x9 x13 x14 x15 x16 x17 x18 x19 x20 (ix2 r c)
      = (((∑ k : Fin 256, x0 (ix2 r k) * Spec.wrow x9 0 (by omega) k c)
            + ∑ k : Fin 256, val_main_v45 (F := Ideal) x0 x1 x3 x13 x14 x15 x16 x17 x18 x19 x20 (ix2 r k) * Spec.wrow x9 256 (by omega) k c)
          + ∑ k : Fin 256, val_main_v58 (F := Ideal) x0 x4 (ix2 r k) * Spec.wrow x9 512 (by omega) k c)
        + ∑ k : Fin 1024, x2 (ix2 (0 : Fin 1) k) * Spec.wrow x9 768 (by omega) k c := by
  rw [val_main_v68_apply]
  unfold val_main_v67
  rw [← catdot_read x0 (val_main_v45 (F := Ideal) x0 x1 x3 x13 x14 x15 x16 x17 x18 x19 x20) (val_main_v58 (F := Ideal) x0 x4) x2
    (val_main_v65 (F := Ideal) x2) (v65_at x2) x9 r c]
  refine Finset.sum_congr rfl fun k _ => ?_
  have el : lidx_main_v68 (ix2 r c) k = ix2 r k := by
    funext a; match a with | ⟨0, _⟩ => rfl | ⟨1, _⟩ => rfl
  have er : ridx_main_v68 (ix2 r c) k = ix2 k c := by
    funext a; match a with | ⟨0, _⟩ => rfl | ⟨1, _⟩ => rfl
  rw [el, er]

/-- The loop update's product %74 at (r, c): the four partial sums over the blocks of the row
    (%arg1 | %52 | %64 | image) against the row blocks of the weight %arg11. -/
theorem catdot_l (x0 x1 : (⟨S768x256, .f32⟩ : BufTy).Contents (Elt Ideal)) (x2 : (⟨S1x1024, .f32⟩ : BufTy).Contents (Elt Ideal)) (x3 x5 : (⟨S768x768, .f32⟩ : BufTy).Contents (Elt Ideal)) (x11 : (⟨S1792x256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (r : Fin 768) (c : Fin 256) :
    val_main_v74 (F := Ideal) x0 x1 x2 x3 x5 x11 x13 x14 x15 x16 x17 x18 x19 x20 (ix2 r c)
      = (((∑ k : Fin 256, x1 (ix2 r k) * Spec.wrow x11 0 (by omega) k c)
            + ∑ k : Fin 256, val_main_v52 (F := Ideal) x0 x1 x3 x13 x14 x15 x16 x17 x18 x19 x20 (ix2 r k) * Spec.wrow x11 256 (by omega) k c)
          + ∑ k : Fin 256, val_main_v64 (F := Ideal) x1 x5 (ix2 r k) * Spec.wrow x11 512 (by omega) k c)
        + ∑ k : Fin 1024, x2 (ix2 (0 : Fin 1) k) * Spec.wrow x11 768 (by omega) k c := by
  rw [val_main_v74_apply]
  unfold val_main_v73
  rw [← catdot_read x1 (val_main_v52 (F := Ideal) x0 x1 x3 x13 x14 x15 x16 x17 x18 x19 x20) (val_main_v64 (F := Ideal) x1 x5) x2
    (val_main_v66 (F := Ideal) x2) (v66_at x2) x11 r c]
  refine Finset.sum_congr rfl fun k _ => ?_
  have el : lidx_main_v74 (ix2 r c) k = ix2 r k := by
    funext a; match a with | ⟨0, _⟩ => rfl | ⟨1, _⟩ => rfl
  have er : ridx_main_v74 (ix2 r c) k = ix2 k c := by
    funext a; match a with | ⟨0, _⟩ => rfl | ⟨1, _⟩ => rfl
  rw [el, er]

end Cert.RefPieces

end
-- ==== Proof.RefSpec.lean ====
/-
  The reference's updated features and second-round prediction heads, read at an index, are the specification's.
-/
import proofs.«153655_j17970143167165_2_alg».proof.Proof.RefSpecA
import proofs.«153655_j17970143167165_2_alg».proof.Proof.RefPieces

noncomputable section

namespace Cert.RefSpec

open Cert.ReferenceIdeal Cert.ReferenceIdeal.Read Idealize.ShloMosaic Idealize.ShloMosaic.ValueIdx

/-- Moving the bias inside: on the extended reals addition is commutative and associative without any finiteness. -/
theorem add_swap_tail (a d b : EReal) : a + d + b = a + (b + d) := by rw [add_assoc, add_comm d b]

/-- The reference's updated edge features (operations %67 to %72) are the specification's. -/
theorem ref_ex2 (x0 : (⟨S768x256, .f32⟩ : BufTy).Contents (Elt Ideal)) (x1 : (⟨S768x256, .f32⟩ : BufTy).Contents (Elt Ideal)) (x2 : (⟨S1x1024, .f32⟩ : BufTy).Contents (Elt Ideal)) (x3 : (⟨S768x768, .f32⟩ : BufTy).Contents (Elt Ideal)) (x4 : (⟨S768x768, .f32⟩ : BufTy).Contents (Elt Ideal)) (x9 : (⟨S1792x256, .f32⟩ : BufTy).Contents (Elt Ideal)) (x10 : (⟨S256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (r : Fin 768) (c : Fin 256) :
    val_main_v72 (F := Ideal) x0 x1 x2 x3 x4 x9 x10 x13 x14 x15 x16 x17 x18 x19 x20 (ix2 r c) = Spec.ex2 x0 x1 x2 x3 x4 x9 x10 x13 x14 x15 x16 x17 x18 x19 x20 r c := by
  have hb : idx_main_v69 (idx_main_v70 (ix2 r c)) = ix1 c :=
    funext fun a => by match a with | ⟨0, _⟩ => rfl
  rw [val_main_v72_apply, val_main_v71_apply, val_main_call2_v0_apply, val_main_call2_cst_apply, val_main_v70_apply, val_main_v69_apply, hb,
    RefPieces.catdot_e]
  simp only [ref_fromLoop, RefPieces.pool_e, Ideal.ofBits_def, Ideal.addf_def, Ideal.maximumf_def]
  rw [add_swap_tail]
  rfl

/-- The reference's updated loop features (operations %73 to %78) are the specification's. -/
theorem ref_lx2 (x0 : (⟨S768x256, .f32⟩ : BufTy).Contents (Elt Ideal)) (x1 : (⟨S768x256, .f32⟩ : BufTy).Contents (Elt Ideal)) (x2 : (⟨S1x1024, .f32⟩ : BufTy).Contents (Elt Ideal)) (x3 : (⟨S768x768, .f32⟩ : BufTy).Contents (Elt Ideal)) (x5 : (⟨S768x768, .f32⟩ : BufTy).Contents (Elt Ideal)) (x11 : (⟨S1792x256, .f32⟩ : BufTy).Contents (Elt Ideal)) (x12 : (⟨S256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (r : Fin 768) (c : Fin 256) :
    val_main_v78 (F := Ideal) x0 x1 x2 x3 x5 x11 x12 x13 x14 x15 x16 x17 x18 x19 x20 (ix2 r c) = Spec.lx2 x0 x1 x2 x3 x5 x11 x12 x13 x14 x15 x16 x17 x18 x19 x20 r c := by
  have hb : idx_main_v75 (idx_main_v76 (ix2 r c)) = ix1 c :=
    funext fun a => by match a with | ⟨0, _⟩ => rfl
  rw [val_main_v78_apply, val_main_v77_apply, val_main_call3_v0_apply, val_main_call3_cst_apply, val_main_v76_apply, val_main_v75_apply, hb,
    RefPieces.catdot_l]
  simp only [ref_fromEdge, RefPieces.pool_l, Ideal.ofBits_def, Ideal.addf_def, Ideal.maximumf_def]
  rw [add_swap_tail]
  rfl

/-- The reference's second-round edge prediction (operations %79 to %93) is the specification's. -/
theorem ref_e1_at (x0 : (⟨S768x256, .f32⟩ : BufTy).Contents (Elt Ideal)) (x1 : (⟨S768x256, .f32⟩ : BufTy).Contents (Elt Ideal)) (x2 : (⟨S1x1024, .f32⟩ : BufTy).Contents (Elt Ideal)) (x3 : (⟨S768x768, .f32⟩ : BufTy).Contents (Elt Ideal)) (x4 : (⟨S768x768, .f32⟩ : BufTy).Contents (Elt Ideal)) (x9 : (⟨S1792x256, .f32⟩ : BufTy).Contents (Elt Ideal)) (x10 : (⟨S256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (r : Fin 768) (c : Fin 1) :
    val_main_v93 (F := Ideal) x0 x1 x2 x3 x4 x9 x10 x13 x14 x15 x16 x17 x18 x19 x20 (ix2 r c) = Spec.e1 x0 x1 x2 x3 x4 x9 x10 x13 x14 x15 x16 x17 x18 x19 x20 r := by
  obtain rfl : c = 0 := Subsingleton.elim _ _
  have hL : ∀ (h : Fin 64) (k : Fin 256), lidx_main_v79 (lidx_main_v84 (ix2 r (0 : Fin 1)) h) k = ix2 r k :=
    fun h k => funext fun a => by match a with | ⟨0, _⟩ => rfl | ⟨1, _⟩ => rfl
  have hR : ∀ (h : Fin 64) (k : Fin 256), ridx_main_v79 (lidx_main_v84 (ix2 r (0 : Fin 1)) h) k = ix2 k h :=
    fun h k => funext fun a => by match a with | ⟨0, _⟩ => rfl | ⟨1, _⟩ => rfl
  have hB : ∀ (h : Fin 64), idx_main_v80 (idx_main_v81 (lidx_main_v84 (ix2 r (0 : Fin 1)) h)) = ix1 h :=
    fun h => funext fun a => by match a with | ⟨0, _⟩ => rfl
  have hR2 : ∀ (h : Fin 64), ridx_main_v84 (ix2 r (0 : Fin 1)) h = ix2 h (0 : Fin 1) :=
    fun h => funext fun a => by match a with | ⟨0, _⟩ => rfl | ⟨1, _⟩ => rfl
  have hB2 : idx_main_v85 (idx_main_v86 (ix2 r (0 : Fin 1))) = ix1 (0 : Fin 1) :=
    funext fun a => by match a with | ⟨0, _⟩ => rfl
  unfold Spec.e1
  rw [head_words, val_main_v93_apply, val_main_v92_apply, val_main_cst_10_apply, val_main_v91_apply, val_main_v90_apply, val_main_cst_9_apply,
    val_main_v89_apply, val_main_v88_apply, val_main_v87_apply, val_main_v86_apply, val_main_v85_apply, val_main_v84_apply]
  simp only [val_main_v83_apply, val_main_v82_apply, val_main_call4_v0_apply, val_main_call4_cst_apply, val_main_v81_apply, val_main_v80_apply,
    val_main_v79_apply, hL, hR, hB, hR2, hB2, ref_ex2, Ideal.ofBits_def, Ideal.addf_def, Ideal.maximumf_def, Ideal.hostDivf_def, Ideal.hostNegf_def,
    Ideal.negf_def, Ideal.hostUnary_exp_def]

theorem ref_e1 (x0 : (⟨S768x256, .f32⟩ : BufTy).Contents (Elt Ideal)) (x1 : (⟨S768x256, .f32⟩ : BufTy).Contents (Elt Ideal)) (x2 : (⟨S1x1024, .f32⟩ : BufTy).Contents (Elt Ideal)) (x3 : (⟨S768x768, .f32⟩ : BufTy).Contents (Elt Ideal)) (x4 : (⟨S768x768, .f32⟩ : BufTy).Contents (Elt Ideal)) (x9 : (⟨S1792x256, .f32⟩ : BufTy).Contents (Elt Ideal)) (x10 : (⟨S256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (i : S768x1.Idx) :
    val_main_v93 (F := Ideal) x0 x1 x2 x3 x4 x9 x10 x13 x14 x15 x16 x17 x18 x19 x20 i = Spec.e1 x0 x1 x2 x3 x4 x9 x10 x13 x14 x15 x16 x17 x18 x19 x20 (i 0) :=
  (congrArg (val_main_v93 (F := Ideal) x0 x1 x2 x3 x4 x9 x10 x13 x14 x15 x16 x17 x18 x19 x20) (eq_ix2 i)).trans (ref_e1_at x0 x1 x2 x3 x4 x9 x10 x13 x14 x15 x16 x17 x18 x19 x20 (i 0) (i 1))

/-- The reference's second-round loop prediction (operations %95 to %109) is the specification's. -/
theorem ref_l1_at (x0 : (⟨S768x256, .f32⟩ : BufTy).Contents (Elt Ideal)) (x1 : (⟨S768x256, .f32⟩ : BufTy).Contents (Elt Ideal)) (x2 : (⟨S1x1024, .f32⟩ : BufTy).Contents (Elt Ideal)) (x3 : (⟨S768x768, .f32⟩ : BufTy).Contents (Elt Ideal)) (x5 : (⟨S768x768, .f32⟩ : BufTy).Contents (Elt Ideal)) (x11 : (⟨S1792x256, .f32⟩ : BufTy).Contents (Elt Ideal)) (x12 : (⟨S256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (r : Fin 768) (c : Fin 1) :
    val_main_v109 (F := Ideal) x0 x1 x2 x3 x5 x11 x12 x13 x14 x15 x16 x17 x18 x19 x20 (ix2 r c) = Spec.l1 x0 x1 x2 x3 x5 x11 x12 x13 x14 x15 x16 x17 x18 x19 x20 r := by
  obtain rfl : c = 0 := Subsingleton.elim _ _
  have hL : ∀ (h : Fin 64) (k : Fin 256), lidx_main_v95 (lidx_main_v100 (ix2 r (0 : Fin 1)) h) k = ix2 r k :=
    fun h k => funext fun a => by match a with | ⟨0, _⟩ => rfl | ⟨1, _⟩ => rfl
  have hR : ∀ (h : Fin 64) (k : Fin 256), ridx_main_v95 (lidx_main_v100 (ix2 r (0 : Fin 1)) h) k = ix2 k h :=
    fun h k => funext fun a => by match a with | ⟨0, _⟩ => rfl | ⟨1, _⟩ => rfl
  have hB : ∀ (h : Fin 64), idx_main_v96 (idx_main_v97 (lidx_main_v100 (ix2 r (0 : Fin 1)) h)) = ix1 h :=
    fun h => funext fun a => by match a with | ⟨0, _⟩ => rfl
  have hR2 : ∀ (h : Fin 64), ridx_main_v100 (ix2 r (0 : Fin 1)) h = ix2 h (0 : Fin 1) :=
    fun h => funext fun a => by match a with | ⟨0, _⟩ => rfl | ⟨1, _⟩ => rfl
  have hB2 : idx_main_v101 (idx_main_v102 (ix2 r (0 : Fin 1))) = ix1 (0 : Fin 1) :=
    funext fun a => by match a with | ⟨0, _⟩ => rfl
  unfold Spec.l1
  rw [head_words, val_main_v109_apply, val_main_v108_apply, val_main_cst_12_apply, val_main_v107_apply, val_main_v106_apply, val_main_cst_11_apply,
    val_main_v105_apply, val_main_v104_apply, val_main_v103_apply, val_main_v102_apply, val_main_v101_apply, val_main_v100_apply]
  simp only [val_main_v99_apply, val_main_v98_apply, val_main_call5_v0_apply, val_main_call5_cst_apply, val_main_v97_apply, val_main_v96_apply,
    val_main_v95_apply, hL, hR, hB, hR2, hB2, ref_lx2, Ideal.ofBits_def, Ideal.addf_def, Ideal.maximumf_def, Ideal.hostDivf_def, Ideal.hostNegf_def,
    Ideal.negf_def, Ideal.hostUnary_exp_def]

theorem ref_l1 (x0 : (⟨S768x256, .f32⟩ : BufTy).Contents (Elt Ideal)) (x1 : (⟨S768x256, .f32⟩ : BufTy).Contents (Elt Ideal)) (x2 : (⟨S1x1024, .f32⟩ : BufTy).Contents (Elt Ideal)) (x3 : (⟨S768x768, .f32⟩ : BufTy).Contents (Elt Ideal)) (x5 : (⟨S768x768, .f32⟩ : BufTy).Contents (Elt Ideal)) (x11 : (⟨S1792x256, .f32⟩ : BufTy).Contents (Elt Ideal)) (x12 : (⟨S256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) (i : S768x1.Idx) :
    val_main_v109 (F := Ideal) x0 x1 x2 x3 x5 x11 x12 x13 x14 x15 x16 x17 x18 x19 x20 i = Spec.l1 x0 x1 x2 x3 x5 x11 x12 x13 x14 x15 x16 x17 x18 x19 x20 (i 0) :=
  (congrArg (val_main_v109 (F := Ideal) x0 x1 x2 x3 x5 x11 x12 x13 x14 x15 x16 x17 x18 x19 x20) (eq_ix2 i)).trans (ref_l1_at x0 x1 x2 x3 x5 x11 x12 x13 x14 x15 x16 x17 x18 x19 x20 (i 0) (i 1))

end Cert.RefSpec
-- ==== Proof.RefResult.lean ====
/-
  The reference's result, the four prediction columns flattened and joined end to end, is the join of the specification's four predictions.
-/
import proofs.«153655_j17970143167165_2_alg».proof.Proof.RefSpec

noncomputable section

namespace Cert.RefSpec

open Cert.ReferenceIdeal Cert.ReferenceIdeal.Gen Cert.ReferenceIdeal.Read Idealize.ShloMosaic Idealize.ShloMosaic.ValueIdx

/-- The reference's result (operation %111): each of the four joined columns is a specification prediction read at the row. -/
theorem ref_result (x0 : (⟨S768x256, .f32⟩ : BufTy).Contents (Elt Ideal)) (x1 : (⟨S768x256, .f32⟩ : BufTy).Contents (Elt Ideal)) (x2 : (⟨S1x1024, .f32⟩ : BufTy).Contents (Elt Ideal)) (x3 : (⟨S768x768, .f32⟩ : BufTy).Contents (Elt Ideal)) (x4 : (⟨S768x768, .f32⟩ : BufTy).Contents (Elt Ideal)) (x5 : (⟨S768x768, .f32⟩ : BufTy).Contents (Elt Ideal)) (x9 : (⟨S1792x256, .f32⟩ : BufTy).Contents (Elt Ideal)) (x10 : (⟨S256, .f32⟩ : BufTy).Contents (Elt Ideal)) (x11 : (⟨S1792x256, .f32⟩ : BufTy).Contents (Elt Ideal)) (x12 : (⟨S256, .f32⟩ : BufTy).Contents (Elt Ideal)) (x13 : (⟨S256x64, .f32⟩ : BufTy).Contents (Elt Ideal)) (x14 : (⟨S64, .f32⟩ : BufTy).Contents (Elt Ideal)) (x15 : (⟨S64x1, .f32⟩ : BufTy).Contents (Elt Ideal)) (x16 : (⟨S1, .f32⟩ : BufTy).Contents (Elt Ideal)) (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) :
    val_main_v111 (F := Ideal) x0 x1 x2 x3 x4 x5 x9 x10 x11 x12 x13 x14 x15 x16 x17 x18 x19 x20
      = concatenate S3072 0 [⟨S768, shapeCast _ (fun i : S768x1.Idx => Spec.e0 x0 x13 x14 x15 x16 (i 0)) shapeCasts_S768x1_S768⟩,
          ⟨S768, shapeCast _ (fun i : S768x1.Idx => Spec.l0 x1 x17 x18 x19 x20 (i 0)) shapeCasts_S768x1_S768⟩,
          ⟨S768, shapeCast _ (fun i : S768x1.Idx => Spec.e1 x0 x1 x2 x3 x4 x9 x10 x13 x14 x15 x16 x17 x18 x19 x20 (i 0)) shapeCasts_S768x1_S768⟩,
          ⟨S768, shapeCast _ (fun i : S768x1.Idx => Spec.l1 x0 x1 x2 x3 x5 x11 x12 x13 x14 x15 x16 x17 x18 x19 x20 (i 0)) shapeCasts_S768x1_S768⟩]
          concatenates_S768_S768_S768_S768_S3072_d0 := by
  have h0 : val_main_v14 (F := Ideal) x0 x13 x14 x15 x16 = fun i : S768x1.Idx => Spec.e0 x0 x13 x14 x15 x16 (i 0) :=
    funext (ref_e0 x0 x13 x14 x15 x16)
  have h1 : val_main_v30 (F := Ideal) x1 x17 x18 x19 x20 = fun i : S768x1.Idx => Spec.l0 x1 x17 x18 x19 x20 (i 0) :=
    funext (ref_l0 x1 x17 x18 x19 x20)
  have h2 : val_main_v93 (F := Ideal) x0 x1 x2 x3 x4 x9 x10 x13 x14 x15 x16 x17 x18 x19 x20 = fun i : S768x1.Idx => Spec.e1 x0 x1 x2 x3 x4 x9 x10 x13 x14 x15 x16 x17 x18 x19 x20 (i 0) :=
    funext (ref_e1 x0 x1 x2 x3 x4 x9 x10 x13 x14 x15 x16 x17 x18 x19 x20)
  have h3 : val_main_v109 (F := Ideal) x0 x1 x2 x3 x5 x11 x12 x13 x14 x15 x16 x17 x18 x19 x20 = fun i : S768x1.Idx => Spec.l1 x0 x1 x2 x3 x5 x11 x12 x13 x14 x15 x16 x17 x18 x19 x20 (i 0) :=
    funext (ref_l1 x0 x1 x2 x3 x5 x11 x12 x13 x14 x15 x16 x17 x18 x19 x20)
  unfold val_main_v111 val_main_v15 val_main_v31 val_main_v94 val_main_v110
  rw [h0, h1, h2, h3]

end Cert.RefSpec
-- ==== Proof.RefFinal.lean ====
/-
  The reference program's run with its result named: every weakly fair execution terminates with the result array at the
  four specification columns end to end and every argument array as launched.
-/
import proofs.«153655_j17970143167165_2_alg».proof.Proof.RefRun
import proofs.«153655_j17970143167165_2_alg».proof.Proof.RefResult
import Idealize.ShloMosaic.Lib.Tactic

set_option maxRecDepth 65536

noncomputable section

namespace Cert.RefSpec

open Idealize.ShloMosaic Idealize.ShloMosaic.TcCoe Idealize.ShloMosaic.Tactic
open Idealize.SL Idealize.SL.Sem
open Cert.ReferenceIdeal Cert.ReferenceIdeal.Gen Cert.ReferenceIdeal.Read

/-- The run's composed term for the result is the last stage of the staged reading. -/
theorem res_eq_val (m : (ℓ : Loc nD τ sig) → Buf (Elt Ideal) ℓ) (c : Dev nD) :
    Cert.ReferenceIdeal.Value.res_main_v111 m c = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.Value.res_main_v111; sl_kernel_rfl

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v111) = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (res_eq_val m c), (h c).2⟩)
    (Cert.ReferenceIdeal.Value.run (F := Ideal) m ρ)

end Cert.RefSpec

end
-- ==== Proof.lean ====
/- The certificate of the five claims. The word-level kernel and its idealization are framed region by region: each of
   the four kernel regions is run on its own proof data (what every staging buffer holds after the body at each grid
   point), the host stretches between them are folded over the buffer contents, and every argument array is read back
   through that fold to its launch contents. The idealization rewrote nothing, so the preservation claim is trivial. For
   the algebraic claim both idealized programs end with the same array: four prediction columns end to end, each column
   the specification's (two prediction heads on the edge and loop features; weights mask·|l0 − e0|; weighted gathers
   divided by max(sum, eps); conflict poolings as maxima over all columns; the updated features through the same heads).
   The kernel reaches it by reading each region's result off its write-backs; the reference by reading its host
   operations one at a time; the image columns the kernel folds into the bias are the last 1024 terms of the
   reference's 1792-term sum, and extended-real addition is commutative and associative. -/
import proofs.«153655_j17970143167165_2_alg».proof.Defs
import proofs.«153655_j17970143167165_2_alg».proof.Proof.Gen.Kernel
import proofs.«153655_j17970143167165_2_alg».proof.Proof.Gen.Kernel.Skeleton
import proofs.«153655_j17970143167165_2_alg».proof.Proof.Gen.Kernel.Loops
import proofs.«153655_j17970143167165_2_alg».proof.Proof.Gen.Kernel.Launch
import proofs.«153655_j17970143167165_2_alg».proof.Proof.Gen.Kernel.Regions
import proofs.«153655_j17970143167165_2_alg».proof.Proof.Gen.Kernel.Points
import proofs.«153655_j17970143167165_2_alg».proof.Proof.Gen.KernelIdeal
import proofs.«153655_j17970143167165_2_alg».proof.Proof.Gen.KernelIdeal.Skeleton
import proofs.«153655_j17970143167165_2_alg».proof.Proof.Gen.KernelIdeal.Loops
import proofs.«153655_j17970143167165_2_alg».proof.Proof.Gen.KernelIdeal.Launch
import proofs.«153655_j17970143167165_2_alg».proof.Proof.Gen.KernelIdeal.Regions
import proofs.«153655_j17970143167165_2_alg».proof.Proof.Gen.KernelIdeal.Points
import proofs.«153655_j17970143167165_2_alg».proof.Proof.Gen.ReferenceIdeal
import proofs.«153655_j17970143167165_2_alg».proof.Proof.Gen.Pre_finite_inputs
import proofs.«153655_j17970143167165_2_alg».proof.Proof.RefRun
import proofs.«153655_j17970143167165_2_alg».proof.Proof.RefRead
import proofs.«153655_j17970143167165_2_alg».proof.Proof.K.Run
import proofs.«153655_j17970143167165_2_alg».proof.Proof.KI.Final
import proofs.«153655_j17970143167165_2_alg».proof.Proof.RefFinal
import Idealize.ShloMosaic.Adequacy
import Idealize.ShloMosaic.Init

set_option maxRecDepth 16384

noncomputable section

namespace Cert.Proof

open Idealize.ShloMosaic Idealize.SL.Sem Cert.Kernel

/-- The word-level kernel runs to the end, faults nowhere and leaves its arguments as launched. -/
theorem frame_k : Cert.frame_Kernel := fun m ρ _ => Cert.Kernel.Reg.frame m ρ

/-- So does its idealization. -/
theorem frame_ki : Cert.frame_KernelIdeal := fun m ρ _ => Cert.KernelIdeal.Reg.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the four specification columns end to end. -/
theorem algebraic : Cert.algebraic_KernelIdeal_ReferenceIdeal := by
  intro m ρ m' ρ' _ hagree
  refine ⟨fun c => Cert.KernelIdeal.Reg.resultOf m c, Cert.KernelIdeal.Reg.run_value m ρ, ?_⟩
  refine (θ_run Cert.ReferenceIdeal.defs _ _).mono (fun _ h c => ⟨(h c).1.trans ?_, (h c).2⟩) (Cert.RefSpec.run_value m' ρ')
  obtain ⟨e0, e1, e2, e3, e4, e5, e6, e7, e8, e9, e10, e11, e12, e13, e14, e15, e16, e17, e18, e19, e20⟩ := hagree c
  rw [Cert.RefSpec.ref_result, e0, e1, e2, e3, e4, e5, e9, e10, e11, e12, e13, e14, e15, e16, e17, e18, e19, e20]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
